-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S64x32 .f32) (main_arg13 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg12
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg8 : FVec F S64 .f32) (main_arg9 : FVec F S64 .f32) (main_arg10 : FVec F S64x32 .f32) (main_arg11 : FVec F S32 .f32) (main_arg12 : FVec F S64x32 .f32) (main_arg13 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x32 .f32) (main_arg11 : FVec F S32 .f32) (main_arg12 : FVec F S64x32 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x32 .f32) (main_arg11 : FVec F S32 .f32) (main_arg12 : FVec F S64x32 .f32) (main_arg13 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 165
  | .vmem => 66
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x32, .f32⟩
  | 11 => ⟨S32, .f32⟩
  | 12 => ⟨S64x32, .f32⟩
  | 13 => ⟨S32, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S1x64, .f32⟩
  | 89 => ⟨S1x64, .f32⟩
  | 90 => ⟨S1x64, .f32⟩
  | 91 => ⟨S100000x64, .f32⟩
  | 92 => ⟨S100000x64, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x1, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S1x64, .f32⟩
  | 124 => ⟨S1x64, .f32⟩
  | 125 => ⟨S1x64, .f32⟩
  | 126 => ⟨S100000x64, .f32⟩
  | 127 => ⟨S100000x32, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x32, .f32⟩
  | 9 => ⟨S1700000x1, .f32⟩
  | 10 => ⟨S1700000x32, .f32⟩
  | 11 => ⟨S1700000x32, .f32⟩
  | 12 => ⟨S_, .f32⟩
  | 13 => ⟨S100000x32, .f32⟩
  | 14 => ⟨S1700000x1, .i32⟩
  | 15 => ⟨S100000x32, .f32⟩
  | 16 => ⟨S1x32, .f32⟩
  | 17 => ⟨S100000x32, .f32⟩
  | 18 => ⟨S100000x32, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000x32, .f32⟩
  | 28 => ⟨S1700000x1, .f32⟩
  | 29 => ⟨S1700000x32, .f32⟩
  | 30 => ⟨S1700000x32, .f32⟩
  | 31 => ⟨S_, .f32⟩
  | 32 => ⟨S100000x32, .f32⟩
  | 33 => ⟨S1700000x1, .i32⟩
  | 34 => ⟨S100000x32, .f32⟩
  | 35 => ⟨S1x32, .f32⟩
  | 36 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x32, .f32⟩
  | .local _ .vmem, ⟨49, _⟩ => ⟨S5000x32, .f32⟩
  | .local _ .vmem, ⟨50, _⟩ => ⟨S5000x32, .f32⟩
  | .local _ .vmem, ⟨51, _⟩ => ⟨S5000x32, .f32⟩
  | .local _ .vmem, ⟨52, _⟩ => ⟨S5000x32, .f32⟩
  | .local _ .vmem, ⟨53, _⟩ => ⟨S1x32, .f32⟩
  | .local _ .vmem, ⟨54, _⟩ => ⟨S5000x32, .f32⟩
  | .local _ .vmem, ⟨55, _⟩ => ⟨S5000x32, .f32⟩
  | .local _ .vmem, ⟨56, _⟩ => ⟨S5000x64, .f32⟩
  | .local _ .vmem, ⟨57, _⟩ => ⟨S5000x64, .f32⟩
  | .local _ .vmem, ⟨58, _⟩ => ⟨S64x32, .f32⟩
  | .local _ .vmem, ⟨59, _⟩ => ⟨S5000x32, .f32⟩
  | .local _ .vmem, ⟨60, _⟩ => ⟨S5000x32, .f32⟩
  | .local _ .vmem, ⟨61, _⟩ => ⟨S5000x32, .f32⟩
  | .local _ .vmem, ⟨62, _⟩ => ⟨S5000x32, .f32⟩
  | .local _ .vmem, ⟨63, _⟩ => ⟨S1x32, .f32⟩
  | .local _ .vmem, ⟨64, _⟩ => ⟨S5000x32, .f32⟩
  | .local _ .vmem, ⟨65, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_c_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_c_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_21 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_22 : Ref sig .tc := ⟨.hbm, 147, rfl⟩
abbrev main_v107 : Ref sig .tc := ⟨.hbm, 148, rfl⟩
abbrev main_v108 : Ref sig .tc := ⟨.hbm, 149, rfl⟩
abbrev main_c_23 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_24 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg6_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc7_stg4_0 : Ref sig .tc := ⟨.vmem, 42, rfl⟩
abbrev cc7_stg5_0 : Ref sig .tc := ⟨.vmem, 43, rfl⟩
abbrev cc7_stg6_0 : Ref sig .tc := ⟨.vmem, 44, rfl⟩
abbrev cc7_stg6_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc10_stg2_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg2_0 : Ref sig .tc := ⟨.vmem, 64, rfl⟩
abbrev cc11_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21
abbrev cc3_sem6_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem3_0 : DmaSem sig := 41
abbrev cc7_sem4_0 : DmaSem sig := 42
abbrev cc7_sem5_0 : DmaSem sig := 43
abbrev cc7_sem6_0 : DmaSem sig := 44
abbrev cc7_sem6_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc10_sem2_1 : DmaSem sig := 60
abbrev cc11_sem0_0 : DmaSem sig := 61
abbrev cc11_sem0_1 : DmaSem sig := 62
abbrev cc11_sem1_0 : DmaSem sig := 63
abbrev cc11_sem2_0 : DmaSem sig := 64
abbrev cc11_sem2_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x32 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x32 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x32.size a ≤ S100000x32.size a
  hwx8_2 : ∀ i : grid8.Coords, EltTy.bits .f32 = 32 ∨ (Rect.block (s := S100000x32) S5000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x32.size a ≤ S100000x32.size a
  hwx9_0 : ∀ i : grid9.Coords, EltTy.bits .f32 = 32 ∨ (Rect.block (s := S100000x32) S5000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x32.size a ≤ S1x32.size a
  hwx9_1 : ∀ i : grid9.Coords, EltTy.bits .f32 = 32 ∨ (Rect.block (s := S1x32) S1x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x32.size a ≤ S100000x32.size a
  hwx9_2 : ∀ i : grid9.Coords, EltTy.bits .f32 = 32 ∨ (Rect.block (s := S100000x32) S5000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x32.size a ≤ S64x32.size a
  hwx10_1 : ∀ i : grid10.Coords, EltTy.bits .f32 = 32 ∨ (Rect.block (s := S64x32) S64x32.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x32.size a ≤ S100000x32.size a
  hwx10_2 : ∀ i : grid10.Coords, EltTy.bits .f32 = 32 ∨ (Rect.block (s := S100000x32) S5000x32.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x32.size a ≤ S100000x32.size a
  hwx11_0 : ∀ i : grid11.Coords, EltTy.bits .f32 = 32 ∨ (Rect.block (s := S100000x32) S5000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x32.size a ≤ S1x32.size a
  hwx11_1 : ∀ i : grid11.Coords, EltTy.bits .f32 = 32 ∨ (Rect.block (s := S1x32) S1x32.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x32.size a ≤ S100000x32.size a
  hwx11_2 : ∀ i : grid11.Coords, EltTy.bits .f32 = 32 ∨ (Rect.block (s := S100000x32) S5000x32.size (cc11_transform_2 i) (hinb11_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x64.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S1x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v74) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v83) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v78) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v86) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v88) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v89) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v89) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v90) S5000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v103) S5000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S1x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S5000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v89) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S64x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v106) S5000x32.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v119) S5000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v120) S1x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v121) S5000x32.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 231
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x32, .f32⟩
  | 11 => ⟨S32, .f32⟩
  | 12 => ⟨S64x32, .f32⟩
  | 13 => ⟨S32, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S_, .f32⟩
  | 109 => ⟨S64, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x64, .f32⟩
  | 6 => ⟨S1700000x1, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S100000x64, .f32⟩
  | 29 => ⟨S100000x64, .f32⟩
  | 30 => ⟨S100000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x32, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x32, .f32⟩
  | 73 => ⟨S1700000x1, .f32⟩
  | 74 => ⟨S1700000x32, .f32⟩
  | 75 => ⟨S1700000x32, .f32⟩
  | 76 => ⟨S_, .f32⟩
  | 77 => ⟨S100000x32, .f32⟩
  | 78 => ⟨S1700000x1, .i32⟩
  | 79 => ⟨S100000x32, .f32⟩
  | 80 => ⟨S1x32, .f32⟩
  | 81 => ⟨S100000x32, .f32⟩
  | 82 => ⟨S100000x32, .f32⟩
  | 83 => ⟨S100000x32, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x32, .f32⟩
  | 93 => ⟨S1700000x1, .f32⟩
  | 94 => ⟨S1700000x32, .f32⟩
  | 95 => ⟨S1700000x32, .f32⟩
  | 96 => ⟨S_, .f32⟩
  | 97 => ⟨S100000x32, .f32⟩
  | 98 => ⟨S1700000x1, .i32⟩
  | 99 => ⟨S100000x32, .f32⟩
  | 100 => ⟨S1x32, .f32⟩
  | 101 => ⟨S100000x32, .f32⟩
  | 102 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_cst_3 : Ref sig .tc := ⟨.hbm, 99, rfl⟩
abbrev main_call1_v12 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_13 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_call2_cst : Ref sig .tc := ⟨.hbm, 121, rfl⟩
abbrev main_call2_v0 : Ref sig .tc := ⟨.hbm, 122, rfl⟩
abbrev main_v68 : Ref sig .tc := ⟨.hbm, 123, rfl⟩
abbrev main_v69 : Ref sig .tc := ⟨.hbm, 124, rfl⟩
abbrev main_c_14 : Ref sig .tc := ⟨.hbm, 125, rfl⟩
abbrev main_v70 : Ref sig .tc := ⟨.hbm, 126, rfl⟩
abbrev main_v71 : Ref sig .tc := ⟨.hbm, 127, rfl⟩
abbrev main_c_15 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_16 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_17 : Ref sig .tc := ⟨.hbm, 144, rfl⟩
abbrev main_v86 : Ref sig .tc := ⟨.hbm, 145, rfl⟩
abbrev main_cst_18 : Ref sig .tc := ⟨.hbm, 146, rfl⟩
abbrev main_v87 : Ref sig .tc := ⟨.hbm, 147, rfl⟩
abbrev main_v88 : Ref sig .tc := ⟨.hbm, 148, rfl⟩
abbrev main_c_19 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_cst_0 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_cst_1 : Ref sig .tc := ⟨.hbm, 160, rfl⟩
abbrev main_call3_v8 : Ref sig .tc := ⟨.hbm, 161, rfl⟩
abbrev main_call3_cst_2 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_cst_3 : Ref sig .tc := ⟨.hbm, 166, rfl⟩
abbrev main_call3_v12 : Ref sig .tc := ⟨.hbm, 167, rfl⟩
abbrev main_call3_cst_4 : Ref sig .tc := ⟨.hbm, 168, rfl⟩
abbrev main_call3_call0_v0 : Ref sig .tc := ⟨.hbm, 169, rfl⟩
abbrev main_call3_call0_v1 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_cst_20 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_call4_cst : Ref sig .tc := ⟨.hbm, 188, rfl⟩
abbrev main_call4_v0 : Ref sig .tc := ⟨.hbm, 189, rfl⟩
abbrev main_v105 : Ref sig .tc := ⟨.hbm, 190, rfl⟩
abbrev main_v106 : Ref sig .tc := ⟨.hbm, 191, rfl⟩
abbrev main_c_21 : Ref sig .tc := ⟨.hbm, 192, rfl⟩
abbrev main_v107 : Ref sig .tc := ⟨.hbm, 193, rfl⟩
abbrev main_v108 : Ref sig .tc := ⟨.hbm, 194, rfl⟩
abbrev main_c_22 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_23 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_c_24 : Ref sig .tc := ⟨.hbm, 212, rfl⟩
abbrev main_v124 : Ref sig .tc := ⟨.hbm, 213, rfl⟩
abbrev main_v125 : Ref sig .tc := ⟨.hbm, 214, rfl⟩
abbrev main_c_25 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_cst_26 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Keeps.lean ====
/-
  Which buffers each segment of the idealized kernel program's @main leaves alone.

  @main is a chain of host stretches and pallas regions; `Gen.Wk` is a core's buffer contents at the k-th boundary.
  A host stretch rewrites exactly the result buffers of its operations, so a buffer outside that list holds after the
  stretch what it held before. A pallas region writes back only its output window's array: its input arrays end as
  they were entered (an input window only reads), and a buffer that is no array of the region is not touched.
-/
import proofs.«173470_j52209622450441_2_alg».proof.Proof.Gen.KernelIdeal.Frame

set_option maxRecDepth 16384

noncomputable section

namespace Cert.KernelIdeal.Keeps

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-! ## The host stretches -/

/-- The result buffers of the operations of `hostOps0`. -/
abbrev ops0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem ops0_writes : (hostOps0 : List (HloOp τ sig (Elt F))).Forall fun op => op.writes ⊆ (ops0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops0 (V : Valuation τ sig (Elt F)) (r : Ref sig .tc) (h : r ∉ ops0_W) :
    StableHlo.after hostOps0 V (Proc.devRef .tc r) = V (Proc.devRef .tc r) :=
  StableHlo.after_of_writes_sub hostOps0 V ops0_writes h

/-- The result buffers of the operations of `hostOps0_1`. -/
abbrev ops0_1_W : List (Ref sig .tc) := [main_call0_v0, main_call0_v1, main_v16]
theorem ops0_1_writes : (hostOps0_1 : List (HloOp τ sig (Elt F))).Forall fun op => op.writes ⊆ (ops0_1_W.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops0_1 (V : Valuation τ sig (Elt F)) (r : Ref sig .tc) (h : r ∉ ops0_1_W) :
    StableHlo.after hostOps0_1 V (Proc.devRef .tc r) = V (Proc.devRef .tc r) :=
  StableHlo.after_of_writes_sub hostOps0_1 V ops0_1_writes h

/-- The result buffers of the operations of `hostOps0_2`. -/
abbrev ops0_2_W : List (Ref sig .tc) := [main_c, main_v17, main_v18, main_c_4, main_v19, main_v20, main_v21, main_v22, main_v23, main_c_5, main_v24, main_v25, main_c_6, main_v26, main_v27, main_v28, main_v29, main_v30, main_v31]
theorem ops0_2_writes : (hostOps0_2 : List (HloOp τ sig (Elt F))).Forall fun op => op.writes ⊆ (ops0_2_W.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops0_2 (V : Valuation τ sig (Elt F)) (r : Ref sig .tc) (h : r ∉ ops0_2_W) :
    StableHlo.after hostOps0_2 V (Proc.devRef .tc r) = V (Proc.devRef .tc r) :=
  StableHlo.after_of_writes_sub hostOps0_2 V ops0_2_writes h

/-- The result buffers of the operations of `hostOps1`. -/
abbrev ops1_W : List (Ref sig .tc) := [main_c_7, main_v33, main_v34, main_c_8, main_v35, main_v36, main_v37, main_v38, main_v39, main_v40, main_v41, main_v42, main_cst_9, main_v43, main_v44, main_v45, main_v46]
theorem ops1_writes : (hostOps1 : List (HloOp τ sig (Elt F))).Forall fun op => op.writes ⊆ (ops1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops1 (V : Valuation τ sig (Elt F)) (r : Ref sig .tc) (h : r ∉ ops1_W) :
    StableHlo.after hostOps1 V (Proc.devRef .tc r) = V (Proc.devRef .tc r) :=
  StableHlo.after_of_writes_sub hostOps1 V ops1_writes h

/-- The result buffers of the operations of `hostOps2`. -/
abbrev ops2_W : List (Ref sig .tc) := [main_cst_10, main_v48, main_v49, main_v50]
theorem ops2_writes : (hostOps2 : List (HloOp τ sig (Elt F))).Forall fun op => op.writes ⊆ (ops2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops2 (V : Valuation τ sig (Elt F)) (r : Ref sig .tc) (h : r ∉ ops2_W) :
    StableHlo.after hostOps2 V (Proc.devRef .tc r) = V (Proc.devRef .tc r) :=
  StableHlo.after_of_writes_sub hostOps2 V ops2_writes h

/-- The result buffers of the operations of `hostOps3`. -/
abbrev ops3_W : List (Ref sig .tc) := [main_cst_11, main_v52, main_v53, main_v54, main_cst_12, main_v55, main_v56, main_v57, main_v58, main_v59]
theorem ops3_writes : (hostOps3 : List (HloOp τ sig (Elt F))).Forall fun op => op.writes ⊆ (ops3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops3 (V : Valuation τ sig (Elt F)) (r : Ref sig .tc) (h : r ∉ ops3_W) :
    StableHlo.after hostOps3 V (Proc.devRef .tc r) = V (Proc.devRef .tc r) :=
  StableHlo.after_of_writes_sub hostOps3 V ops3_writes h

/-- The result buffers of the operations of `hostOps5`. -/
abbrev ops5_W : List (Ref sig .tc) := [main_c_13, main_v62, main_v63, main_c_14, main_v64, main_v65, main_v66, main_v67, main_v68, main_v69, main_v70, main_v71, main_cst_15, main_v72, main_v73, main_v74, main_v75]
theorem ops5_writes : (hostOps5 : List (HloOp τ sig (Elt F))).Forall fun op => op.writes ⊆ (ops5_W.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops5 (V : Valuation τ sig (Elt F)) (r : Ref sig .tc) (h : r ∉ ops5_W) :
    StableHlo.after hostOps5 V (Proc.devRef .tc r) = V (Proc.devRef .tc r) :=
  StableHlo.after_of_writes_sub hostOps5 V ops5_writes h

/-- The result buffers of the operations of `hostOps6`. -/
abbrev ops6_W : List (Ref sig .tc) := [main_cst_16, main_v77, main_v78, main_v79]
theorem ops6_writes : (hostOps6 : List (HloOp τ sig (Elt F))).Forall fun op => op.writes ⊆ (ops6_W.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops6 (V : Valuation τ sig (Elt F)) (r : Ref sig .tc) (h : r ∉ ops6_W) :
    StableHlo.after hostOps6 V (Proc.devRef .tc r) = V (Proc.devRef .tc r) :=
  StableHlo.after_of_writes_sub hostOps6 V ops6_writes h

/-- The result buffers of the operations of `hostOps7`. -/
abbrev ops7_W : List (Ref sig .tc) := [main_cst_17, main_v81, main_v82, main_v83, main_cst_18, main_v84, main_v85, main_v86, main_v87, main_v88]
theorem ops7_writes : (hostOps7 : List (HloOp τ sig (Elt F))).Forall fun op => op.writes ⊆ (ops7_W.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops7 (V : Valuation τ sig (Elt F)) (r : Ref sig .tc) (h : r ∉ ops7_W) :
    StableHlo.after hostOps7 V (Proc.devRef .tc r) = V (Proc.devRef .tc r) :=
  StableHlo.after_of_writes_sub hostOps7 V ops7_writes h

/-- The result buffers of the operations of `hostOps9`. -/
abbrev ops9_W : List (Ref sig .tc) := [main_c_19, main_v91, main_v92, main_c_20, main_v93, main_v94, main_v95, main_v96, main_v97, main_v98, main_v99, main_v100, main_cst_21, main_v101, main_v102, main_v103, main_v104]
theorem ops9_writes : (hostOps9 : List (HloOp τ sig (Elt F))).Forall fun op => op.writes ⊆ (ops9_W.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops9 (V : Valuation τ sig (Elt F)) (r : Ref sig .tc) (h : r ∉ ops9_W) :
    StableHlo.after hostOps9 V (Proc.devRef .tc r) = V (Proc.devRef .tc r) :=
  StableHlo.after_of_writes_sub hostOps9 V ops9_writes h

/-- The result buffers of the operations of `hostOps11`. -/
abbrev ops11_W : List (Ref sig .tc) := [main_c_22, main_v107, main_v108, main_c_23, main_v109, main_v110, main_v111, main_v112, main_v113, main_v114, main_v115, main_v116, main_cst_24, main_v117, main_v118, main_v119, main_v120]
theorem ops11_writes : (hostOps11 : List (HloOp τ sig (Elt F))).Forall fun op => op.writes ⊆ (ops11_W.map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer none of them writes keeps its contents through the stretch. -/
theorem keep_ops11 (V : Valuation τ sig (Elt F)) (r : Ref sig .tc) (h : r ∉ ops11_W) :
    StableHlo.after hostOps11 V (Proc.devRef .tc r) = V (Proc.devRef .tc r) :=
  StableHlo.after_of_writes_sub hostOps11 V ops11_writes h

/-! ## The regions -/

variable (m : (ℓ : Loc nD τ sig) → Buf (Elt F) ℓ) (ρ : Dev nD → PrngReg)

/-- Region 0 changes only its output array `main_v32`. -/
theorem keep_reg0 (c : Dev nD) (r : Ref sig .tc) (h : r ≠ main_v32) :
    W4 m ρ c (Proc.devRef .tc r) = W3 m ρ c (Proc.devRef .tc r) := by
  by_cases h0 : r = main_arg0
  · subst h0; exact (W4_arr m ρ c 0).trans (((dat0 (V3 m ρ) c).arrAt_in 0 rfl _).trans (A_eq0 (V3 m ρ) c 0))
  by_cases h1 : r = main_arg2
  · subst h1; exact (W4_arr m ρ c 1).trans (((dat0 (V3 m ρ) c).arrAt_in 1 rfl _).trans (A_eq0 (V3 m ρ) c 1))
  exact W4_of_ne m ρ c r (fun w => match w with | 0 => Ne.symm h0 | 1 => Ne.symm h1 | 2 => Ne.symm h | ⟨_ + 3, hw⟩ => absurd hw (Nat.not_lt.2 (Nat.le_add_left _ _)))

/-- Region 1 changes only its output array `main_v47`. -/
theorem keep_reg1 (c : Dev nD) (r : Ref sig .tc) (h : r ≠ main_v47) :
    W6 m ρ c (Proc.devRef .tc r) = W5 m ρ c (Proc.devRef .tc r) := by
  by_cases h0 : r = main_v45
  · subst h0; exact (W6_arr m ρ c 0).trans (((dat1 (V5 m ρ) c).arrAt_in 0 rfl _).trans (A_eq1 (V5 m ρ) c 0))
  by_cases h1 : r = main_v46
  · subst h1; exact (W6_arr m ρ c 1).trans (((dat1 (V5 m ρ) c).arrAt_in 1 rfl _).trans (A_eq1 (V5 m ρ) c 1))
  exact W6_of_ne m ρ c r (fun w => match w with | 0 => Ne.symm h0 | 1 => Ne.symm h1 | 2 => Ne.symm h | ⟨_ + 3, hw⟩ => absurd hw (Nat.not_lt.2 (Nat.le_add_left _ _)))

/-- Region 2 changes only its output array `main_v51`. -/
theorem keep_reg2 (c : Dev nD) (r : Ref sig .tc) (h : r ≠ main_v51) :
    W8 m ρ c (Proc.devRef .tc r) = W7 m ρ c (Proc.devRef .tc r) := by
  by_cases h0 : r = main_v45
  · subst h0; exact (W8_arr m ρ c 0).trans (((dat2 (V7 m ρ) c).arrAt_in 0 rfl _).trans (A_eq2 (V7 m ρ) c 0))
  by_cases h1 : r = main_v50
  · subst h1; exact (W8_arr m ρ c 1).trans (((dat2 (V7 m ρ) c).arrAt_in 1 rfl _).trans (A_eq2 (V7 m ρ) c 1))
  by_cases h2 : r = main_v49
  · subst h2; exact (W8_arr m ρ c 2).trans (((dat2 (V7 m ρ) c).arrAt_in 2 rfl _).trans (A_eq2 (V7 m ρ) c 2))
  exact W8_of_ne m ρ c r (fun w => match w with | 0 => Ne.symm h0 | 1 => Ne.symm h1 | 2 => Ne.symm h2 | 3 => Ne.symm h | ⟨_ + 4, hw⟩ => absurd hw (Nat.not_lt.2 (Nat.le_add_left _ _)))

/-- Region 3 changes only its output array `main_v60`. -/
theorem keep_reg3 (c : Dev nD) (r : Ref sig .tc) (h : r ≠ main_v60) :
    W10 m ρ c (Proc.devRef .tc r) = W9 m ρ c (Proc.devRef .tc r) := by
  by_cases h0 : r = main_v45
  · subst h0; exact (W10_arr m ρ c 0).trans (((dat3 (V9 m ρ) c).arrAt_in 0 rfl _).trans (A_eq3 (V9 m ρ) c 0))
  by_cases h1 : r = main_v54
  · subst h1; exact (W10_arr m ρ c 1).trans (((dat3 (V9 m ρ) c).arrAt_in 1 rfl _).trans (A_eq3 (V9 m ρ) c 1))
  by_cases h2 : r = main_v49
  · subst h2; exact (W10_arr m ρ c 2).trans (((dat3 (V9 m ρ) c).arrAt_in 2 rfl _).trans (A_eq3 (V9 m ρ) c 2))
  by_cases h3 : r = main_v57
  · subst h3; exact (W10_arr m ρ c 3).trans (((dat3 (V9 m ρ) c).arrAt_in 3 rfl _).trans (A_eq3 (V9 m ρ) c 3))
  by_cases h4 : r = main_v58
  · subst h4; exact (W10_arr m ρ c 4).trans (((dat3 (V9 m ρ) c).arrAt_in 4 rfl _).trans (A_eq3 (V9 m ρ) c 4))
  by_cases h5 : r = main_v59
  · subst h5; exact (W10_arr m ρ c 5).trans (((dat3 (V9 m ρ) c).arrAt_in 5 rfl _).trans (A_eq3 (V9 m ρ) c 5))
  exact W10_of_ne m ρ c r (fun w => match w with | 0 => Ne.symm h0 | 1 => Ne.symm h1 | 2 => Ne.symm h2 | 3 => Ne.symm h3 | 4 => Ne.symm h4 | 5 => Ne.symm h5 | 6 => Ne.symm h | ⟨_ + 7, hw⟩ => absurd hw (Nat.not_lt.2 (Nat.le_add_left _ _)))

/-- Region 4 changes only its output array `main_v61`. -/
theorem keep_reg4 (c : Dev nD) (r : Ref sig .tc) (h : r ≠ main_v61) :
    W11 m ρ c (Proc.devRef .tc r) = W10 m ρ c (Proc.devRef .tc r) := by
  by_cases h0 : r = main_v60
  · subst h0; exact (W11_arr m ρ c 0).trans (((dat4 (V10 m ρ) c).arrAt_in 0 rfl _).trans (A_eq4 (V10 m ρ) c 0))
  by_cases h1 : r = main_arg6
  · subst h1; exact (W11_arr m ρ c 1).trans (((dat4 (V10 m ρ) c).arrAt_in 1 rfl _).trans (A_eq4 (V10 m ρ) c 1))
  exact W11_of_ne m ρ c r (fun w => match w with | 0 => Ne.symm h0 | 1 => Ne.symm h1 | 2 => Ne.symm h | ⟨_ + 3, hw⟩ => absurd hw (Nat.not_lt.2 (Nat.le_add_left _ _)))

/-- Region 5 changes only its output array `main_v76`. -/
theorem keep_reg5 (c : Dev nD) (r : Ref sig .tc) (h : r ≠ main_v76) :
    W13 m ρ c (Proc.devRef .tc r) = W12 m ρ c (Proc.devRef .tc r) := by
  by_cases h0 : r = main_v74
  · subst h0; exact (W13_arr m ρ c 0).trans (((dat5 (V12 m ρ) c).arrAt_in 0 rfl _).trans (A_eq5 (V12 m ρ) c 0))
  by_cases h1 : r = main_v75
  · subst h1; exact (W13_arr m ρ c 1).trans (((dat5 (V12 m ρ) c).arrAt_in 1 rfl _).trans (A_eq5 (V12 m ρ) c 1))
  exact W13_of_ne m ρ c r (fun w => match w with | 0 => Ne.symm h0 | 1 => Ne.symm h1 | 2 => Ne.symm h | ⟨_ + 3, hw⟩ => absurd hw (Nat.not_lt.2 (Nat.le_add_left _ _)))

/-- Region 6 changes only its output array `main_v80`. -/
theorem keep_reg6 (c : Dev nD) (r : Ref sig .tc) (h : r ≠ main_v80) :
    W15 m ρ c (Proc.devRef .tc r) = W14 m ρ c (Proc.devRef .tc r) := by
  by_cases h0 : r = main_v74
  · subst h0; exact (W15_arr m ρ c 0).trans (((dat6 (V14 m ρ) c).arrAt_in 0 rfl _).trans (A_eq6 (V14 m ρ) c 0))
  by_cases h1 : r = main_v79
  · subst h1; exact (W15_arr m ρ c 1).trans (((dat6 (V14 m ρ) c).arrAt_in 1 rfl _).trans (A_eq6 (V14 m ρ) c 1))
  by_cases h2 : r = main_v78
  · subst h2; exact (W15_arr m ρ c 2).trans (((dat6 (V14 m ρ) c).arrAt_in 2 rfl _).trans (A_eq6 (V14 m ρ) c 2))
  exact W15_of_ne m ρ c r (fun w => match w with | 0 => Ne.symm h0 | 1 => Ne.symm h1 | 2 => Ne.symm h2 | 3 => Ne.symm h | ⟨_ + 4, hw⟩ => absurd hw (Nat.not_lt.2 (Nat.le_add_left _ _)))

/-- Region 7 changes only its output array `main_v89`. -/
theorem keep_reg7 (c : Dev nD) (r : Ref sig .tc) (h : r ≠ main_v89) :
    W17 m ρ c (Proc.devRef .tc r) = W16 m ρ c (Proc.devRef .tc r) := by
  by_cases h0 : r = main_v74
  · subst h0; exact (W17_arr m ρ c 0).trans (((dat7 (V16 m ρ) c).arrAt_in 0 rfl _).trans (A_eq7 (V16 m ρ) c 0))
  by_cases h1 : r = main_v83
  · subst h1; exact (W17_arr m ρ c 1).trans (((dat7 (V16 m ρ) c).arrAt_in 1 rfl _).trans (A_eq7 (V16 m ρ) c 1))
  by_cases h2 : r = main_v78
  · subst h2; exact (W17_arr m ρ c 2).trans (((dat7 (V16 m ρ) c).arrAt_in 2 rfl _).trans (A_eq7 (V16 m ρ) c 2))
  by_cases h3 : r = main_v86
  · subst h3; exact (W17_arr m ρ c 3).trans (((dat7 (V16 m ρ) c).arrAt_in 3 rfl _).trans (A_eq7 (V16 m ρ) c 3))
  by_cases h4 : r = main_v87
  · subst h4; exact (W17_arr m ρ c 4).trans (((dat7 (V16 m ρ) c).arrAt_in 4 rfl _).trans (A_eq7 (V16 m ρ) c 4))
  by_cases h5 : r = main_v88
  · subst h5; exact (W17_arr m ρ c 5).trans (((dat7 (V16 m ρ) c).arrAt_in 5 rfl _).trans (A_eq7 (V16 m ρ) c 5))
  exact W17_of_ne m ρ c r (fun w => match w with | 0 => Ne.symm h0 | 1 => Ne.symm h1 | 2 => Ne.symm h2 | 3 => Ne.symm h3 | 4 => Ne.symm h4 | 5 => Ne.symm h5 | 6 => Ne.symm h | ⟨_ + 7, hw⟩ => absurd hw (Nat.not_lt.2 (Nat.le_add_left _ _)))

/-- Region 8 changes only its output array `main_v90`. -/
theorem keep_reg8 (c : Dev nD) (r : Ref sig .tc) (h : r ≠ main_v90) :
    W18 m ρ c (Proc.devRef .tc r) = W17 m ρ c (Proc.devRef .tc r) := by
  by_cases h0 : r = main_v89
  · subst h0; exact (W18_arr m ρ c 0).trans (((dat8 (V17 m ρ) c).arrAt_in 0 rfl _).trans (A_eq8 (V17 m ρ) c 0))
  by_cases h1 : r = main_arg10
  · subst h1; exact (W18_arr m ρ c 1).trans (((dat8 (V17 m ρ) c).arrAt_in 1 rfl _).trans (A_eq8 (V17 m ρ) c 1))
  exact W18_of_ne m ρ c r (fun w => match w with | 0 => Ne.symm h0 | 1 => Ne.symm h1 | 2 => Ne.symm h | ⟨_ + 3, hw⟩ => absurd hw (Nat.not_lt.2 (Nat.le_add_left _ _)))

/-- Region 9 changes only its output array `main_v105`. -/
theorem keep_reg9 (c : Dev nD) (r : Ref sig .tc) (h : r ≠ main_v105) :
    W20 m ρ c (Proc.devRef .tc r) = W19 m ρ c (Proc.devRef .tc r) := by
  by_cases h0 : r = main_v103
  · subst h0; exact (W20_arr m ρ c 0).trans (((dat9 (V19 m ρ) c).arrAt_in 0 rfl _).trans (A_eq9 (V19 m ρ) c 0))
  by_cases h1 : r = main_v104
  · subst h1; exact (W20_arr m ρ c 1).trans (((dat9 (V19 m ρ) c).arrAt_in 1 rfl _).trans (A_eq9 (V19 m ρ) c 1))
  exact W20_of_ne m ρ c r (fun w => match w with | 0 => Ne.symm h0 | 1 => Ne.symm h1 | 2 => Ne.symm h | ⟨_ + 3, hw⟩ => absurd hw (Nat.not_lt.2 (Nat.le_add_left _ _)))

/-- Region 10 changes only its output array `main_v106`. -/
theorem keep_reg10 (c : Dev nD) (r : Ref sig .tc) (h : r ≠ main_v106) :
    W21 m ρ c (Proc.devRef .tc r) = W20 m ρ c (Proc.devRef .tc r) := by
  by_cases h0 : r = main_v89
  · subst h0; exact (W21_arr m ρ c 0).trans (((dat10 (V20 m ρ) c).arrAt_in 0 rfl _).trans (A_eq10 (V20 m ρ) c 0))
  by_cases h1 : r = main_arg12
  · subst h1; exact (W21_arr m ρ c 1).trans (((dat10 (V20 m ρ) c).arrAt_in 1 rfl _).trans (A_eq10 (V20 m ρ) c 1))
  exact W21_of_ne m ρ c r (fun w => match w with | 0 => Ne.symm h0 | 1 => Ne.symm h1 | 2 => Ne.symm h | ⟨_ + 3, hw⟩ => absurd hw (Nat.not_lt.2 (Nat.le_add_left _ _)))

/-- Region 11 changes only its output array `main_v121`. -/
theorem keep_reg11 (c : Dev nD) (r : Ref sig .tc) (h : r ≠ main_v121) :
    W23 m ρ c (Proc.devRef .tc r) = W22 m ρ c (Proc.devRef .tc r) := by
  by_cases h0 : r = main_v119
  · subst h0; exact (W23_arr m ρ c 0).trans (((dat11 (V22 m ρ) c).arrAt_in 0 rfl _).trans (A_eq11 (V22 m ρ) c 0))
  by_cases h1 : r = main_v120
  · subst h1; exact (W23_arr m ρ c 1).trans (((dat11 (V22 m ρ) c).arrAt_in 1 rfl _).trans (A_eq11 (V22 m ρ) c 1))
  exact W23_of_ne m ρ c r (fun w => match w with | 0 => Ne.symm h0 | 1 => Ne.symm h1 | 2 => Ne.symm h | ⟨_ + 3, hw⟩ => absurd hw (Nat.not_lt.2 (Nat.le_add_left _ _)))

end Cert.KernelIdeal.Keeps

end
-- ==== Proof.Carried.lean ====
/-
  The buffers that live through the whole program: the fourteen argument arrays and the three edge arrays
  (the edges' sources, their destinations, their weights) that the first host stretch computes. No later host
  operation writes one of them and no region has one as its output, so at every boundary from the first
  region's entry on (`Gen.W3`) each holds what it held there; an argument array holds its launch contents.
-/
import proofs.«173470_j52209622450441_2_alg».proof.Proof.Keeps

set_option maxRecDepth 16384

noncomputable section

namespace Cert.KernelIdeal.Carried

open Idealize.ShloMosaic Idealize.ShloMosaic.TcCoe Idealize.SL.Sem
open Cert.KernelIdeal Cert.KernelIdeal.Gen Cert.KernelIdeal.Keeps

variable {F : FTy → Type} [FloatOps F]
variable (m : (ℓ : Loc nD τ sig) → Buf (Elt F) ℓ) (ρ : Dev nD → PrngReg) (c : Dev nD)

/-- The long-lived buffers. -/
abbrev live : List (Ref sig .tc) :=
  [main_arg0, main_arg1, main_arg2, main_arg3, main_arg4, main_arg5, main_arg6, main_arg7, main_arg8, main_arg9,
   main_arg10, main_arg11, main_arg12, main_arg13, main_v3, main_v6, main_v31]

/-- The argument arrays. -/
abbrev args : List (Ref sig .tc) :=
  [main_arg0, main_arg1, main_arg2, main_arg3, main_arg4, main_arg5, main_arg6, main_arg7, main_arg8, main_arg9,
   main_arg10, main_arg11, main_arg12, main_arg13]

/-- No operation of the first host stretch (its three parts) writes an argument array. -/
theorem args_not_first : ∀ r ∈ args, r ∉ ops0_W ∧ r ∉ ops0_1_W ∧ r ∉ ops0_2_W := by decide

/-- An argument array enters the first region as launched. -/
theorem arg_at3 (r : Ref sig .tc) (hr : r ∈ args) : W3 m ρ c (Proc.devRef .tc r) = W0 m ρ c (Proc.devRef .tc r) :=
  (keep_ops0_2 _ r (args_not_first r hr).2.2).trans ((keep_ops0_1 _ r (args_not_first r hr).2.1).trans (keep_ops0 _ r (args_not_first r hr).1))

/-- What each later segment leaves alone among the long-lived buffers: the host stretches' result lists and the
    regions' output arrays miss every one of them. -/
theorem live_not_written : ∀ r ∈ live,
    r ≠ main_v32 ∧ (r ∉ ops1_W ∧ r ≠ main_v47) ∧ (r ∉ ops2_W ∧ r ≠ main_v51) ∧ (r ∉ ops3_W ∧ r ≠ main_v60) ∧ r ≠ main_v61
    ∧ (r ∉ ops5_W ∧ r ≠ main_v76) ∧ (r ∉ ops6_W ∧ r ≠ main_v80) ∧ (r ∉ ops7_W ∧ r ≠ main_v89) ∧ r ≠ main_v90
    ∧ (r ∉ ops9_W ∧ r ≠ main_v105) ∧ r ≠ main_v106 ∧ (r ∉ ops11_W ∧ r ≠ main_v121) := by decide

section
variable (r : Ref sig .tc) (hr : r ∈ live)
include hr

theorem at4 : W4 m ρ c (Proc.devRef .tc r) = W3 m ρ c (Proc.devRef .tc r) :=
  keep_reg0 m ρ c r (live_not_written r hr).1
theorem at5 : W5 m ρ c (Proc.devRef .tc r) = W3 m ρ c (Proc.devRef .tc r) :=
  (keep_ops1 _ r (live_not_written r hr).2.1.1).trans (at4 m ρ c r hr)
theorem at6 : W6 m ρ c (Proc.devRef .tc r) = W3 m ρ c (Proc.devRef .tc r) :=
  (keep_reg1 m ρ c r (live_not_written r hr).2.1.2).trans (at5 m ρ c r hr)
theorem at7 : W7 m ρ c (Proc.devRef .tc r) = W3 m ρ c (Proc.devRef .tc r) :=
  (keep_ops2 _ r (live_not_written r hr).2.2.1.1).trans (at6 m ρ c r hr)
theorem at8 : W8 m ρ c (Proc.devRef .tc r) = W3 m ρ c (Proc.devRef .tc r) :=
  (keep_reg2 m ρ c r (live_not_written r hr).2.2.1.2).trans (at7 m ρ c r hr)
theorem at9 : W9 m ρ c (Proc.devRef .tc r) = W3 m ρ c (Proc.devRef .tc r) :=
  (keep_ops3 _ r (live_not_written r hr).2.2.2.1.1).trans (at8 m ρ c r hr)
theorem at10 : W10 m ρ c (Proc.devRef .tc r) = W3 m ρ c (Proc.devRef .tc r) :=
  (keep_reg3 m ρ c r (live_not_written r hr).2.2.2.1.2).trans (at9 m ρ c r hr)
theorem at11 : W11 m ρ c (Proc.devRef .tc r) = W3 m ρ c (Proc.devRef .tc r) :=
  (keep_reg4 m ρ c r (live_not_written r hr).2.2.2.2.1).trans (at10 m ρ c r hr)
theorem at12 : W12 m ρ c (Proc.devRef .tc r) = W3 m ρ c (Proc.devRef .tc r) :=
  (keep_ops5 _ r (live_not_written r hr).2.2.2.2.2.1.1).trans (at11 m ρ c r hr)
theorem at13 : W13 m ρ c (Proc.devRef .tc r) = W3 m ρ c (Proc.devRef .tc r) :=
  (keep_reg5 m ρ c r (live_not_written r hr).2.2.2.2.2.1.2).trans (at12 m ρ c r hr)
theorem at14 : W14 m ρ c (Proc.devRef .tc r) = W3 m ρ c (Proc.devRef .tc r) :=
  (keep_ops6 _ r (live_not_written r hr).2.2.2.2.2.2.1.1).trans (at13 m ρ c r hr)
theorem at15 : W15 m ρ c (Proc.devRef .tc r) = W3 m ρ c (Proc.devRef .tc r) :=
  (keep_reg6 m ρ c r (live_not_written r hr).2.2.2.2.2.2.1.2).trans (at14 m ρ c r hr)
theorem at16 : W16 m ρ c (Proc.devRef .tc r) = W3 m ρ c (Proc.devRef .tc r) :=
  (keep_ops7 _ r (live_not_written r hr).2.2.2.2.2.2.2.1.1).trans (at15 m ρ c r hr)
theorem at17 : W17 m ρ c (Proc.devRef .tc r) = W3 m ρ c (Proc.devRef .tc r) :=
  (keep_reg7 m ρ c r (live_not_written r hr).2.2.2.2.2.2.2.1.2).trans (at16 m ρ c r hr)
theorem at18 : W18 m ρ c (Proc.devRef .tc r) = W3 m ρ c (Proc.devRef .tc r) :=
  (keep_reg8 m ρ c r (live_not_written r hr).2.2.2.2.2.2.2.2.1).trans (at17 m ρ c r hr)
theorem at19 : W19 m ρ c (Proc.devRef .tc r) = W3 m ρ c (Proc.devRef .tc r) :=
  (keep_ops9 _ r (live_not_written r hr).2.2.2.2.2.2.2.2.2.1.1).trans (at18 m ρ c r hr)
theorem at20 : W20 m ρ c (Proc.devRef .tc r) = W3 m ρ c (Proc.devRef .tc r) :=
  (keep_reg9 m ρ c r (live_not_written r hr).2.2.2.2.2.2.2.2.2.1.2).trans (at19 m ρ c r hr)
theorem at21 : W21 m ρ c (Proc.devRef .tc r) = W3 m ρ c (Proc.devRef .tc r) :=
  (keep_reg10 m ρ c r (live_not_written r hr).2.2.2.2.2.2.2.2.2.2.1).trans (at20 m ρ c r hr)
theorem at22 : W22 m ρ c (Proc.devRef .tc r) = W3 m ρ c (Proc.devRef .tc r) :=
  (keep_ops11 _ r (live_not_written r hr).2.2.2.2.2.2.2.2.2.2.2.1).trans (at21 m ρ c r hr)

end

end Cert.KernelIdeal.Carried

end
-- ==== Proof.RefSpec.lean ====
/-
  The reference network as ONE pure function of its fourteen argument arrays, stage by stage, in the
  host operations the reference program applies (the same records, the same order of operands).

  A graph of N = 100000 nodes with E = 1600000 edges gets a self loop at every node (E' = 1700000
  edges, `src` / `dst`); `deg` counts the edges arriving at a node, `dinv` is deg^(-1/2) (0 where
  no edge arrives), and edge e carries the weight `norm e = dinv (src e) * dinv (dst e)`. A graph
  convolution of node features h with weights W and bias b is
      conv h W b = (scatter-add over edges of (h W)[src e] * norm e into row dst e) + b,
  a batch normalisation with scale g and shift be over the node axis is
      (y - mean y) * rsqrt (var y + eps) * g + be,      mean y = (sum of rows) / N,
      var y = (sum of rows of (y - mean y)^2) / (N - ddof), ddof = 0,
  and the network is
      h1 = relu (bn (conv x W1 b1) g1 be1),  h2 = relu (bn (conv h1 W2 b2) g2 be2),
      mu = conv h2 Wmu bmu,  logvar = conv h2 Wlv blv.
-/
import proofs.«173470_j52209622450441_2_alg».proof.ReferenceIdeal

noncomputable section

namespace Cert.RefSpec

open Idealize.ShloMosaic Cert.ReferenceIdeal Cert.ReferenceIdeal.Facts₀

variable {F : FTy → Type} [FloatOps F] [Facts₀]

/-- An array of shape `S` and element type `e`. -/
abbrev Arr (F : FTy → Type) [FloatOps F] (S : Shape) (e : EltTy) : Type := (⟨S, e⟩ : BufTy).Contents (Elt F)

/-- The float scalar with the given f32 word. -/
def lit (w : BitVec 32) : Arr F S_ .f32 := constant S_ .f32 w

/-- One of the two rows of the edge list, followed by the self loops 0, 1, …, N-1. -/
def src (ei : Arr F S2x1600000 .i32) : Arr F S1700000 .i32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0
def dst (ei : Arr F S2x1600000 .i32) : Arr F S1700000 .i32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An edge-indexed array as a column of index vectors. -/
def col {e : EltTy} (a : Arr F S1700000 e) : Arr F S1700000x1 e := broadcastInDim S1700000x1 ![0] bcast_S1700000_S1700000x1_0 a

/-- The number of edges arriving at each node. -/
def deg (ei : Arr F S2x1600000 .i32) : Arr F S100000 .f32 :=
  Host.scatterAdd scatter_S100000_S1700000x1_S1700000_n_0_0_1 (broadcastInDim S100000 ![] bcast_S_S100000 (lit 0x00000000#32)) (col (dst ei))
    (broadcastInDim S1700000 ![] bcast_S_S1700000 (lit 0x3F800000#32))

/-- deg^(-1/2), and 0 at a node no edge arrives at. -/
def dinv (ei : Arr F S2x1600000 .i32) : Arr F S100000 .f32 :=
  select (cmpf .ogt (deg ei) (broadcastInDim S100000 ![] bcast_S_S100000 (lit 0x00000000#32)))
    (Host.rsqrt (maximumf (deg ei) (broadcastInDim S100000 ![] bcast_S_S100000 (lit 0x3F800000#32))))
    (broadcastInDim S100000 ![] bcast_S_S100000 (id (lit 0x00000000#32)))

/-- A node index read modulo N from the end when negative (the index convention of a gather). -/
def wrap (a : Arr F S1700000 .i32) : Arr F S1700000 .i32 :=
  select (cmpi .slt a (broadcastInDim S1700000 ![] bcast_S_S1700000 (constantI S_ 32 0#32)))
    (addi a (broadcastInDim S1700000 ![] bcast_S_S1700000 (constantI S_ 32 100000#32))) a

/-- The weight of each edge. -/
def norm (ei : Arr F S2x1600000 .i32) : Arr F S1700000 .f32 :=
  mulf (Host.gather gather_S100000_S1700000x1_S1700000_n_0_n_n_0_1_1 (dinv ei) (col (wrap (src ei))))
    (Host.gather gather_S100000_S1700000x1_S1700000_n_0_n_n_0_1_1 (dinv ei) (col (wrap (dst ei))))

/-- Rows gathered at the edges' sources, weighted, and summed into the edges' destinations (64 features). -/
def agg64 (ei : Arr F S2x1600000 .i32) (h : Arr F S100000x64 .f32) : Arr F S100000x64 .f32 :=
  Host.scatterAdd scatter_S100000x64_S1700000x1_S1700000x64_1_0_0_1 (broadcastInDim S100000x64 ![] bcast_S_S100000x64 (lit 0x00000000#32)) (col (dst ei))
    (mulf (Host.gather gather_S100000x64_S1700000x1_S1700000x64_1_0_n_n_0_1_164 h (col (wrap (src ei))))
      (broadcastInDim S1700000x64 ![0, 1] bcast_S1700000x1_S1700000x64_0_1 (col (norm ei))))
/-- The same over 32 features. -/
def agg32 (ei : Arr F S2x1600000 .i32) (h : Arr F S100000x32 .f32) : Arr F S100000x32 .f32 :=
  Host.scatterAdd scatter_S100000x32_S1700000x1_S1700000x32_1_0_0_1 (broadcastInDim S100000x32 ![] bcast_S_S100000x32 (lit 0x00000000#32)) (col (dst ei))
    (mulf (Host.gather gather_S100000x32_S1700000x1_S1700000x32_1_0_n_n_0_1_132 h (col (wrap (src ei))))
      (broadcastInDim S1700000x32 ![0, 1] bcast_S1700000x1_S1700000x32_0_1 (col (norm ei))))

/-- A per-feature row repeated over the nodes. -/
def rows64 (b : Arr F S64 .f32) : Arr F S100000x64 .f32 :=
  broadcastInDim S100000x64 ![0, 1] bcast_S1x64_S100000x64_0_1 (broadcastInDim S1x64 ![1] bcast_S64_S1x64_1 b)
def rows32 (b : Arr F S32 .f32) : Arr F S100000x32 .f32 :=
  broadcastInDim S100000x32 ![0, 1] bcast_S1x32_S100000x32_0_1 (broadcastInDim S1x32 ![1] bcast_S32_S1x32_1 b)

/-- The sum over the nodes, per feature. -/
def colsum (y : Arr F S100000x64 .f32) : Arr F S64 .f32 := Host.reduceAdd y (lit 0x00000000#32) reducesTo_S100000x64_S64_d0 h_S_

/-- The mean over the nodes, per feature. -/
def mean (y : Arr F S100000x64 .f32) : Arr F S64 .f32 := Host.divf (colsum y) (broadcastInDim S64 ![] bcast_S_S64 (lit 0x47C35000#32))

/-- The variance over the nodes with `ddof` degrees of freedom removed, per feature: the sum of squared
    deviations from the mean over N - ddof when that is positive (a not-a-number otherwise). -/
def var (y : Arr F S100000x64 .f32) (ddof : Arr F S_ .i32) : Arr F S64 .f32 :=
  select
    (broadcastInDim S64 ![] bcast_S_S64 (cmpf .ogt (subf (lit (F := F) 0x47C35000#32) (sitofp .f32 ddof)) (lit (F := F) 0x00000000#32)))
    (Host.divf
      (colsum
        (mulf
          (subf y (broadcastInDim S100000x64 ![0, 1] bcast_S1x64_S100000x64_0_1
            (Host.divf (broadcastInDim S1x64 ![1] bcast_S64_S1x64_1 (colsum y)) (broadcastInDim S1x64 ![] bcast_S_S1x64 (lit 0x47C35000#32)))))
          (subf y (broadcastInDim S100000x64 ![0, 1] bcast_S1x64_S100000x64_0_1
            (Host.divf (broadcastInDim S1x64 ![1] bcast_S64_S1x64_1 (colsum y)) (broadcastInDim S1x64 ![] bcast_S_S1x64 (lit 0x47C35000#32)))))))
      (broadcastInDim S64 ![] bcast_S_S64 (subf (lit 0x47C35000#32) (sitofp .f32 ddof))))
    (broadcastInDim S64 ![] bcast_S_S64 (id (lit 0x7FC00000#32)))

/-- Batch normalisation over the nodes, then max with 0. -/
def bnrelu (y : Arr F S100000x64 .f32) (g be : Arr F S64 .f32) : Arr F S100000x64 .f32 :=
  maximumf
    (addf
      (mulf
        (mulf (subf y (rows64 (mean y)))
          (rows64 (Host.rsqrt (addf (var y (constantI S_ 32 0#32)) (broadcastInDim S64 ![] bcast_S_S64 (lit 0x3727C5AC#32))))))
        (rows64 g))
      (rows64 be))
    (broadcastInDim S100000x64 ![] bcast_S_S100000x64 (lit 0x00000000#32))

/-- The first hidden layer. -/
def hidden1 (x : Arr F S100000x128 .f32) (ei : Arr F S2x1600000 .i32) (W1 : Arr F S128x64 .f32) (b1 g1 be1 : Arr F S64 .f32) : Arr F S100000x64 .f32 :=
  bnrelu (addf (agg64 ei (Host.dotGeneral dot_S100000x128_S128x64_S100000x64_1_0_0_1_n_n none x W1)) (rows64 b1)) g1 be1
/-- The second hidden layer. -/
def hidden2 (h : Arr F S100000x64 .f32) (ei : Arr F S2x1600000 .i32) (W2 : Arr F S64x64 .f32) (b2 g2 be2 : Arr F S64 .f32) : Arr F S100000x64 .f32 :=
  bnrelu (addf (agg64 ei (Host.dotGeneral dot_S100000x64_S64x64_S100000x64_1_0_0_1_n_n none h W2)) (rows64 b2)) g2 be2
/-- An output head. -/
def head (h : Arr F S100000x64 .f32) (ei : Arr F S2x1600000 .i32) (W : Arr F S64x32 .f32) (b : Arr F S32 .f32) : Arr F S100000x32 .f32 :=
  addf (agg32 ei (Host.dotGeneral dot_S100000x64_S64x32_S100000x32_1_0_0_1_n_n none h W)) (rows32 b)

/-- The encoder's first result. -/
def mu (x : Arr F S100000x128 .f32) (ei : Arr F S2x1600000 .i32) (W1 : Arr F S128x64 .f32) (b1 g1 be1 : Arr F S64 .f32)
    (W2 : Arr F S64x64 .f32) (b2 g2 be2 : Arr F S64 .f32) (Wmu : Arr F S64x32 .f32) (bmu : Arr F S32 .f32)
    (Wlv : Arr F S64x32 .f32) (blv : Arr F S32 .f32) : Arr F S100000x32 .f32 :=
  head (hidden2 (hidden1 x ei W1 b1 g1 be1) ei W2 b2 g2 be2) ei Wmu bmu
/-- The encoder's second result. -/
def logvar (x : Arr F S100000x128 .f32) (ei : Arr F S2x1600000 .i32) (W1 : Arr F S128x64 .f32) (b1 g1 be1 : Arr F S64 .f32)
    (W2 : Arr F S64x64 .f32) (b2 g2 be2 : Arr F S64 .f32) (Wmu : Arr F S64x32 .f32) (bmu : Arr F S32 .f32)
    (Wlv : Arr F S64x32 .f32) (blv : Arr F S32 .f32) : Arr F S100000x32 .f32 :=
  head (hidden2 (hidden1 x ei W1 b1 g1 be1) ei W2 b2 g2 be2) ei Wlv blv

end Cert.RefSpec

end
-- ==== Proof.RefSpecDeg.lean ====
/-
  Two intermediate stages of the reference network's degree normalisation, named: the mask of the nodes at
  which some edge arrives, and the reciprocal square root of the in-degree raised to at least one. The
  inverse-square-root degree `dinv` is the select of the second under the first, zero elsewhere.
-/
import proofs.«173470_j52209622450441_2_alg».proof.Proof.RefSpec

noncomputable section

namespace Cert.RefSpec

open Idealize.ShloMosaic Cert.ReferenceIdeal Cert.ReferenceIdeal.Facts₀

variable {F : FTy → Type} [FloatOps F] [Facts₀]

/-- Where an edge arrives the in-degree is positive. -/
def degPos (ei : Arr F S2x1600000 .i32) : Arr F S100000 .i1 :=
  cmpf .ogt (deg ei) (broadcastInDim S100000 ![] bcast_S_S100000 (lit 0x00000000#32))

/-- The reciprocal square root of the in-degree raised to at least 1. -/
def degRsqrt (ei : Arr F S2x1600000 .i32) : Arr F S100000 .f32 :=
  Host.rsqrt (maximumf (deg ei) (broadcastInDim S100000 ![] bcast_S_S100000 (lit 0x3F800000#32)))

/-- The inverse-square-root degree is the reciprocal square root where an edge arrives and zero elsewhere. -/
theorem dinv_eq (ei : Arr F S2x1600000 .i32) :
    dinv ei = select (degPos ei) (degRsqrt ei) (broadcastInDim S100000 ![] bcast_S_S100000 (id (lit 0x00000000#32))) := rfl

end Cert.RefSpec

end
-- ==== Proof.RefRunForms.lean ====
/-
  The reference network's stages with the edge lists, the edge weights and the batch statistics as
  PARAMETERS: the forms in which one stretch of the program computes a stage from what earlier
  stretches left in their buffers. Each is the specification's stage by unfolding.
-/
import proofs.«173470_j52209622450441_2_alg».proof.Proof.RefSpec
import proofs.«173470_j52209622450441_2_alg».proof.Proof.Gen.ReferenceIdeal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The weight of each edge from the nodes' inverse-square-root degrees `d` and the edges' sources `s` and destinations `t`. -/
def normOf (d : RefSpec.Arr F S100000 .f32) (s t : RefSpec.Arr F S1700000 .i32) : RefSpec.Arr F S1700000 .f32 :=
  mulf (Host.gather gather_S100000_S1700000x1_S1700000_n_0_n_n_0_1_1 d (RefSpec.col (RefSpec.wrap s)))
    (Host.gather gather_S100000_S1700000x1_S1700000_n_0_n_n_0_1_1 d (RefSpec.col (RefSpec.wrap t)))

theorem norm_eq (ei : RefSpec.Arr F S2x1600000 .i32) : RefSpec.norm ei = normOf (RefSpec.dinv ei) (RefSpec.src ei) (RefSpec.dst ei) := rfl

/-- Rows of `h` gathered at the sources `s`, weighted by `n`, and summed into the destinations `t` (64 features). -/
def aggOf64 (s t : RefSpec.Arr F S1700000 .i32) (n : RefSpec.Arr F S1700000 .f32) (h : RefSpec.Arr F S100000x64 .f32) : RefSpec.Arr F S100000x64 .f32 :=
  Host.scatterAdd scatter_S100000x64_S1700000x1_S1700000x64_1_0_0_1 (broadcastInDim S100000x64 ![] bcast_S_S100000x64 (RefSpec.lit 0x00000000#32)) (RefSpec.col t)
    (mulf (Host.gather gather_S100000x64_S1700000x1_S1700000x64_1_0_n_n_0_1_164 h (RefSpec.col (RefSpec.wrap s)))
      (broadcastInDim S1700000x64 ![0, 1] bcast_S1700000x1_S1700000x64_0_1 (RefSpec.col n)))

theorem agg64_eq (ei : RefSpec.Arr F S2x1600000 .i32) (h : RefSpec.Arr F S100000x64 .f32) :
    RefSpec.agg64 ei h = aggOf64 (RefSpec.src ei) (RefSpec.dst ei) (RefSpec.norm ei) h := rfl

/-- The same over 32 features. -/
def aggOf32 (s t : RefSpec.Arr F S1700000 .i32) (n : RefSpec.Arr F S1700000 .f32) (h : RefSpec.Arr F S100000x32 .f32) : RefSpec.Arr F S100000x32 .f32 :=
  Host.scatterAdd scatter_S100000x32_S1700000x1_S1700000x32_1_0_0_1 (broadcastInDim S100000x32 ![] bcast_S_S100000x32 (RefSpec.lit 0x00000000#32)) (RefSpec.col t)
    (mulf (Host.gather gather_S100000x32_S1700000x1_S1700000x32_1_0_n_n_0_1_132 h (RefSpec.col (RefSpec.wrap s)))
      (broadcastInDim S1700000x32 ![0, 1] bcast_S1700000x1_S1700000x32_0_1 (RefSpec.col n)))

theorem agg32_eq (ei : RefSpec.Arr F S2x1600000 .i32) (h : RefSpec.Arr F S100000x32 .f32) :
    RefSpec.agg32 ei h = aggOf32 (RefSpec.src ei) (RefSpec.dst ei) (RefSpec.norm ei) h := rfl

/-- Batch normalisation then the maximum with zero, from the mean `mn` and the variance `vr` over the nodes. -/
def bnreluOf (y : RefSpec.Arr F S100000x64 .f32) (mn vr g be : RefSpec.Arr F S64 .f32) : RefSpec.Arr F S100000x64 .f32 :=
  maximumf
    (addf
      (mulf
        (mulf (subf y (RefSpec.rows64 mn))
          (RefSpec.rows64 (Host.rsqrt (addf vr (broadcastInDim S64 ![] bcast_S_S64 (RefSpec.lit 0x3727C5AC#32))))))
        (RefSpec.rows64 g))
      (RefSpec.rows64 be))
    (broadcastInDim S100000x64 ![] bcast_S_S100000x64 (RefSpec.lit 0x00000000#32))

theorem bnrelu_eq (y : RefSpec.Arr F S100000x64 .f32) (g be : RefSpec.Arr F S64 .f32) :
    RefSpec.bnrelu y g be = bnreluOf y (RefSpec.mean y) (RefSpec.var y (constantI S_ 32 0#32)) g be := rfl

/-- The same with the centred array `yc` and the ROW of inverse standard deviations `rs` already formed (the program forms them in one stretch and uses them in the next). -/
def bnreluOf' (yc : RefSpec.Arr F S100000x64 .f32) (rs : RefSpec.Arr F S1x64 .f32) (g be : RefSpec.Arr F S64 .f32) : RefSpec.Arr F S100000x64 .f32 :=
  maximumf
    (addf
      (mulf
        (mulf yc (broadcastInDim S100000x64 ![0, 1] bcast_S1x64_S100000x64_0_1 rs))
        (RefSpec.rows64 g))
      (RefSpec.rows64 be))
    (broadcastInDim S100000x64 ![] bcast_S_S100000x64 (RefSpec.lit 0x00000000#32))

theorem bnreluOf_eq (y : RefSpec.Arr F S100000x64 .f32) (mn vr g be : RefSpec.Arr F S64 .f32) :
    bnreluOf y mn vr g be = bnreluOf' (subf y (RefSpec.rows64 mn))
      (broadcastInDim S1x64 ![1] bcast_S64_S1x64_1 (Host.rsqrt (addf vr (broadcastInDim S64 ![] bcast_S_S64 (RefSpec.lit 0x3727C5AC#32))))) g be := rfl

end Cert.ReferenceIdeal.HandRun

end
-- ==== Proof.Stretch0.lean ====
/-
  The first host stretch of the idealized kernel program, read over ANY entry contents `V`.

  Its twenty-one operations build the edges' sources and destinations (the two rows of the edge list, each
  followed by the self loops 0, 1, …, N-1), count the edges arriving at each node, and form the positivity
  mask of that count and the reciprocal square root of the count raised to at least one. The three
  operations of the outlined select then give deg^(-1/2), zero where no edge arrives, and the next nineteen
  gather it at both ends of every edge and multiply: the edge weights. Each buffer is read twice: first as
  the reference specification's stage of the CONTENTS the part reads (the primed lemma: the fold over the
  part computed operation by operation, the rest by unfolding — the two programs' shapes and dimension
  records are the same literals), then with those contents given by hypotheses.
-/
import proofs.«173470_j52209622450441_2_alg».proof.Proof.Gen.KernelIdeal.Launch
import proofs.«173470_j52209622450441_2_alg».proof.Proof.Gen.ReferenceIdeal
import proofs.«173470_j52209622450441_2_alg».proof.Proof.RefSpec
import proofs.«173470_j52209622450441_2_alg».proof.Proof.RefSpecDeg
import proofs.«173470_j52209622450441_2_alg».proof.Proof.RefRunForms
import Idealize.ShloMosaic.Lib.StableHlo.Run
import Idealize.ShloMosaic.Lib.ValueIdx

set_option maxRecDepth 16384

noncomputable section

namespace Cert.KernelIdeal.Stretch

open Idealize.ShloMosaic Idealize.ShloMosaic.TcCoe Idealize.SL.Sem Idealize.ShloMosaic.ValueIdx
open Cert.KernelIdeal Cert.KernelIdeal.Gen

variable (V : Valuation τ sig (Elt Ideal))

/-! ## The edge arrays, the degree mask and root -/

theorem ops0_src' :
    StableHlo.after hostOps0 V (Proc.devRef .tc main_v3) = Cert.RefSpec.src (F := Ideal) (V (Proc.devRef .tc main_arg1)) := by
  simp only [hostOps0]; after_results_simp <;> rfl

theorem ops0_src (ei : Cert.RefSpec.Arr Ideal Cert.ReferenceIdeal.S2x1600000 .i32) (h : V (Proc.devRef .tc main_arg1) = ei) :
    StableHlo.after hostOps0 V (Proc.devRef .tc main_v3) = Cert.RefSpec.src (F := Ideal) ei := by
  rw [ops0_src' V, h]

theorem ops0_dst' :
    StableHlo.after hostOps0 V (Proc.devRef .tc main_v6) = Cert.RefSpec.dst (F := Ideal) (V (Proc.devRef .tc main_arg1)) := by
  simp only [hostOps0]; after_results_simp <;> rfl

theorem ops0_dst (ei : Cert.RefSpec.Arr Ideal Cert.ReferenceIdeal.S2x1600000 .i32) (h : V (Proc.devRef .tc main_arg1) = ei) :
    StableHlo.after hostOps0 V (Proc.devRef .tc main_v6) = Cert.RefSpec.dst (F := Ideal) ei := by
  rw [ops0_dst' V, h]

theorem ops0_degPos' :
    StableHlo.after hostOps0 V (Proc.devRef .tc main_v12) = Cert.RefSpec.degPos (F := Ideal) (V (Proc.devRef .tc main_arg1)) := by
  simp only [hostOps0]; after_results_simp <;> rfl

theorem ops0_degPos (ei : Cert.RefSpec.Arr Ideal Cert.ReferenceIdeal.S2x1600000 .i32) (h : V (Proc.devRef .tc main_arg1) = ei) :
    StableHlo.after hostOps0 V (Proc.devRef .tc main_v12) = Cert.RefSpec.degPos (F := Ideal) ei := by
  rw [ops0_degPos' V, h]

theorem ops0_degRsqrt' :
    StableHlo.after hostOps0 V (Proc.devRef .tc main_v15) = Cert.RefSpec.degRsqrt (F := Ideal) (V (Proc.devRef .tc main_arg1)) := by
  simp only [hostOps0]; after_results_simp <;> rfl

theorem ops0_degRsqrt (ei : Cert.RefSpec.Arr Ideal Cert.ReferenceIdeal.S2x1600000 .i32) (h : V (Proc.devRef .tc main_arg1) = ei) :
    StableHlo.after hostOps0 V (Proc.devRef .tc main_v15) = Cert.RefSpec.degRsqrt (F := Ideal) ei := by
  rw [ops0_degRsqrt' V, h]

theorem ops0_zero : StableHlo.after hostOps0 V (Proc.devRef .tc main_cst_3) = Cert.RefSpec.lit (F := Ideal) 0x00000000#32 := by
  simp only [hostOps0]; after_results_simp <;> rfl

/-! ## deg^(-1/2): the outlined select -/

theorem ops0_1_dinv' :
    StableHlo.after hostOps0_1 V (Proc.devRef .tc main_v16) = select (V (Proc.devRef .tc main_v12)) (V (Proc.devRef .tc main_v15)) (broadcastInDim Cert.ReferenceIdeal.S100000 ![] Cert.ReferenceIdeal.Gen.bcast_S_S100000 (id (V (Proc.devRef .tc main_cst_3)))) := by
  simp only [hostOps0_1]; after_results_simp <;> rfl

theorem ops0_1_dinv (ei : Cert.RefSpec.Arr Ideal Cert.ReferenceIdeal.S2x1600000 .i32)
    (h12 : V (Proc.devRef .tc main_v12) = Cert.RefSpec.degPos (F := Ideal) ei) (h15 : V (Proc.devRef .tc main_v15) = Cert.RefSpec.degRsqrt (F := Ideal) ei) (h0 : V (Proc.devRef .tc main_cst_3) = Cert.RefSpec.lit (F := Ideal) 0x00000000#32) :
    StableHlo.after hostOps0_1 V (Proc.devRef .tc main_v16) = Cert.RefSpec.dinv (F := Ideal) ei := by
  rw [ops0_1_dinv' V, h12, h15, h0]; rfl

/-! ## The edge weights -/

theorem ops0_2_norm' :
    StableHlo.after hostOps0_2 V (Proc.devRef .tc main_v31) = Cert.ReferenceIdeal.HandRun.normOf (F := Ideal) (V (Proc.devRef .tc main_v16)) (V (Proc.devRef .tc main_v3)) (V (Proc.devRef .tc main_v6)) := by
  simp only [hostOps0_2]; after_results_simp <;> rfl

theorem ops0_2_norm (ei : Cert.RefSpec.Arr Ideal Cert.ReferenceIdeal.S2x1600000 .i32)
    (h3 : V (Proc.devRef .tc main_v3) = Cert.RefSpec.src (F := Ideal) ei) (h6 : V (Proc.devRef .tc main_v6) = Cert.RefSpec.dst (F := Ideal) ei)
    (h16 : V (Proc.devRef .tc main_v16) = Cert.RefSpec.dinv (F := Ideal) ei) :
    StableHlo.after hostOps0_2 V (Proc.devRef .tc main_v31) = Cert.RefSpec.norm (F := Ideal) ei := by
  rw [ops0_2_norm' V, h16, h3, h6]; exact (Cert.ReferenceIdeal.HandRun.norm_eq ei).symm

end Cert.KernelIdeal.Stretch

end
-- ==== Proof.Chain0.lean ====
/-
  The idealized kernel program's first host stretch, read against the reference's stages.

  The first host stretch builds, from the edge list, the edges' sources and destinations (self loops appended),
  the in-degrees, deg^(-1/2) and the edge weights, by the very operations the reference applies; so at the first
  region's entry those buffers hold `RefSpec.src`, `RefSpec.dst`, `RefSpec.norm` of the launched edge list, and
  every argument array holds its launch contents.
-/
import proofs.«173470_j52209622450441_2_alg».proof.Proof.Carried
import proofs.«173470_j52209622450441_2_alg».proof.Proof.RefSpec
import proofs.«173470_j52209622450441_2_alg».proof.Proof.RefSpecDeg
import proofs.«173470_j52209622450441_2_alg».proof.Proof.Gen.ReferenceIdeal
import proofs.«173470_j52209622450441_2_alg».proof.Proof.Stretch0
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.KernelIdeal.Keeps Cert.KernelIdeal.Carried

variable (m : (ℓ : Loc nD τ sig) → Buf (Elt Ideal) ℓ) (ρ : Dev nD → PrngReg) (c : Dev nD)

/-- Core `c`'s launch contents of a buffer (used at the argument arrays). -/
abbrev argOf (r : Ref sig .tc) : Buf (Elt Ideal) ((c : Thread nD τ).loc r) := m ((c : Thread nD τ).loc r)

/-! ## The first host stretch -/

theorem W1_v3 : W1 m ρ c (Proc.devRef .tc main_v3) = Cert.RefSpec.src (F := Ideal) ((argOf m c main_arg1 : Cert.RefSpec.Arr Ideal Cert.ReferenceIdeal.S2x1600000 .i32)) :=
  Cert.KernelIdeal.Stretch.ops0_src (W0 m ρ c) _ rfl
theorem W1_v6 : W1 m ρ c (Proc.devRef .tc main_v6) = Cert.RefSpec.dst (F := Ideal) ((argOf m c main_arg1 : Cert.RefSpec.Arr Ideal Cert.ReferenceIdeal.S2x1600000 .i32)) :=
  Cert.KernelIdeal.Stretch.ops0_dst (W0 m ρ c) _ rfl
theorem W1_v12 : W1 m ρ c (Proc.devRef .tc main_v12) = Cert.RefSpec.degPos (F := Ideal) ((argOf m c main_arg1 : Cert.RefSpec.Arr Ideal Cert.ReferenceIdeal.S2x1600000 .i32)) :=
  Cert.KernelIdeal.Stretch.ops0_degPos (W0 m ρ c) _ rfl
theorem W1_v15 : W1 m ρ c (Proc.devRef .tc main_v15) = Cert.RefSpec.degRsqrt (F := Ideal) ((argOf m c main_arg1 : Cert.RefSpec.Arr Ideal Cert.ReferenceIdeal.S2x1600000 .i32)) :=
  Cert.KernelIdeal.Stretch.ops0_degRsqrt (W0 m ρ c) _ rfl
theorem W1_cst_3 : W1 m ρ c (Proc.devRef .tc main_cst_3) = Cert.RefSpec.lit (F := Ideal) 0x00000000#32 :=
  Cert.KernelIdeal.Stretch.ops0_zero (W0 m ρ c)

theorem W2_v16 : W2 m ρ c (Proc.devRef .tc main_v16) = Cert.RefSpec.dinv (F := Ideal) ((argOf m c main_arg1 : Cert.RefSpec.Arr Ideal Cert.ReferenceIdeal.S2x1600000 .i32)) :=
  Cert.KernelIdeal.Stretch.ops0_1_dinv (W1 m ρ c) _ (W1_v12 m ρ c) (W1_v15 m ρ c) (W1_cst_3 m ρ c)

theorem W3_v3 : W3 m ρ c (Proc.devRef .tc main_v3) = Cert.RefSpec.src (F := Ideal) ((argOf m c main_arg1 : Cert.RefSpec.Arr Ideal Cert.ReferenceIdeal.S2x1600000 .i32)) :=
  (keep_ops0_2 _ main_v3 (by decide)).trans ((keep_ops0_1 _ main_v3 (by decide)).trans (W1_v3 m ρ c))
theorem W3_v6 : W3 m ρ c (Proc.devRef .tc main_v6) = Cert.RefSpec.dst (F := Ideal) ((argOf m c main_arg1 : Cert.RefSpec.Arr Ideal Cert.ReferenceIdeal.S2x1600000 .i32)) :=
  (keep_ops0_2 _ main_v6 (by decide)).trans ((keep_ops0_1 _ main_v6 (by decide)).trans (W1_v6 m ρ c))
theorem W3_v31 : W3 m ρ c (Proc.devRef .tc main_v31) = Cert.RefSpec.norm (F := Ideal) ((argOf m c main_arg1 : Cert.RefSpec.Arr Ideal Cert.ReferenceIdeal.S2x1600000 .i32)) :=
  Cert.KernelIdeal.Stretch.ops0_2_norm (W2 m ρ c) _
    ((keep_ops0_1 _ main_v3 (by decide)).trans (W1_v3 m ρ c)) ((keep_ops0_1 _ main_v6 (by decide)).trans (W1_v6 m ρ c)) (W2_v16 m ρ c)

/-- An argument array at the first region's entry. -/
theorem W3_arg (r : Ref sig .tc) (hr : r ∈ args) : W3 m ρ c (Proc.devRef .tc r) = (argOf m c r) :=
  (arg_at3 m ρ c r hr).trans rfl

end Cert.KernelIdeal.Chain

end
-- ==== Proof.LibReal.lean ====
/-
  Real numbers among the extended reals. An extended real is either a real number or one of the two
  infinities, and the laws of arithmetic that move a factor across a sum hold on the extended reals only
  where no infinity occurs. This module names the property "is a real number", shows that every operation a
  graph-convolution layer performs on a row of features keeps it, and proves the one law the layers need:
  a common real factor may be moved from every summand of a finite sum of products to the finished sum.
-/
import Mathlib.Data.EReal.Basic
import Mathlib.Data.EReal.Operations
import Mathlib.Data.EReal.Inv
import Idealize.ShloMosaic.PureOps.Ideal

noncomputable section

open scoped BigOperators

namespace Cert.Gcn

open Idealize.ShloMosaic

/-- An extended real is a real number: it is the image of some real, hence neither infinity. -/
def IsReal (x : EReal) : Prop := ∃ r : ℝ, x = (r : EReal)

namespace IsReal

/-- The image of a real number is a real number. -/
theorem coe (r : ℝ) : IsReal (r : EReal) := ⟨r, rfl⟩

/-- Zero is a real number. -/
theorem zero : IsReal (0 : EReal) := ⟨0, rfl⟩

/-- One is a real number. -/
theorem one : IsReal (1 : EReal) := ⟨1, rfl⟩

/-- The sum of two real numbers is a real number. -/
theorem add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The negative of a real number is a real number. -/
theorem neg {x : EReal} (hx : IsReal x) : IsReal (-x) := by
  obtain ⟨a, rfl⟩ := hx
  exact ⟨-a, (EReal.coe_neg a).symm⟩

/-- The larger of two real numbers is a real number: it is one of the two. -/
theorem max {x y : EReal} (hx : IsReal x) (hy : IsReal y) : IsReal (max x y) := by
  rcases max_choice x y with h | h
  · rw [h]; exact hx
  · rw [h]; exact hy

/-- The smaller of two real numbers is a real number: it is one of the two. -/
theorem min {x y : EReal} (hx : IsReal x) (hy : IsReal y) : IsReal (min x y) := by
  rcases min_choice x y with h | h
  · rw [h]; exact hx
  · rw [h]; exact hy

/-- A real number is not `+∞`. -/
theorem ne_top {x : EReal} (hx : IsReal x) : x ≠ ⊤ := by
  obtain ⟨a, rfl⟩ := hx
  exact EReal.coe_ne_top a

/-- A real number is not `-∞`. -/
theorem ne_bot {x : EReal} (hx : IsReal x) : x ≠ ⊥ := by
  obtain ⟨a, rfl⟩ := hx
  exact EReal.coe_ne_bot a

end IsReal

/-- An extended real that is neither infinity is a real number. -/
theorem isReal_of_ne {x : EReal} (ht : x ≠ ⊤) (hb : x ≠ ⊥) : IsReal x :=
  ⟨x.toReal, (EReal.coe_toReal ht hb).symm⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The image of the larger of two reals is the larger of the images. -/
theorem coe_max (a b : ℝ) : ((Max.max a b : ℝ) : EReal) = Max.max (a : EReal) (b : EReal) :=
  EReal.coe_strictMono.monotone.map_max

/-! ### Moving a real factor across a finite sum -/

/-- A finite sum of products of reals, each summand multiplied by one more real `c`, is the finished sum
    multiplied by `c`. On the extended reals this is false in general (an infinite summand and `c = 0`);
    here every factor is a real number. The leading `0 +` is the initial value of the accumulation. -/
theorem sum_mul_hoist {ι : Type*} (s : Finset ι) (a f : ι → EReal) (c : EReal)
    (ha : ∀ j ∈ s, IsReal (a j)) (hf : ∀ j ∈ s, IsReal (f j)) (hc : IsReal c) :
    (0 + ∑ j ∈ s, a j * f j) * c = 0 + ∑ j ∈ s, a j * (f j * c) := by
  obtain ⟨c', rfl⟩ := hc
  have ha2 : ∀ j ∈ s, ∃ r : ℝ, a j = (r : EReal) := ha
  have hf2 : ∀ j ∈ s, ∃ r : ℝ, f j = (r : EReal) := hf
  choose! a' ha' using ha2
  choose! f' hf' using hf2
  have h1 : ∑ j ∈ s, a j * f j = ((∑ j ∈ s, a' j * f' j : ℝ) : EReal) := by
    rw [coe_sum]
    exact Finset.sum_congr rfl fun j hj => by rw [ha' j hj, hf' j hj, EReal.coe_mul]
  have h2 : ∑ j ∈ s, a j * (f j * (c' : EReal)) = ((∑ j ∈ s, a' j * (f' j * c') : ℝ) : EReal) := by
    rw [coe_sum]
    exact Finset.sum_congr rfl fun j hj => by rw [ha' j hj, hf' j hj, EReal.coe_mul, EReal.coe_mul]
  rw [zero_add, zero_add, h1, h2, ← EReal.coe_mul, Finset.sum_mul]
  exact congrArg _ (Finset.sum_congr rfl fun j _ => mul_assoc _ _ _)

/-- The same law with the two factors of each summand on the left written in the other order. -/
theorem sum_mul_hoist' {ι : Type*} (s : Finset ι) (a f : ι → EReal) (c : EReal)
    (ha : ∀ j ∈ s, IsReal (a j)) (hf : ∀ j ∈ s, IsReal (f j)) (hc : IsReal c) :
    (0 + ∑ j ∈ s, f j * a j) * c = 0 + ∑ j ∈ s, a j * (f j * c) := by
  rw [← sum_mul_hoist s a f c ha hf hc]
  exact congrArg (fun t => (0 + t) * c) (Finset.sum_congr rfl fun j _ => mul_comm _ _)

/-! ### The single-precision words the programs spell, as the reals they denote -/

/-- The word `0x3F800000` denotes the real number 1. -/
theorem ofBits_one : Ideal.ofBits .f32 0x3F800000#32 = ((1 : ℝ) : EReal) := by
  simp [Ideal.ofBits, Ideal.ieee, -EReal.coe_mul]; norm_num

/-- The word `0x3F000000` denotes the real number 1/2. -/
theorem ofBits_half : Ideal.ofBits .f32 0x3F000000#32 = ((1 / 2 : ℝ) : EReal) := by
  simp [Ideal.ofBits, Ideal.ieee, -EReal.coe_mul]; norm_num

/-- The word `0x40000000` denotes the real number 2. -/
theorem ofBits_two : Ideal.ofBits .f32 0x40000000#32 = ((2 : ℝ) : EReal) := by
  simp [Ideal.ofBits, Ideal.ieee, -EReal.coe_mul]; norm_num

/-- The word `0x40400000` denotes the real number 3. -/
theorem ofBits_three : Ideal.ofBits .f32 0x40400000#32 = ((3 : ℝ) : EReal) := by
  simp [Ideal.ofBits, Ideal.ieee, -EReal.coe_mul]; norm_num

/-- The word `0x47C35000` denotes the real number 100000. -/
theorem ofBits_100000 : Ideal.ofBits .f32 0x47C35000#32 = ((100000 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- The word `0x3727C5AC` (the single-precision rounding of one hundred-thousandth) denotes a positive real number. -/
theorem ofBits_eps_pos : ∃ r : ℝ, 0 < r ∧ Ideal.ofBits .f32 0x3727C5AC#32 = (r : EReal) := by
  simp [Ideal.ofBits, Ideal.ieee, -EReal.coe_mul]

/-- The word `0x7F800000` denotes +∞. -/
theorem ofBits_pos_inf : Ideal.ofBits .f32 0x7F800000#32 = ⊤ := by
  simp [Ideal.ofBits, Ideal.ieee]

/-- The word `0xFF800000` denotes −∞. -/
theorem ofBits_neg_inf : Ideal.ofBits .f32 0xFF800000#32 = ⊥ := by
  simp [Ideal.ofBits, Ideal.ieee]

/-- The first four words above denote real numbers. -/
theorem isReal_ofBits_one : IsReal (Ideal.ofBits .f32 0x3F800000#32) := ⟨_, ofBits_one⟩
/-- See `isReal_ofBits_one`. -/
theorem isReal_ofBits_half : IsReal (Ideal.ofBits .f32 0x3F000000#32) := ⟨_, ofBits_half⟩
/-- See `isReal_ofBits_one`. -/
theorem isReal_ofBits_two : IsReal (Ideal.ofBits .f32 0x40000000#32) := ⟨_, ofBits_two⟩
/-- See `isReal_ofBits_one`. -/
theorem isReal_ofBits_three : IsReal (Ideal.ofBits .f32 0x40400000#32) := ⟨_, ofBits_three⟩

/-! ### The operations with corners, away from their corners -/

/-- The square root of a nonnegative real number is a real number. (Below zero the square root here is `-∞`,
    so the hypothesis `0 ≤ x` cannot be dropped.) -/
theorem isReal_sqrt {x : EReal} (hx : IsReal x) (h0 : 0 ≤ x) : IsReal (Ideal.sqrt x) := by
  obtain ⟨r, rfl⟩ := hx
  rw [Ideal.sqrt_coe, if_neg (not_lt.mpr (EReal.coe_nonneg.mp h0))]
  exact ⟨_, rfl⟩

/-- The quotient of a real number by a nonzero real number is a real number. -/
theorem isReal_div {x y : EReal} (hx : IsReal x) (hy : IsReal y) (h0 : y ≠ 0) : IsReal (Ideal.div x y) := by
  obtain ⟨a, rfl⟩ := hx
  obtain ⟨b, rfl⟩ := hy
  have hb : b ≠ 0 := fun h => h0 (by rw [h]; rfl)
  rw [Ideal.div_coe hb, ← EReal.coe_mul]
  exact ⟨_, rfl⟩

/-- A real number raised to at least 1 has a real inverse square root: the argument of the inverse square root
    is then a real number that is at least 1, in particular positive. -/
theorem isReal_rsqrt_max_one {x : EReal} (hx : IsReal x) :
    IsReal (Ideal.rsqrt (max x (Ideal.ofBits .f32 0x3F800000#32))) := by
  obtain ⟨r, rfl⟩ := hx
  rw [ofBits_one, ← coe_max, Ideal.rsqrt_coe]
  have h1 : (1 : ℝ) ≤ Max.max r 1 := le_max_right r 1
  have h2 : ¬ Max.max r 1 < 0 := not_lt.mpr (by linarith)
  have h3 : ¬ Max.max r 1 = 0 := fun h => by linarith
  rw [if_neg h2, if_neg h3]
  exact ⟨_, rfl⟩

/-! ### Three quotients against products, at every extended real -/

/-- Dividing by the word for 1 is multiplying by it, at the infinities too. -/
theorem div_one (x : EReal) :
    Ideal.div x (Ideal.ofBits .f32 0x3F800000#32) = x * Ideal.ofBits .f32 0x3F800000#32 := by
  rw [ofBits_one, Ideal.div_coe one_ne_zero, _root_.div_one]

/-- Dividing by the word for 2 is multiplying by the word for 1/2, at the infinities too. -/
theorem div_two (x : EReal) :
    Ideal.div x (Ideal.ofBits .f32 0x40000000#32) = x * Ideal.ofBits .f32 0x3F000000#32 := by
  rw [ofBits_two, ofBits_half, Ideal.div_coe two_ne_zero]

/-- Dividing by the word for 3 is multiplying by the real number 1/3, at the infinities too. -/
theorem div_three (x : EReal) :
    Ideal.div x (Ideal.ofBits .f32 0x40400000#32) = x * ((1 / 3 : ℝ) : EReal) := by
  rw [ofBits_three, Ideal.div_coe three_ne_zero]

/-! ### Distributing a real factor -/

/-- A real number is the image of its real part. -/
theorem IsReal.coe_toReal {x : EReal} (hx : IsReal x) : ((x.toReal : ℝ) : EReal) = x := by
  obtain ⟨a, rfl⟩ := hx
  rfl

/-- The difference of two real numbers is a real number. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Among real numbers a sum times a factor is the sum of the products. -/
theorem add_mul_real {x y c : EReal} (hx : IsReal x) (hy : IsReal y) (hc : IsReal c) :
    (x + y) * c = x * c + y * c := by
  obtain ⟨a, rfl⟩ := hx
  obtain ⟨b, rfl⟩ := hy
  obtain ⟨d, rfl⟩ := hc
  rw [← EReal.coe_add, ← EReal.coe_mul, ← EReal.coe_mul, ← EReal.coe_mul, ← EReal.coe_add, add_mul]

/-- Among real numbers a factor times a sum is the sum of the products. -/
theorem mul_add_real {c x y : EReal} (hc : IsReal c) (hx : IsReal x) (hy : IsReal y) :
    c * (x + y) = c * x + c * y := by
  rw [mul_comm c (x + y), add_mul_real hx hy hc, mul_comm x c, mul_comm y c]

/-- A finite sum of real numbers times a real factor is the sum of the products. -/
theorem sum_mul_real {ι : Type*} (s : Finset ι) (f : ι → EReal) (c : EReal) (hf : ∀ j ∈ s, IsReal (f j))
    (hc : IsReal c) : (∑ j ∈ s, f j) * c = ∑ j ∈ s, f j * c := by
  classical
  induction s using Finset.induction_on with
  | empty => simp
  | insert a s ha ih =>
    rw [Finset.sum_insert ha, Finset.sum_insert ha,
      add_mul_real (hf a (Finset.mem_insert_self a s))
        (IsReal.sum s f fun i hi => hf i (Finset.mem_insert_of_mem hi)) hc,
      ih fun i hi => hf i (Finset.mem_insert_of_mem hi)]

/-- A real factor times a finite sum of real numbers is the sum of the products. -/
theorem mul_sum_real {ι : Type*} (s : Finset ι) (f : ι → EReal) (c : EReal) (hf : ∀ j ∈ s, IsReal (f j))
    (hc : IsReal c) : c * ∑ j ∈ s, f j = ∑ j ∈ s, c * f j := by
  rw [mul_comm, sum_mul_real s f c hf hc]
  exact Finset.sum_congr rfl fun j _ => mul_comm _ _

/-! ### Regrouping three summands, at every extended real -/

/-- Three summands accumulated one at a time from zero are zero plus their sum. -/
theorem add3_assoc (a b c : EReal) : ((0 + a) + b) + c = 0 + (a + b + c) := by
  rw [zero_add, zero_add]

/-- Three summands accumulated one at a time from zero, with the sum grouped to the right. -/
theorem add3_assoc_right (a b c : EReal) : ((0 + a) + b) + c = a + (b + c) := by
  rw [zero_add, add_assoc]

/-- Three summands accumulated one at a time from zero are their plain sum. -/
theorem add3_zero (a b c : EReal) : ((0 + a) + b) + c = a + b + c := by
  rw [zero_add]

end Cert.Gcn

end
-- ==== Proof.RefRead.lean ====
/-
  The reference network's per-feature stages read at an index.

  A per-feature row b (64 or 32 entries) repeated over the 100000 nodes has b's entry q at every (r, q); adding
  it to an array adds b's entry q to entry (r, q). The sum over the nodes of a [100000, 64] array, started
  from the zero word, is at feature q the finite sum over r of the entries (r, q): the initial value is the
  extended real 0, and the index the reduction inserts at position r of column q is (r, q). The mean is that
  sum divided by the word of 100000. The variance is guarded by the comparison (100000 - ddof) > 0 of scalars;
  with ddof the integer word 0 the count is 100000 - 0 = 100000, the comparison holds, and the variance at
  feature q is the sum over r of the squared deviations of the entries (r, q) from the column's mean, divided
  by the same word. Batch normalisation followed by max with 0 is then, at (r, q),
  max (((y (r, q) - mean q) * rsqrt (var q + eps)) * g q + be q) 0, every quantity an extended real and no
  sum regrouped.
-/
import proofs.«173470_j52209622450441_2_alg».proof.Proof.RefSpec
import proofs.«173470_j52209622450441_2_alg».proof.Proof.LibReal
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.RefRead

open Idealize.ShloMosaic Cert.ReferenceIdeal Cert.ReferenceIdeal.Facts₀ ValueIdx

variable [Cert.ReferenceIdeal.Facts₀]

/-- A vector of n entries laid out as the one row of a [1, n] matrix, read at (0, q): entry q. -/
theorem vecAsRow_apply {α : Type} {n : Nat} (h : (⟨1, ![n]⟩ : Shape).BroadcastsInDim ⟨2, ![1, n]⟩ ![1])
    (x : (⟨1, ![n]⟩ : Shape).Idx → α) (z : Fin 1) (q : Fin n) :
    broadcastInDim ⟨2, ![1, n]⟩ ![1] h x (ix2 z q) = x (ix1 q) := by
  refine broadcastInDim_apply ![1] h x (ix2 z q) (ix1 q) ?_
  intro a
  fin_cases a
  show q.val = if n = 1 then 0 else q.val
  split_ifs with hn
  · have := q.isLt; omega
  · rfl

/-- A per-feature row repeated over the nodes, read at (r, q): the row's entry q. -/
theorem rows64_apply (b : FVec Ideal S64 .f32) (r : Fin 100000) (q : Fin 64) :
    RefSpec.rows64 (F := Ideal) b (ix2 r q) = b (ix1 q) := by
  unfold RefSpec.rows64
  refine (broadcastInDim_oneRow_apply bcast_S1x64_S100000x64_0_1 _ r q).trans ?_
  exact vecAsRow_apply bcast_S64_S1x64_1 b 0 q

theorem rows32_apply (b : FVec Ideal S32 .f32) (r : Fin 100000) (q : Fin 32) :
    RefSpec.rows32 (F := Ideal) b (ix2 r q) = b (ix1 q) := by
  unfold RefSpec.rows32
  refine (broadcastInDim_oneRow_apply bcast_S1x32_S100000x32_0_1 _ r q).trans ?_
  exact vecAsRow_apply bcast_S32_S1x32_1 b 0 q

/-- Adding a repeated row: entry (r, q) gets the row's entry q. -/
theorem addrows64_apply (a : FVec Ideal S100000x64 .f32) (b : FVec Ideal S64 .f32) (r : Fin 100000) (q : Fin 64) :
    addf a (RefSpec.rows64 (F := Ideal) b) (ix2 r q) = a (ix2 r q) + b (ix1 q) := by
  rw [addf_apply, rows64_apply]

theorem addrows32_apply (a : FVec Ideal S100000x32 .f32) (b : FVec Ideal S32 .f32) (r : Fin 100000) (q : Fin 32) :
    addf a (RefSpec.rows32 (F := Ideal) b) (ix2 r q) = a (ix2 r q) + b (ix1 q) := by
  rw [addf_apply, rows32_apply]

/-- The sum over the nodes, per feature, read at feature q. -/
theorem colsum_apply (y : FVec Ideal S100000x64 .f32) (q : Fin 64) :
    RefSpec.colsum (F := Ideal) y (ix1 q) = ∑ r : Fin 100000, y (ix2 r q) := by
  have h : S100000x64.Reduces [0] S64 := by decide
  unfold RefSpec.colsum RefSpec.lit
  rw [hostReduceAdd_apply, Ideal.hostReduceAdd_single reducesTo_S100000x64_S64_d0 h, constant_apply,
    Ideal.ofBits_zero_f32, zero_add]
  show ∑ k : Fin 100000, y (h.lift (ix1 q) k) = _
  refine Finset.sum_congr rfl fun k _ => congrArg y ?_
  funext a
  fin_cases a <;> rfl

/-- The single-precision word 0x47C35000 denotes the real number 100000. -/
theorem ofBits_nodes : Ideal.ofBits .f32 0x47C35000#32 = ((100000 : ℝ) : EReal) := Cert.Gcn.ofBits_100000

/-- The float scalar with a given word, read at its one index. -/
theorem lit_apply (w : BitVec 32) (i : S_.Idx) : RefSpec.lit (F := Ideal) w i = Ideal.ofBits .f32 w := rfl

/-- The host's inverse square root at an index is the extended reals' inverse square root of the entry. -/
theorem hostRsqrt_apply {s : Shape} (x : FVec Ideal s .f32) (i : s.Idx) : Host.rsqrt x i = Ideal.rsqrt (x i) := rfl

/-- The mean over the nodes, per feature, read at feature q. -/
theorem mean_apply (y : FVec Ideal S100000x64 .f32) (q : Fin 64) :
    RefSpec.mean (F := Ideal) y (ix1 q)
      = Ideal.div (∑ r : Fin 100000, y (ix2 r q)) (Ideal.ofBits .f32 0x47C35000#32) := by
  unfold RefSpec.mean
  rw [hostDivf_apply, colsum_apply, broadcastInDim_scalar_apply, lit_apply]

/-- The 32-bit word 0 read as a signed integer and converted to a float is 0. -/
theorem sitofp_zero_word :
    (sitofp .f32 (constantI S_ 32 0#32) : FVec Ideal S_ .f32) ix0 = 0 := by
  show (((0#32 : BitVec 32).toInt : ℝ) : EReal) = 0
  rw [show (0#32 : BitVec 32).toInt = 0 from by decide, Int.cast_zero, EReal.coe_zero]

/-- The node count less zero removed degrees of freedom is the node count. -/
theorem count_apply :
    subf (RefSpec.lit (F := Ideal) 0x47C35000#32) (sitofp .f32 (constantI S_ 32 0#32)) ix0
      = Ideal.ofBits .f32 0x47C35000#32 := by
  rw [subf_apply, sitofp_zero_word, lit_apply, sub_zero]

/-- That count, 100000, is above zero. -/
theorem count_pos :
    cmpf (F := Ideal) .ogt (subf (F := Ideal) (RefSpec.lit (F := Ideal) 0x47C35000#32) (sitofp .f32 (constantI S_ 32 0#32)))
      (RefSpec.lit (F := Ideal) 0x00000000#32) ix0 = 1#1 := by
  rw [cmpf_apply, count_apply, lit_apply, Ideal.cmpf_def, ofBits_nodes, Ideal.ofBits_zero_f32]
  have h : (0 : EReal) < ((100000 : ℝ) : EReal) := by exact_mod_cast (by norm_num : (0 : ℝ) < 100000)
  show BitVec.ofBool (decide ((0 : EReal) < ((100000 : ℝ) : EReal))) = 1#1
  rw [decide_eq_true h]; rfl

/-- The column mean as the variance spells it (the sums as one row, divided, repeated over the nodes), read at (r, q). -/
theorem centre_apply (y : FVec Ideal S100000x64 .f32) (r : Fin 100000) (q : Fin 64) :
    (broadcastInDim S100000x64 ![0, 1] bcast_S1x64_S100000x64_0_1
        (Host.divf (F := Ideal) (broadcastInDim S1x64 ![1] bcast_S64_S1x64_1 (RefSpec.colsum (F := Ideal) y))
          (broadcastInDim S1x64 ![] bcast_S_S1x64 (RefSpec.lit (F := Ideal) 0x47C35000#32))) : FVec Ideal S100000x64 .f32) (ix2 r q)
      = Ideal.div (∑ r' : Fin 100000, y (ix2 r' q)) (Ideal.ofBits .f32 0x47C35000#32) := by
  refine (broadcastInDim_oneRow_apply bcast_S1x64_S100000x64_0_1 _ r q).trans ?_
  rw [hostDivf_apply, vecAsRow_apply, colsum_apply, broadcastInDim_scalar_apply, lit_apply]

/-- The variance over the nodes with no degree of freedom removed, per feature, read at feature q:
    the count 100000 - 0 is positive, so the guarded quotient is the quotient. -/
theorem var_apply (y : FVec Ideal S100000x64 .f32) (q : Fin 64) :
    RefSpec.var (F := Ideal) y (constantI S_ 32 0#32) (ix1 q)
      = Ideal.div (∑ r : Fin 100000,
            (y (ix2 r q) - Ideal.div (∑ r' : Fin 100000, y (ix2 r' q)) (Ideal.ofBits .f32 0x47C35000#32))
              * (y (ix2 r q) - Ideal.div (∑ r' : Fin 100000, y (ix2 r' q)) (Ideal.ofBits .f32 0x47C35000#32)))
          (Ideal.ofBits .f32 0x47C35000#32) := by
  unfold RefSpec.var
  rw [select_apply, broadcastInDim_scalar_apply, count_pos, select_one, hostDivf_apply, colsum_apply,
    broadcastInDim_scalar_apply, count_apply]
  refine congrArg (fun s => Ideal.div s (Ideal.ofBits .f32 0x47C35000#32)) (Finset.sum_congr rfl fun r _ => ?_)
  rw [mulf_apply, subf_apply]
  exact congrArg (fun c => (y (ix2 r q) - c) * (y (ix2 r q) - c)) (centre_apply y r q)

/-- Batch normalisation over the nodes then max with 0, read at (r, q): with M the column's mean and V its
    variance, max (((y (r, q) - M) * rsqrt (V + eps)) * g q + be q) 0. -/
theorem bnrelu_apply (y : FVec Ideal S100000x64 .f32) (g be : FVec Ideal S64 .f32) (r : Fin 100000) (q : Fin 64) :
    RefSpec.bnrelu (F := Ideal) y g be (ix2 r q)
      = max (((y (ix2 r q) - Ideal.div (∑ r' : Fin 100000, y (ix2 r' q)) (Ideal.ofBits .f32 0x47C35000#32))
            * Ideal.rsqrt (Ideal.div (∑ r' : Fin 100000,
                  (y (ix2 r' q) - Ideal.div (∑ r'' : Fin 100000, y (ix2 r'' q)) (Ideal.ofBits .f32 0x47C35000#32))
                    * (y (ix2 r' q) - Ideal.div (∑ r'' : Fin 100000, y (ix2 r'' q)) (Ideal.ofBits .f32 0x47C35000#32)))
                (Ideal.ofBits .f32 0x47C35000#32) + Ideal.ofBits .f32 0x3727C5AC#32))
            * g (ix1 q) + be (ix1 q)) (Ideal.ofBits .f32 0x00000000#32) := by
  unfold RefSpec.bnrelu
  simp only [maximumf_apply, addf_apply, mulf_apply, subf_apply, rows64_apply, mean_apply, hostRsqrt_apply,
    var_apply]
  rw [broadcastInDim_scalar_apply, lit_apply, broadcastInDim_scalar_apply, lit_apply]

/-- The same with the column's mean M and variance V as named quantities. -/
theorem bnrelu_apply_of (y : FVec Ideal S100000x64 .f32) (g be : FVec Ideal S64 .f32) (r : Fin 100000) (q : Fin 64)
    (M V : EReal)
    (hM : M = Ideal.div (∑ r' : Fin 100000, y (ix2 r' q)) (Ideal.ofBits .f32 0x47C35000#32))
    (hV : V = Ideal.div (∑ r' : Fin 100000, (y (ix2 r' q) - M) * (y (ix2 r' q) - M)) (Ideal.ofBits .f32 0x47C35000#32)) :
    RefSpec.bnrelu (F := Ideal) y g be (ix2 r q)
      = max (((y (ix2 r q) - M) * Ideal.rsqrt (V + Ideal.ofBits .f32 0x3727C5AC#32)) * g (ix1 q) + be (ix1 q))
          (Ideal.ofBits .f32 0x00000000#32) := by
  subst hM
  subst hV
  exact bnrelu_apply y g be r q

end Cert.RefRead

end
-- ==== Proof.RegionMatmulSum.lean ====
/- A matrix product, entry by entry, at the extended reals: a product into a zero accumulator, and the host's product.

   For dimension numbers that contract the left operand's columns against the right operand's rows (rows × inner
   times inner × columns, no batch axis), the product read at row `r` and column `q` is the sum over the inner
   coordinate `l` of `x r l * w l q`: the one-axis contraction index is its coordinate, the left operand's index at
   it is `(r, l)` and the right operand's is `(l, q)`. Any record with these six axis lists is `DotDims.plain`
   (its last field is a proposition), so the statement is made once for `DotDims.plain M K N`. -/
import Idealize.ShloMosaic.PureOps.Ideal.Laws
import Idealize.ShloMosaic.Lib.ValueIdx

noncomputable section

open scoped BigOperators

namespace Cert.KernelIdeal.RegionMatmul

open Idealize.ShloMosaic Idealize.ShloMosaic.ValueIdx

/-- The left operand's index at output `(r, q)` and inner coordinate `l` is `(r, l)`. -/
theorem plain_lhsIdx {M K N : Nat} (r : Fin M) (q : Fin N) (l : Fin K) :
    (DotDims.plain M K N).lhsIdx (ix2 r q) ((contrEquiv1 (DotDims.plain M K N) K rfl rfl).symm l) = ix2 r l := by
  have hk := contrEquiv1_symm_val (DotDims.plain M K N) K rfl rfl l
  funext a
  apply Fin.ext
  match a with
  | ⟨0, _⟩ => rfl
  | ⟨1, _⟩ => exact ((DotDims.plain M K N).lhsIdx_val_of_single rfl (ix2 r q) _).trans hk

/-- The right operand's index there is `(l, q)`. -/
theorem plain_rhsIdx {M K N : Nat} (r : Fin M) (q : Fin N) (l : Fin K) :
    (DotDims.plain M K N).rhsIdx (ix2 r q) ((contrEquiv1 (DotDims.plain M K N) K rfl rfl).symm l) = ix2 l q := by
  have hk := contrEquiv1_symm_val (DotDims.plain M K N) K rfl rfl l
  funext a
  apply Fin.ext
  match a with
  | ⟨0, _⟩ => exact ((DotDims.plain M K N).rhsIdx_val_of_single rfl (ix2 r q) _).trans hk
  | ⟨1, _⟩ => rfl

/-- The product into the zero accumulator at `(r, q)`: `∑ l, x (r, l) * w (l, q)`. -/
theorem matmul_zero_apply {M K N : Nat} (prec : Option ContractPrecision)
    (x : FVec Ideal (⟨2, ![M, K]⟩ : Shape) .f32) (w : FVec Ideal (⟨2, ![K, N]⟩ : Shape) .f32) (r : Fin M) (q : Fin N) :
    matmul (DotDims.plain M K N) prec x w (constant (⟨2, ![M, N]⟩ : Shape) .f32 0x00000000#32) (ix2 r q)
      = ∑ l : Fin K, x (ix2 r l) * w (ix2 l q) := by
  simp only [matmul]
  rw [Ideal.matmul_constant_zero_apply, ← Equiv.sum_comp (contrEquiv1 (DotDims.plain M K N) K rfl rfl).symm]
  refine Finset.sum_congr rfl fun l _ => ?_
  rw [plain_lhsIdx, plain_rhsIdx]

/-- The host's `dot_general` with the same dimension numbers is the same sum: it has no accumulator, and at the
    extended reals the order in which it adds does not matter. -/
theorem hostDot_apply {M K N : Nat} (prec : Option ContractPrecision)
    (x : FVec Ideal (⟨2, ![M, K]⟩ : Shape) .f32) (w : FVec Ideal (⟨2, ![K, N]⟩ : Shape) .f32) (r : Fin M) (q : Fin N) :
    Host.dotGeneral (F := Ideal) (DotDims.plain M K N) prec x w (ix2 r q) = ∑ l : Fin K, x (ix2 r l) * w (ix2 l q) := by
  simp only [Host.dotGeneral]
  rw [Ideal.dotGeneral_apply, ← Equiv.sum_comp (contrEquiv1 (DotDims.plain M K N) K rfl rfl).symm]
  refine Finset.sum_congr rfl fun l _ => ?_
  rw [plain_lhsIdx, plain_rhsIdx]

/-- The product of an `M × K` matrix and a `K × N` matrix as one function of the entry `(row, column)`. -/
def prod {M K N : Nat} (x : FVec Ideal (⟨2, ![M, K]⟩ : Shape) .f32) (w : FVec Ideal (⟨2, ![K, N]⟩ : Shape) .f32) :
    FVec Ideal (⟨2, ![M, N]⟩ : Shape) .f32 :=
  fun i => ∑ l : Fin K, x (ix2 (n0 := M) (i 0) l) * w (ix2 (n1 := N) l (i 1))

/-- Its entry at row `r` and column `q`. -/
theorem prod_apply {M K N : Nat} (x : FVec Ideal (⟨2, ![M, K]⟩ : Shape) .f32) (w : FVec Ideal (⟨2, ![K, N]⟩ : Shape) .f32)
    (r : Fin M) (q : Fin N) : prod x w (ix2 r q) = ∑ l : Fin K, x (ix2 r l) * w (ix2 l q) := rfl

/-- Two products agree at two entries when the row of the left factor and the column of the right factor that
    each entry reads agree, inner coordinate by inner coordinate (the factors and the entries may be of different
    extents: a block of rows against the whole matrix). -/
theorem prod_congr {M K N M' N' : Nat}
    (x : FVec Ideal (⟨2, ![M, K]⟩ : Shape) .f32) (w : FVec Ideal (⟨2, ![K, N]⟩ : Shape) .f32)
    (x' : FVec Ideal (⟨2, ![M', K]⟩ : Shape) .f32) (w' : FVec Ideal (⟨2, ![K, N']⟩ : Shape) .f32)
    (i : (⟨2, ![M, N]⟩ : Shape).Idx) (i' : (⟨2, ![M', N']⟩ : Shape).Idx)
    (hx : ∀ l : Fin K, x (ix2 (n0 := M) (i 0) l) = x' (ix2 (n0 := M') (i' 0) l))
    (hw : ∀ l : Fin K, w (ix2 (n1 := N) l (i 1)) = w' (ix2 (n1 := N') l (i' 1))) :
    prod x w i = prod x' w' i' :=
  Finset.sum_congr rfl fun l _ => by rw [hx l, hw l]

/-- The whole product into the zero accumulator is `prod`. -/
theorem matmul_zero_eq_prod {M K N : Nat} (prec : Option ContractPrecision)
    (x : FVec Ideal (⟨2, ![M, K]⟩ : Shape) .f32) (w : FVec Ideal (⟨2, ![K, N]⟩ : Shape) .f32) :
    matmul (DotDims.plain M K N) prec x w (constant (⟨2, ![M, N]⟩ : Shape) .f32 0x00000000#32) = prod x w := by
  funext y
  obtain ⟨p, q, rfl⟩ : ∃ (p : Fin M) (q : Fin N), y = ix2 p q := ⟨y 0, y 1, eq_ix2 y⟩
  exact matmul_zero_apply prec x w p q

/-- The offsets of a load or store of a whole rank-2 buffer are zero on both axes. -/
theorem zero_offsets : (![0, 0] : Fin 2 → Nat) = fun _ => 0 := funext fun a => by fin_cases a <;> rfl

end Cert.KernelIdeal.RegionMatmul

end
-- ==== Proof.RefDot.lean ====
/- The reference's three matrix products, entry by entry, at the extended reals.

   Each `dot_general` of the reference contracts the left operand's columns against the right operand's rows, with
   no batch axis, so its value at row `r` and column `q` is the sum over the inner coordinate `l` of
   `x (r, l) * w (l, q)` — the same sum the kernel's products into a zero accumulator give. -/
import proofs.«173470_j52209622450441_2_alg».proof.ReferenceIdeal
import proofs.«173470_j52209622450441_2_alg».proof.Proof.RegionMatmulSum

noncomputable section

open scoped BigOperators

namespace Cert.RefRead

open Cert.ReferenceIdeal Cert.ReferenceIdeal.Facts₀ Idealize.ShloMosaic Idealize.ShloMosaic.ValueIdx

variable [Cert.ReferenceIdeal.Facts₀]

/-- The features times the first layer's weights: [100000, 128] by [128, 64]. -/
theorem refdot_128_64 (x : FVec Ideal S100000x128 .f32) (w : FVec Ideal S128x64 .f32) (r : Fin 100000) (q : Fin 64) :
    Host.dotGeneral (F := Ideal) dot_S100000x128_S128x64_S100000x64_1_0_0_1_n_n none x w (ix2 r q)
      = ∑ l : Fin 128, x (ix2 r l) * w (ix2 l q) :=
  Cert.KernelIdeal.RegionMatmul.hostDot_apply (M := 100000) (K := 128) (N := 64) none x w r q

/-- The first layer's output times the second layer's weights: [100000, 64] by [64, 64]. -/
theorem refdot_64_64 (x : FVec Ideal S100000x64 .f32) (w : FVec Ideal S64x64 .f32) (r : Fin 100000) (q : Fin 64) :
    Host.dotGeneral (F := Ideal) dot_S100000x64_S64x64_S100000x64_1_0_0_1_n_n none x w (ix2 r q)
      = ∑ l : Fin 64, x (ix2 r l) * w (ix2 l q) :=
  Cert.KernelIdeal.RegionMatmul.hostDot_apply (M := 100000) (K := 64) (N := 64) none x w r q

/-- The second layer's output times a head's weights: [100000, 64] by [64, 32]. -/
theorem refdot_64_32 (x : FVec Ideal S100000x64 .f32) (w : FVec Ideal S64x32 .f32) (r : Fin 100000) (q : Fin 32) :
    Host.dotGeneral (F := Ideal) dot_S100000x64_S64x32_S100000x32_1_0_0_1_n_n none x w (ix2 r q)
      = ∑ l : Fin 64, x (ix2 r l) * w (ix2 l q) :=
  Cert.KernelIdeal.RegionMatmul.hostDot_apply (M := 100000) (K := 64) (N := 32) none x w r q

end Cert.RefRead

end
-- ==== Proof.Bridge.lean ====
/-
  From what the kernel's regions compute, index by index, to the reference's stages as whole arrays.

  A matmul region leaves at (r, q) the sum over l of x (r, l) · w (l, q): the host's dot_general of the same
  operands. A bias region leaves agg (r, q) + b q: the host's sum of agg with b repeated over the rows. The
  three regions of a normalised layer leave, per feature q, the sum s q over the rows of y (r, q) = agg (r, q) + b q,
  then with the mean M q = s q / N the sum of squares ss q of the deviations y (r, q) - M q, then with
  rstd q = rsqrt (ss q / N + eps) the array max (((y (r, q) - M q) · rstd q) · g q + be q) 0 — which is the
  reference's batch normalisation and relu of y, whose mean and variance are those same quotients
  (its variance divides by N - ddof with ddof = 0). Nothing is reassociated here beyond what the regions'
  own statements already say, so no finiteness is used.
-/
import proofs.«173470_j52209622450441_2_alg».proof.Proof.RefSpec
import proofs.«173470_j52209622450441_2_alg».proof.Proof.RefRead
import proofs.«173470_j52209622450441_2_alg».proof.Proof.RefDot
import Idealize.ShloMosaic.Lib.ValueIdx

noncomputable section

namespace Cert.Bridge

open Idealize.ShloMosaic Idealize.ShloMosaic.ValueIdx Cert.ReferenceIdeal Cert.ReferenceIdeal.Facts₀ Cert.RefSpec

variable [Facts₀]

/-- Two [N, 64] arrays that agree at every (r, q) are equal. -/
theorem ext64 (a b : FVec Ideal S100000x64 .f32) (h : ∀ (r : Fin 100000) (q : Fin 64), a (ix2 r q) = b (ix2 r q)) : a = b := by
  funext i
  obtain ⟨r, q, rfl⟩ : ∃ (r : Fin 100000) (q : Fin 64), i = ix2 r q := ⟨i 0, i 1, eq_ix2 i⟩
  exact h r q
/-- Two [N, 32] arrays that agree at every (r, q) are equal. -/
theorem ext32 (a b : FVec Ideal S100000x32 .f32) (h : ∀ (r : Fin 100000) (q : Fin 32), a (ix2 r q) = b (ix2 r q)) : a = b := by
  funext i
  obtain ⟨r, q, rfl⟩ : ∃ (r : Fin 100000) (q : Fin 32), i = ix2 r q := ⟨i 0, i 1, eq_ix2 i⟩
  exact h r q

/-- An array holding the row-by-column sums of products is the host's product of the two matrices. -/
theorem matmul_128_64 (x : FVec Ideal S100000x128 .f32) (w : FVec Ideal S128x64 .f32) (out : FVec Ideal S100000x64 .f32)
    (h : ∀ (r : Fin 100000) (q : Fin 64), out (ix2 r q) = ∑ l : Fin 128, x (ix2 r l) * w (ix2 l q)) :
    out = Host.dotGeneral (F := Ideal) dot_S100000x128_S128x64_S100000x64_1_0_0_1_n_n none x w :=
  ext64 _ _ fun r q => (h r q).trans (Cert.RefRead.refdot_128_64 x w r q).symm
theorem matmul_64_64 (x : FVec Ideal S100000x64 .f32) (w : FVec Ideal S64x64 .f32) (out : FVec Ideal S100000x64 .f32)
    (h : ∀ (r : Fin 100000) (q : Fin 64), out (ix2 r q) = ∑ l : Fin 64, x (ix2 r l) * w (ix2 l q)) :
    out = Host.dotGeneral (F := Ideal) dot_S100000x64_S64x64_S100000x64_1_0_0_1_n_n none x w :=
  ext64 _ _ fun r q => (h r q).trans (Cert.RefRead.refdot_64_64 x w r q).symm
theorem matmul_64_32 (x : FVec Ideal S100000x64 .f32) (w : FVec Ideal S64x32 .f32) (out : FVec Ideal S100000x32 .f32)
    (h : ∀ (r : Fin 100000) (q : Fin 32), out (ix2 r q) = ∑ l : Fin 64, x (ix2 r l) * w (ix2 l q)) :
    out = Host.dotGeneral (F := Ideal) dot_S100000x64_S64x32_S100000x32_1_0_0_1_n_n none x w :=
  ext32 _ _ fun r q => (h r q).trans (Cert.RefRead.refdot_64_32 x w r q).symm

/-- An array holding agg (r, q) + b q is the host's sum of agg with b repeated over the rows. -/
theorem bias_32 (agg : FVec Ideal S100000x32 .f32) (b : FVec Ideal S32 .f32) (b' : FVec Ideal S1x32 .f32)
    (hb : ∀ q : Fin 32, b' (ix2 (0 : Fin 1) q) = b (ix1 q)) (out : FVec Ideal S100000x32 .f32)
    (h : ∀ (r : Fin 100000) (q : Fin 32), out (ix2 r q) = agg (ix2 r q) + b' (ix2 (0 : Fin 1) q)) :
    out = addf agg (rows32 (F := Ideal) b) :=
  ext32 _ _ fun r q => by rw [h r q, hb q, Cert.RefRead.addrows32_apply]

/-- The three regions of a normalised layer against the reference's batch normalisation and relu. -/
theorem layer_64 (agg : FVec Ideal S100000x64 .f32) (b g be : FVec Ideal S64 .f32) (b' g' be' s M ss rstd : FVec Ideal S1x64 .f32)
    (hb : ∀ q : Fin 64, b' (ix2 (0 : Fin 1) q) = b (ix1 q))
    (hg : ∀ q : Fin 64, g' (ix2 (0 : Fin 1) q) = g (ix1 q))
    (hbe : ∀ q : Fin 64, be' (ix2 (0 : Fin 1) q) = be (ix1 q))
    (hs : ∀ q : Fin 64, s (ix2 (0 : Fin 1) q) = ∑ r : Fin 100000, (agg (ix2 r q) + b' (ix2 (0 : Fin 1) q)))
    (hM : ∀ q : Fin 64, M (ix2 (0 : Fin 1) q) = Ideal.div (s (ix2 (0 : Fin 1) q)) (Ideal.ofBits .f32 0x47C35000#32))
    (hss : ∀ q : Fin 64, ss (ix2 (0 : Fin 1) q)
      = ∑ r : Fin 100000, (agg (ix2 r q) + b' (ix2 (0 : Fin 1) q) - M (ix2 (0 : Fin 1) q)) * (agg (ix2 r q) + b' (ix2 (0 : Fin 1) q) - M (ix2 (0 : Fin 1) q)))
    (hrstd : ∀ q : Fin 64, rstd (ix2 (0 : Fin 1) q)
      = Ideal.rsqrt (Ideal.div (ss (ix2 (0 : Fin 1) q)) (Ideal.ofBits .f32 0x47C35000#32) + Ideal.ofBits .f32 0x3727C5AC#32))
    (out : FVec Ideal S100000x64 .f32)
    (hout : ∀ (r : Fin 100000) (q : Fin 64), out (ix2 r q)
      = max (((agg (ix2 r q) + b' (ix2 (0 : Fin 1) q)) - M (ix2 (0 : Fin 1) q)) * rstd (ix2 (0 : Fin 1) q) * g' (ix2 (0 : Fin 1) q) + be' (ix2 (0 : Fin 1) q))
          (Ideal.ofBits .f32 0x00000000#32)) :
    out = bnrelu (F := Ideal) (addf agg (rows64 (F := Ideal) b)) g be := by
  refine ext64 _ _ fun r q => ?_
  have hy : ∀ r' : Fin 100000, (addf agg (rows64 (F := Ideal) b)) (ix2 r' q) = agg (ix2 r' q) + b' (ix2 (0 : Fin 1) q) := fun r' => by
    rw [Cert.RefRead.addrows64_apply, hb q]
  rw [hout r q, Cert.RefRead.bnrelu_apply, hrstd q, hss q, hM q, hs q, hg q, hbe q]
  simp only [hy]

end Cert.Bridge

end
-- ==== Proof.RegionMatmul0.lean ====
/- Region 0: the first layer's features times its weights, a [100000, 128] matrix times a [128, 64] matrix.

   The grid has 20 points. Point `t` loads rows `5000 t … 5000 t + 4999` of the left matrix and the whole right
   matrix, multiplies them into a zero accumulator, and writes the [5000, 64] result back as rows
   `5000 t … 5000 t + 4999` of the output. Row `r` of the output is therefore written by point `r / 5000`, and
   the entry at `(r, q)` is `∑ l, x (r, l) * w (l, q)`: an entry of the product reads one row of the left matrix
   and one column of the right, and the block of rows holds that row at `r - 5000 t`. -/
import proofs.«173470_j52209622450441_2_alg».proof.Proof.Gen.KernelIdeal.Frame
import proofs.«173470_j52209622450441_2_alg».proof.Proof.RegionMatmulSum
import Idealize.ShloMosaic.Lib.Pipeline.Value
import Idealize.ShloMosaic.Lib.ValueIdx

set_option maxRecDepth 16384

noncomputable section

open scoped BigOperators

namespace Cert.KernelIdeal.RegionMatmul

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point `t`: the left matrix and the output move down by one block of rows per point, the
    right matrix stays (decided over the 20 points). -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores is the product of the two loaded blocks. -/
theorem payload0_eq (x0 : Vec Ideal S5000x128 .f32) (x1 : Vec Ideal S128x64 .f32) :
    k0_pay1 (F := Ideal) x0 x1 = prod (M := 5000) (K := 128) (N := 64) x0 x1 := by
  unfold k0_pay1
  exact matmul_zero_eq_prod (M := 5000) (K := 128) (N := 64) none x0 x1

/-- The left matrix's block at point `t` holds, at `y`, the matrix's entry in row `5000 t + y₀`, same column. -/
theorem rows0_apply (c : Dev nD) (t : Fin cfg0.N) (y : S5000x128.Idx) (k : S100000x128.Idx)
    (h0 : (k 0).val = t.val * 5000 + (y 0).val) (h1 : (k 1).val = (y 1).val) :
    (iblk0 V c 0 t : Vec Ideal S5000x128 .f32) y = (V c (Pipeline.arrRef spec0 0) : S100000x128.Idx → EReal) k := by
  obtain ⟨e0, e1, -, -, -, -⟩ := block_indices0 t
  unfold iblk0
  rw [View.read_apply]
  refine congrArg (V c (Pipeline.arrRef spec0 0)) ?_
  funext a
  apply Fin.ext
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- The right matrix's block at every point is the whole matrix. -/
theorem weights0_apply (c : Dev nD) (t : Fin cfg0.N) (y : S128x64.Idx) (k : S128x64.Idx)
    (h0 : (k 0).val = (y 0).val) (h1 : (k 1).val = (y 1).val) :
    (iblk0 V c 1 t : Vec Ideal S128x64 .f32) y = (V c (Pipeline.arrRef spec0 1) : S128x64.Idx → EReal) k := by
  obtain ⟨-, -, e2, e3, -, -⟩ := block_indices0 t
  unfold iblk0
  rw [View.read_apply]
  refine congrArg (V c (Pipeline.arrRef spec0 1)) ?_
  funext a
  apply Fin.ext
  match a with
  | ⟨0, _⟩ => show win0_1.index t (0 : Fin 2) * 128 + 1 * (y 0).val = (k 0).val; omega
  | ⟨1, _⟩ => show win0_1.index t (1 : Fin 2) * 64 + 1 * (y 1).val = (k 1).val; omega

/-- What point `t` writes back is its block of rows of the product of the two whole matrices. -/
theorem written0 (c : Dev nD) (t : Fin cfg0.N) :
    (dat0 (F := Ideal) V c).flushed 2 t = ((cfg0.win 2).blk t).view.read (Elt Ideal)
      (prod (M := 100000) (K := 128) (N := 64) (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  rw [payload0_eq]
  obtain ⟨-, -, -, -, e4, e5⟩ := block_indices0 t
  funext j
  rw [View.read_apply]
  show prod (M := 5000) (K := 128) (N := 64) (iblk0 V c 0 t) (iblk0 V c 1 t) ((cfg0.win 2).xinj (grid0.coords t) j) = _
  refine prod_congr _ _ _ _ _ _ (fun l => ?_) (fun l => ?_)
  · refine rows0_apply V c t _ _ ?_ ?_
    · show win0_2.index t (0 : Fin 2) * 5000 + 1 * (j 0).val = t.val * 5000 + (j 0).val; omega
    · rfl
  · refine weights0_apply V c t _ _ ?_ ?_
    · rfl
    · show win0_2.index t (1 : Fin 2) * 64 + 1 * (j 1).val = (j 1).val; omega

/-- An entry of the output lies in point `t`'s block iff each coordinate is in the block's range on its axis. -/
theorem mem_rows0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every entry of the output is written: row `r` by point `r / 5000`. -/
theorem rows_cover0 (i : S100000x64.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  obtain ⟨-, -, -, -, e4, e5⟩ := block_indices0 t
  have e4' : win0_2.index t (0 : Fin 2) = (i 0).val / 5000 := e4
  refine ⟨t, flush0_2 t, ?_⟩
  rw [mem_rows0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- So after the region the output array is the product of the two matrices as the region found them. -/
theorem product0 (c : Dev nD) :
    (dat0 (F := Ideal) V c).arrAt 2 cfg0.N
      = prod (M := 100000) (K := 128) (N := 64) (V c (Pipeline.arrRef spec0 0)) (V c (Pipeline.arrRef spec0 1)) :=
  (dat0 (F := Ideal) V c).arrAt_eq_of_cover 2 _ (fun t _ => written0 V c t) rows_cover0

/-- Entry by entry: the output at row `r` and column `q` is `∑ l, x (r, l) * w (l, q)`. -/
theorem mm0 (c : Dev nD) (x : FVec Ideal S100000x128 .f32) (w : FVec Ideal S128x64 .f32)
    (hx : V c (Pipeline.arrRef spec0 0) = x) (hw : V c (Pipeline.arrRef spec0 1) = w) (r : Fin 100000) (q : Fin 64) :
    (dat0 (F := Ideal) V c).arrAt 2 cfg0.N (ix2 r q) = ∑ l : Fin 128, x (ix2 r l) * w (ix2 l q) := by
  subst hx hw
  rw [product0]
  rfl

end Cert.KernelIdeal.RegionMatmul

end
-- ==== Proof.RegionSumsMath.lean ====
/-
  Column sums over 100000 rows taken block by block.

  The rows are numbered block by block: row t * 5000 + k is row k of block t, for 20 blocks of 5000 rows. A sum over
  all 100000 rows is the sum over the blocks of the sums inside each block; addition of extended reals is
  commutative and associative everywhere, so no entry needs to be finite. A running total that starts at the first
  block's sum and adds one block's sum per step is, after the last step, the sum over all blocks.

  One block's contribution, as the accumulating bodies compute it at column q: the carried entry plus the sum over
  the block's 5000 rows of the summand (a row entry plus the bias, or the square of a row entry plus the bias less
  the mean); the reduction's zero accumulator contributes nothing on the extended reals.
-/
import Mathlib.Data.EReal.Basic
import Mathlib.Algebra.BigOperators.Fin
import Mathlib.Tactic
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionSums

open Idealize.ShloMosaic Idealize.ShloMosaic.ValueIdx

/-- The zero offsets of a whole block, however they are spelt. -/
theorem hz : (![0, 0] : Fin 2 → Nat) = fun _ => 0 := funext fun a => by fin_cases a <;> rfl

/-! ## Rows numbered block by block -/

/-- Row `k` of block `t`, among all the rows. -/
def rowOf (t : Fin 20) (k : Fin 5000) : Fin 100000 :=
  ⟨t.val * 5000 + k.val, by have := t.isLt; have := k.isLt; omega⟩

theorem rowOf_val (t : Fin 20) (k : Fin 5000) : (rowOf t k).val = t.val * 5000 + k.val := rfl

/-- A sum over all rows is the sum over the blocks of the sums inside each block. -/
theorem sum_rows {M : Type*} [AddCommMonoid M] (f : Fin 100000 → M) :
    ∑ r : Fin 100000, f r = ∑ t : Fin 20, ∑ k : Fin 5000, f (rowOf t k) := by
  let e : Fin 20 × Fin 5000 ≃ Fin 100000 := finProdFinEquiv.trans (finCongr (by norm_num))
  rw [← Equiv.sum_comp e f, Fintype.sum_prod_type]
  refine Finset.sum_congr rfl fun t _ => Finset.sum_congr rfl fun k _ => congrArg f (Fin.ext ?_)
  show k.val + 5000 * t.val = t.val * 5000 + k.val
  omega

/-! ## The running total over the blocks -/

/-- Block `s`'s sum when `s` numbers a block, nothing otherwise. -/
def addend {M : Type*} [AddCommMonoid M] (T : Fin 20 → M) (s : ℕ) : M := if h : s < 20 then T ⟨s, h⟩ else 0

theorem addend_of_lt {M : Type*} [AddCommMonoid M] (T : Fin 20 → M) (s : ℕ) (h : s < 20) : addend T s = T ⟨s, h⟩ :=
  dif_pos h

/-- The running total after the last block is the sum over all blocks. -/
theorem sum_range_addend {M : Type*} [AddCommMonoid M] (T : Fin 20 → M) :
    ∑ s ∈ Finset.range 20, addend T s = ∑ t : Fin 20, T t := by
  rw [Finset.sum_range]
  exact Finset.sum_congr rfl fun t _ => addend_of_lt T t.val t.isLt

/-! ## One block's contribution, at a column -/

/-- Putting row `k` back into the reduced index `q` gives `(k, q)`. -/
theorem lift_rows (h : (⟨2, ![5000, 64]⟩ : Shape).Reduces [0] (⟨1, ![64]⟩ : Shape)) (q : Fin 64)
    (k : Fin ((⟨2, ![5000, 64]⟩ : Shape).size 0)) : h.lift (ix1 q) k = ix2 (⟨k.val, k.isLt⟩ : Fin 5000) q := by
  funext c; apply Fin.ext
  fin_cases c <;> rfl

/-- The column sum of a block over its 5000 rows, the zero accumulator dropped. -/
theorem colSum_apply (src : FVec Ideal ⟨2, ![5000, 64]⟩ .f32)
    (hr : (⟨2, ![5000, 64]⟩ : Shape).Reduces [0] (⟨1, ![64]⟩ : Shape)) (hφ : FKind.Formats .f32)
    (hacc : (0x00000000#32 : BitVec 32) = FKind.add.neutral .f32 hφ)
    (c61 : (⟨1, ![64]⟩ : Shape).ShapeCasts ⟨2, ![1, 64]⟩) (q : Fin 64) :
    shapeCast ⟨2, ![1, 64]⟩ (multiReduction .add [0] ⟨1, ![64]⟩ src 0x00000000#32 hr hφ hacc) c61 (ix2 (0 : Fin 1) q)
      = ∑ k : Fin 5000, src (ix2 k q) := by
  refine (shapeCast_a_1a_apply _ c61 (0 : Fin 1) q).trans ?_
  refine (Ideal.multiReduction_add_single src 0x00000000#32 hr hφ hacc (ix1 q)).trans ?_
  show ∑ k : Fin 5000, src (hr.lift (ix1 q) k) = _
  exact Finset.sum_congr rfl fun k _ => congrArg src (lift_rows hr q k)

/-- The zeroed block holds zero at every column. -/
theorem zeroBlock_apply (j : (⟨2, ![1, 64]⟩ : Shape).Idx) :
    (broadcast ⟨2, ![1, 64]⟩ (Scalar.ofBits (F := Ideal) .f32 0x00000000#32) : FVec Ideal ⟨2, ![1, 64]⟩ .f32) j = 0 :=
  Ideal.ofBits_zero_f32

/-- The summing body at column `q`: the carried entry plus the block's column sum of (row entry + bias). -/
theorem sumBody_apply (v3 v7 : FVec Ideal ⟨2, ![1, 64]⟩ .f32) (v5 : FVec Ideal ⟨2, ![5000, 64]⟩ .f32)
    (c11 : (⟨2, ![1, 64]⟩ : Shape).ShapeCasts ⟨2, ![1, 64]⟩)
    (c55 : (⟨2, ![5000, 64]⟩ : Shape).ShapeCasts ⟨2, ![5000, 64]⟩)
    (bc : (⟨2, ![1, 64]⟩ : Shape).Broadcasts ⟨2, ![5000, 64]⟩)
    (hr : (⟨2, ![5000, 64]⟩ : Shape).Reduces [0] (⟨1, ![64]⟩ : Shape)) (hφ : FKind.Formats .f32)
    (hacc : (0x00000000#32 : BitVec 32) = FKind.add.neutral .f32 hφ)
    (c61 : (⟨1, ![64]⟩ : Shape).ShapeCasts ⟨2, ![1, 64]⟩) (q : Fin 64) :
    (addf (shapeCast ⟨2, ![1, 64]⟩ v3 c11)
        (shapeCast ⟨2, ![1, 64]⟩
          (multiReduction .add [0] ⟨1, ![64]⟩
            (addf (shapeCast ⟨2, ![5000, 64]⟩ v5 c55) (broadcastTo ⟨2, ![5000, 64]⟩ (shapeCast ⟨2, ![1, 64]⟩ v7 c11) bc))
            0x00000000#32 hr hφ hacc) c61) : FVec Ideal ⟨2, ![1, 64]⟩ .f32) (ix2 (0 : Fin 1) q)
      = v3 (ix2 (0 : Fin 1) q) + ∑ k : Fin 5000, (v5 (ix2 k q) + v7 (ix2 (0 : Fin 1) q)) := by
  rw [shapeCast_self v3, shapeCast_self v5, shapeCast_self v7, addf_apply, colSum_apply]
  refine congrArg (fun z => v3 (ix2 (0 : Fin 1) q) + z) (Finset.sum_congr rfl fun k _ => ?_)
  rw [addf_apply, broadcastTo_1b_ab_apply]

/-- The squared-deviation body at column `q`: the carried entry plus the block's column sum of the squares of
    (row entry + bias − mean). -/
theorem sqBody_apply (v5 v9 v13 : FVec Ideal ⟨2, ![1, 64]⟩ .f32) (v3 : FVec Ideal ⟨2, ![5000, 64]⟩ .f32)
    (c11 : (⟨2, ![1, 64]⟩ : Shape).ShapeCasts ⟨2, ![1, 64]⟩)
    (c55 : (⟨2, ![5000, 64]⟩ : Shape).ShapeCasts ⟨2, ![5000, 64]⟩)
    (bc : (⟨2, ![1, 64]⟩ : Shape).Broadcasts ⟨2, ![5000, 64]⟩)
    (hr : (⟨2, ![5000, 64]⟩ : Shape).Reduces [0] (⟨1, ![64]⟩ : Shape)) (hφ : FKind.Formats .f32)
    (hacc : (0x00000000#32 : BitVec 32) = FKind.add.neutral .f32 hφ)
    (c61 : (⟨1, ![64]⟩ : Shape).ShapeCasts ⟨2, ![1, 64]⟩) (q : Fin 64) :
    (addf (shapeCast ⟨2, ![1, 64]⟩ v13 c11)
        (shapeCast ⟨2, ![1, 64]⟩
          (multiReduction .add [0] ⟨1, ![64]⟩
            (mulf
              (subf (addf (shapeCast ⟨2, ![5000, 64]⟩ v3 c55) (broadcastTo ⟨2, ![5000, 64]⟩ (shapeCast ⟨2, ![1, 64]⟩ v5 c11) bc))
                (broadcastTo ⟨2, ![5000, 64]⟩ (shapeCast ⟨2, ![1, 64]⟩ v9 c11) bc))
              (subf (addf (shapeCast ⟨2, ![5000, 64]⟩ v3 c55) (broadcastTo ⟨2, ![5000, 64]⟩ (shapeCast ⟨2, ![1, 64]⟩ v5 c11) bc))
                (broadcastTo ⟨2, ![5000, 64]⟩ (shapeCast ⟨2, ![1, 64]⟩ v9 c11) bc)))
            0x00000000#32 hr hφ hacc) c61) : FVec Ideal ⟨2, ![1, 64]⟩ .f32) (ix2 (0 : Fin 1) q)
      = v13 (ix2 (0 : Fin 1) q)
        + ∑ k : Fin 5000, ((v3 (ix2 k q) + v5 (ix2 (0 : Fin 1) q) - v9 (ix2 (0 : Fin 1) q))
            * (v3 (ix2 k q) + v5 (ix2 (0 : Fin 1) q) - v9 (ix2 (0 : Fin 1) q))) := by
  rw [shapeCast_self v3, shapeCast_self v5, shapeCast_self v9, shapeCast_self v13, addf_apply, colSum_apply]
  refine congrArg (fun z => v13 (ix2 (0 : Fin 1) q) + z) (Finset.sum_congr rfl fun k _ => ?_)
  rw [mulf_apply, subf_apply, addf_apply, broadcastTo_1b_ab_apply, broadcastTo_1b_ab_apply]

end Cert.KernelIdeal.RegionSums

end
-- ==== Proof.RegionSumsPay.lean ====
/-
  The accumulating bodies' stored values, read at a column on the extended reals.

  Each of the four accumulating bodies stores, at the first grid point, the zero block, and at every point the
  carried block plus the column sums of its 5000-row block of summands: row entry + bias for the two summing bodies,
  the square of (row entry + bias − mean) for the two squared-deviation bodies.
-/
import proofs.«173470_j52209622450441_2_alg».proof.Proof.Gen.KernelIdeal.Skeleton
import proofs.«173470_j52209622450441_2_alg».proof.Proof.RegionSumsMath

noncomputable section

open scoped BigOperators

namespace Cert.KernelIdeal.RegionSums

open Idealize.ShloMosaic Idealize.ShloMosaic.ValueIdx
open Cert.KernelIdeal Cert.KernelIdeal.Gen

/-! ## The zero block -/

theorem pay1_1_apply (j : S1x64.Idx) : k1_pay1 (F := Ideal) j = 0 := by
  unfold k1_pay1
  exact zeroBlock_apply j

theorem pay2_1_apply (j : S1x64.Idx) : k2_pay1 (F := Ideal) j = 0 := by
  unfold k2_pay1
  exact zeroBlock_apply j

theorem pay5_1_apply (j : S1x64.Idx) : k5_pay1 (F := Ideal) j = 0 := by
  unfold k5_pay1
  exact zeroBlock_apply j

theorem pay6_1_apply (j : S1x64.Idx) : k6_pay1 (F := Ideal) j = 0 := by
  unfold k6_pay1
  exact zeroBlock_apply j

/-! ## The carried block plus the block's column sums -/

theorem pay1_2_apply (v3 v7 : FVec Ideal S1x64 .f32) (v5 : FVec Ideal S5000x64 .f32) (q : Fin 64) :
    k1_pay2 (F := Ideal) v3 v5 v7 (ix2 (0 : Fin 1) q)
      = v3 (ix2 (0 : Fin 1) q) + ∑ k : Fin 5000, (v5 (ix2 k q) + v7 (ix2 (0 : Fin 1) q)) := by
  unfold k1_pay2
  exact sumBody_apply v3 v7 v5 _ _ _ _ _ _ _ q

theorem pay5_2_apply (v3 v7 : FVec Ideal S1x64 .f32) (v5 : FVec Ideal S5000x64 .f32) (q : Fin 64) :
    k5_pay2 (F := Ideal) v3 v5 v7 (ix2 (0 : Fin 1) q)
      = v3 (ix2 (0 : Fin 1) q) + ∑ k : Fin 5000, (v5 (ix2 k q) + v7 (ix2 (0 : Fin 1) q)) := by
  unfold k5_pay2
  exact sumBody_apply v3 v7 v5 _ _ _ _ _ _ _ q

theorem pay2_2_apply (v5 v9 v13 : FVec Ideal S1x64 .f32) (v3 : FVec Ideal S5000x64 .f32) (q : Fin 64) :
    k2_pay2 (F := Ideal) v3 v5 v9 v13 (ix2 (0 : Fin 1) q)
      = v13 (ix2 (0 : Fin 1) q)
        + ∑ k : Fin 5000, ((v3 (ix2 k q) + v5 (ix2 (0 : Fin 1) q) - v9 (ix2 (0 : Fin 1) q))
            * (v3 (ix2 k q) + v5 (ix2 (0 : Fin 1) q) - v9 (ix2 (0 : Fin 1) q))) := by
  unfold k2_pay2
  exact sqBody_apply v5 v9 v13 v3 _ _ _ _ _ _ _ q

theorem pay6_2_apply (v5 v9 v13 : FVec Ideal S1x64 .f32) (v3 : FVec Ideal S5000x64 .f32) (q : Fin 64) :
    k6_pay2 (F := Ideal) v3 v5 v9 v13 (ix2 (0 : Fin 1) q)
      = v13 (ix2 (0 : Fin 1) q)
        + ∑ k : Fin 5000, ((v3 (ix2 k q) + v5 (ix2 (0 : Fin 1) q) - v9 (ix2 (0 : Fin 1) q))
            * (v3 (ix2 k q) + v5 (ix2 (0 : Fin 1) q) - v9 (ix2 (0 : Fin 1) q))) := by
  unfold k6_pay2
  exact sqBody_apply v5 v9 v13 v3 _ _ _ _ _ _ _ q

end Cert.KernelIdeal.RegionSums

end
-- ==== Proof.RegionSums1.lean ====
/-
  Region 1: the column sums of (row entry + bias) over all 100000 rows.

  The output block [1,64] stays at block (0,0) for all 20 grid points. At the first point the body zeroes it and adds the
  column sums of the first 5000-row block; at each later point it adds the column sums of that point's block to what
  the point before left. So after point n the block holds, at column q, the sum over the blocks 0..n of their column
  sums, and after the last point the sum over all 20 blocks, which is the sum over all 100000 rows. Only the last point
  writes the block back, and the block is the whole [1,64] array.
-/
import proofs.«173470_j52209622450441_2_alg».proof.Proof.Gen.KernelIdeal.Frame
import proofs.«173470_j52209622450441_2_alg».proof.Proof.RegionSumsPay
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionSums

open Cert.KernelIdeal Cert.KernelIdeal.Gen

/-! ## What each case of the body leaves in the output block -/

section Pieces
variable {F : FTy → Type} [FloatOps F]

/-- At a later point the body leaves its one store's value: the carried block plus the block's column sums. -/
theorem piece1_B (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x0 : Vec F S5000x64 .f32) (x1 xo : Vec F S1x64 .f32) :
    out1_B_2 c i a1 h1 a2 h2 a3 h3 hc x0 x1 xo = k1_pay2 xo x0 x1 := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread, View.ld_unit_zero (S := S1x64) hz,
    View.ld_unit_zero (S := S5000x64) hz]

/-- At the first point the body stores the zero block, reads it back, and leaves the zero block plus the block's
    column sums. -/
theorem piece1_A (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x0 : Vec F S5000x64 .f32) (x1 : Vec F S1x64 .f32) :
    out1_A_2 c i a1 h1 a2 h2 a3 h3 hc x0 x1 = k1_pay2 k1_pay1 x0 x1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S1x64) hz,
    View.ld_unit_zero (S := S5000x64) hz]

variable (V : (c : Dev nD) → (b : Ref sig .tc) → Buf (Elt F) ((c : Thread nD τ).loc b)) (c : Dev nD)

/-- The output block after the first point. -/
theorem outsAt1_first (t : Fin cfg1.N) (h0 : t.val % 20 = 0) :
    outsAt1 V c t.val t.isLt = k1_pay2 k1_pay1 (iblk1 V c 0 t) (iblk1 V c 1 t) :=
  (outsAt1_A V c t h0).trans
    (piece1_A c (grid1.coords t) (ms1_0 t) (hs1_0 t) (ms1_1 t) (hs1_1 t) (ms1_2 t) (hs1_2 t) ((hcond1_0 t).mpr h0)
      (iblk1 V c 0 t) (iblk1 V c 1 t))

/-- The output block after a later point, from what the point before left. -/
theorem outsAt1_later (t : Fin cfg1.N) (h0 : ¬t.val % 20 = 0) :
    outsAt1 V c t.val t.isLt
      = k1_pay2 (outsAt1 V c (t.val - 1) (Nat.lt_of_le_of_lt (Nat.sub_le _ _) t.isLt)) (iblk1 V c 0 t) (iblk1 V c 1 t) :=
  (outsAt1_B V c t h0).trans
    (piece1_B c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)))

end Pieces

/-! ## The blocks of the two inputs, read off the arrays -/

section Reads
variable {F : FTy → Type} [FloatOps F]
variable (V : (c : Dev nD) → (b : Ref sig .tc) → Buf (Elt F) ((c : Thread nD τ).loc b)) (c : Dev nD)

/-- The printed index maps over the grid: the row window's block index is the point; the bias window stays at
    block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Row `k`, column `q` of the row window's block at point `t` is row `5000 t + k` of the array. -/
theorem iblk1_0_apply (agg : FVec F S100000x64 .f32) (hagg : V c (Pipeline.arrRef spec1 0) = agg)
    (t : Fin cfg1.N) (ht : t.val < 20) (k : Fin 5000) (q : Fin 64) :
    iblk1 V c 0 t (ix2 k q) = agg (ix2 (rowOf ⟨t.val, ht⟩ k) q) := by
  subst hagg
  obtain ⟨e0, e1, -, -⟩ := idx_facts1 t
  unfold iblk1
  rw [View.read_apply]
  show V c (Pipeline.arrRef spec1 0) (((cfg1.win 0).blk t).view.emb (ix2 k q)) = V c (Pipeline.arrRef spec1 0) (ix2 (rowOf ⟨t.val, ht⟩ k) q)
  refine congrArg (V c (Pipeline.arrRef spec1 0)) ?_
  funext a; apply Fin.ext
  match a with
  | ⟨0, _⟩ => show win1_0.index t (0 : Fin 2) * 5000 + 1 * k.val = t.val * 5000 + k.val; rw [e0]; omega
  | ⟨1, _⟩ => show win1_0.index t (1 : Fin 2) * 64 + 1 * q.val = q.val; rw [e1]; omega

/-- The bias window's block at any point is the bias array. -/
theorem iblk1_1_apply (b : FVec F S1x64 .f32) (hb : V c (Pipeline.arrRef spec1 1) = b)
    (t : Fin cfg1.N) (q : Fin 64) :
    iblk1 V c 1 t (ix2 (0 : Fin 1) q) = b (ix2 (0 : Fin 1) q) := by
  subst hb
  obtain ⟨-, -, e0, e1⟩ := idx_facts1 t
  unfold iblk1
  rw [View.read_apply]
  show V c (Pipeline.arrRef spec1 1) (((cfg1.win 1).blk t).view.emb (ix2 (0 : Fin 1) q)) = V c (Pipeline.arrRef spec1 1) (ix2 (0 : Fin 1) q)
  refine congrArg (V c (Pipeline.arrRef spec1 1)) ?_
  funext a; apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

end Reads

/-! ## The running total, on the extended reals -/

section Total
variable (V : (c : Dev nD) → (b : Ref sig .tc) → Buf (Elt Ideal) ((c : Thread nD τ).loc b)) (c : Dev nD)
variable (agg : FVec Ideal S100000x64 .f32) (hagg : V c (Pipeline.arrRef spec1 0) = agg)
variable (b : FVec Ideal S1x64 .f32) (hb : V c (Pipeline.arrRef spec1 1) = b)

/-- Block `t`'s column sum at column `q`. -/
def tile1 (q : Fin 64) (t : Fin 20) : EReal := ∑ k : Fin 5000, (agg (ix2 (rowOf t k) q) + b (ix2 (0 : Fin 1) q))

omit V c in
/-- The column sum of a point's blocks is block `t`'s column sum of the arrays, when the blocks read the arrays so. -/
theorem blockSum1 (x0 : FVec Ideal S5000x64 .f32) (x1 : FVec Ideal S1x64 .f32) (t : Fin 20) (q : Fin 64)
    (h0 : ∀ k : Fin 5000, x0 (ix2 k q) = agg (ix2 (rowOf t k) q))
    (h1 : x1 (ix2 (0 : Fin 1) q) = b (ix2 (0 : Fin 1) q)) :
    ∑ k : Fin 5000, (x0 (ix2 k q) + x1 (ix2 (0 : Fin 1) q)) = tile1 agg b q t :=
  Finset.sum_congr rfl fun k _ => by rw [h0 k, h1]

include hagg hb in
/-- After point `n` the output block holds, at column `q`, the column sums of the blocks `0..n`. -/
theorem outsAt1_eq (q : Fin 64) : ∀ (n : ℕ) (h : n < cfg1.N),
    (outsAt1 V c n h : FVec Ideal S1x64 .f32) (ix2 (0 : Fin 1) q) = ∑ s ∈ Finset.range (n + 1), addend (tile1 agg b q) s
  | 0, h => by
    have hN : cfg1.N = 20 := N_1
    refine (congrFun (outsAt1_first V c ⟨0, h⟩ (Nat.zero_mod 20)) (ix2 (0 : Fin 1) q)).trans ?_
    refine (pay1_2_apply (k1_pay1 (F := Ideal)) (iblk1 V c 1 ⟨0, h⟩) (iblk1 V c 0 ⟨0, h⟩) q).trans ?_
    rw [pay1_1_apply, zero_add, Finset.sum_range_one, addend_of_lt _ 0 (by omega)]
    exact blockSum1 agg b (iblk1 V c 0 ⟨0, h⟩) (iblk1 V c 1 ⟨0, h⟩) ⟨0, by omega⟩ q
      (fun k => iblk1_0_apply V c agg hagg ⟨0, h⟩ (by omega) k q) (iblk1_1_apply V c b hb ⟨0, h⟩ q)
  | n + 1, h => by
    have hN : cfg1.N = 20 := N_1
    have hB : ¬(⟨n + 1, h⟩ : Fin cfg1.N).val % 20 = 0 := by dsimp only; omega
    refine (congrFun (outsAt1_later V c ⟨n + 1, h⟩ hB) (ix2 (0 : Fin 1) q)).trans ?_
    refine (pay1_2_apply (outsAt1 V c n (Nat.lt_of_succ_lt h)) (iblk1 V c 1 ⟨n + 1, h⟩) (iblk1 V c 0 ⟨n + 1, h⟩) q).trans ?_
    rw [outsAt1_eq q n (Nat.lt_of_succ_lt h), Finset.sum_range_succ _ (n + 1), addend_of_lt _ (n + 1) (by omega)]
    exact congrArg (fun z => ∑ s ∈ Finset.range (n + 1), addend (tile1 agg b q) s + z)
      (blockSum1 agg b (iblk1 V c 0 ⟨n + 1, h⟩) (iblk1 V c 1 ⟨n + 1, h⟩) ⟨n + 1, by omega⟩ q
        (fun k => iblk1_0_apply V c agg hagg ⟨n + 1, h⟩ (by dsimp only; omega) k q) (iblk1_1_apply V c b hb ⟨n + 1, h⟩ q))

end Total

/-! ## The array after the run -/

section Final
variable {F : FTy → Type} [FloatOps F]
variable (V : (c : Dev nD) → (b : Ref sig .tc) → Buf (Elt F) ((c : Thread nD τ).loc b)) (c : Dev nD)

theorem lt_last1 : 19 < cfg1.N := by rw [show cfg1.N = 20 from N_1]; decide

/-- The last grid point, the one point that writes the output block back. -/
abbrev last1 : Fin cfg1.N := ⟨19, lt_last1⟩

/-- The one write-back writes what the last point left: block (0, 0) of the [1,64] array is the array. -/
theorem flushed1_eq (t : Fin cfg1.N) (hf : (cfg1.win 2).flush t = true) :
    (dat1 V c).flushed 2 t = ((cfg1.win 2).blk t).view.read (Elt F) (outsAt1 V c 19 lt_last1) := by
  have hN : cfg1.N = 20 := N_1
  have h3 : t.val = 19 := by have := (flush1_2 t).mp hf; have := t.isLt; omega
  obtain rfl : t = last1 := Fin.ext h3
  show (cfg1.win 2).cut (grid1.coords last1) ((dat1 V c).after 2 last1) = _
  rw [after1_2]
  have hz' : (fun a => win1_2.index last1 a * main_v47.ty.shape.size a) = fun _ => 0 := funext fun a => by fin_cases a <;> decide
  exact (Memref.read_access_unit_zero (Elt F) main_v47 hz' (fun a => by rw [congrFun hz' a]; simp) (outsAt1 V c 19 lt_last1)).symm

/-- So the output array ends holding what the last point left in the block. -/
theorem final1 : (dat1 V c).arrAt 2 cfg1.N = outsAt1 V c 19 lt_last1 :=
  (dat1 V c).arrAt_eq_of_cover 2 (outsAt1 V c 19 lt_last1) (flushed1_eq V c) fun i =>
    ⟨last1, (flush1_2 last1).mpr rfl, by
      show i ∈ ((View.whole main_v47).slice (win1_2.rect last1)).set
      rw [View.set_slice_whole, Rect.mem_set_unit]
      intro a
      have h0 : (i 0 : Nat) < 1 := (i 0).isLt
      have h1 : (i 1 : Nat) < 64 := (i 1).isLt
      match a with
      | ⟨0, _⟩ => show win1_2.index last1 0 * win1_2.size 0 ≤ (i 0 : Nat) ∧ (i 0 : Nat) < win1_2.index last1 0 * win1_2.size 0 + win1_2.xsize (grid1.coords last1) 0
                  rw [show win1_2.index last1 0 * win1_2.size 0 = 0 from by decide +kernel, show win1_2.xsize (grid1.coords last1) 0 = 1 from by decide +kernel]; omega
      | ⟨1, _⟩ => show win1_2.index last1 1 * win1_2.size 1 ≤ (i 1 : Nat) ∧ (i 1 : Nat) < win1_2.index last1 1 * win1_2.size 1 + win1_2.xsize (grid1.coords last1) 1
                  rw [show win1_2.index last1 1 * win1_2.size 1 = 0 from by decide +kernel, show win1_2.xsize (grid1.coords last1) 1 = 64 from by decide +kernel]; omega⟩

end Final

/-! ## The statement -/

/-- After region 1 the output array holds, at column `q`, the sum over all 100000 rows of (row entry + bias). -/
theorem sum1 (V : (c : Dev nD) → (b : Ref sig .tc) → Buf (Elt Ideal) ((c : Thread nD τ).loc b)) (c : Dev nD)
    (agg : FVec Ideal S100000x64 .f32) (hagg : V c (Pipeline.arrRef spec1 0) = agg)
    (b : FVec Ideal S1x64 .f32) (hb : V c (Pipeline.arrRef spec1 1) = b) (q : Fin 64) :
    (dat1 (F := Ideal) V c).arrAt 2 cfg1.N (ix2 (0 : Fin 1) q)
      = ∑ r : Fin 100000, (agg (ix2 r q) + b (ix2 (0 : Fin 1) q)) := by
  refine (congrFun (final1 V c) (ix2 (0 : Fin 1) q)).trans ?_
  refine (outsAt1_eq V c agg hagg b hb q 19 lt_last1).trans ?_
  rw [sum_range_addend]
  exact (sum_rows fun r => agg (ix2 r q) + b (ix2 (0 : Fin 1) q)).symm

end Cert.KernelIdeal.RegionSums

end
-- ==== Proof.RegionSums2.lean ====
/-
  Region 2: the column sums of the squared deviations (row entry + bias − mean)² over all 100000 rows.

  The output block [1,64] stays at block (0,0) for all 20 grid points. At the first point the body zeroes it and adds the
  column sums of the squared deviations of the first 5000-row block; at each later point it adds those of that point's
  block to what the point before left. So after point n the block holds, at column q, the sum over the blocks 0..n of
  their column sums, and after the last point the sum over all 20 blocks, which is the sum over all 100000 rows. Only
  the last point writes the block back, and the block is the whole [1,64] array.
-/
import proofs.«173470_j52209622450441_2_alg».proof.Proof.Gen.KernelIdeal.Frame
import proofs.«173470_j52209622450441_2_alg».proof.Proof.RegionSumsPay
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionSums

open Cert.KernelIdeal Cert.KernelIdeal.Gen

/-! ## What each case of the body leaves in the output block -/

section Pieces
variable {F : FTy → Type} [FloatOps F]

/-- At a later point the body leaves its one store's value: the carried block plus the block's column sums. -/
theorem piece2_B (c : Dev nD) (i : grid2.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : ¬cond2_0 i) (x0 : Vec F S5000x64 .f32) (x1 x2 xo : Vec F S1x64 .f32) :
    out2_B_3 c i a1 h1 a2 h2 a3 h3 a4 h4 hc x0 x1 x2 xo = k2_pay2 x0 x1 x2 xo := by
  unfold out2_B_3
  rw [View.read_writes_eq_canon _ _ _ (cover2_B_3 c i a1 h1 a2 h2 a3 h3 a4 h4 hc x0 x1 x2 xo)]
  unfold kernelRun2_B
  dsimp only
  sl_unfold_words
  rw [View.canon_unit_zero hz]
  simp only [View.readAt_eq_ld, h1.read_unread, h2.read_unread, h3.read_unread, h4.read_unread,
    View.ld_unit_zero (S := S1x64) hz, View.ld_unit_zero (S := S5000x64) hz]

/-- At the first point the body stores the zero block, reads it back, and leaves the zero block plus the block's
    column sums. -/
theorem piece2_A (c : Dev nD) (i : grid2.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : cond2_0 i) (x0 : Vec F S5000x64 .f32) (x1 x2 : Vec F S1x64 .f32) :
    out2_A_3 c i a1 h1 a2 h2 a3 h3 a4 h4 hc x0 x1 x2 = k2_pay2 x0 x1 x2 k2_pay1 := by
  unfold out2_A_3
  rw [View.read_writes_eq_canon _ _ _ (cover2_A_3 c i a1 h1 a2 h2 a3 h3 a4 h4 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S1x64) hz,
    View.ld_unit_zero (S := S5000x64) hz]

variable (V : (c : Dev nD) → (b : Ref sig .tc) → Buf (Elt F) ((c : Thread nD τ).loc b)) (c : Dev nD)

/-- The output block after the first point. -/
theorem outsAt2_first (t : Fin cfg2.N) (h0 : t.val % 20 = 0) :
    outsAt2 V c t.val t.isLt = k2_pay2 (iblk2 V c 0 t) (iblk2 V c 1 t) (iblk2 V c 2 t) k2_pay1 :=
  (outsAt2_A V c t h0).trans
    (piece2_A c (grid2.coords t) (ms2_0 t) (hs2_0 t) (ms2_1 t) (hs2_1 t) (ms2_2 t) (hs2_2 t) (ms2_3 t) (hs2_3 t)
      ((hcond2_0 t).mpr h0) (iblk2 V c 0 t) (iblk2 V c 1 t) (iblk2 V c 2 t))

/-- The output block after a later point, from what the point before left. -/
theorem outsAt2_later (t : Fin cfg2.N) (h0 : ¬t.val % 20 = 0) :
    outsAt2 V c t.val t.isLt
      = k2_pay2 (iblk2 V c 0 t) (iblk2 V c 1 t) (iblk2 V c 2 t)
          (outsAt2 V c (t.val - 1) (Nat.lt_of_le_of_lt (Nat.sub_le _ _) t.isLt)) :=
  (outsAt2_B V c t h0).trans
    (piece2_B c (grid2.coords t) (ms2_0 t) (hs2_0 t) (ms2_1 t) (hs2_1 t) (ms2_2 t) (hs2_2 t) (ms2_3 t) (hs2_3 t)
      (fun h => h0 ((hcond2_0 t).mp h)) (iblk2 V c 0 t) (iblk2 V c 1 t) (iblk2 V c 2 t)
      (outsAt2 V c (t.val - 1) (Nat.lt_of_le_of_lt (Nat.sub_le _ _) t.isLt)))

end Pieces

/-! ## The blocks of the three inputs, read off the arrays -/

section Reads
variable {F : FTy → Type} [FloatOps F]
variable (V : (c : Dev nD) → (b : Ref sig .tc) → Buf (Elt F) ((c : Thread nD τ).loc b)) (c : Dev nD)

/-- The printed index maps over the grid: the row window's block index is the point; the bias and mean windows stay
    at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Row `k`, column `q` of the row window's block at point `t` is row `5000 t + k` of the array. -/
theorem iblk2_0_apply (agg : FVec F S100000x64 .f32) (hagg : V c (Pipeline.arrRef spec2 0) = agg)
    (t : Fin cfg2.N) (ht : t.val < 20) (k : Fin 5000) (q : Fin 64) :
    iblk2 V c 0 t (ix2 k q) = agg (ix2 (rowOf ⟨t.val, ht⟩ k) q) := by
  subst hagg
  obtain ⟨e0, e1, -, -, -, -⟩ := idx_facts2 t
  unfold iblk2
  rw [View.read_apply]
  show V c (Pipeline.arrRef spec2 0) (((cfg2.win 0).blk t).view.emb (ix2 k q)) = V c (Pipeline.arrRef spec2 0) (ix2 (rowOf ⟨t.val, ht⟩ k) q)
  refine congrArg (V c (Pipeline.arrRef spec2 0)) ?_
  funext a; apply Fin.ext
  match a with
  | ⟨0, _⟩ => show win2_0.index t (0 : Fin 2) * 5000 + 1 * k.val = t.val * 5000 + k.val; rw [e0]; omega
  | ⟨1, _⟩ => show win2_0.index t (1 : Fin 2) * 64 + 1 * q.val = q.val; rw [e1]; omega

/-- The bias window's block at any point is the bias array. -/
theorem iblk2_1_apply (b : FVec F S1x64 .f32) (hb : V c (Pipeline.arrRef spec2 1) = b)
    (t : Fin cfg2.N) (q : Fin 64) :
    iblk2 V c 1 t (ix2 (0 : Fin 1) q) = b (ix2 (0 : Fin 1) q) := by
  subst hb
  obtain ⟨-, -, e0, e1, -, -⟩ := idx_facts2 t
  unfold iblk2
  rw [View.read_apply]
  show V c (Pipeline.arrRef spec2 1) (((cfg2.win 1).blk t).view.emb (ix2 (0 : Fin 1) q)) = V c (Pipeline.arrRef spec2 1) (ix2 (0 : Fin 1) q)
  refine congrArg (V c (Pipeline.arrRef spec2 1)) ?_
  funext a; apply Fin.ext
  match a with
  | ⟨0, _⟩ => show win2_1.index t (0 : Fin 2) * 1 + 1 * 0 = 0; rw [e0]
  | ⟨1, _⟩ => show win2_1.index t (1 : Fin 2) * 64 + 1 * q.val = q.val; rw [e1]; omega

/-- The mean window's block at any point is the mean array. -/
theorem iblk2_2_apply (mean : FVec F S1x64 .f32) (hmean : V c (Pipeline.arrRef spec2 2) = mean)
    (t : Fin cfg2.N) (q : Fin 64) :
    iblk2 V c 2 t (ix2 (0 : Fin 1) q) = mean (ix2 (0 : Fin 1) q) := by
  subst hmean
  obtain ⟨-, -, -, -, e0, e1⟩ := idx_facts2 t
  unfold iblk2
  rw [View.read_apply]
  show V c (Pipeline.arrRef spec2 2) (((cfg2.win 2).blk t).view.emb (ix2 (0 : Fin 1) q)) = V c (Pipeline.arrRef spec2 2) (ix2 (0 : Fin 1) q)
  refine congrArg (V c (Pipeline.arrRef spec2 2)) ?_
  funext a; apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

end Reads

/-! ## The running total, on the extended reals -/

section Total
variable (V : (c : Dev nD) → (b : Ref sig .tc) → Buf (Elt Ideal) ((c : Thread nD τ).loc b)) (c : Dev nD)
variable (agg : FVec Ideal S100000x64 .f32) (hagg : V c (Pipeline.arrRef spec2 0) = agg)
variable (b : FVec Ideal S1x64 .f32) (hb : V c (Pipeline.arrRef spec2 1) = b)
variable (mean : FVec Ideal S1x64 .f32) (hmean : V c (Pipeline.arrRef spec2 2) = mean)

/-- Block `t`'s column sum of squared deviations at column `q`. -/
def tile2 (q : Fin 64) (t : Fin 20) : EReal :=
  ∑ k : Fin 5000, ((agg (ix2 (rowOf t k) q) + b (ix2 (0 : Fin 1) q) - mean (ix2 (0 : Fin 1) q))
    * (agg (ix2 (rowOf t k) q) + b (ix2 (0 : Fin 1) q) - mean (ix2 (0 : Fin 1) q)))

omit V c in
/-- The column sum of a point's blocks is block `t`'s column sum of the arrays, when the blocks read the arrays so. -/
theorem blockSum2 (x0 : FVec Ideal S5000x64 .f32) (x1 x2 : FVec Ideal S1x64 .f32) (t : Fin 20) (q : Fin 64)
    (h0 : ∀ k : Fin 5000, x0 (ix2 k q) = agg (ix2 (rowOf t k) q))
    (h1 : x1 (ix2 (0 : Fin 1) q) = b (ix2 (0 : Fin 1) q))
    (h2 : x2 (ix2 (0 : Fin 1) q) = mean (ix2 (0 : Fin 1) q)) :
    ∑ k : Fin 5000, ((x0 (ix2 k q) + x1 (ix2 (0 : Fin 1) q) - x2 (ix2 (0 : Fin 1) q))
        * (x0 (ix2 k q) + x1 (ix2 (0 : Fin 1) q) - x2 (ix2 (0 : Fin 1) q)))
      = tile2 agg b mean q t :=
  Finset.sum_congr rfl fun k _ => by rw [h0 k, h1, h2]

include hagg hb hmean in
/-- After point `n` the output block holds, at column `q`, the column sums of the blocks `0..n`. -/
theorem outsAt2_eq (q : Fin 64) : ∀ (n : ℕ) (h : n < cfg2.N),
    (outsAt2 V c n h : FVec Ideal S1x64 .f32) (ix2 (0 : Fin 1) q) = ∑ s ∈ Finset.range (n + 1), addend (tile2 agg b mean q) s
  | 0, h => by
    have hN : cfg2.N = 20 := N_2
    refine (congrFun (outsAt2_first V c ⟨0, h⟩ (Nat.zero_mod 20)) (ix2 (0 : Fin 1) q)).trans ?_
    refine (pay2_2_apply (iblk2 V c 1 ⟨0, h⟩) (iblk2 V c 2 ⟨0, h⟩) (k2_pay1 (F := Ideal)) (iblk2 V c 0 ⟨0, h⟩) q).trans ?_
    rw [pay2_1_apply, zero_add, Finset.sum_range_one, addend_of_lt _ 0 (by omega)]
    exact blockSum2 agg b mean (iblk2 V c 0 ⟨0, h⟩) (iblk2 V c 1 ⟨0, h⟩) (iblk2 V c 2 ⟨0, h⟩) ⟨0, by omega⟩ q
      (fun k => iblk2_0_apply V c agg hagg ⟨0, h⟩ (by omega) k q) (iblk2_1_apply V c b hb ⟨0, h⟩ q)
      (iblk2_2_apply V c mean hmean ⟨0, h⟩ q)
  | n + 1, h => by
    have hN : cfg2.N = 20 := N_2
    have hB : ¬(⟨n + 1, h⟩ : Fin cfg2.N).val % 20 = 0 := by dsimp only; omega
    refine (congrFun (outsAt2_later V c ⟨n + 1, h⟩ hB) (ix2 (0 : Fin 1) q)).trans ?_
    refine (pay2_2_apply (iblk2 V c 1 ⟨n + 1, h⟩) (iblk2 V c 2 ⟨n + 1, h⟩) (outsAt2 V c n (Nat.lt_of_succ_lt h)) (iblk2 V c 0 ⟨n + 1, h⟩) q).trans ?_
    rw [outsAt2_eq q n (Nat.lt_of_succ_lt h), Finset.sum_range_succ _ (n + 1), addend_of_lt _ (n + 1) (by omega)]
    exact congrArg (fun z => ∑ s ∈ Finset.range (n + 1), addend (tile2 agg b mean q) s + z)
      (blockSum2 agg b mean (iblk2 V c 0 ⟨n + 1, h⟩) (iblk2 V c 1 ⟨n + 1, h⟩) (iblk2 V c 2 ⟨n + 1, h⟩) ⟨n + 1, by omega⟩ q
        (fun k => iblk2_0_apply V c agg hagg ⟨n + 1, h⟩ (by dsimp only; omega) k q) (iblk2_1_apply V c b hb ⟨n + 1, h⟩ q)
        (iblk2_2_apply V c mean hmean ⟨n + 1, h⟩ q))

end Total
/-! ## The array after the run -/

section Final
variable {F : FTy → Type} [FloatOps F]
variable (V : (c : Dev nD) → (b : Ref sig .tc) → Buf (Elt F) ((c : Thread nD τ).loc b)) (c : Dev nD)

theorem lt_last2 : 19 < cfg2.N := by rw [show cfg2.N = 20 from N_2]; decide

/-- The last grid point, the one point that writes the output block back. -/
abbrev last2 : Fin cfg2.N := ⟨19, lt_last2⟩

/-- The one write-back writes what the last point left: block (0, 0) of the [1,64] array is the array. -/
theorem flushed2_eq (t : Fin cfg2.N) (hf : (cfg2.win 3).flush t = true) :
    (dat2 V c).flushed 3 t = ((cfg2.win 3).blk t).view.read (Elt F) (outsAt2 V c 19 lt_last2) := by
  have hN : cfg2.N = 20 := N_2
  have h3 : t.val = 19 := by have := (flush2_3 t).mp hf; have := t.isLt; omega
  obtain rfl : t = last2 := Fin.ext h3
  show (cfg2.win 3).cut (grid2.coords last2) ((dat2 V c).after 3 last2) = _
  rw [after2_3]
  have hz' : (fun a => win2_3.index last2 a * main_v51.ty.shape.size a) = fun _ => 0 := funext fun a => by fin_cases a <;> decide
  exact (Memref.read_access_unit_zero (Elt F) main_v51 hz' (fun a => by rw [congrFun hz' a]; simp) (outsAt2 V c 19 lt_last2)).symm

/-- So the output array ends holding what the last point left in the block. -/
theorem final2 : (dat2 V c).arrAt 3 cfg2.N = outsAt2 V c 19 lt_last2 :=
  (dat2 V c).arrAt_eq_of_cover 3 (outsAt2 V c 19 lt_last2) (flushed2_eq V c) fun i =>
    ⟨last2, (flush2_3 last2).mpr rfl, by
      show i ∈ ((View.whole main_v51).slice (win2_3.rect last2)).set
      rw [View.set_slice_whole, Rect.mem_set_unit]
      intro a
      have h0 : (i 0 : Nat) < 1 := (i 0).isLt
      have h1 : (i 1 : Nat) < 64 := (i 1).isLt
      match a with
      | ⟨0, _⟩ => show win2_3.index last2 0 * win2_3.size 0 ≤ (i 0 : Nat) ∧ (i 0 : Nat) < win2_3.index last2 0 * win2_3.size 0 + win2_3.xsize (grid2.coords last2) 0
                  rw [show win2_3.index last2 0 * win2_3.size 0 = 0 from by decide +kernel, show win2_3.xsize (grid2.coords last2) 0 = 1 from by decide +kernel]; omega
      | ⟨1, _⟩ => show win2_3.index last2 1 * win2_3.size 1 ≤ (i 1 : Nat) ∧ (i 1 : Nat) < win2_3.index last2 1 * win2_3.size 1 + win2_3.xsize (grid2.coords last2) 1
                  rw [show win2_3.index last2 1 * win2_3.size 1 = 0 from by decide +kernel, show win2_3.xsize (grid2.coords last2) 1 = 64 from by decide +kernel]; omega⟩

end Final

/-! ## The statement -/

/-- After region 2 the output array holds, at column `q`, the sum over all 100000 rows of the squared deviation
    (row entry + bias − mean)². -/
theorem sq2 (V : (c : Dev nD) → (b : Ref sig .tc) → Buf (Elt Ideal) ((c : Thread nD τ).loc b)) (c : Dev nD)
    (agg : FVec Ideal S100000x64 .f32) (hagg : V c (Pipeline.arrRef spec2 0) = agg)
    (b : FVec Ideal S1x64 .f32) (hb : V c (Pipeline.arrRef spec2 1) = b)
    (mean : FVec Ideal S1x64 .f32) (hmean : V c (Pipeline.arrRef spec2 2) = mean) (q : Fin 64) :
    (dat2 (F := Ideal) V c).arrAt 3 cfg2.N (ix2 (0 : Fin 1) q)
      = ∑ r : Fin 100000, ((agg (ix2 r q) + b (ix2 (0 : Fin 1) q) - mean (ix2 (0 : Fin 1) q))
          * (agg (ix2 r q) + b (ix2 (0 : Fin 1) q) - mean (ix2 (0 : Fin 1) q))) := by
  refine (congrFun (final2 V c) (ix2 (0 : Fin 1) q)).trans ?_
  refine (outsAt2_eq V c agg hagg b hb mean hmean q 19 lt_last2).trans ?_
  rw [sum_range_addend]
  exact (sum_rows fun r => (agg (ix2 r q) + b (ix2 (0 : Fin 1) q) - mean (ix2 (0 : Fin 1) q))
    * (agg (ix2 r q) + b (ix2 (0 : Fin 1) q) - mean (ix2 (0 : Fin 1) q))).symm

end Cert.KernelIdeal.RegionSums

end
-- ==== Proof.RegionPointwiseMath.lean ====
/- The pointwise regions' mathematics, over literal shapes and with no program in sight.

   A row vector of shape [1, k] broadcast over the n rows of an [n, k] block reads, at (p, q), its one
   row at q.  Two bodies are built from that: the bias add  (p, q) ↦ x (p, q) + b (0, q),  and the
   normalisation followed by an affine map and a clamp at a constant z,
     (p, q) ↦ max ((((x (p, q) + b (0, q)) - mean (0, q)) * rstd (0, q)) * gamma (0, q) + beta (0, q)) z.
   `biasRows` and `normRows` are those two maps as whole-array functions of their operands; the
   payload lemmas say that the bodies' operation trees, read at an index, are the same expressions
   of the operands' entries.  Everything is an identity of extended reals read entry by entry: no
   algebraic law is used. -/
import Idealize.ShloMosaic.Lib.ValueLayout

noncomputable section

namespace Cert.KernelIdeal.RegionPointwise

open Idealize.ShloMosaic Idealize.ShloMosaic.ValueIdx

/-- Zero offsets on both axes, as the function the whole-buffer load and store lemmas expect. -/
theorem zero_offsets : (![0, 0] : Fin 2 → Nat) = fun _ => 0 := funext fun a => by fin_cases a <;> rfl

/-! ## The bias add -/

/-- Every row of `agg` with the one row of `b` added to it. -/
def biasRows {n k : Nat} (agg : FVec Ideal ⟨2, ![n, k]⟩ .f32) (b : FVec Ideal ⟨2, ![1, k]⟩ .f32) :
    FVec Ideal ⟨2, ![n, k]⟩ .f32 :=
  fun i => agg i + b (ix2 (0 : Fin 1) (i 1))

theorem biasRows_apply {n k : Nat} (agg : FVec Ideal ⟨2, ![n, k]⟩ .f32) (b : FVec Ideal ⟨2, ![1, k]⟩ .f32)
    (r : Fin n) (q : Fin k) : biasRows agg b (ix2 r q) = agg (ix2 r q) + b (ix2 (0 : Fin 1) q) := rfl

/-- The bias body's operation tree at (p, q): the block's entry plus the row's entry in column q. -/
theorem bias_payload {n k : Nat} (x : FVec Ideal ⟨2, ![n, k]⟩ .f32) (b : FVec Ideal ⟨2, ![1, k]⟩ .f32)
    (hx : (⟨2, ![n, k]⟩ : Shape).ShapeCasts ⟨2, ![n, k]⟩) (hr : (⟨2, ![1, k]⟩ : Shape).ShapeCasts ⟨2, ![1, k]⟩)
    (hb : (⟨2, ![1, k]⟩ : Shape).Broadcasts ⟨2, ![n, k]⟩) (p : Fin n) (q : Fin k) :
    addf (shapeCast ⟨2, ![n, k]⟩ x hx) (broadcastTo ⟨2, ![n, k]⟩ (shapeCast ⟨2, ![1, k]⟩ b hr) hb) (ix2 p q)
      = x (ix2 p q) + b (ix2 (0 : Fin 1) q) := by
  rw [addf_apply, broadcastTo_1b_ab_apply, shapeCast_self, shapeCast_self]

/-! ## Normalise, scale, shift, clamp -/

/-- Every row of `agg`: the bias row added, the mean row subtracted, times the reciprocal-deviation row,
    times the scale row, plus the shift row, clamped below at `z`. -/
def normRows {n k : Nat} (z : EReal) (agg : FVec Ideal ⟨2, ![n, k]⟩ .f32)
    (b mean rstd gamma beta : FVec Ideal ⟨2, ![1, k]⟩ .f32) : FVec Ideal ⟨2, ![n, k]⟩ .f32 :=
  fun i => max ((((agg i + b (ix2 (0 : Fin 1) (i 1))) - mean (ix2 (0 : Fin 1) (i 1))) * rstd (ix2 (0 : Fin 1) (i 1)))
      * gamma (ix2 (0 : Fin 1) (i 1)) + beta (ix2 (0 : Fin 1) (i 1))) z

theorem normRows_apply {n k : Nat} (z : EReal) (agg : FVec Ideal ⟨2, ![n, k]⟩ .f32)
    (b mean rstd gamma beta : FVec Ideal ⟨2, ![1, k]⟩ .f32) (r : Fin n) (q : Fin k) :
    normRows z agg b mean rstd gamma beta (ix2 r q)
      = max ((((agg (ix2 r q) + b (ix2 (0 : Fin 1) q)) - mean (ix2 (0 : Fin 1) q)) * rstd (ix2 (0 : Fin 1) q))
          * gamma (ix2 (0 : Fin 1) q) + beta (ix2 (0 : Fin 1) q)) z := rfl

/-- The normalising body's operation tree at (p, q). -/
theorem norm_payload {n k : Nat} (z : Ideal .f32) (x : FVec Ideal ⟨2, ![n, k]⟩ .f32)
    (b mean rstd gamma beta : FVec Ideal ⟨2, ![1, k]⟩ .f32)
    (hx : (⟨2, ![n, k]⟩ : Shape).ShapeCasts ⟨2, ![n, k]⟩) (hr : (⟨2, ![1, k]⟩ : Shape).ShapeCasts ⟨2, ![1, k]⟩)
    (hb : (⟨2, ![1, k]⟩ : Shape).Broadcasts ⟨2, ![n, k]⟩) (p : Fin n) (q : Fin k) :
    maximumf
        (addf
          (mulf
            (mulf
              (subf (addf (shapeCast ⟨2, ![n, k]⟩ x hx) (broadcastTo ⟨2, ![n, k]⟩ (shapeCast ⟨2, ![1, k]⟩ b hr) hb))
                (broadcastTo ⟨2, ![n, k]⟩ (shapeCast ⟨2, ![1, k]⟩ mean hr) hb))
              (broadcastTo ⟨2, ![n, k]⟩ (shapeCast ⟨2, ![1, k]⟩ rstd hr) hb))
            (broadcastTo ⟨2, ![n, k]⟩ (shapeCast ⟨2, ![1, k]⟩ gamma hr) hb))
          (broadcastTo ⟨2, ![n, k]⟩ (shapeCast ⟨2, ![1, k]⟩ beta hr) hb))
        (broadcast ⟨2, ![n, k]⟩ z) (ix2 p q)
      = max ((((x (ix2 p q) + b (ix2 (0 : Fin 1) q)) - mean (ix2 (0 : Fin 1) q)) * rstd (ix2 (0 : Fin 1) q))
          * gamma (ix2 (0 : Fin 1) q) + beta (ix2 (0 : Fin 1) q)) z := by
  rw [maximumf_apply, addf_apply, mulf_apply, mulf_apply, subf_apply, addf_apply, broadcast_apply]
  simp only [broadcastTo_1b_ab_apply, shapeCast_self]

/-! ## Rows and blocks -/

/-- Row `r` of an array cut into blocks of `s` rows lies in block `r / s`, at row `r % s` of it. -/
theorem row_in_block (s r : Nat) (hs : 0 < s) : (r / s) * s ≤ r ∧ r < (r / s) * s + s := by
  constructor
  · exact Nat.div_mul_le_self r s
  · have := Nat.lt_div_mul_add (a := r) hs
    omega

end Cert.KernelIdeal.RegionPointwise

end
-- ==== Proof.RegionPointwiseNorm3.lean ====
/- Region 3 (normalise, scale, shift and clamp at zero, layer one), read off its frame data at arbitrary
   region-entry contents.

   The region's grid has 20 points; point t stages rows 5000 t … 5000 t + 4999 of the [100000, 64]
   aggregate and the five whole [1, 64] rows (bias, mean, reciprocal deviation, scale, shift), computes
     max ((((x + b) - mean) * rstd) * gamma + beta) 0
   entry by entry with each row broadcast over the block's rows, and writes the block back to rows
   5000 t … 5000 t + 4999 of the output.  So the output array ends as `normRows` of the six operand
   arrays, and row r is written by point r / 5000. -/
import proofs.«173470_j52209622450441_2_alg».proof.Proof.Gen.KernelIdeal.Frame
import proofs.«173470_j52209622450441_2_alg».proof.Proof.RegionPointwiseMath
import Idealize.ShloMosaic.Lib.Pipeline.Value

noncomputable section

namespace Cert.KernelIdeal.RegionPointwise

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at (p, q) of the block, from the staged block and the five staged rows. -/
theorem pay3_apply (x0 : Vec Ideal S5000x64 .f32) (x1 x2 x3 x4 x5 : Vec Ideal S1x64 .f32) (p : Fin 5000) (q : Fin 64) :
    k3_pay1 (F := Ideal) x0 x1 x2 x3 x4 x5 (ix2 p q)
      = max ((((x0 (ix2 p q) + x1 (ix2 (0 : Fin 1) q)) - x2 (ix2 (0 : Fin 1) q)) * x3 (ix2 (0 : Fin 1) q))
          * x4 (ix2 (0 : Fin 1) q) + x5 (ix2 (0 : Fin 1) q)) (Ideal.ofBits .f32 0x00000000#32) := by
  unfold k3_pay1
  exact norm_payload (Scalar.ofBits (F := Ideal) .f32 0x00000000#32) x0 x1 x2 x3 x4 x5 _ _ _ p q

/-- The index maps over the grid: the aggregate's block moves with the output's, each row stays at block (0, 0),
    and the output's block at point t is (t, 0). -/
theorem index_facts3 : ∀ t : Fin cfg3.N,
    win3_0.index t (0 : Fin 2) = win3_6.index t (0 : Fin 2) ∧ win3_0.index t (1 : Fin 2) = win3_6.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! ## Where a staged entry sits in its array -/

/-- Entry (p, q) of the aggregate's block at point t sits in the aggregate where entry (p, q) of the output's block
    sits in the output. -/
theorem emb_agg3 (t : Fin cfg3.N) (p : Fin 5000) (q : Fin 64) :
    ((cfg3.win 0).blk t).view.emb (ix2 p q) = ((cfg3.win 6).blk t).view.emb (ix2 p q) := by
  obtain ⟨e0, e1, e2, e3, e4, e5, e6, e7, e8, e9, e10, e11, e12, e13⟩ := index_facts3 t
  funext a; apply Fin.ext
  match a with
  | ⟨0, _⟩ => show win3_0.index t (0 : Fin 2) * 5000 + 1 * p.val = win3_6.index t (0 : Fin 2) * 5000 + 1 * p.val; omega
  | ⟨1, _⟩ => show win3_0.index t (1 : Fin 2) * 64 + 1 * q.val = win3_6.index t (1 : Fin 2) * 64 + 1 * q.val; omega

/-- The bias row's staged block is the whole row: its entry in column q sits at (0, q), and q is also the
    column at which entry (p, q) of the output's block sits in the output array. -/
theorem emb_row3_1 (t : Fin cfg3.N) (p : Fin 5000) (q : Fin 64) :
    ((cfg3.win 1).blk t).view.emb (ix2 (0 : Fin 1) q)
      = ix2 (0 : Fin 1) ((((cfg3.win 6).blk t).view.emb (ix2 p q)) 1) := by
  obtain ⟨e0, e1, e2, e3, e4, e5, e6, e7, e8, e9, e10, e11, e12, e13⟩ := index_facts3 t
  funext a; apply Fin.ext
  match a with
  | ⟨0, _⟩ => show win3_1.index t (0 : Fin 2) * 1 + 1 * 0 = 0; omega
  | ⟨1, _⟩ => show win3_1.index t (1 : Fin 2) * 64 + 1 * q.val = win3_6.index t (1 : Fin 2) * 64 + 1 * q.val; omega

/-- The mean row's staged block is the whole row: its entry in column q sits at (0, q), and q is also the
    column at which entry (p, q) of the output's block sits in the output array. -/
theorem emb_row3_2 (t : Fin cfg3.N) (p : Fin 5000) (q : Fin 64) :
    ((cfg3.win 2).blk t).view.emb (ix2 (0 : Fin 1) q)
      = ix2 (0 : Fin 1) ((((cfg3.win 6).blk t).view.emb (ix2 p q)) 1) := by
  obtain ⟨e0, e1, e2, e3, e4, e5, e6, e7, e8, e9, e10, e11, e12, e13⟩ := index_facts3 t
  funext a; apply Fin.ext
  match a with
  | ⟨0, _⟩ => show win3_2.index t (0 : Fin 2) * 1 + 1 * 0 = 0; omega
  | ⟨1, _⟩ => show win3_2.index t (1 : Fin 2) * 64 + 1 * q.val = win3_6.index t (1 : Fin 2) * 64 + 1 * q.val; omega

/-- The reciprocal-deviation row's staged block is the whole row: its entry in column q sits at (0, q), and q is also the
    column at which entry (p, q) of the output's block sits in the output array. -/
theorem emb_row3_3 (t : Fin cfg3.N) (p : Fin 5000) (q : Fin 64) :
    ((cfg3.win 3).blk t).view.emb (ix2 (0 : Fin 1) q)
      = ix2 (0 : Fin 1) ((((cfg3.win 6).blk t).view.emb (ix2 p q)) 1) := by
  obtain ⟨e0, e1, e2, e3, e4, e5, e6, e7, e8, e9, e10, e11, e12, e13⟩ := index_facts3 t
  funext a; apply Fin.ext
  match a with
  | ⟨0, _⟩ => show win3_3.index t (0 : Fin 2) * 1 + 1 * 0 = 0; omega
  | ⟨1, _⟩ => show win3_3.index t (1 : Fin 2) * 64 + 1 * q.val = win3_6.index t (1 : Fin 2) * 64 + 1 * q.val; omega

/-- The scale row's staged block is the whole row: its entry in column q sits at (0, q), and q is also the
    column at which entry (p, q) of the output's block sits in the output array. -/
theorem emb_row3_4 (t : Fin cfg3.N) (p : Fin 5000) (q : Fin 64) :
    ((cfg3.win 4).blk t).view.emb (ix2 (0 : Fin 1) q)
      = ix2 (0 : Fin 1) ((((cfg3.win 6).blk t).view.emb (ix2 p q)) 1) := by
  obtain ⟨e0, e1, e2, e3, e4, e5, e6, e7, e8, e9, e10, e11, e12, e13⟩ := index_facts3 t
  funext a; apply Fin.ext
  match a with
  | ⟨0, _⟩ => show win3_4.index t (0 : Fin 2) * 1 + 1 * 0 = 0; omega
  | ⟨1, _⟩ => show win3_4.index t (1 : Fin 2) * 64 + 1 * q.val = win3_6.index t (1 : Fin 2) * 64 + 1 * q.val; omega

/-- The shift row's staged block is the whole row: its entry in column q sits at (0, q), and q is also the
    column at which entry (p, q) of the output's block sits in the output array. -/
theorem emb_row3_5 (t : Fin cfg3.N) (p : Fin 5000) (q : Fin 64) :
    ((cfg3.win 5).blk t).view.emb (ix2 (0 : Fin 1) q)
      = ix2 (0 : Fin 1) ((((cfg3.win 6).blk t).view.emb (ix2 p q)) 1) := by
  obtain ⟨e0, e1, e2, e3, e4, e5, e6, e7, e8, e9, e10, e11, e12, e13⟩ := index_facts3 t
  funext a; apply Fin.ext
  match a with
  | ⟨0, _⟩ => show win3_5.index t (0 : Fin 2) * 1 + 1 * 0 = 0; omega
  | ⟨1, _⟩ => show win3_5.index t (1 : Fin 2) * 64 + 1 * q.val = win3_6.index t (1 : Fin 2) * 64 + 1 * q.val; omega

/-! ## The staged blocks as entries of the operand arrays -/

theorem read3_0 (c : Dev nD) (agg : FVec Ideal S100000x64 .f32) (hagg : V c (Pipeline.arrRef spec3 0) = agg)
    (t : Fin cfg3.N) (p : Fin 5000) (q : Fin 64) :
    iblk3 V c 0 t (ix2 p q) = agg (((cfg3.win 6).blk t).view.emb (ix2 p q)) := by
  show (V c (Pipeline.arrRef spec3 0) : FVec Ideal S100000x64 .f32) (((cfg3.win 0).blk t).view.emb (ix2 p q)) = _
  rw [hagg]
  exact congrArg agg (emb_agg3 t p q)

theorem read3_1 (c : Dev nD) (b : FVec Ideal S1x64 .f32) (hb : V c (Pipeline.arrRef spec3 1) = b)
    (t : Fin cfg3.N) (p : Fin 5000) (q : Fin 64) :
    iblk3 V c 1 t (ix2 (0 : Fin 1) q) = b (ix2 (0 : Fin 1) ((((cfg3.win 6).blk t).view.emb (ix2 p q)) 1)) := by
  show (V c (Pipeline.arrRef spec3 1) : FVec Ideal S1x64 .f32) (((cfg3.win 1).blk t).view.emb (ix2 (0 : Fin 1) q)) = _
  rw [hb]
  exact congrArg b (emb_row3_1 t p q)

theorem read3_2 (c : Dev nD) (mean : FVec Ideal S1x64 .f32) (hmean : V c (Pipeline.arrRef spec3 2) = mean)
    (t : Fin cfg3.N) (p : Fin 5000) (q : Fin 64) :
    iblk3 V c 2 t (ix2 (0 : Fin 1) q) = mean (ix2 (0 : Fin 1) ((((cfg3.win 6).blk t).view.emb (ix2 p q)) 1)) := by
  show (V c (Pipeline.arrRef spec3 2) : FVec Ideal S1x64 .f32) (((cfg3.win 2).blk t).view.emb (ix2 (0 : Fin 1) q)) = _
  rw [hmean]
  exact congrArg mean (emb_row3_2 t p q)

theorem read3_3 (c : Dev nD) (rstd : FVec Ideal S1x64 .f32) (hrstd : V c (Pipeline.arrRef spec3 3) = rstd)
    (t : Fin cfg3.N) (p : Fin 5000) (q : Fin 64) :
    iblk3 V c 3 t (ix2 (0 : Fin 1) q) = rstd (ix2 (0 : Fin 1) ((((cfg3.win 6).blk t).view.emb (ix2 p q)) 1)) := by
  show (V c (Pipeline.arrRef spec3 3) : FVec Ideal S1x64 .f32) (((cfg3.win 3).blk t).view.emb (ix2 (0 : Fin 1) q)) = _
  rw [hrstd]
  exact congrArg rstd (emb_row3_3 t p q)

theorem read3_4 (c : Dev nD) (gamma : FVec Ideal S1x64 .f32) (hgamma : V c (Pipeline.arrRef spec3 4) = gamma)
    (t : Fin cfg3.N) (p : Fin 5000) (q : Fin 64) :
    iblk3 V c 4 t (ix2 (0 : Fin 1) q) = gamma (ix2 (0 : Fin 1) ((((cfg3.win 6).blk t).view.emb (ix2 p q)) 1)) := by
  show (V c (Pipeline.arrRef spec3 4) : FVec Ideal S1x64 .f32) (((cfg3.win 4).blk t).view.emb (ix2 (0 : Fin 1) q)) = _
  rw [hgamma]
  exact congrArg gamma (emb_row3_4 t p q)

theorem read3_5 (c : Dev nD) (beta : FVec Ideal S1x64 .f32) (hbeta : V c (Pipeline.arrRef spec3 5) = beta)
    (t : Fin cfg3.N) (p : Fin 5000) (q : Fin 64) :
    iblk3 V c 5 t (ix2 (0 : Fin 1) q) = beta (ix2 (0 : Fin 1) ((((cfg3.win 6).blk t).view.emb (ix2 p q)) 1)) := by
  show (V c (Pipeline.arrRef spec3 5) : FVec Ideal S1x64 .f32) (((cfg3.win 5).blk t).view.emb (ix2 (0 : Fin 1) q)) = _
  rw [hbeta]
  exact congrArg beta (emb_row3_5 t p q)

/-! ## From blocks to the array -/

/-- What point t writes back is block t of `normRows` of the six operand arrays. -/
theorem flushed3_eq (c : Dev nD) (agg : FVec Ideal S100000x64 .f32) (b mean rstd gamma beta : FVec Ideal S1x64 .f32)
    (hagg : V c (Pipeline.arrRef spec3 0) = agg) (hb : V c (Pipeline.arrRef spec3 1) = b)
    (hmean : V c (Pipeline.arrRef spec3 2) = mean) (hrstd : V c (Pipeline.arrRef spec3 3) = rstd)
    (hgamma : V c (Pipeline.arrRef spec3 4) = gamma) (hbeta : V c (Pipeline.arrRef spec3 5) = beta) (t : Fin cfg3.N) :
    (dat3 V c).flushed 6 t = ((cfg3.win 6).blk t).view.read (Elt Ideal)
      (normRows (Ideal.ofBits .f32 0x00000000#32) agg b mean rstd gamma beta) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, @eq_ix2 5000 64 j⟩
  show k3_pay1 (iblk3 V c 0 t) (iblk3 V c 1 t) (iblk3 V c 2 t) (iblk3 V c 3 t) (iblk3 V c 4 t) (iblk3 V c 5 t) (ix2 p q)
    = normRows (Ideal.ofBits .f32 0x00000000#32) agg b mean rstd gamma beta (((cfg3.win 6).blk t).view.emb (ix2 p q))
  refine (pay3_apply (iblk3 V c 0 t) (iblk3 V c 1 t) (iblk3 V c 2 t) (iblk3 V c 3 t) (iblk3 V c 4 t) (iblk3 V c 5 t) p q).trans ?_
  rw [read3_0 V c agg hagg t p q, read3_1 V c b hb t p q, read3_2 V c mean hmean t p q,
    read3_3 V c rstd hrstd t p q, read3_4 V c gamma hgamma t p q, read3_5 V c beta hbeta t p q]
  rfl

/-- An index of the output array is in point t's block iff each coordinate is in the block's range on its axis. -/
theorem mem_block3 (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v60).slice (win3_6.rect t)).set ↔ _
  rw [View.set_slice_whole, Rect.mem_set_unit]
  exact Iff.rfl

/-- Every index of the output array is in the block of the point its row falls to. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5, e6, e7, e8, e9, e10, e11, e12, e13⟩ := index_facts3 t
  refine ⟨t, flush3_6 t, ?_⟩
  rw [mem_block3]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 64 ≤ (i 1).val ∧ (i 1).val < win3_6.index t (1 : Fin 2) * 64 + 64
    omega

/-- The output array after the region's last point is `normRows` of the six operand arrays as the region found them. -/
theorem final3 (c : Dev nD) (agg : FVec Ideal S100000x64 .f32) (b mean rstd gamma beta : FVec Ideal S1x64 .f32)
    (hagg : V c (Pipeline.arrRef spec3 0) = agg) (hb : V c (Pipeline.arrRef spec3 1) = b)
    (hmean : V c (Pipeline.arrRef spec3 2) = mean) (hrstd : V c (Pipeline.arrRef spec3 3) = rstd)
    (hgamma : V c (Pipeline.arrRef spec3 4) = gamma) (hbeta : V c (Pipeline.arrRef spec3 5) = beta) :
    (dat3 V c).arrAt 6 cfg3.N = normRows (Ideal.ofBits .f32 0x00000000#32) agg b mean rstd gamma beta :=
  (dat3 V c).arrAt_eq_of_cover 6 (normRows (Ideal.ofBits .f32 0x00000000#32) agg b mean rstd gamma beta)
    (fun t _ => flushed3_eq V c agg b mean rstd gamma beta hagg hb hmean hrstd hgamma hbeta t) cover3

/-- Entry (r, q) of the output array after the region. -/
theorem norm3 (c : Dev nD) (agg : FVec Ideal S100000x64 .f32) (b mean rstd gamma beta : FVec Ideal S1x64 .f32)
    (hagg : V c (Pipeline.arrRef spec3 0) = agg) (hb : V c (Pipeline.arrRef spec3 1) = b)
    (hmean : V c (Pipeline.arrRef spec3 2) = mean) (hrstd : V c (Pipeline.arrRef spec3 3) = rstd)
    (hgamma : V c (Pipeline.arrRef spec3 4) = gamma) (hbeta : V c (Pipeline.arrRef spec3 5) = beta)
    (r : Fin 100000) (q : Fin 64) :
    (dat3 (F := Ideal) V c).arrAt 6 cfg3.N (ix2 r q)
      = max ((((agg (ix2 r q) + b (ix2 (0 : Fin 1) q)) - mean (ix2 (0 : Fin 1) q)) * rstd (ix2 (0 : Fin 1) q))
          * gamma (ix2 (0 : Fin 1) q) + beta (ix2 (0 : Fin 1) q)) (Ideal.ofBits .f32 0x00000000#32) :=
  (congrFun (final3 V c agg b mean rstd gamma beta hagg hb hmean hrstd hgamma hbeta) (ix2 r q)).trans
    (normRows_apply (Ideal.ofBits .f32 0x00000000#32) agg b mean rstd gamma beta r q)

end Cert.KernelIdeal.RegionPointwise

end
-- ==== Proof.RegionMatmul4.lean ====
/- Region 4: the first layer's output times the second layer's weights, a [100000, 64] matrix times a [64, 64] matrix.

   The grid has 20 points. Point `t` loads rows `5000 t … 5000 t + 4999` of the left matrix and the whole right
   matrix, multiplies them into a zero accumulator (after casting the row block to its own shape, which changes nothing), and writes the [5000, 64] result back as rows
   `5000 t … 5000 t + 4999` of the output. Row `r` of the output is therefore written by point `r / 5000`, and
   the entry at `(r, q)` is `∑ l, x (r, l) * w (l, q)`: an entry of the product reads one row of the left matrix
   and one column of the right, and the block of rows holds that row at `r - 5000 t`. -/
import proofs.«173470_j52209622450441_2_alg».proof.Proof.Gen.KernelIdeal.Frame
import proofs.«173470_j52209622450441_2_alg».proof.Proof.RegionMatmulSum
import Idealize.ShloMosaic.Lib.Pipeline.Value
import Idealize.ShloMosaic.Lib.ValueIdx

set_option maxRecDepth 16384

noncomputable section

open scoped BigOperators

namespace Cert.KernelIdeal.RegionMatmul

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point `t`: the left matrix and the output move down by one block of rows per point, the
    right matrix stays (decided over the 20 points). -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the body stores is the product of the two loaded blocks (the cast of the row block to its own shape is the identity). -/
theorem payload4_eq (x0 : Vec Ideal S5000x64 .f32) (x1 : Vec Ideal S64x64 .f32) :
    k4_pay1 (F := Ideal) x0 x1 = prod (M := 5000) (K := 64) (N := 64) x0 x1 := by
  unfold k4_pay1
  simp only [shapeCast_self]
  exact matmul_zero_eq_prod (M := 5000) (K := 64) (N := 64) none x0 x1

/-- The left matrix's block at point `t` holds, at `y`, the matrix's entry in row `5000 t + y₀`, same column. -/
theorem rows4_apply (c : Dev nD) (t : Fin cfg4.N) (y : S5000x64.Idx) (k : S100000x64.Idx)
    (h0 : (k 0).val = t.val * 5000 + (y 0).val) (h1 : (k 1).val = (y 1).val) :
    (iblk4 V c 0 t : Vec Ideal S5000x64 .f32) y = (V c (Pipeline.arrRef spec4 0) : S100000x64.Idx → EReal) k := by
  obtain ⟨e0, e1, -, -, -, -⟩ := block_indices4 t
  unfold iblk4
  rw [View.read_apply]
  refine congrArg (V c (Pipeline.arrRef spec4 0)) ?_
  funext a
  apply Fin.ext
  match a with
  | ⟨0, _⟩ => show win4_0.index t (0 : Fin 2) * 5000 + 1 * (y 0).val = (k 0).val; omega
  | ⟨1, _⟩ => show win4_0.index t (1 : Fin 2) * 64 + 1 * (y 1).val = (k 1).val; omega

/-- The right matrix's block at every point is the whole matrix. -/
theorem weights4_apply (c : Dev nD) (t : Fin cfg4.N) (y : S64x64.Idx) (k : S64x64.Idx)
    (h0 : (k 0).val = (y 0).val) (h1 : (k 1).val = (y 1).val) :
    (iblk4 V c 1 t : Vec Ideal S64x64 .f32) y = (V c (Pipeline.arrRef spec4 1) : S64x64.Idx → EReal) k := by
  obtain ⟨-, -, e2, e3, -, -⟩ := block_indices4 t
  unfold iblk4
  rw [View.read_apply]
  refine congrArg (V c (Pipeline.arrRef spec4 1)) ?_
  funext a
  apply Fin.ext
  match a with
  | ⟨0, _⟩ => show win4_1.index t (0 : Fin 2) * 64 + 1 * (y 0).val = (k 0).val; omega
  | ⟨1, _⟩ => show win4_1.index t (1 : Fin 2) * 64 + 1 * (y 1).val = (k 1).val; omega

/-- What point `t` writes back is its block of rows of the product of the two whole matrices. -/
theorem written4 (c : Dev nD) (t : Fin cfg4.N) :
    (dat4 (F := Ideal) V c).flushed 2 t = ((cfg4.win 2).blk t).view.read (Elt Ideal)
      (prod (M := 100000) (K := 64) (N := 64) (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64x64) zero_offsets]
  rw [payload4_eq]
  obtain ⟨-, -, -, -, e4, e5⟩ := block_indices4 t
  funext j
  rw [View.read_apply]
  show prod (M := 5000) (K := 64) (N := 64) (iblk4 V c 0 t) (iblk4 V c 1 t) ((cfg4.win 2).xinj (grid4.coords t) j) = _
  refine prod_congr _ _ _ _ _ _ (fun l => ?_) (fun l => ?_)
  · refine rows4_apply V c t _ _ ?_ ?_
    · show win4_2.index t (0 : Fin 2) * 5000 + 1 * (j 0).val = t.val * 5000 + (j 0).val; omega
    · rfl
  · refine weights4_apply V c t _ _ ?_ ?_
    · rfl
    · show win4_2.index t (1 : Fin 2) * 64 + 1 * (j 1).val = (j 1).val; omega

/-- An entry of the output lies in point `t`'s block iff each coordinate is in the block's range on its axis. -/
theorem mem_rows4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v61).slice (win4_2.rect t)).set ↔ _
  rw [View.set_slice_whole, Rect.mem_set_unit]
  exact Iff.rfl

/-- Every entry of the output is written: row `r` by point `r / 5000`. -/
theorem rows_cover4 (i : S100000x64.Idx) :
    ∃ t : Fin cfg4.N, (cfg4.win 2).flush t = true ∧ i ∈ ((cfg4.win 2).blk t).view.set := by
  have hN : cfg4.N = 20 := N_4
  have hi0 : (i 0).val < 100000 := (i 0).isLt
  have hi1 : (i 1).val < 64 := (i 1).isLt
  let t : Fin cfg4.N := ⟨(i 0).val / 5000, by rw [hN]; omega⟩
  obtain ⟨-, -, -, -, e4, e5⟩ := block_indices4 t
  have e4' : win4_2.index t (0 : Fin 2) = (i 0).val / 5000 := e4
  refine ⟨t, flush4_2 t, ?_⟩
  rw [mem_rows4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- So after the region the output array is the product of the two matrices as the region found them. -/
theorem product4 (c : Dev nD) :
    (dat4 (F := Ideal) V c).arrAt 2 cfg4.N
      = prod (M := 100000) (K := 64) (N := 64) (V c (Pipeline.arrRef spec4 0)) (V c (Pipeline.arrRef spec4 1)) :=
  (dat4 (F := Ideal) V c).arrAt_eq_of_cover 2 _ (fun t _ => written4 V c t) rows_cover4

/-- Entry by entry: the output at row `r` and column `q` is `∑ l, x (r, l) * w (l, q)`. -/
theorem mm4 (c : Dev nD) (x : FVec Ideal S100000x64 .f32) (w : FVec Ideal S64x64 .f32)
    (hx : V c (Pipeline.arrRef spec4 0) = x) (hw : V c (Pipeline.arrRef spec4 1) = w) (r : Fin 100000) (q : Fin 64) :
    (dat4 (F := Ideal) V c).arrAt 2 cfg4.N (ix2 r q) = ∑ l : Fin 64, x (ix2 r l) * w (ix2 l q) := by
  subst hx hw
  rw [product4]
  rfl

end Cert.KernelIdeal.RegionMatmul

end
-- ==== Proof.StretchSmall.lean ====
/-
  The small host stretches of the idealized kernel program, read over ANY entry contents `V`.

  Between the regions of a normalised layer the host does two small things. After the column sums it divides the
  row of sums by N = 100000 (the mean, per feature) and reshapes the layer's bias of 64 entries to a [1, 64] row.
  After the sums of squared deviations it divides that row by N, adds eps and takes the reciprocal square root (the
  reciprocal standard deviation, per feature), and reshapes the bias, the scale and the shift to [1, 64] rows. Each
  lemma says what one result buffer holds after the stretch, as a function of the buffers the stretch reads: the
  divisor and eps are scalars repeated over the row, so at feature q they are the words' values, and a reshape of
  a vector to a row keeps its entries.
-/
import proofs.«173470_j52209622450441_2_alg».proof.Proof.Gen.KernelIdeal.Launch
import proofs.«173470_j52209622450441_2_alg».proof.Proof.Gen.ReferenceIdeal
import proofs.«173470_j52209622450441_2_alg».proof.Proof.RefSpec
import Idealize.ShloMosaic.Lib.StableHlo.Run
import Idealize.ShloMosaic.Lib.ValueIdx

set_option maxRecDepth 16384

noncomputable section

namespace Cert.KernelIdeal.Stretch

open Idealize.ShloMosaic Idealize.ShloMosaic.TcCoe Idealize.SL.Sem Idealize.ShloMosaic.ValueIdx
open Cert.KernelIdeal Cert.KernelIdeal.Gen

variable (V : Valuation τ sig (Elt Ideal))

/-! ## The first layer: the mean, and the bias as a row -/

theorem ops2_mean (q : Fin 64) :
    (StableHlo.after hostOps2 V (Proc.devRef .tc main_v49) : FVec Ideal S1x64 .f32) (ix2 (0 : Fin 1) q)
      = Ideal.div ((V (Proc.devRef .tc main_v47) : FVec Ideal S1x64 .f32) (ix2 (0 : Fin 1) q)) (Ideal.ofBits .f32 0x47C35000#32) := by
  dsimp only [hostOps2]; after_results; rfl

theorem ops2_brow (b : FVec Ideal S64 .f32) (hb : V (Proc.devRef .tc main_arg3) = b) :
    StableHlo.after hostOps2 V (Proc.devRef .tc main_v50) = shapeCast S1x64 b Cert.KernelIdeal.Facts₀.shapeCasts_S64_S1x64 := by
  subst hb
  dsimp only [hostOps2]; after_results; rfl

/-! ## The first layer: the reciprocal standard deviation, and the bias, the scale and the shift as rows -/

theorem ops3_rstd (q : Fin 64) :
    (StableHlo.after hostOps3 V (Proc.devRef .tc main_v57) : FVec Ideal S1x64 .f32) (ix2 (0 : Fin 1) q)
      = Ideal.rsqrt (Ideal.div ((V (Proc.devRef .tc main_v51) : FVec Ideal S1x64 .f32) (ix2 (0 : Fin 1) q)) (Ideal.ofBits .f32 0x47C35000#32)
          + Ideal.ofBits .f32 0x3727C5AC#32) := by
  dsimp only [hostOps3]; after_results; rfl

theorem ops3_brow (b : FVec Ideal S64 .f32) (hb : V (Proc.devRef .tc main_arg3) = b) :
    StableHlo.after hostOps3 V (Proc.devRef .tc main_v54) = shapeCast S1x64 b Cert.KernelIdeal.Facts₀.shapeCasts_S64_S1x64 := by
  subst hb
  dsimp only [hostOps3]; after_results; rfl

theorem ops3_grow (b : FVec Ideal S64 .f32) (hb : V (Proc.devRef .tc main_arg4) = b) :
    StableHlo.after hostOps3 V (Proc.devRef .tc main_v58) = shapeCast S1x64 b Cert.KernelIdeal.Facts₀.shapeCasts_S64_S1x64 := by
  subst hb
  dsimp only [hostOps3]; after_results; rfl

theorem ops3_berow (b : FVec Ideal S64 .f32) (hb : V (Proc.devRef .tc main_arg5) = b) :
    StableHlo.after hostOps3 V (Proc.devRef .tc main_v59) = shapeCast S1x64 b Cert.KernelIdeal.Facts₀.shapeCasts_S64_S1x64 := by
  subst hb
  dsimp only [hostOps3]; after_results; rfl

/-! ## The second layer: the same two stretches -/

theorem ops6_mean (q : Fin 64) :
    (StableHlo.after hostOps6 V (Proc.devRef .tc main_v78) : FVec Ideal S1x64 .f32) (ix2 (0 : Fin 1) q)
      = Ideal.div ((V (Proc.devRef .tc main_v76) : FVec Ideal S1x64 .f32) (ix2 (0 : Fin 1) q)) (Ideal.ofBits .f32 0x47C35000#32) := by
  dsimp only [hostOps6]; after_results; rfl

theorem ops6_brow (b : FVec Ideal S64 .f32) (hb : V (Proc.devRef .tc main_arg7) = b) :
    StableHlo.after hostOps6 V (Proc.devRef .tc main_v79) = shapeCast S1x64 b Cert.KernelIdeal.Facts₀.shapeCasts_S64_S1x64 := by
  subst hb
  dsimp only [hostOps6]; after_results; rfl

theorem ops7_rstd (q : Fin 64) :
    (StableHlo.after hostOps7 V (Proc.devRef .tc main_v86) : FVec Ideal S1x64 .f32) (ix2 (0 : Fin 1) q)
      = Ideal.rsqrt (Ideal.div ((V (Proc.devRef .tc main_v80) : FVec Ideal S1x64 .f32) (ix2 (0 : Fin 1) q)) (Ideal.ofBits .f32 0x47C35000#32)
          + Ideal.ofBits .f32 0x3727C5AC#32) := by
  dsimp only [hostOps7]; after_results; rfl

theorem ops7_brow (b : FVec Ideal S64 .f32) (hb : V (Proc.devRef .tc main_arg7) = b) :
    StableHlo.after hostOps7 V (Proc.devRef .tc main_v83) = shapeCast S1x64 b Cert.KernelIdeal.Facts₀.shapeCasts_S64_S1x64 := by
  subst hb
  dsimp only [hostOps7]; after_results; rfl

theorem ops7_grow (b : FVec Ideal S64 .f32) (hb : V (Proc.devRef .tc main_arg8) = b) :
    StableHlo.after hostOps7 V (Proc.devRef .tc main_v87) = shapeCast S1x64 b Cert.KernelIdeal.Facts₀.shapeCasts_S64_S1x64 := by
  subst hb
  dsimp only [hostOps7]; after_results; rfl

theorem ops7_berow (b : FVec Ideal S64 .f32) (hb : V (Proc.devRef .tc main_arg9) = b) :
    StableHlo.after hostOps7 V (Proc.devRef .tc main_v88) = shapeCast S1x64 b Cert.KernelIdeal.Facts₀.shapeCasts_S64_S1x64 := by
  subst hb
  dsimp only [hostOps7]; after_results; rfl

end Cert.KernelIdeal.Stretch

end
-- ==== Proof.StretchAgg.lean ====
/-
  The aggregation stretches of the idealized kernel program, read over ANY entry contents `V`.

  After each matmul region the host gathers the rows of the region's result at the edges' sources (a
  negative index read from the end), multiplies each by its edge's weight repeated along the row, and
  scatter-adds the rows into the edges' destinations starting from zero: the reference specification's
  `agg64` (layers one and two) and `agg32` (the two heads) of the region's result. The same stretch
  reshapes the layer's bias to a one-row array for the next region. Each buffer is read twice: first as
  the specification's stage of the CONTENTS the stretch reads (the primed lemma: the fold over the stretch
  computed operation by operation, the rest by unfolding — the two programs' shapes and dimension records
  are the same literals), then with those contents given by hypotheses.
-/
import proofs.«173470_j52209622450441_2_alg».proof.Proof.Gen.KernelIdeal.Launch
import proofs.«173470_j52209622450441_2_alg».proof.Proof.Gen.ReferenceIdeal
import proofs.«173470_j52209622450441_2_alg».proof.Proof.RefSpec
import proofs.«173470_j52209622450441_2_alg».proof.Proof.RefRunForms
import Idealize.ShloMosaic.Lib.StableHlo.Run
import Idealize.ShloMosaic.Lib.ValueIdx

set_option maxRecDepth 16384

noncomputable section

namespace Cert.KernelIdeal.Stretch

open Idealize.ShloMosaic Idealize.ShloMosaic.TcCoe Idealize.SL.Sem Idealize.ShloMosaic.ValueIdx
open Cert.KernelIdeal Cert.KernelIdeal.Gen

variable (V : Valuation τ sig (Elt Ideal))

/-! ## After region 0: `hostOps1` -/

theorem ops1_agg' :
    StableHlo.after hostOps1 V (Proc.devRef .tc main_v45) = Cert.ReferenceIdeal.HandRun.aggOf64 (F := Ideal) (V (Proc.devRef .tc main_v3)) (V (Proc.devRef .tc main_v6)) (V (Proc.devRef .tc main_v31)) (V (Proc.devRef .tc main_v32)) := by
  simp only [hostOps1]; after_results_simp <;> rfl

theorem ops1_agg (ei : Cert.RefSpec.Arr Ideal Cert.ReferenceIdeal.S2x1600000 .i32) (h : Cert.RefSpec.Arr Ideal Cert.ReferenceIdeal.S100000x64 .f32)
    (h3 : V (Proc.devRef .tc main_v3) = Cert.RefSpec.src (F := Ideal) ei) (h6 : V (Proc.devRef .tc main_v6) = Cert.RefSpec.dst (F := Ideal) ei) (h31 : V (Proc.devRef .tc main_v31) = Cert.RefSpec.norm (F := Ideal) ei) (hh : V (Proc.devRef .tc main_v32) = h) :
    StableHlo.after hostOps1 V (Proc.devRef .tc main_v45) = Cert.RefSpec.agg64 (F := Ideal) ei h := by
  rw [ops1_agg' V, h3, h6, h31, hh]; exact (Cert.ReferenceIdeal.HandRun.agg64_eq ei h).symm

theorem ops1_brow' :
    StableHlo.after hostOps1 V (Proc.devRef .tc main_v46) = shapeCast S1x64 (V (Proc.devRef .tc main_arg3)) Cert.KernelIdeal.Facts₀.shapeCasts_S64_S1x64 := by
  simp only [hostOps1]; after_results_simp <;> rfl

theorem ops1_brow (b : FVec Ideal S64 .f32) (hb : V (Proc.devRef .tc main_arg3) = b) :
    StableHlo.after hostOps1 V (Proc.devRef .tc main_v46) = shapeCast S1x64 b Cert.KernelIdeal.Facts₀.shapeCasts_S64_S1x64 := by
  rw [ops1_brow' V, hb]

/-! ## After region 4: `hostOps5` -/

theorem ops5_agg' :
    StableHlo.after hostOps5 V (Proc.devRef .tc main_v74) = Cert.ReferenceIdeal.HandRun.aggOf64 (F := Ideal) (V (Proc.devRef .tc main_v3)) (V (Proc.devRef .tc main_v6)) (V (Proc.devRef .tc main_v31)) (V (Proc.devRef .tc main_v61)) := by
  simp only [hostOps5]; after_results_simp <;> rfl

theorem ops5_agg (ei : Cert.RefSpec.Arr Ideal Cert.ReferenceIdeal.S2x1600000 .i32) (h : Cert.RefSpec.Arr Ideal Cert.ReferenceIdeal.S100000x64 .f32)
    (h3 : V (Proc.devRef .tc main_v3) = Cert.RefSpec.src (F := Ideal) ei) (h6 : V (Proc.devRef .tc main_v6) = Cert.RefSpec.dst (F := Ideal) ei) (h31 : V (Proc.devRef .tc main_v31) = Cert.RefSpec.norm (F := Ideal) ei) (hh : V (Proc.devRef .tc main_v61) = h) :
    StableHlo.after hostOps5 V (Proc.devRef .tc main_v74) = Cert.RefSpec.agg64 (F := Ideal) ei h := by
  rw [ops5_agg' V, h3, h6, h31, hh]; exact (Cert.ReferenceIdeal.HandRun.agg64_eq ei h).symm

theorem ops5_brow' :
    StableHlo.after hostOps5 V (Proc.devRef .tc main_v75) = shapeCast S1x64 (V (Proc.devRef .tc main_arg7)) Cert.KernelIdeal.Facts₀.shapeCasts_S64_S1x64 := by
  simp only [hostOps5]; after_results_simp <;> rfl

theorem ops5_brow (b : FVec Ideal S64 .f32) (hb : V (Proc.devRef .tc main_arg7) = b) :
    StableHlo.after hostOps5 V (Proc.devRef .tc main_v75) = shapeCast S1x64 b Cert.KernelIdeal.Facts₀.shapeCasts_S64_S1x64 := by
  rw [ops5_brow' V, hb]

/-! ## After region 8: `hostOps9` -/

theorem ops9_agg' :
    StableHlo.after hostOps9 V (Proc.devRef .tc main_v103) = Cert.ReferenceIdeal.HandRun.aggOf32 (F := Ideal) (V (Proc.devRef .tc main_v3)) (V (Proc.devRef .tc main_v6)) (V (Proc.devRef .tc main_v31)) (V (Proc.devRef .tc main_v90)) := by
  simp only [hostOps9]; after_results_simp <;> rfl

theorem ops9_agg (ei : Cert.RefSpec.Arr Ideal Cert.ReferenceIdeal.S2x1600000 .i32) (h : Cert.RefSpec.Arr Ideal Cert.ReferenceIdeal.S100000x32 .f32)
    (h3 : V (Proc.devRef .tc main_v3) = Cert.RefSpec.src (F := Ideal) ei) (h6 : V (Proc.devRef .tc main_v6) = Cert.RefSpec.dst (F := Ideal) ei) (h31 : V (Proc.devRef .tc main_v31) = Cert.RefSpec.norm (F := Ideal) ei) (hh : V (Proc.devRef .tc main_v90) = h) :
    StableHlo.after hostOps9 V (Proc.devRef .tc main_v103) = Cert.RefSpec.agg32 (F := Ideal) ei h := by
  rw [ops9_agg' V, h3, h6, h31, hh]; exact (Cert.ReferenceIdeal.HandRun.agg32_eq ei h).symm

theorem ops9_brow' :
    StableHlo.after hostOps9 V (Proc.devRef .tc main_v104) = shapeCast S1x32 (V (Proc.devRef .tc main_arg11)) Cert.KernelIdeal.Facts₀.shapeCasts_S32_S1x32 := by
  simp only [hostOps9]; after_results_simp <;> rfl

theorem ops9_brow (b : FVec Ideal S32 .f32) (hb : V (Proc.devRef .tc main_arg11) = b) :
    StableHlo.after hostOps9 V (Proc.devRef .tc main_v104) = shapeCast S1x32 b Cert.KernelIdeal.Facts₀.shapeCasts_S32_S1x32 := by
  rw [ops9_brow' V, hb]

/-! ## After region 10: `hostOps11` -/

theorem ops11_agg' :
    StableHlo.after hostOps11 V (Proc.devRef .tc main_v119) = Cert.ReferenceIdeal.HandRun.aggOf32 (F := Ideal) (V (Proc.devRef .tc main_v3)) (V (Proc.devRef .tc main_v6)) (V (Proc.devRef .tc main_v31)) (V (Proc.devRef .tc main_v106)) := by
  simp only [hostOps11]; after_results_simp <;> rfl

theorem ops11_agg (ei : Cert.RefSpec.Arr Ideal Cert.ReferenceIdeal.S2x1600000 .i32) (h : Cert.RefSpec.Arr Ideal Cert.ReferenceIdeal.S100000x32 .f32)
    (h3 : V (Proc.devRef .tc main_v3) = Cert.RefSpec.src (F := Ideal) ei) (h6 : V (Proc.devRef .tc main_v6) = Cert.RefSpec.dst (F := Ideal) ei) (h31 : V (Proc.devRef .tc main_v31) = Cert.RefSpec.norm (F := Ideal) ei) (hh : V (Proc.devRef .tc main_v106) = h) :
    StableHlo.after hostOps11 V (Proc.devRef .tc main_v119) = Cert.RefSpec.agg32 (F := Ideal) ei h := by
  rw [ops11_agg' V, h3, h6, h31, hh]; exact (Cert.ReferenceIdeal.HandRun.agg32_eq ei h).symm

theorem ops11_brow' :
    StableHlo.after hostOps11 V (Proc.devRef .tc main_v120) = shapeCast S1x32 (V (Proc.devRef .tc main_arg13)) Cert.KernelIdeal.Facts₀.shapeCasts_S32_S1x32 := by
  simp only [hostOps11]; after_results_simp <;> rfl

theorem ops11_brow (b : FVec Ideal S32 .f32) (hb : V (Proc.devRef .tc main_arg13) = b) :
    StableHlo.after hostOps11 V (Proc.devRef .tc main_v120) = shapeCast S1x32 b Cert.KernelIdeal.Facts₀.shapeCasts_S32_S1x32 := by
  rw [ops11_brow' V, hb]

end Cert.KernelIdeal.Stretch

end
-- ==== Proof.ChainL1.lean ====
/-
  The first normalised layer of the idealized kernel program, read against the reference's.

  The first region multiplies the node features by the first weight matrix, 5000 rows at a time: its output array is
  the host's product of the two launched arrays. Then a host stretch aggregates over the edges (the reference's own
  operations), one region sums the biased features over the nodes, the host divides by N, one region sums the squared
  deviations, the host divides by N, adds eps and takes the reciprocal square root, and one region normalises, scales,
  shifts and clips: that output array is the reference's first hidden layer of the launched arrays. A second matmul
  region then multiplies it by the second weight matrix.
-/
import proofs.«173470_j52209622450441_2_alg».proof.Proof.Chain0
import proofs.«173470_j52209622450441_2_alg».proof.Proof.Bridge
import proofs.«173470_j52209622450441_2_alg».proof.Proof.RegionMatmul0
import proofs.«173470_j52209622450441_2_alg».proof.Proof.RegionSums1
import proofs.«173470_j52209622450441_2_alg».proof.Proof.RegionSums2
import proofs.«173470_j52209622450441_2_alg».proof.Proof.RegionPointwiseNorm3
import proofs.«173470_j52209622450441_2_alg».proof.Proof.RegionMatmul4
import proofs.«173470_j52209622450441_2_alg».proof.Proof.StretchSmall
import proofs.«173470_j52209622450441_2_alg».proof.Proof.StretchAgg
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.KernelIdeal.Keeps Cert.KernelIdeal.Carried

variable (m : (ℓ : Loc nD τ sig) → Buf (Elt Ideal) ℓ) (ρ : Dev nD → PrngReg) (c : Dev nD)

/-! ## The first matmul -/

theorem W4_v32 : W4 m ρ c (Proc.devRef .tc main_v32)
    = Host.dotGeneral (F := Ideal) (φ₁ := .f32) (φ₂ := .f32) Cert.ReferenceIdeal.dot_S100000x128_S128x64_S100000x64_1_0_0_1_n_n none ((argOf m c main_arg0 : Cert.RefSpec.Arr Ideal Cert.ReferenceIdeal.S100000x128 .f32)) ((argOf m c main_arg2 : Cert.RefSpec.Arr Ideal Cert.ReferenceIdeal.S128x64 .f32)) :=
  (W4_arr m ρ c 2).trans (Cert.Bridge.matmul_128_64 _ _ _ fun r q =>
    Cert.KernelIdeal.RegionMatmul.mm0 (V3 m ρ) c _ _ (W3_arg m ρ c main_arg0 (by decide)) (W3_arg m ρ c main_arg2 (by decide)) r q)

/-! ## The aggregation -/

/-- The layer's aggregated features (before the bias): the scatter-add over the edges of the weighted gathered rows
    of the matmul's result. -/
def agg1 : FVec Ideal Cert.ReferenceIdeal.S100000x64 .f32 :=
  Cert.RefSpec.agg64 (F := Ideal) ((argOf m c main_arg1 : Cert.RefSpec.Arr Ideal Cert.ReferenceIdeal.S2x1600000 .i32)) (Host.dotGeneral (F := Ideal) (φ₁ := .f32) (φ₂ := .f32) Cert.ReferenceIdeal.dot_S100000x128_S128x64_S100000x64_1_0_0_1_n_n none ((argOf m c main_arg0 : Cert.RefSpec.Arr Ideal Cert.ReferenceIdeal.S100000x128 .f32)) ((argOf m c main_arg2 : Cert.RefSpec.Arr Ideal Cert.ReferenceIdeal.S128x64 .f32)))

theorem W5_agg : W5 m ρ c (Proc.devRef .tc main_v45) = agg1 m c :=
  Cert.KernelIdeal.Stretch.ops1_agg (W4 m ρ c) _ _
    ((at4 m ρ c main_v3 (by decide)).trans (W3_v3 m ρ c)) ((at4 m ρ c main_v6 (by decide)).trans (W3_v6 m ρ c))
    ((at4 m ρ c main_v31 (by decide)).trans (W3_v31 m ρ c)) (W4_v32 m ρ c)

/-- The bias as a [1, 64] row. -/
theorem W5_brow : W5 m ρ c (Proc.devRef .tc main_v46)
    = shapeCast S1x64 (argOf m c main_arg3 : Cert.RefSpec.Arr Ideal Cert.ReferenceIdeal.S64 .f32) Cert.KernelIdeal.Facts₀.shapeCasts_S64_S1x64 :=
  Cert.KernelIdeal.Stretch.ops1_brow (W4 m ρ c) _ ((at4 m ρ c main_arg3 (by decide)).trans (W3_arg m ρ c main_arg3 (by decide)))

/-! ## The column sums -/

theorem W6_sum (q : Fin 64) : (W6 m ρ c (Proc.devRef .tc main_v47) : FVec Ideal S1x64 .f32) (ix2 (0 : Fin 1) q)
    = ∑ r : Fin 100000, (agg1 m c (ix2 r q) + (argOf m c main_arg3 : Cert.RefSpec.Arr Ideal Cert.ReferenceIdeal.S64 .f32) (ix1 q)) := by
  refine (congrFun (W6_arr m ρ c 2) _).trans ?_
  refine (Cert.KernelIdeal.RegionSums.sum1 (V5 m ρ) c (agg1 m c) (W5_agg m ρ c) _ (W5_brow m ρ c) q).trans ?_
  simp only [shapeCast_a_1a_apply]

/-! ## The mean -/

theorem W7_mean (q : Fin 64) : (W7 m ρ c (Proc.devRef .tc main_v49) : FVec Ideal S1x64 .f32) (ix2 (0 : Fin 1) q)
    = Ideal.div ((W6 m ρ c (Proc.devRef .tc main_v47) : FVec Ideal S1x64 .f32) (ix2 (0 : Fin 1) q)) (Ideal.ofBits .f32 0x47C35000#32) :=
  Cert.KernelIdeal.Stretch.ops2_mean (W6 m ρ c) q
theorem W7_brow : W7 m ρ c (Proc.devRef .tc main_v50)
    = shapeCast S1x64 (argOf m c main_arg3 : Cert.RefSpec.Arr Ideal Cert.ReferenceIdeal.S64 .f32) Cert.KernelIdeal.Facts₀.shapeCasts_S64_S1x64 :=
  Cert.KernelIdeal.Stretch.ops2_brow (W6 m ρ c) _ ((at6 m ρ c main_arg3 (by decide)).trans (W3_arg m ρ c main_arg3 (by decide)))
theorem W7_agg : W7 m ρ c (Proc.devRef .tc main_v45) = agg1 m c :=
  (keep_ops2 _ main_v45 (by decide)).trans ((keep_reg1 m ρ c main_v45 (by decide)).trans (W5_agg m ρ c))

/-! ## The sums of squared deviations -/

theorem W8_sq (q : Fin 64) : (W8 m ρ c (Proc.devRef .tc main_v51) : FVec Ideal S1x64 .f32) (ix2 (0 : Fin 1) q)
    = ∑ r : Fin 100000,
        (agg1 m c (ix2 r q) + (argOf m c main_arg3 : Cert.RefSpec.Arr Ideal Cert.ReferenceIdeal.S64 .f32) (ix1 q) - (W7 m ρ c (Proc.devRef .tc main_v49) : FVec Ideal S1x64 .f32) (ix2 (0 : Fin 1) q))
        * (agg1 m c (ix2 r q) + (argOf m c main_arg3 : Cert.RefSpec.Arr Ideal Cert.ReferenceIdeal.S64 .f32) (ix1 q) - (W7 m ρ c (Proc.devRef .tc main_v49) : FVec Ideal S1x64 .f32) (ix2 (0 : Fin 1) q)) := by
  refine (congrFun (W8_arr m ρ c 3) _).trans ?_
  refine (Cert.KernelIdeal.RegionSums.sq2 (V7 m ρ) c (agg1 m c) (W7_agg m ρ c) _ (W7_brow m ρ c)
    (W7 m ρ c (Proc.devRef .tc main_v49)) rfl q).trans ?_
  simp only [shapeCast_a_1a_apply]

/-! ## The reciprocal standard deviation and the rows of the scale and the shift -/

theorem W9_rstd (q : Fin 64) : (W9 m ρ c (Proc.devRef .tc main_v57) : FVec Ideal S1x64 .f32) (ix2 (0 : Fin 1) q)
    = Ideal.rsqrt (Ideal.div ((W8 m ρ c (Proc.devRef .tc main_v51) : FVec Ideal S1x64 .f32) (ix2 (0 : Fin 1) q)) (Ideal.ofBits .f32 0x47C35000#32)
        + Ideal.ofBits .f32 0x3727C5AC#32) :=
  Cert.KernelIdeal.Stretch.ops3_rstd (W8 m ρ c) q
theorem W9_brow : W9 m ρ c (Proc.devRef .tc main_v54)
    = shapeCast S1x64 (argOf m c main_arg3 : Cert.RefSpec.Arr Ideal Cert.ReferenceIdeal.S64 .f32) Cert.KernelIdeal.Facts₀.shapeCasts_S64_S1x64 :=
  Cert.KernelIdeal.Stretch.ops3_brow (W8 m ρ c) _ ((at8 m ρ c main_arg3 (by decide)).trans (W3_arg m ρ c main_arg3 (by decide)))
theorem W9_grow : W9 m ρ c (Proc.devRef .tc main_v58)
    = shapeCast S1x64 (argOf m c main_arg4 : Cert.RefSpec.Arr Ideal Cert.ReferenceIdeal.S64 .f32) Cert.KernelIdeal.Facts₀.shapeCasts_S64_S1x64 :=
  Cert.KernelIdeal.Stretch.ops3_grow (W8 m ρ c) _ ((at8 m ρ c main_arg4 (by decide)).trans (W3_arg m ρ c main_arg4 (by decide)))
theorem W9_berow : W9 m ρ c (Proc.devRef .tc main_v59)
    = shapeCast S1x64 (argOf m c main_arg5 : Cert.RefSpec.Arr Ideal Cert.ReferenceIdeal.S64 .f32) Cert.KernelIdeal.Facts₀.shapeCasts_S64_S1x64 :=
  Cert.KernelIdeal.Stretch.ops3_berow (W8 m ρ c) _ ((at8 m ρ c main_arg5 (by decide)).trans (W3_arg m ρ c main_arg5 (by decide)))
theorem W9_agg : W9 m ρ c (Proc.devRef .tc main_v45) = agg1 m c :=
  (keep_ops3 _ main_v45 (by decide)).trans ((keep_reg2 m ρ c main_v45 (by decide)).trans (W7_agg m ρ c))
theorem W9_mean : W9 m ρ c (Proc.devRef .tc main_v49) = W7 m ρ c (Proc.devRef .tc main_v49) :=
  (keep_ops3 _ main_v49 (by decide)).trans (keep_reg2 m ρ c main_v49 (by decide))

/-! ## The normalised, scaled, shifted and clipped features: the reference's hidden layer -/

theorem W10_hidden : W10 m ρ c (Proc.devRef .tc main_v60) = Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32)) := by
  refine (W10_arr m ρ c 6).trans ?_
  refine Cert.Bridge.layer_64 (agg1 m c) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))
    (shapeCast S1x64 (argOf m c main_arg3 : Cert.RefSpec.Arr Ideal Cert.ReferenceIdeal.S64 .f32) Cert.KernelIdeal.Facts₀.shapeCasts_S64_S1x64)
    (shapeCast S1x64 (argOf m c main_arg4 : Cert.RefSpec.Arr Ideal Cert.ReferenceIdeal.S64 .f32) Cert.KernelIdeal.Facts₀.shapeCasts_S64_S1x64)
    (shapeCast S1x64 (argOf m c main_arg5 : Cert.RefSpec.Arr Ideal Cert.ReferenceIdeal.S64 .f32) Cert.KernelIdeal.Facts₀.shapeCasts_S64_S1x64)
    (W6 m ρ c (Proc.devRef .tc main_v47)) (W7 m ρ c (Proc.devRef .tc main_v49))
    (W8 m ρ c (Proc.devRef .tc main_v51)) (W9 m ρ c (Proc.devRef .tc main_v57))
    (fun q => shapeCast_a_1a_apply _ _ 0 q) (fun q => shapeCast_a_1a_apply _ _ 0 q) (fun q => shapeCast_a_1a_apply _ _ 0 q)
    (fun q => by rw [W6_sum m ρ c q]; simp only [shapeCast_a_1a_apply])
    (fun q => W7_mean m ρ c q)
    (fun q => by rw [W8_sq m ρ c q]; simp only [shapeCast_a_1a_apply])
    (fun q => W9_rstd m ρ c q) _ ?_
  intro r q
  exact Cert.KernelIdeal.RegionPointwise.norm3 (V9 m ρ) c (agg1 m c) _ _ _ _ _
    (W9_agg m ρ c) (W9_brow m ρ c) (W9_mean m ρ c) rfl (W9_grow m ρ c) (W9_berow m ρ c) r q

/-! ## The second matmul -/

theorem W11_v61 : W11 m ρ c (Proc.devRef .tc main_v61)
    = Host.dotGeneral (F := Ideal) (φ₁ := .f32) (φ₂ := .f32) Cert.ReferenceIdeal.dot_S100000x64_S64x64_S100000x64_1_0_0_1_n_n none
        (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg6 : Cert.RefSpec.Arr Ideal Cert.ReferenceIdeal.S64x64 .f32)) :=
  (W11_arr m ρ c 2).trans (Cert.Bridge.matmul_64_64 _ _ _ fun r q =>
    Cert.KernelIdeal.RegionMatmul.mm4 (V10 m ρ) c _ _ (W10_hidden m ρ c)
      ((at10 m ρ c main_arg6 (by decide)).trans (W3_arg m ρ c main_arg6 (by decide))) r q)

end Cert.KernelIdeal.Chain

end
-- ==== Proof.RegionSums5.lean ====
/-
  Region 5: the column sums of (row entry + bias) over all 100000 rows.

  The output block [1,64] stays at block (0,0) for all 20 grid points. At the first point the body zeroes it and adds the
  column sums of the first 5000-row block; at each later point it adds the column sums of that point's block to what
  the point before left. So after point n the block holds, at column q, the sum over the blocks 0..n of their column
  sums, and after the last point the sum over all 20 blocks, which is the sum over all 100000 rows. Only the last point
  writes the block back, and the block is the whole [1,64] array.
-/
import proofs.«173470_j52209622450441_2_alg».proof.Proof.Gen.KernelIdeal.Frame
import proofs.«173470_j52209622450441_2_alg».proof.Proof.RegionSumsPay
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionSums

open Cert.KernelIdeal Cert.KernelIdeal.Gen

/-! ## What each case of the body leaves in the output block -/

section Pieces
variable {F : FTy → Type} [FloatOps F]

/-- At a later point the body leaves its one store's value: the carried block plus the block's column sums. -/
theorem piece5_B (c : Dev nD) (i : grid5.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond5_0 i) (x0 : Vec F S5000x64 .f32) (x1 xo : Vec F S1x64 .f32) :
    out5_B_2 c i a1 h1 a2 h2 a3 h3 hc x0 x1 xo = k5_pay2 xo x0 x1 := by
  unfold out5_B_2
  rw [View.read_writes_eq_canon _ _ _ (cover5_B_2 c i a1 h1 a2 h2 a3 h3 hc x0 x1 xo)]
  unfold kernelRun5_B
  dsimp only
  sl_unfold_words
  rw [View.canon_unit_zero hz]
  simp only [View.readAt_eq_ld, h1.read_unread, h2.read_unread, h3.read_unread, View.ld_unit_zero (S := S1x64) hz,
    View.ld_unit_zero (S := S5000x64) hz]

/-- At the first point the body stores the zero block, reads it back, and leaves the zero block plus the block's
    column sums. -/
theorem piece5_A (c : Dev nD) (i : grid5.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond5_0 i) (x0 : Vec F S5000x64 .f32) (x1 : Vec F S1x64 .f32) :
    out5_A_2 c i a1 h1 a2 h2 a3 h3 hc x0 x1 = k5_pay2 k5_pay1 x0 x1 := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S1x64) hz, View.readCov_unit_zero (S := S1x64) _ hz]
  simp only [View.readAt_eq_ld, h1.read_unread, h2.read_unread, View.ld_unit_zero (S := S1x64) hz,
    View.ld_unit_zero (S := S5000x64) hz]

variable (V : (c : Dev nD) → (b : Ref sig .tc) → Buf (Elt F) ((c : Thread nD τ).loc b)) (c : Dev nD)

/-- The output block after the first point. -/
theorem outsAt5_first (t : Fin cfg5.N) (h0 : t.val % 20 = 0) :
    outsAt5 V c t.val t.isLt = k5_pay2 k5_pay1 (iblk5 V c 0 t) (iblk5 V c 1 t) :=
  (outsAt5_A V c t h0).trans
    (piece5_A c (grid5.coords t) (ms5_0 t) (hs5_0 t) (ms5_1 t) (hs5_1 t) (ms5_2 t) (hs5_2 t) ((hcond5_0 t).mpr h0)
      (iblk5 V c 0 t) (iblk5 V c 1 t))

/-- The output block after a later point, from what the point before left. -/
theorem outsAt5_later (t : Fin cfg5.N) (h0 : ¬t.val % 20 = 0) :
    outsAt5 V c t.val t.isLt
      = k5_pay2 (outsAt5 V c (t.val - 1) (Nat.lt_of_le_of_lt (Nat.sub_le _ _) t.isLt)) (iblk5 V c 0 t) (iblk5 V c 1 t) :=
  (outsAt5_B V c t h0).trans
    (piece5_B c (grid5.coords t) (ms5_0 t) (hs5_0 t) (ms5_1 t) (hs5_1 t) (ms5_2 t) (hs5_2 t)
      (fun h => h0 ((hcond5_0 t).mp h)) (iblk5 V c 0 t) (iblk5 V c 1 t)
      (outsAt5 V c (t.val - 1) (Nat.lt_of_le_of_lt (Nat.sub_le _ _) t.isLt)))

end Pieces

/-! ## The blocks of the two inputs, read off the arrays -/

section Reads
variable {F : FTy → Type} [FloatOps F]
variable (V : (c : Dev nD) → (b : Ref sig .tc) → Buf (Elt F) ((c : Thread nD τ).loc b)) (c : Dev nD)

/-- The printed index maps over the grid: the row window's block index is the point; the bias window stays at
    block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0 :=
  (by decide +kernel : ∀ t : Fin grid5.N, _)

/-- Row `k`, column `q` of the row window's block at point `t` is row `5000 t + k` of the array. -/
theorem iblk5_0_apply (agg : FVec F S100000x64 .f32) (hagg : V c (Pipeline.arrRef spec5 0) = agg)
    (t : Fin cfg5.N) (ht : t.val < 20) (k : Fin 5000) (q : Fin 64) :
    iblk5 V c 0 t (ix2 k q) = agg (ix2 (rowOf ⟨t.val, ht⟩ k) q) := by
  subst hagg
  obtain ⟨e0, e1, -, -⟩ := idx_facts5 t
  unfold iblk5
  rw [View.read_apply]
  show V c (Pipeline.arrRef spec5 0) (((cfg5.win 0).blk t).view.emb (ix2 k q)) = V c (Pipeline.arrRef spec5 0) (ix2 (rowOf ⟨t.val, ht⟩ k) q)
  refine congrArg (V c (Pipeline.arrRef spec5 0)) ?_
  funext a; apply Fin.ext
  match a with
  | ⟨0, _⟩ => show win5_0.index t (0 : Fin 2) * 5000 + 1 * k.val = t.val * 5000 + k.val; rw [e0]; omega
  | ⟨1, _⟩ => show win5_0.index t (1 : Fin 2) * 64 + 1 * q.val = q.val; rw [e1]; omega

/-- The bias window's block at any point is the bias array. -/
theorem iblk5_1_apply (b : FVec F S1x64 .f32) (hb : V c (Pipeline.arrRef spec5 1) = b)
    (t : Fin cfg5.N) (q : Fin 64) :
    iblk5 V c 1 t (ix2 (0 : Fin 1) q) = b (ix2 (0 : Fin 1) q) := by
  subst hb
  obtain ⟨-, -, e0, e1⟩ := idx_facts5 t
  unfold iblk5
  rw [View.read_apply]
  show V c (Pipeline.arrRef spec5 1) (((cfg5.win 1).blk t).view.emb (ix2 (0 : Fin 1) q)) = V c (Pipeline.arrRef spec5 1) (ix2 (0 : Fin 1) q)
  refine congrArg (V c (Pipeline.arrRef spec5 1)) ?_
  funext a; apply Fin.ext
  match a with
  | ⟨0, _⟩ => show win5_1.index t (0 : Fin 2) * 1 + 1 * 0 = 0; rw [e0]
  | ⟨1, _⟩ => show win5_1.index t (1 : Fin 2) * 64 + 1 * q.val = q.val; rw [e1]; omega

end Reads

/-! ## The running total, on the extended reals -/

section Total
variable (V : (c : Dev nD) → (b : Ref sig .tc) → Buf (Elt Ideal) ((c : Thread nD τ).loc b)) (c : Dev nD)
variable (agg : FVec Ideal S100000x64 .f32) (hagg : V c (Pipeline.arrRef spec5 0) = agg)
variable (b : FVec Ideal S1x64 .f32) (hb : V c (Pipeline.arrRef spec5 1) = b)

/-- Block `t`'s column sum at column `q`. -/
def tile5 (q : Fin 64) (t : Fin 20) : EReal := ∑ k : Fin 5000, (agg (ix2 (rowOf t k) q) + b (ix2 (0 : Fin 1) q))

omit V c in
/-- The column sum of a point's blocks is block `t`'s column sum of the arrays, when the blocks read the arrays so. -/
theorem blockSum5 (x0 : FVec Ideal S5000x64 .f32) (x1 : FVec Ideal S1x64 .f32) (t : Fin 20) (q : Fin 64)
    (h0 : ∀ k : Fin 5000, x0 (ix2 k q) = agg (ix2 (rowOf t k) q))
    (h1 : x1 (ix2 (0 : Fin 1) q) = b (ix2 (0 : Fin 1) q)) :
    ∑ k : Fin 5000, (x0 (ix2 k q) + x1 (ix2 (0 : Fin 1) q)) = tile5 agg b q t :=
  Finset.sum_congr rfl fun k _ => by rw [h0 k, h1]

include hagg hb in
/-- After point `n` the output block holds, at column `q`, the column sums of the blocks `0..n`. -/
theorem outsAt5_eq (q : Fin 64) : ∀ (n : ℕ) (h : n < cfg5.N),
    (outsAt5 V c n h : FVec Ideal S1x64 .f32) (ix2 (0 : Fin 1) q) = ∑ s ∈ Finset.range (n + 1), addend (tile5 agg b q) s
  | 0, h => by
    have hN : cfg5.N = 20 := N_5
    refine (congrFun (outsAt5_first V c ⟨0, h⟩ (Nat.zero_mod 20)) (ix2 (0 : Fin 1) q)).trans ?_
    refine (pay5_2_apply (k5_pay1 (F := Ideal)) (iblk5 V c 1 ⟨0, h⟩) (iblk5 V c 0 ⟨0, h⟩) q).trans ?_
    rw [pay5_1_apply, zero_add, Finset.sum_range_one, addend_of_lt _ 0 (by omega)]
    exact blockSum5 agg b (iblk5 V c 0 ⟨0, h⟩) (iblk5 V c 1 ⟨0, h⟩) ⟨0, by omega⟩ q
      (fun k => iblk5_0_apply V c agg hagg ⟨0, h⟩ (by omega) k q) (iblk5_1_apply V c b hb ⟨0, h⟩ q)
  | n + 1, h => by
    have hN : cfg5.N = 20 := N_5
    have hB : ¬(⟨n + 1, h⟩ : Fin cfg5.N).val % 20 = 0 := by dsimp only; omega
    refine (congrFun (outsAt5_later V c ⟨n + 1, h⟩ hB) (ix2 (0 : Fin 1) q)).trans ?_
    refine (pay5_2_apply (outsAt5 V c n (Nat.lt_of_succ_lt h)) (iblk5 V c 1 ⟨n + 1, h⟩) (iblk5 V c 0 ⟨n + 1, h⟩) q).trans ?_
    rw [outsAt5_eq q n (Nat.lt_of_succ_lt h), Finset.sum_range_succ _ (n + 1), addend_of_lt _ (n + 1) (by omega)]
    exact congrArg (fun z => ∑ s ∈ Finset.range (n + 1), addend (tile5 agg b q) s + z)
      (blockSum5 agg b (iblk5 V c 0 ⟨n + 1, h⟩) (iblk5 V c 1 ⟨n + 1, h⟩) ⟨n + 1, by omega⟩ q
        (fun k => iblk5_0_apply V c agg hagg ⟨n + 1, h⟩ (by dsimp only; omega) k q) (iblk5_1_apply V c b hb ⟨n + 1, h⟩ q))

end Total

/-! ## The array after the run -/

section Final
variable {F : FTy → Type} [FloatOps F]
variable (V : (c : Dev nD) → (b : Ref sig .tc) → Buf (Elt F) ((c : Thread nD τ).loc b)) (c : Dev nD)

theorem lt_last5 : 19 < cfg5.N := by rw [show cfg5.N = 20 from N_5]; decide

/-- The last grid point, the one point that writes the output block back. -/
abbrev last5 : Fin cfg5.N := ⟨19, lt_last5⟩

/-- The one write-back writes what the last point left: block (0, 0) of the [1,64] array is the array. -/
theorem flushed5_eq (t : Fin cfg5.N) (hf : (cfg5.win 2).flush t = true) :
    (dat5 V c).flushed 2 t = ((cfg5.win 2).blk t).view.read (Elt F) (outsAt5 V c 19 lt_last5) := by
  have hN : cfg5.N = 20 := N_5
  have h3 : t.val = 19 := by have := (flush5_2 t).mp hf; have := t.isLt; omega
  obtain rfl : t = last5 := Fin.ext h3
  show (cfg5.win 2).cut (grid5.coords last5) ((dat5 V c).after 2 last5) = _
  rw [after5_2]
  have hz' : (fun a => win5_2.index last5 a * main_v76.ty.shape.size a) = fun _ => 0 := funext fun a => by fin_cases a <;> decide
  exact (Memref.read_access_unit_zero (Elt F) main_v76 hz' (fun a => by rw [congrFun hz' a]; simp) (outsAt5 V c 19 lt_last5)).symm

/-- So the output array ends holding what the last point left in the block. -/
theorem final5 : (dat5 V c).arrAt 2 cfg5.N = outsAt5 V c 19 lt_last5 :=
  (dat5 V c).arrAt_eq_of_cover 2 (outsAt5 V c 19 lt_last5) (flushed5_eq V c) fun i =>
    ⟨last5, (flush5_2 last5).mpr rfl, by
      show i ∈ ((View.whole main_v76).slice (win5_2.rect last5)).set
      rw [View.set_slice_whole, Rect.mem_set_unit]
      intro a
      have h0 : (i 0 : Nat) < 1 := (i 0).isLt
      have h1 : (i 1 : Nat) < 64 := (i 1).isLt
      match a with
      | ⟨0, _⟩ => show win5_2.index last5 0 * win5_2.size 0 ≤ (i 0 : Nat) ∧ (i 0 : Nat) < win5_2.index last5 0 * win5_2.size 0 + win5_2.xsize (grid5.coords last5) 0
                  rw [show win5_2.index last5 0 * win5_2.size 0 = 0 from by decide +kernel, show win5_2.xsize (grid5.coords last5) 0 = 1 from by decide +kernel]; omega
      | ⟨1, _⟩ => show win5_2.index last5 1 * win5_2.size 1 ≤ (i 1 : Nat) ∧ (i 1 : Nat) < win5_2.index last5 1 * win5_2.size 1 + win5_2.xsize (grid5.coords last5) 1
                  rw [show win5_2.index last5 1 * win5_2.size 1 = 0 from by decide +kernel, show win5_2.xsize (grid5.coords last5) 1 = 64 from by decide +kernel]; omega⟩

end Final

/-! ## The statement -/

/-- After region 5 the output array holds, at column `q`, the sum over all 100000 rows of (row entry + bias). -/
theorem sum5 (V : (c : Dev nD) → (b : Ref sig .tc) → Buf (Elt Ideal) ((c : Thread nD τ).loc b)) (c : Dev nD)
    (agg : FVec Ideal S100000x64 .f32) (hagg : V c (Pipeline.arrRef spec5 0) = agg)
    (b : FVec Ideal S1x64 .f32) (hb : V c (Pipeline.arrRef spec5 1) = b) (q : Fin 64) :
    (dat5 (F := Ideal) V c).arrAt 2 cfg5.N (ix2 (0 : Fin 1) q)
      = ∑ r : Fin 100000, (agg (ix2 r q) + b (ix2 (0 : Fin 1) q)) := by
  refine (congrFun (final5 V c) (ix2 (0 : Fin 1) q)).trans ?_
  refine (outsAt5_eq V c agg hagg b hb q 19 lt_last5).trans ?_
  rw [sum_range_addend]
  exact (sum_rows fun r => agg (ix2 r q) + b (ix2 (0 : Fin 1) q)).symm

end Cert.KernelIdeal.RegionSums

end
-- ==== Proof.RegionSums6.lean ====
/-
  Region 6: the column sums of the squared deviations (row entry + bias − mean)² over all 100000 rows.

  The output block [1,64] stays at block (0,0) for all 20 grid points. At the first point the body zeroes it and adds the
  column sums of the squared deviations of the first 5000-row block; at each later point it adds those of that point's
  block to what the point before left. So after point n the block holds, at column q, the sum over the blocks 0..n of
  their column sums, and after the last point the sum over all 20 blocks, which is the sum over all 100000 rows. Only
  the last point writes the block back, and the block is the whole [1,64] array.
-/
import proofs.«173470_j52209622450441_2_alg».proof.Proof.Gen.KernelIdeal.Frame
import proofs.«173470_j52209622450441_2_alg».proof.Proof.RegionSumsPay
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionSums

open Cert.KernelIdeal Cert.KernelIdeal.Gen

/-! ## What each case of the body leaves in the output block -/

section Pieces
variable {F : FTy → Type} [FloatOps F]

/-- At a later point the body leaves its one store's value: the carried block plus the block's column sums. -/
theorem piece6_B (c : Dev nD) (i : grid6.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : ¬cond6_0 i) (x0 : Vec F S5000x64 .f32) (x1 x2 xo : Vec F S1x64 .f32) :
    out6_B_3 c i a1 h1 a2 h2 a3 h3 a4 h4 hc x0 x1 x2 xo = k6_pay2 x0 x1 x2 xo := by
  unfold out6_B_3
  rw [View.read_writes_eq_canon _ _ _ (cover6_B_3 c i a1 h1 a2 h2 a3 h3 a4 h4 hc x0 x1 x2 xo)]
  unfold kernelRun6_B
  dsimp only
  sl_unfold_words
  rw [View.canon_unit_zero hz]
  simp only [View.readAt_eq_ld, h1.read_unread, h2.read_unread, h3.read_unread, h4.read_unread,
    View.ld_unit_zero (S := S1x64) hz, View.ld_unit_zero (S := S5000x64) hz]

/-- At the first point the body stores the zero block, reads it back, and leaves the zero block plus the block's
    column sums. -/
theorem piece6_A (c : Dev nD) (i : grid6.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole)
    (hc : cond6_0 i) (x0 : Vec F S5000x64 .f32) (x1 x2 : Vec F S1x64 .f32) :
    out6_A_3 c i a1 h1 a2 h2 a3 h3 a4 h4 hc x0 x1 x2 = k6_pay2 x0 x1 x2 k6_pay1 := by
  unfold out6_A_3
  rw [View.read_writes_eq_canon _ _ _ (cover6_A_3 c i a1 h1 a2 h2 a3 h3 a4 h4 hc x0 x1 x2)]
  unfold kernelRun6_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S1x64) hz,
    View.ld_unit_zero (S := S5000x64) hz]

variable (V : (c : Dev nD) → (b : Ref sig .tc) → Buf (Elt F) ((c : Thread nD τ).loc b)) (c : Dev nD)

/-- The output block after the first point. -/
theorem outsAt6_first (t : Fin cfg6.N) (h0 : t.val % 20 = 0) :
    outsAt6 V c t.val t.isLt = k6_pay2 (iblk6 V c 0 t) (iblk6 V c 1 t) (iblk6 V c 2 t) k6_pay1 :=
  (outsAt6_A V c t h0).trans
    (piece6_A c (grid6.coords t) (ms6_0 t) (hs6_0 t) (ms6_1 t) (hs6_1 t) (ms6_2 t) (hs6_2 t) (ms6_3 t) (hs6_3 t)
      ((hcond6_0 t).mpr h0) (iblk6 V c 0 t) (iblk6 V c 1 t) (iblk6 V c 2 t))

/-- The output block after a later point, from what the point before left. -/
theorem outsAt6_later (t : Fin cfg6.N) (h0 : ¬t.val % 20 = 0) :
    outsAt6 V c t.val t.isLt
      = k6_pay2 (iblk6 V c 0 t) (iblk6 V c 1 t) (iblk6 V c 2 t)
          (outsAt6 V c (t.val - 1) (Nat.lt_of_le_of_lt (Nat.sub_le _ _) t.isLt)) :=
  (outsAt6_B V c t h0).trans
    (piece6_B c (grid6.coords t) (ms6_0 t) (hs6_0 t) (ms6_1 t) (hs6_1 t) (ms6_2 t) (hs6_2 t) (ms6_3 t) (hs6_3 t)
      (fun h => h0 ((hcond6_0 t).mp h)) (iblk6 V c 0 t) (iblk6 V c 1 t) (iblk6 V c 2 t)
      (outsAt6 V c (t.val - 1) (Nat.lt_of_le_of_lt (Nat.sub_le _ _) t.isLt)))

end Pieces

/-! ## The blocks of the three inputs, read off the arrays -/

section Reads
variable {F : FTy → Type} [FloatOps F]
variable (V : (c : Dev nD) → (b : Ref sig .tc) → Buf (Elt F) ((c : Thread nD τ).loc b)) (c : Dev nD)

/-- The printed index maps over the grid: the row window's block index is the point; the bias and mean windows stay
    at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- Row `k`, column `q` of the row window's block at point `t` is row `5000 t + k` of the array. -/
theorem iblk6_0_apply (agg : FVec F S100000x64 .f32) (hagg : V c (Pipeline.arrRef spec6 0) = agg)
    (t : Fin cfg6.N) (ht : t.val < 20) (k : Fin 5000) (q : Fin 64) :
    iblk6 V c 0 t (ix2 k q) = agg (ix2 (rowOf ⟨t.val, ht⟩ k) q) := by
  subst hagg
  obtain ⟨e0, e1, -, -, -, -⟩ := idx_facts6 t
  unfold iblk6
  rw [View.read_apply]
  show V c (Pipeline.arrRef spec6 0) (((cfg6.win 0).blk t).view.emb (ix2 k q)) = V c (Pipeline.arrRef spec6 0) (ix2 (rowOf ⟨t.val, ht⟩ k) q)
  refine congrArg (V c (Pipeline.arrRef spec6 0)) ?_
  funext a; apply Fin.ext
  match a with
  | ⟨0, _⟩ => show win6_0.index t (0 : Fin 2) * 5000 + 1 * k.val = t.val * 5000 + k.val; rw [e0]; omega
  | ⟨1, _⟩ => show win6_0.index t (1 : Fin 2) * 64 + 1 * q.val = q.val; rw [e1]; omega

/-- The bias window's block at any point is the bias array. -/
theorem iblk6_1_apply (b : FVec F S1x64 .f32) (hb : V c (Pipeline.arrRef spec6 1) = b)
    (t : Fin cfg6.N) (q : Fin 64) :
    iblk6 V c 1 t (ix2 (0 : Fin 1) q) = b (ix2 (0 : Fin 1) q) := by
  subst hb
  obtain ⟨-, -, e0, e1, -, -⟩ := idx_facts6 t
  unfold iblk6
  rw [View.read_apply]
  show V c (Pipeline.arrRef spec6 1) (((cfg6.win 1).blk t).view.emb (ix2 (0 : Fin 1) q)) = V c (Pipeline.arrRef spec6 1) (ix2 (0 : Fin 1) q)
  refine congrArg (V c (Pipeline.arrRef spec6 1)) ?_
  funext a; apply Fin.ext
  match a with
  | ⟨0, _⟩ => show win6_1.index t (0 : Fin 2) * 1 + 1 * 0 = 0; rw [e0]
  | ⟨1, _⟩ => show win6_1.index t (1 : Fin 2) * 64 + 1 * q.val = q.val; rw [e1]; omega

/-- The mean window's block at any point is the mean array. -/
theorem iblk6_2_apply (mean : FVec F S1x64 .f32) (hmean : V c (Pipeline.arrRef spec6 2) = mean)
    (t : Fin cfg6.N) (q : Fin 64) :
    iblk6 V c 2 t (ix2 (0 : Fin 1) q) = mean (ix2 (0 : Fin 1) q) := by
  subst hmean
  obtain ⟨-, -, -, -, e0, e1⟩ := idx_facts6 t
  unfold iblk6
  rw [View.read_apply]
  show V c (Pipeline.arrRef spec6 2) (((cfg6.win 2).blk t).view.emb (ix2 (0 : Fin 1) q)) = V c (Pipeline.arrRef spec6 2) (ix2 (0 : Fin 1) q)
  refine congrArg (V c (Pipeline.arrRef spec6 2)) ?_
  funext a; apply Fin.ext
  match a with
  | ⟨0, _⟩ => show win6_2.index t (0 : Fin 2) * 1 + 1 * 0 = 0; rw [e0]
  | ⟨1, _⟩ => show win6_2.index t (1 : Fin 2) * 64 + 1 * q.val = q.val; rw [e1]; omega

end Reads

/-! ## The running total, on the extended reals -/

section Total
variable (V : (c : Dev nD) → (b : Ref sig .tc) → Buf (Elt Ideal) ((c : Thread nD τ).loc b)) (c : Dev nD)
variable (agg : FVec Ideal S100000x64 .f32) (hagg : V c (Pipeline.arrRef spec6 0) = agg)
variable (b : FVec Ideal S1x64 .f32) (hb : V c (Pipeline.arrRef spec6 1) = b)
variable (mean : FVec Ideal S1x64 .f32) (hmean : V c (Pipeline.arrRef spec6 2) = mean)

/-- Block `t`'s column sum of squared deviations at column `q`. -/
def tile6 (q : Fin 64) (t : Fin 20) : EReal :=
  ∑ k : Fin 5000, ((agg (ix2 (rowOf t k) q) + b (ix2 (0 : Fin 1) q) - mean (ix2 (0 : Fin 1) q))
    * (agg (ix2 (rowOf t k) q) + b (ix2 (0 : Fin 1) q) - mean (ix2 (0 : Fin 1) q)))

omit V c in
/-- The column sum of a point's blocks is block `t`'s column sum of the arrays, when the blocks read the arrays so. -/
theorem blockSum6 (x0 : FVec Ideal S5000x64 .f32) (x1 x2 : FVec Ideal S1x64 .f32) (t : Fin 20) (q : Fin 64)
    (h0 : ∀ k : Fin 5000, x0 (ix2 k q) = agg (ix2 (rowOf t k) q))
    (h1 : x1 (ix2 (0 : Fin 1) q) = b (ix2 (0 : Fin 1) q))
    (h2 : x2 (ix2 (0 : Fin 1) q) = mean (ix2 (0 : Fin 1) q)) :
    ∑ k : Fin 5000, ((x0 (ix2 k q) + x1 (ix2 (0 : Fin 1) q) - x2 (ix2 (0 : Fin 1) q))
        * (x0 (ix2 k q) + x1 (ix2 (0 : Fin 1) q) - x2 (ix2 (0 : Fin 1) q)))
      = tile6 agg b mean q t :=
  Finset.sum_congr rfl fun k _ => by rw [h0 k, h1, h2]

include hagg hb hmean in
/-- After point `n` the output block holds, at column `q`, the column sums of the blocks `0..n`. -/
theorem outsAt6_eq (q : Fin 64) : ∀ (n : ℕ) (h : n < cfg6.N),
    (outsAt6 V c n h : FVec Ideal S1x64 .f32) (ix2 (0 : Fin 1) q) = ∑ s ∈ Finset.range (n + 1), addend (tile6 agg b mean q) s
  | 0, h => by
    have hN : cfg6.N = 20 := N_6
    refine (congrFun (outsAt6_first V c ⟨0, h⟩ (Nat.zero_mod 20)) (ix2 (0 : Fin 1) q)).trans ?_
    refine (pay6_2_apply (iblk6 V c 1 ⟨0, h⟩) (iblk6 V c 2 ⟨0, h⟩) (k6_pay1 (F := Ideal)) (iblk6 V c 0 ⟨0, h⟩) q).trans ?_
    rw [pay6_1_apply, zero_add, Finset.sum_range_one, addend_of_lt _ 0 (by omega)]
    exact blockSum6 agg b mean (iblk6 V c 0 ⟨0, h⟩) (iblk6 V c 1 ⟨0, h⟩) (iblk6 V c 2 ⟨0, h⟩) ⟨0, by omega⟩ q
      (fun k => iblk6_0_apply V c agg hagg ⟨0, h⟩ (by omega) k q) (iblk6_1_apply V c b hb ⟨0, h⟩ q)
      (iblk6_2_apply V c mean hmean ⟨0, h⟩ q)
  | n + 1, h => by
    have hN : cfg6.N = 20 := N_6
    have hB : ¬(⟨n + 1, h⟩ : Fin cfg6.N).val % 20 = 0 := by dsimp only; omega
    refine (congrFun (outsAt6_later V c ⟨n + 1, h⟩ hB) (ix2 (0 : Fin 1) q)).trans ?_
    refine (pay6_2_apply (iblk6 V c 1 ⟨n + 1, h⟩) (iblk6 V c 2 ⟨n + 1, h⟩) (outsAt6 V c n (Nat.lt_of_succ_lt h)) (iblk6 V c 0 ⟨n + 1, h⟩) q).trans ?_
    rw [outsAt6_eq q n (Nat.lt_of_succ_lt h), Finset.sum_range_succ _ (n + 1), addend_of_lt _ (n + 1) (by omega)]
    exact congrArg (fun z => ∑ s ∈ Finset.range (n + 1), addend (tile6 agg b mean q) s + z)
      (blockSum6 agg b mean (iblk6 V c 0 ⟨n + 1, h⟩) (iblk6 V c 1 ⟨n + 1, h⟩) (iblk6 V c 2 ⟨n + 1, h⟩) ⟨n + 1, by omega⟩ q
        (fun k => iblk6_0_apply V c agg hagg ⟨n + 1, h⟩ (by dsimp only; omega) k q) (iblk6_1_apply V c b hb ⟨n + 1, h⟩ q)
        (iblk6_2_apply V c mean hmean ⟨n + 1, h⟩ q))

end Total
/-! ## The array after the run -/

section Final
variable {F : FTy → Type} [FloatOps F]
variable (V : (c : Dev nD) → (b : Ref sig .tc) → Buf (Elt F) ((c : Thread nD τ).loc b)) (c : Dev nD)

theorem lt_last6 : 19 < cfg6.N := by rw [show cfg6.N = 20 from N_6]; decide

/-- The last grid point, the one point that writes the output block back. -/
abbrev last6 : Fin cfg6.N := ⟨19, lt_last6⟩

/-- The one write-back writes what the last point left: block (0, 0) of the [1,64] array is the array. -/
theorem flushed6_eq (t : Fin cfg6.N) (hf : (cfg6.win 3).flush t = true) :
    (dat6 V c).flushed 3 t = ((cfg6.win 3).blk t).view.read (Elt F) (outsAt6 V c 19 lt_last6) := by
  have hN : cfg6.N = 20 := N_6
  have h3 : t.val = 19 := by have := (flush6_3 t).mp hf; have := t.isLt; omega
  obtain rfl : t = last6 := Fin.ext h3
  show (cfg6.win 3).cut (grid6.coords last6) ((dat6 V c).after 3 last6) = _
  rw [after6_3]
  have hz' : (fun a => win6_3.index last6 a * main_v80.ty.shape.size a) = fun _ => 0 := funext fun a => by fin_cases a <;> decide
  exact (Memref.read_access_unit_zero (Elt F) main_v80 hz' (fun a => by rw [congrFun hz' a]; simp) (outsAt6 V c 19 lt_last6)).symm

/-- So the output array ends holding what the last point left in the block. -/
theorem final6 : (dat6 V c).arrAt 3 cfg6.N = outsAt6 V c 19 lt_last6 :=
  (dat6 V c).arrAt_eq_of_cover 3 (outsAt6 V c 19 lt_last6) (flushed6_eq V c) fun i =>
    ⟨last6, (flush6_3 last6).mpr rfl, by
      show i ∈ ((View.whole main_v80).slice (win6_3.rect last6)).set
      rw [View.set_slice_whole, Rect.mem_set_unit]
      intro a
      have h0 : (i 0 : Nat) < 1 := (i 0).isLt
      have h1 : (i 1 : Nat) < 64 := (i 1).isLt
      match a with
      | ⟨0, _⟩ => show win6_3.index last6 0 * win6_3.size 0 ≤ (i 0 : Nat) ∧ (i 0 : Nat) < win6_3.index last6 0 * win6_3.size 0 + win6_3.xsize (grid6.coords last6) 0
                  rw [show win6_3.index last6 0 * win6_3.size 0 = 0 from by decide +kernel, show win6_3.xsize (grid6.coords last6) 0 = 1 from by decide +kernel]; omega
      | ⟨1, _⟩ => show win6_3.index last6 1 * win6_3.size 1 ≤ (i 1 : Nat) ∧ (i 1 : Nat) < win6_3.index last6 1 * win6_3.size 1 + win6_3.xsize (grid6.coords last6) 1
                  rw [show win6_3.index last6 1 * win6_3.size 1 = 0 from by decide +kernel, show win6_3.xsize (grid6.coords last6) 1 = 64 from by decide +kernel]; omega⟩

end Final

/-! ## The statement -/

/-- After region 6 the output array holds, at column `q`, the sum over all 100000 rows of the squared deviation
    (row entry + bias − mean)². -/
theorem sq6 (V : (c : Dev nD) → (b : Ref sig .tc) → Buf (Elt Ideal) ((c : Thread nD τ).loc b)) (c : Dev nD)
    (agg : FVec Ideal S100000x64 .f32) (hagg : V c (Pipeline.arrRef spec6 0) = agg)
    (b : FVec Ideal S1x64 .f32) (hb : V c (Pipeline.arrRef spec6 1) = b)
    (mean : FVec Ideal S1x64 .f32) (hmean : V c (Pipeline.arrRef spec6 2) = mean) (q : Fin 64) :
    (dat6 (F := Ideal) V c).arrAt 3 cfg6.N (ix2 (0 : Fin 1) q)
      = ∑ r : Fin 100000, ((agg (ix2 r q) + b (ix2 (0 : Fin 1) q) - mean (ix2 (0 : Fin 1) q))
          * (agg (ix2 r q) + b (ix2 (0 : Fin 1) q) - mean (ix2 (0 : Fin 1) q))) := by
  refine (congrFun (final6 V c) (ix2 (0 : Fin 1) q)).trans ?_
  refine (outsAt6_eq V c agg hagg b hb mean hmean q 19 lt_last6).trans ?_
  rw [sum_range_addend]
  exact (sum_rows fun r => (agg (ix2 r q) + b (ix2 (0 : Fin 1) q) - mean (ix2 (0 : Fin 1) q))
    * (agg (ix2 r q) + b (ix2 (0 : Fin 1) q) - mean (ix2 (0 : Fin 1) q))).symm

end Cert.KernelIdeal.RegionSums

end
-- ==== Proof.RegionPointwiseNorm7.lean ====
/- Region 7 (normalise, scale, shift and clamp at zero, layer two), read off its frame data at arbitrary
   region-entry contents.

   The region's grid has 20 points; point t stages rows 5000 t … 5000 t + 4999 of the [100000, 64]
   aggregate and the five whole [1, 64] rows (bias, mean, reciprocal deviation, scale, shift), computes
     max ((((x + b) - mean) * rstd) * gamma + beta) 0
   entry by entry with each row broadcast over the block's rows, and writes the block back to rows
   5000 t … 5000 t + 4999 of the output.  So the output array ends as `normRows` of the six operand
   arrays, and row r is written by point r / 5000. -/
import proofs.«173470_j52209622450441_2_alg».proof.Proof.Gen.KernelIdeal.Frame
import proofs.«173470_j52209622450441_2_alg».proof.Proof.RegionPointwiseMath
import Idealize.ShloMosaic.Lib.Pipeline.Value

noncomputable section

namespace Cert.KernelIdeal.RegionPointwise

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at (p, q) of the block, from the staged block and the five staged rows. -/
theorem pay7_apply (x0 : Vec Ideal S5000x64 .f32) (x1 x2 x3 x4 x5 : Vec Ideal S1x64 .f32) (p : Fin 5000) (q : Fin 64) :
    k7_pay1 (F := Ideal) x0 x1 x2 x3 x4 x5 (ix2 p q)
      = max ((((x0 (ix2 p q) + x1 (ix2 (0 : Fin 1) q)) - x2 (ix2 (0 : Fin 1) q)) * x3 (ix2 (0 : Fin 1) q))
          * x4 (ix2 (0 : Fin 1) q) + x5 (ix2 (0 : Fin 1) q)) (Ideal.ofBits .f32 0x00000000#32) := by
  unfold k7_pay1
  exact norm_payload (Scalar.ofBits (F := Ideal) .f32 0x00000000#32) x0 x1 x2 x3 x4 x5 _ _ _ p q

/-- The index maps over the grid: the aggregate's block moves with the output's, each row stays at block (0, 0),
    and the output's block at point t is (t, 0). -/
theorem index_facts7 : ∀ t : Fin cfg7.N,
    win7_0.index t (0 : Fin 2) = win7_6.index t (0 : Fin 2) ∧ win7_0.index t (1 : Fin 2) = win7_6.index t (1 : Fin 2)
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-! ## Where a staged entry sits in its array -/

/-- Entry (p, q) of the aggregate's block at point t sits in the aggregate where entry (p, q) of the output's block
    sits in the output. -/
theorem emb_agg7 (t : Fin cfg7.N) (p : Fin 5000) (q : Fin 64) :
    ((cfg7.win 0).blk t).view.emb (ix2 p q) = ((cfg7.win 6).blk t).view.emb (ix2 p q) := by
  obtain ⟨e0, e1, e2, e3, e4, e5, e6, e7, e8, e9, e10, e11, e12, e13⟩ := index_facts7 t
  funext a; apply Fin.ext
  match a with
  | ⟨0, _⟩ => show win7_0.index t (0 : Fin 2) * 5000 + 1 * p.val = win7_6.index t (0 : Fin 2) * 5000 + 1 * p.val; omega
  | ⟨1, _⟩ => show win7_0.index t (1 : Fin 2) * 64 + 1 * q.val = win7_6.index t (1 : Fin 2) * 64 + 1 * q.val; omega

/-- The bias row's staged block is the whole row: its entry in column q sits at (0, q), and q is also the
    column at which entry (p, q) of the output's block sits in the output array. -/
theorem emb_row7_1 (t : Fin cfg7.N) (p : Fin 5000) (q : Fin 64) :
    ((cfg7.win 1).blk t).view.emb (ix2 (0 : Fin 1) q)
      = ix2 (0 : Fin 1) ((((cfg7.win 6).blk t).view.emb (ix2 p q)) 1) := by
  obtain ⟨e0, e1, e2, e3, e4, e5, e6, e7, e8, e9, e10, e11, e12, e13⟩ := index_facts7 t
  funext a; apply Fin.ext
  match a with
  | ⟨0, _⟩ => show win7_1.index t (0 : Fin 2) * 1 + 1 * 0 = 0; omega
  | ⟨1, _⟩ => show win7_1.index t (1 : Fin 2) * 64 + 1 * q.val = win7_6.index t (1 : Fin 2) * 64 + 1 * q.val; omega

/-- The mean row's staged block is the whole row: its entry in column q sits at (0, q), and q is also the
    column at which entry (p, q) of the output's block sits in the output array. -/
theorem emb_row7_2 (t : Fin cfg7.N) (p : Fin 5000) (q : Fin 64) :
    ((cfg7.win 2).blk t).view.emb (ix2 (0 : Fin 1) q)
      = ix2 (0 : Fin 1) ((((cfg7.win 6).blk t).view.emb (ix2 p q)) 1) := by
  obtain ⟨e0, e1, e2, e3, e4, e5, e6, e7, e8, e9, e10, e11, e12, e13⟩ := index_facts7 t
  funext a; apply Fin.ext
  match a with
  | ⟨0, _⟩ => show win7_2.index t (0 : Fin 2) * 1 + 1 * 0 = 0; omega
  | ⟨1, _⟩ => show win7_2.index t (1 : Fin 2) * 64 + 1 * q.val = win7_6.index t (1 : Fin 2) * 64 + 1 * q.val; omega

/-- The reciprocal-deviation row's staged block is the whole row: its entry in column q sits at (0, q), and q is also the
    column at which entry (p, q) of the output's block sits in the output array. -/
theorem emb_row7_3 (t : Fin cfg7.N) (p : Fin 5000) (q : Fin 64) :
    ((cfg7.win 3).blk t).view.emb (ix2 (0 : Fin 1) q)
      = ix2 (0 : Fin 1) ((((cfg7.win 6).blk t).view.emb (ix2 p q)) 1) := by
  obtain ⟨e0, e1, e2, e3, e4, e5, e6, e7, e8, e9, e10, e11, e12, e13⟩ := index_facts7 t
  funext a; apply Fin.ext
  match a with
  | ⟨0, _⟩ => show win7_3.index t (0 : Fin 2) * 1 + 1 * 0 = 0; omega
  | ⟨1, _⟩ => show win7_3.index t (1 : Fin 2) * 64 + 1 * q.val = win7_6.index t (1 : Fin 2) * 64 + 1 * q.val; omega

/-- The scale row's staged block is the whole row: its entry in column q sits at (0, q), and q is also the
    column at which entry (p, q) of the output's block sits in the output array. -/
theorem emb_row7_4 (t : Fin cfg7.N) (p : Fin 5000) (q : Fin 64) :
    ((cfg7.win 4).blk t).view.emb (ix2 (0 : Fin 1) q)
      = ix2 (0 : Fin 1) ((((cfg7.win 6).blk t).view.emb (ix2 p q)) 1) := by
  obtain ⟨e0, e1, e2, e3, e4, e5, e6, e7, e8, e9, e10, e11, e12, e13⟩ := index_facts7 t
  funext a; apply Fin.ext
  match a with
  | ⟨0, _⟩ => show win7_4.index t (0 : Fin 2) * 1 + 1 * 0 = 0; omega
  | ⟨1, _⟩ => show win7_4.index t (1 : Fin 2) * 64 + 1 * q.val = win7_6.index t (1 : Fin 2) * 64 + 1 * q.val; omega

/-- The shift row's staged block is the whole row: its entry in column q sits at (0, q), and q is also the
    column at which entry (p, q) of the output's block sits in the output array. -/
theorem emb_row7_5 (t : Fin cfg7.N) (p : Fin 5000) (q : Fin 64) :
    ((cfg7.win 5).blk t).view.emb (ix2 (0 : Fin 1) q)
      = ix2 (0 : Fin 1) ((((cfg7.win 6).blk t).view.emb (ix2 p q)) 1) := by
  obtain ⟨e0, e1, e2, e3, e4, e5, e6, e7, e8, e9, e10, e11, e12, e13⟩ := index_facts7 t
  funext a; apply Fin.ext
  match a with
  | ⟨0, _⟩ => show win7_5.index t (0 : Fin 2) * 1 + 1 * 0 = 0; omega
  | ⟨1, _⟩ => show win7_5.index t (1 : Fin 2) * 64 + 1 * q.val = win7_6.index t (1 : Fin 2) * 64 + 1 * q.val; omega

/-! ## The staged blocks as entries of the operand arrays -/

theorem read7_0 (c : Dev nD) (agg : FVec Ideal S100000x64 .f32) (hagg : V c (Pipeline.arrRef spec7 0) = agg)
    (t : Fin cfg7.N) (p : Fin 5000) (q : Fin 64) :
    iblk7 V c 0 t (ix2 p q) = agg (((cfg7.win 6).blk t).view.emb (ix2 p q)) := by
  show (V c (Pipeline.arrRef spec7 0) : FVec Ideal S100000x64 .f32) (((cfg7.win 0).blk t).view.emb (ix2 p q)) = _
  rw [hagg]
  exact congrArg agg (emb_agg7 t p q)

theorem read7_1 (c : Dev nD) (b : FVec Ideal S1x64 .f32) (hb : V c (Pipeline.arrRef spec7 1) = b)
    (t : Fin cfg7.N) (p : Fin 5000) (q : Fin 64) :
    iblk7 V c 1 t (ix2 (0 : Fin 1) q) = b (ix2 (0 : Fin 1) ((((cfg7.win 6).blk t).view.emb (ix2 p q)) 1)) := by
  show (V c (Pipeline.arrRef spec7 1) : FVec Ideal S1x64 .f32) (((cfg7.win 1).blk t).view.emb (ix2 (0 : Fin 1) q)) = _
  rw [hb]
  exact congrArg b (emb_row7_1 t p q)

theorem read7_2 (c : Dev nD) (mean : FVec Ideal S1x64 .f32) (hmean : V c (Pipeline.arrRef spec7 2) = mean)
    (t : Fin cfg7.N) (p : Fin 5000) (q : Fin 64) :
    iblk7 V c 2 t (ix2 (0 : Fin 1) q) = mean (ix2 (0 : Fin 1) ((((cfg7.win 6).blk t).view.emb (ix2 p q)) 1)) := by
  show (V c (Pipeline.arrRef spec7 2) : FVec Ideal S1x64 .f32) (((cfg7.win 2).blk t).view.emb (ix2 (0 : Fin 1) q)) = _
  rw [hmean]
  exact congrArg mean (emb_row7_2 t p q)

theorem read7_3 (c : Dev nD) (rstd : FVec Ideal S1x64 .f32) (hrstd : V c (Pipeline.arrRef spec7 3) = rstd)
    (t : Fin cfg7.N) (p : Fin 5000) (q : Fin 64) :
    iblk7 V c 3 t (ix2 (0 : Fin 1) q) = rstd (ix2 (0 : Fin 1) ((((cfg7.win 6).blk t).view.emb (ix2 p q)) 1)) := by
  show (V c (Pipeline.arrRef spec7 3) : FVec Ideal S1x64 .f32) (((cfg7.win 3).blk t).view.emb (ix2 (0 : Fin 1) q)) = _
  rw [hrstd]
  exact congrArg rstd (emb_row7_3 t p q)

theorem read7_4 (c : Dev nD) (gamma : FVec Ideal S1x64 .f32) (hgamma : V c (Pipeline.arrRef spec7 4) = gamma)
    (t : Fin cfg7.N) (p : Fin 5000) (q : Fin 64) :
    iblk7 V c 4 t (ix2 (0 : Fin 1) q) = gamma (ix2 (0 : Fin 1) ((((cfg7.win 6).blk t).view.emb (ix2 p q)) 1)) := by
  show (V c (Pipeline.arrRef spec7 4) : FVec Ideal S1x64 .f32) (((cfg7.win 4).blk t).view.emb (ix2 (0 : Fin 1) q)) = _
  rw [hgamma]
  exact congrArg gamma (emb_row7_4 t p q)

theorem read7_5 (c : Dev nD) (beta : FVec Ideal S1x64 .f32) (hbeta : V c (Pipeline.arrRef spec7 5) = beta)
    (t : Fin cfg7.N) (p : Fin 5000) (q : Fin 64) :
    iblk7 V c 5 t (ix2 (0 : Fin 1) q) = beta (ix2 (0 : Fin 1) ((((cfg7.win 6).blk t).view.emb (ix2 p q)) 1)) := by
  show (V c (Pipeline.arrRef spec7 5) : FVec Ideal S1x64 .f32) (((cfg7.win 5).blk t).view.emb (ix2 (0 : Fin 1) q)) = _
  rw [hbeta]
  exact congrArg beta (emb_row7_5 t p q)

/-! ## From blocks to the array -/

/-- What point t writes back is block t of `normRows` of the six operand arrays. -/
theorem flushed7_eq (c : Dev nD) (agg : FVec Ideal S100000x64 .f32) (b mean rstd gamma beta : FVec Ideal S1x64 .f32)
    (hagg : V c (Pipeline.arrRef spec7 0) = agg) (hb : V c (Pipeline.arrRef spec7 1) = b)
    (hmean : V c (Pipeline.arrRef spec7 2) = mean) (hrstd : V c (Pipeline.arrRef spec7 3) = rstd)
    (hgamma : V c (Pipeline.arrRef spec7 4) = gamma) (hbeta : V c (Pipeline.arrRef spec7 5) = beta) (t : Fin cfg7.N) :
    (dat7 V c).flushed 6 t = ((cfg7.win 6).blk t).view.read (Elt Ideal)
      (normRows (Ideal.ofBits .f32 0x00000000#32) agg b mean rstd gamma beta) := by
  show (cfg7.win 6).cut (grid7.coords t) ((dat7 V c).after 6 t) = _
  rw [after7_6]
  unfold out7_6
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, @eq_ix2 5000 64 j⟩
  show k7_pay1 (iblk7 V c 0 t) (iblk7 V c 1 t) (iblk7 V c 2 t) (iblk7 V c 3 t) (iblk7 V c 4 t) (iblk7 V c 5 t) (ix2 p q)
    = normRows (Ideal.ofBits .f32 0x00000000#32) agg b mean rstd gamma beta (((cfg7.win 6).blk t).view.emb (ix2 p q))
  refine (pay7_apply (iblk7 V c 0 t) (iblk7 V c 1 t) (iblk7 V c 2 t) (iblk7 V c 3 t) (iblk7 V c 4 t) (iblk7 V c 5 t) p q).trans ?_
  rw [read7_0 V c agg hagg t p q, read7_1 V c b hb t p q, read7_2 V c mean hmean t p q,
    read7_3 V c rstd hrstd t p q, read7_4 V c gamma hgamma t p q, read7_5 V c beta hbeta t p q]
  rfl

/-- An index of the output array is in point t's block iff each coordinate is in the block's range on its axis. -/
theorem mem_block7 (t : Fin cfg7.N) (i : S100000x64.Idx) :
    i ∈ ((cfg7.win 6).blk t).view.set ↔ ∀ a : Fin 2, win7_6.index t a * S5000x64.size a ≤ (i a).val
      ∧ (i a).val < win7_6.index t a * S5000x64.size a + S5000x64.size a := by
  show i ∈ ((View.whole main_v89).slice (win7_6.rect t)).set ↔ _
  rw [View.set_slice_whole, Rect.mem_set_unit]
  exact Iff.rfl

/-- Every index of the output array is in the block of the point its row falls to. -/
theorem cover7 (i : S100000x64.Idx) :
    ∃ t : Fin cfg7.N, (cfg7.win 6).flush t = true ∧ i ∈ ((cfg7.win 6).blk t).view.set := by
  have hi0 : (i 0).val < 100000 := (i 0).isLt
  have hi1 : (i 1).val < 64 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨e0, e1, e2, e3, e4, e5, e6, e7, e8, e9, e10, e11, e12, e13⟩ := index_facts7 t
  refine ⟨t, flush7_6 t, ?_⟩
  rw [mem_block7]
  intro a
  match a with
  | ⟨0, _⟩ =>
    show win7_6.index t (0 : Fin 2) * 5000 ≤ (i 0).val ∧ (i 0).val < win7_6.index t (0 : Fin 2) * 5000 + 5000
    omega
  | ⟨1, _⟩ =>
    show win7_6.index t (1 : Fin 2) * 64 ≤ (i 1).val ∧ (i 1).val < win7_6.index t (1 : Fin 2) * 64 + 64
    omega

/-- The output array after the region's last point is `normRows` of the six operand arrays as the region found them. -/
theorem final7 (c : Dev nD) (agg : FVec Ideal S100000x64 .f32) (b mean rstd gamma beta : FVec Ideal S1x64 .f32)
    (hagg : V c (Pipeline.arrRef spec7 0) = agg) (hb : V c (Pipeline.arrRef spec7 1) = b)
    (hmean : V c (Pipeline.arrRef spec7 2) = mean) (hrstd : V c (Pipeline.arrRef spec7 3) = rstd)
    (hgamma : V c (Pipeline.arrRef spec7 4) = gamma) (hbeta : V c (Pipeline.arrRef spec7 5) = beta) :
    (dat7 V c).arrAt 6 cfg7.N = normRows (Ideal.ofBits .f32 0x00000000#32) agg b mean rstd gamma beta :=
  (dat7 V c).arrAt_eq_of_cover 6 (normRows (Ideal.ofBits .f32 0x00000000#32) agg b mean rstd gamma beta)
    (fun t _ => flushed7_eq V c agg b mean rstd gamma beta hagg hb hmean hrstd hgamma hbeta t) cover7

/-- Entry (r, q) of the output array after the region. -/
theorem norm7 (c : Dev nD) (agg : FVec Ideal S100000x64 .f32) (b mean rstd gamma beta : FVec Ideal S1x64 .f32)
    (hagg : V c (Pipeline.arrRef spec7 0) = agg) (hb : V c (Pipeline.arrRef spec7 1) = b)
    (hmean : V c (Pipeline.arrRef spec7 2) = mean) (hrstd : V c (Pipeline.arrRef spec7 3) = rstd)
    (hgamma : V c (Pipeline.arrRef spec7 4) = gamma) (hbeta : V c (Pipeline.arrRef spec7 5) = beta)
    (r : Fin 100000) (q : Fin 64) :
    (dat7 (F := Ideal) V c).arrAt 6 cfg7.N (ix2 r q)
      = max ((((agg (ix2 r q) + b (ix2 (0 : Fin 1) q)) - mean (ix2 (0 : Fin 1) q)) * rstd (ix2 (0 : Fin 1) q))
          * gamma (ix2 (0 : Fin 1) q) + beta (ix2 (0 : Fin 1) q)) (Ideal.ofBits .f32 0x00000000#32) :=
  (congrFun (final7 V c agg b mean rstd gamma beta hagg hb hmean hrstd hgamma hbeta) (ix2 r q)).trans
    (normRows_apply (Ideal.ofBits .f32 0x00000000#32) agg b mean rstd gamma beta r q)

end Cert.KernelIdeal.RegionPointwise

end
-- ==== Proof.ChainL2.lean ====
/-
  The second normalised layer of the idealized kernel program, read against the reference's: the same six steps as
  the first layer (aggregate over the edges, sum over the nodes, divide, sum the squared deviations, divide, add eps,
  reciprocal square root, normalise and clip), from the second matmul's result, with the second layer's bias, scale
  and shift. Its output array is the reference's second hidden layer of the launched arrays.
-/
import proofs.«173470_j52209622450441_2_alg».proof.Proof.ChainL1
import proofs.«173470_j52209622450441_2_alg».proof.Proof.RegionSums5
import proofs.«173470_j52209622450441_2_alg».proof.Proof.RegionSums6
import proofs.«173470_j52209622450441_2_alg».proof.Proof.RegionPointwiseNorm7
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.KernelIdeal.Keeps Cert.KernelIdeal.Carried

variable (m : (ℓ : Loc nD τ sig) → Buf (Elt Ideal) ℓ) (ρ : Dev nD → PrngReg) (c : Dev nD)

/-! ## The aggregation -/

/-- The layer's aggregated features (before the bias): the scatter-add over the edges of the weighted gathered rows
    of the matmul's result. -/
def agg2 : FVec Ideal Cert.ReferenceIdeal.S100000x64 .f32 :=
  Cert.RefSpec.agg64 (F := Ideal) ((argOf m c main_arg1 : Cert.RefSpec.Arr Ideal Cert.ReferenceIdeal.S2x1600000 .i32)) (Host.dotGeneral (F := Ideal) (φ₁ := .f32) (φ₂ := .f32) Cert.ReferenceIdeal.dot_S100000x64_S64x64_S100000x64_1_0_0_1_n_n none (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg6 : Cert.RefSpec.Arr Ideal Cert.ReferenceIdeal.S64x64 .f32)))

theorem W12_agg : W12 m ρ c (Proc.devRef .tc main_v74) = agg2 m c :=
  Cert.KernelIdeal.Stretch.ops5_agg (W11 m ρ c) _ _
    ((at11 m ρ c main_v3 (by decide)).trans (W3_v3 m ρ c)) ((at11 m ρ c main_v6 (by decide)).trans (W3_v6 m ρ c))
    ((at11 m ρ c main_v31 (by decide)).trans (W3_v31 m ρ c)) (W11_v61 m ρ c)

/-- The bias as a [1, 64] row. -/
theorem W12_brow : W12 m ρ c (Proc.devRef .tc main_v75)
    = shapeCast S1x64 (argOf m c main_arg7 : Cert.RefSpec.Arr Ideal Cert.ReferenceIdeal.S64 .f32) Cert.KernelIdeal.Facts₀.shapeCasts_S64_S1x64 :=
  Cert.KernelIdeal.Stretch.ops5_brow (W11 m ρ c) _ ((at11 m ρ c main_arg7 (by decide)).trans (W3_arg m ρ c main_arg7 (by decide)))

/-! ## The column sums -/

theorem W13_sum (q : Fin 64) : (W13 m ρ c (Proc.devRef .tc main_v76) : FVec Ideal S1x64 .f32) (ix2 (0 : Fin 1) q)
    = ∑ r : Fin 100000, (agg2 m c (ix2 r q) + (argOf m c main_arg7 : Cert.RefSpec.Arr Ideal Cert.ReferenceIdeal.S64 .f32) (ix1 q)) := by
  refine (congrFun (W13_arr m ρ c 2) _).trans ?_
  refine (Cert.KernelIdeal.RegionSums.sum5 (V12 m ρ) c (agg2 m c) (W12_agg m ρ c) _ (W12_brow m ρ c) q).trans ?_
  simp only [shapeCast_a_1a_apply]

/-! ## The mean -/

theorem W14_mean (q : Fin 64) : (W14 m ρ c (Proc.devRef .tc main_v78) : FVec Ideal S1x64 .f32) (ix2 (0 : Fin 1) q)
    = Ideal.div ((W13 m ρ c (Proc.devRef .tc main_v76) : FVec Ideal S1x64 .f32) (ix2 (0 : Fin 1) q)) (Ideal.ofBits .f32 0x47C35000#32) :=
  Cert.KernelIdeal.Stretch.ops6_mean (W13 m ρ c) q
theorem W14_brow : W14 m ρ c (Proc.devRef .tc main_v79)
    = shapeCast S1x64 (argOf m c main_arg7 : Cert.RefSpec.Arr Ideal Cert.ReferenceIdeal.S64 .f32) Cert.KernelIdeal.Facts₀.shapeCasts_S64_S1x64 :=
  Cert.KernelIdeal.Stretch.ops6_brow (W13 m ρ c) _ ((at13 m ρ c main_arg7 (by decide)).trans (W3_arg m ρ c main_arg7 (by decide)))
theorem W14_agg : W14 m ρ c (Proc.devRef .tc main_v74) = agg2 m c :=
  (keep_ops6 _ main_v74 (by decide)).trans ((keep_reg5 m ρ c main_v74 (by decide)).trans (W12_agg m ρ c))

/-! ## The sums of squared deviations -/

theorem W15_sq (q : Fin 64) : (W15 m ρ c (Proc.devRef .tc main_v80) : FVec Ideal S1x64 .f32) (ix2 (0 : Fin 1) q)
    = ∑ r : Fin 100000,
        (agg2 m c (ix2 r q) + (argOf m c main_arg7 : Cert.RefSpec.Arr Ideal Cert.ReferenceIdeal.S64 .f32) (ix1 q) - (W14 m ρ c (Proc.devRef .tc main_v78) : FVec Ideal S1x64 .f32) (ix2 (0 : Fin 1) q))
        * (agg2 m c (ix2 r q) + (argOf m c main_arg7 : Cert.RefSpec.Arr Ideal Cert.ReferenceIdeal.S64 .f32) (ix1 q) - (W14 m ρ c (Proc.devRef .tc main_v78) : FVec Ideal S1x64 .f32) (ix2 (0 : Fin 1) q)) := by
  refine (congrFun (W15_arr m ρ c 3) _).trans ?_
  refine (Cert.KernelIdeal.RegionSums.sq6 (V14 m ρ) c (agg2 m c) (W14_agg m ρ c) _ (W14_brow m ρ c)
    (W14 m ρ c (Proc.devRef .tc main_v78)) rfl q).trans ?_
  simp only [shapeCast_a_1a_apply]

/-! ## The reciprocal standard deviation and the rows of the scale and the shift -/

theorem W16_rstd (q : Fin 64) : (W16 m ρ c (Proc.devRef .tc main_v86) : FVec Ideal S1x64 .f32) (ix2 (0 : Fin 1) q)
    = Ideal.rsqrt (Ideal.div ((W15 m ρ c (Proc.devRef .tc main_v80) : FVec Ideal S1x64 .f32) (ix2 (0 : Fin 1) q)) (Ideal.ofBits .f32 0x47C35000#32)
        + Ideal.ofBits .f32 0x3727C5AC#32) :=
  Cert.KernelIdeal.Stretch.ops7_rstd (W15 m ρ c) q
theorem W16_brow : W16 m ρ c (Proc.devRef .tc main_v83)
    = shapeCast S1x64 (argOf m c main_arg7 : Cert.RefSpec.Arr Ideal Cert.ReferenceIdeal.S64 .f32) Cert.KernelIdeal.Facts₀.shapeCasts_S64_S1x64 :=
  Cert.KernelIdeal.Stretch.ops7_brow (W15 m ρ c) _ ((at15 m ρ c main_arg7 (by decide)).trans (W3_arg m ρ c main_arg7 (by decide)))
theorem W16_grow : W16 m ρ c (Proc.devRef .tc main_v87)
    = shapeCast S1x64 (argOf m c main_arg8 : Cert.RefSpec.Arr Ideal Cert.ReferenceIdeal.S64 .f32) Cert.KernelIdeal.Facts₀.shapeCasts_S64_S1x64 :=
  Cert.KernelIdeal.Stretch.ops7_grow (W15 m ρ c) _ ((at15 m ρ c main_arg8 (by decide)).trans (W3_arg m ρ c main_arg8 (by decide)))
theorem W16_berow : W16 m ρ c (Proc.devRef .tc main_v88)
    = shapeCast S1x64 (argOf m c main_arg9 : Cert.RefSpec.Arr Ideal Cert.ReferenceIdeal.S64 .f32) Cert.KernelIdeal.Facts₀.shapeCasts_S64_S1x64 :=
  Cert.KernelIdeal.Stretch.ops7_berow (W15 m ρ c) _ ((at15 m ρ c main_arg9 (by decide)).trans (W3_arg m ρ c main_arg9 (by decide)))
theorem W16_agg : W16 m ρ c (Proc.devRef .tc main_v74) = agg2 m c :=
  (keep_ops7 _ main_v74 (by decide)).trans ((keep_reg6 m ρ c main_v74 (by decide)).trans (W14_agg m ρ c))
theorem W16_mean : W16 m ρ c (Proc.devRef .tc main_v78) = W14 m ρ c (Proc.devRef .tc main_v78) :=
  (keep_ops7 _ main_v78 (by decide)).trans (keep_reg6 m ρ c main_v78 (by decide))

/-! ## The normalised, scaled, shifted and clipped features: the reference's hidden layer -/

theorem W17_hidden : W17 m ρ c (Proc.devRef .tc main_v89) = Cert.RefSpec.hidden2 (F := Ideal) (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg1 : Cert.RefSpec.Arr Ideal Cert.ReferenceIdeal.S2x1600000 .i32)) ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32)) := by
  refine (W17_arr m ρ c 6).trans ?_
  refine Cert.Bridge.layer_64 (agg2 m c) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32))
    (shapeCast S1x64 (argOf m c main_arg7 : Cert.RefSpec.Arr Ideal Cert.ReferenceIdeal.S64 .f32) Cert.KernelIdeal.Facts₀.shapeCasts_S64_S1x64)
    (shapeCast S1x64 (argOf m c main_arg8 : Cert.RefSpec.Arr Ideal Cert.ReferenceIdeal.S64 .f32) Cert.KernelIdeal.Facts₀.shapeCasts_S64_S1x64)
    (shapeCast S1x64 (argOf m c main_arg9 : Cert.RefSpec.Arr Ideal Cert.ReferenceIdeal.S64 .f32) Cert.KernelIdeal.Facts₀.shapeCasts_S64_S1x64)
    (W13 m ρ c (Proc.devRef .tc main_v76)) (W14 m ρ c (Proc.devRef .tc main_v78))
    (W15 m ρ c (Proc.devRef .tc main_v80)) (W16 m ρ c (Proc.devRef .tc main_v86))
    (fun q => shapeCast_a_1a_apply _ _ 0 q) (fun q => shapeCast_a_1a_apply _ _ 0 q) (fun q => shapeCast_a_1a_apply _ _ 0 q)
    (fun q => by rw [W13_sum m ρ c q]; simp only [shapeCast_a_1a_apply])
    (fun q => W14_mean m ρ c q)
    (fun q => by rw [W15_sq m ρ c q]; simp only [shapeCast_a_1a_apply])
    (fun q => W16_rstd m ρ c q) _ ?_
  intro r q
  exact Cert.KernelIdeal.RegionPointwise.norm7 (V16 m ρ) c (agg2 m c) _ _ _ _ _
    (W16_agg m ρ c) (W16_brow m ρ c) (W16_mean m ρ c) rfl (W16_grow m ρ c) (W16_berow m ρ c) r q

end Cert.KernelIdeal.Chain

end
-- ==== Proof.RegionMatmul8.lean ====
/- Region 8: the second layer's output times the mean head's weights, a [100000, 64] matrix times a [64, 32] matrix.

   The grid has 20 points. Point `t` loads rows `5000 t … 5000 t + 4999` of the left matrix and the whole right
   matrix, multiplies them into a zero accumulator (after casting the row block to its own shape, which changes nothing), and writes the [5000, 32] result back as rows
   `5000 t … 5000 t + 4999` of the output. Row `r` of the output is therefore written by point `r / 5000`, and
   the entry at `(r, q)` is `∑ l, x (r, l) * w (l, q)`: an entry of the product reads one row of the left matrix
   and one column of the right, and the block of rows holds that row at `r - 5000 t`. -/
import proofs.«173470_j52209622450441_2_alg».proof.Proof.Gen.KernelIdeal.Frame
import proofs.«173470_j52209622450441_2_alg».proof.Proof.RegionMatmulSum
import Idealize.ShloMosaic.Lib.Pipeline.Value
import Idealize.ShloMosaic.Lib.ValueIdx

set_option maxRecDepth 16384

noncomputable section

open scoped BigOperators

namespace Cert.KernelIdeal.RegionMatmul

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point `t`: the left matrix and the output move down by one block of rows per point, the
    right matrix stays (decided over the 20 points). -/
theorem block_indices8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What the body stores is the product of the two loaded blocks (the cast of the row block to its own shape is the identity). -/
theorem payload8_eq (x0 : Vec Ideal S5000x64 .f32) (x1 : Vec Ideal S64x32 .f32) :
    k8_pay1 (F := Ideal) x0 x1 = prod (M := 5000) (K := 64) (N := 32) x0 x1 := by
  unfold k8_pay1
  simp only [shapeCast_self]
  exact matmul_zero_eq_prod (M := 5000) (K := 64) (N := 32) none x0 x1

/-- The left matrix's block at point `t` holds, at `y`, the matrix's entry in row `5000 t + y₀`, same column. -/
theorem rows8_apply (c : Dev nD) (t : Fin cfg8.N) (y : S5000x64.Idx) (k : S100000x64.Idx)
    (h0 : (k 0).val = t.val * 5000 + (y 0).val) (h1 : (k 1).val = (y 1).val) :
    (iblk8 V c 0 t : Vec Ideal S5000x64 .f32) y = (V c (Pipeline.arrRef spec8 0) : S100000x64.Idx → EReal) k := by
  obtain ⟨e0, e1, -, -, -, -⟩ := block_indices8 t
  unfold iblk8
  rw [View.read_apply]
  refine congrArg (V c (Pipeline.arrRef spec8 0)) ?_
  funext a
  apply Fin.ext
  match a with
  | ⟨0, _⟩ => show win8_0.index t (0 : Fin 2) * 5000 + 1 * (y 0).val = (k 0).val; omega
  | ⟨1, _⟩ => show win8_0.index t (1 : Fin 2) * 64 + 1 * (y 1).val = (k 1).val; omega

/-- The right matrix's block at every point is the whole matrix. -/
theorem weights8_apply (c : Dev nD) (t : Fin cfg8.N) (y : S64x32.Idx) (k : S64x32.Idx)
    (h0 : (k 0).val = (y 0).val) (h1 : (k 1).val = (y 1).val) :
    (iblk8 V c 1 t : Vec Ideal S64x32 .f32) y = (V c (Pipeline.arrRef spec8 1) : S64x32.Idx → EReal) k := by
  obtain ⟨-, -, e2, e3, -, -⟩ := block_indices8 t
  unfold iblk8
  rw [View.read_apply]
  refine congrArg (V c (Pipeline.arrRef spec8 1)) ?_
  funext a
  apply Fin.ext
  match a with
  | ⟨0, _⟩ => show win8_1.index t (0 : Fin 2) * 64 + 1 * (y 0).val = (k 0).val; omega
  | ⟨1, _⟩ => show win8_1.index t (1 : Fin 2) * 32 + 1 * (y 1).val = (k 1).val; omega

/-- What point `t` writes back is its block of rows of the product of the two whole matrices. -/
theorem written8 (c : Dev nD) (t : Fin cfg8.N) :
    (dat8 (F := Ideal) V c).flushed 2 t = ((cfg8.win 2).blk t).view.read (Elt Ideal)
      (prod (M := 100000) (K := 64) (N := 32) (V c (Pipeline.arrRef spec8 0)) (V c (Pipeline.arrRef spec8 1))) := by
  show (cfg8.win 2).cut (grid8.coords t) ((dat8 V c).after 2 t) = _
  rw [after8_2]
  unfold out8_2
  rw [View.canon_unit_zero zero_offsets]
  simp only [View.ld_unit_zero (S := S5000x64) zero_offsets, View.ld_unit_zero (S := S64x32) zero_offsets]
  rw [payload8_eq]
  obtain ⟨-, -, -, -, e4, e5⟩ := block_indices8 t
  funext j
  rw [View.read_apply]
  show prod (M := 5000) (K := 64) (N := 32) (iblk8 V c 0 t) (iblk8 V c 1 t) ((cfg8.win 2).xinj (grid8.coords t) j) = _
  refine prod_congr _ _ _ _ _ _ (fun l => ?_) (fun l => ?_)
  · refine rows8_apply V c t _ _ ?_ ?_
    · show win8_2.index t (0 : Fin 2) * 5000 + 1 * (j 0).val = t.val * 5000 + (j 0).val; omega
    · rfl
  · refine weights8_apply V c t _ _ ?_ ?_
    · rfl
    · show win8_2.index t (1 : Fin 2) * 32 + 1 * (j 1).val = (j 1).val; omega

/-- An entry of the output lies in point `t`'s block iff each coordinate is in the block's range on its axis. -/
theorem mem_rows8 (t : Fin cfg8.N) (i : S100000x32.Idx) :
    i ∈ ((cfg8.win 2).blk t).view.set ↔ ∀ a : Fin 2, win8_2.index t a * S5000x32.size a ≤ (i a).val ∧ (i a).val < win8_2.index t a * S5000x32.size a + S5000x32.size a := by
  show i ∈ ((View.whole main_v90).slice (win8_2.rect t)).set ↔ _
  rw [View.set_slice_whole, Rect.mem_set_unit]
  exact Iff.rfl

/-- Every entry of the output is written: row `r` by point `r / 5000`. -/
theorem rows_cover8 (i : S100000x32.Idx) :
    ∃ t : Fin cfg8.N, (cfg8.win 2).flush t = true ∧ i ∈ ((cfg8.win 2).blk t).view.set := by
  have hN : cfg8.N = 20 := N_8
  have hi0 : (i 0).val < 100000 := (i 0).isLt
  have hi1 : (i 1).val < 32 := (i 1).isLt
  let t : Fin cfg8.N := ⟨(i 0).val / 5000, by rw [hN]; omega⟩
  obtain ⟨-, -, -, -, e4, e5⟩ := block_indices8 t
  have e4' : win8_2.index t (0 : Fin 2) = (i 0).val / 5000 := e4
  refine ⟨t, flush8_2 t, ?_⟩
  rw [mem_rows8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 32 ≤ (i 1).val ∧ (i 1).val < win8_2.index t (1 : Fin 2) * 32 + 32; omega

/-- So after the region the output array is the product of the two matrices as the region found them. -/
theorem product8 (c : Dev nD) :
    (dat8 (F := Ideal) V c).arrAt 2 cfg8.N
      = prod (M := 100000) (K := 64) (N := 32) (V c (Pipeline.arrRef spec8 0)) (V c (Pipeline.arrRef spec8 1)) :=
  (dat8 (F := Ideal) V c).arrAt_eq_of_cover 2 _ (fun t _ => written8 V c t) rows_cover8

/-- Entry by entry: the output at row `r` and column `q` is `∑ l, x (r, l) * w (l, q)`. -/
theorem mm8 (c : Dev nD) (x : FVec Ideal S100000x64 .f32) (w : FVec Ideal S64x32 .f32)
    (hx : V c (Pipeline.arrRef spec8 0) = x) (hw : V c (Pipeline.arrRef spec8 1) = w) (r : Fin 100000) (q : Fin 32) :
    (dat8 (F := Ideal) V c).arrAt 2 cfg8.N (ix2 r q) = ∑ l : Fin 64, x (ix2 r l) * w (ix2 l q) := by
  subst hx hw
  rw [product8]
  rfl

end Cert.KernelIdeal.RegionMatmul

end
-- ==== Proof.RegionMatmul10.lean ====
/- Region 10: the second layer's output times the log-variance head's weights, a [100000, 64] matrix times a [64, 32] matrix.

   The grid has 20 points. Point `t` loads rows `5000 t … 5000 t + 4999` of the left matrix and the whole right
   matrix, multiplies them into a zero accumulator (after casting the row block to its own shape, which changes nothing), and writes the [5000, 32] result back as rows
   `5000 t … 5000 t + 4999` of the output. Row `r` of the output is therefore written by point `r / 5000`, and
   the entry at `(r, q)` is `∑ l, x (r, l) * w (l, q)`: an entry of the product reads one row of the left matrix
   and one column of the right, and the block of rows holds that row at `r - 5000 t`. -/
import proofs.«173470_j52209622450441_2_alg».proof.Proof.Gen.KernelIdeal.Frame
import proofs.«173470_j52209622450441_2_alg».proof.Proof.RegionMatmulSum
import Idealize.ShloMosaic.Lib.Pipeline.Value
import Idealize.ShloMosaic.Lib.ValueIdx

set_option maxRecDepth 16384

noncomputable section

open scoped BigOperators

namespace Cert.KernelIdeal.RegionMatmul

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices at point `t`: the left matrix and the output move down by one block of rows per point, the
    right matrix stays (decided over the 20 points). -/
theorem block_indices10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What the body stores is the product of the two loaded blocks (the cast of the row block to its own shape is the identity). -/
theorem payload10_eq (x0 : Vec Ideal S5000x64 .f32) (x1 : Vec Ideal S64x32 .f32) :
    k10_pay1 (F := Ideal) x0 x1 = prod (M := 5000) (K := 64) (N := 32) x0 x1 := by
  unfold k10_pay1
  simp only [shapeCast_self]
  exact matmul_zero_eq_prod (M := 5000) (K := 64) (N := 32) none x0 x1

/-- The left matrix's block at point `t` holds, at `y`, the matrix's entry in row `5000 t + y₀`, same column. -/
theorem rows10_apply (c : Dev nD) (t : Fin cfg10.N) (y : S5000x64.Idx) (k : S100000x64.Idx)
    (h0 : (k 0).val = t.val * 5000 + (y 0).val) (h1 : (k 1).val = (y 1).val) :
    (iblk10 V c 0 t : Vec Ideal S5000x64 .f32) y = (V c (Pipeline.arrRef spec10 0) : S100000x64.Idx → EReal) k := by
  obtain ⟨e0, e1, -, -, -, -⟩ := block_indices10 t
  unfold iblk10
  rw [View.read_apply]
  refine congrArg (V c (Pipeline.arrRef spec10 0)) ?_
  funext a
  apply Fin.ext
  match a with
  | ⟨0, _⟩ => show win10_0.index t (0 : Fin 2) * 5000 + 1 * (y 0).val = (k 0).val; omega
  | ⟨1, _⟩ => show win10_0.index t (1 : Fin 2) * 64 + 1 * (y 1).val = (k 1).val; omega

/-- The right matrix's block at every point is the whole matrix. -/
theorem weights10_apply (c : Dev nD) (t : Fin cfg10.N) (y : S64x32.Idx) (k : S64x32.Idx)
    (h0 : (k 0).val = (y 0).val) (h1 : (k 1).val = (y 1).val) :
    (iblk10 V c 1 t : Vec Ideal S64x32 .f32) y = (V c (Pipeline.arrRef spec10 1) : S64x32.Idx → EReal) k := by
  obtain ⟨-, -, e2, e3, -, -⟩ := block_indices10 t
  unfold iblk10
  rw [View.read_apply]
  refine congrArg (V c (Pipeline.arrRef spec10 1)) ?_
  funext a
  apply Fin.ext
  match a with
  | ⟨0, _⟩ => show win10_1.index t (0 : Fin 2) * 64 + 1 * (y 0).val = (k 0).val; omega
  | ⟨1, _⟩ => show win10_1.index t (1 : Fin 2) * 32 + 1 * (y 1).val = (k 1).val; omega

/-- What point `t` writes back is its block of rows of the product of the two whole matrices. -/
theorem written10 (c : Dev nD) (t : Fin cfg10.N) :
    (dat10 (F := Ideal) V c).flushed 2 t = ((cfg10.win 2).blk t).view.read (Elt Ideal)
      (prod (M := 100000) (K := 64) (N := 32) (V c (Pipeline.arrRef spec10 0)) (V c (Pipeline.arrRef spec10 1))) := by
  show (cfg10.win 2).cut (grid10.coords t) ((dat10 V c).after 2 t) = _
  rw [after10_2]
  unfold out10_2
  rw [View.canon_unit_zero zero_offsets]
  simp only [View.ld_unit_zero (S := S5000x64) zero_offsets, View.ld_unit_zero (S := S64x32) zero_offsets]
  rw [payload10_eq]
  obtain ⟨-, -, -, -, e4, e5⟩ := block_indices10 t
  funext j
  rw [View.read_apply]
  show prod (M := 5000) (K := 64) (N := 32) (iblk10 V c 0 t) (iblk10 V c 1 t) ((cfg10.win 2).xinj (grid10.coords t) j) = _
  refine prod_congr _ _ _ _ _ _ (fun l => ?_) (fun l => ?_)
  · refine rows10_apply V c t _ _ ?_ ?_
    · show win10_2.index t (0 : Fin 2) * 5000 + 1 * (j 0).val = t.val * 5000 + (j 0).val; omega
    · rfl
  · refine weights10_apply V c t _ _ ?_ ?_
    · rfl
    · show win10_2.index t (1 : Fin 2) * 32 + 1 * (j 1).val = (j 1).val; omega

/-- An entry of the output lies in point `t`'s block iff each coordinate is in the block's range on its axis. -/
theorem mem_rows10 (t : Fin cfg10.N) (i : S100000x32.Idx) :
    i ∈ ((cfg10.win 2).blk t).view.set ↔ ∀ a : Fin 2, win10_2.index t a * S5000x32.size a ≤ (i a).val ∧ (i a).val < win10_2.index t a * S5000x32.size a + S5000x32.size a := by
  show i ∈ ((View.whole main_v106).slice (win10_2.rect t)).set ↔ _
  rw [View.set_slice_whole, Rect.mem_set_unit]
  exact Iff.rfl

/-- Every entry of the output is written: row `r` by point `r / 5000`. -/
theorem rows_cover10 (i : S100000x32.Idx) :
    ∃ t : Fin cfg10.N, (cfg10.win 2).flush t = true ∧ i ∈ ((cfg10.win 2).blk t).view.set := by
  have hN : cfg10.N = 20 := N_10
  have hi0 : (i 0).val < 100000 := (i 0).isLt
  have hi1 : (i 1).val < 32 := (i 1).isLt
  let t : Fin cfg10.N := ⟨(i 0).val / 5000, by rw [hN]; omega⟩
  obtain ⟨-, -, -, -, e4, e5⟩ := block_indices10 t
  have e4' : win10_2.index t (0 : Fin 2) = (i 0).val / 5000 := e4
  refine ⟨t, flush10_2 t, ?_⟩
  rw [mem_rows10]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 32 ≤ (i 1).val ∧ (i 1).val < win10_2.index t (1 : Fin 2) * 32 + 32; omega

/-- So after the region the output array is the product of the two matrices as the region found them. -/
theorem product10 (c : Dev nD) :
    (dat10 (F := Ideal) V c).arrAt 2 cfg10.N
      = prod (M := 100000) (K := 64) (N := 32) (V c (Pipeline.arrRef spec10 0)) (V c (Pipeline.arrRef spec10 1)) :=
  (dat10 (F := Ideal) V c).arrAt_eq_of_cover 2 _ (fun t _ => written10 V c t) rows_cover10

/-- Entry by entry: the output at row `r` and column `q` is `∑ l, x (r, l) * w (l, q)`. -/
theorem mm10 (c : Dev nD) (x : FVec Ideal S100000x64 .f32) (w : FVec Ideal S64x32 .f32)
    (hx : V c (Pipeline.arrRef spec10 0) = x) (hw : V c (Pipeline.arrRef spec10 1) = w) (r : Fin 100000) (q : Fin 32) :
    (dat10 (F := Ideal) V c).arrAt 2 cfg10.N (ix2 r q) = ∑ l : Fin 64, x (ix2 r l) * w (ix2 l q) := by
  subst hx hw
  rw [product10]
  rfl

end Cert.KernelIdeal.RegionMatmul

end
-- ==== Proof.RegionPointwiseBias9.lean ====
/- Region 9 (the bias add over the mean head's aggregate), read off its frame data at arbitrary region-entry contents.

   The region's grid has 20 points; point t stages rows 5000 t … 5000 t + 4999 of the [100000, 32]
   aggregate and the whole [1, 32] bias row, adds the row to every staged row, and writes the block back
   to rows 5000 t … 5000 t + 4999 of the output.  So the output array ends as `biasRows agg b`:
   entry (r, q) is agg (r, q) + b (0, q).  Row r is written by point r / 5000. -/
import proofs.«173470_j52209622450441_2_alg».proof.Proof.Gen.KernelIdeal.Frame
import proofs.«173470_j52209622450441_2_alg».proof.Proof.RegionPointwiseMath
import Idealize.ShloMosaic.Lib.Pipeline.Value

noncomputable section

namespace Cert.KernelIdeal.RegionPointwise

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at (p, q) of the block: the staged entry plus the bias row's entry in column q. -/
theorem pay9_apply (x0 : Vec Ideal S5000x32 .f32) (x1 : Vec Ideal S1x32 .f32) (p : Fin 5000) (q : Fin 32) :
    k9_pay1 (F := Ideal) x0 x1 (ix2 p q) = x0 (ix2 p q) + x1 (ix2 (0 : Fin 1) q) := by
  unfold k9_pay1
  exact bias_payload x0 x1 _ _ _ p q

/-- The index maps over the grid: the aggregate's block moves with the output's, the bias row stays at block
    (0, 0), and the output's block at point t is (t, 0). -/
theorem index_facts9 : ∀ t : Fin cfg9.N,
    win9_0.index t (0 : Fin 2) = win9_2.index t (0 : Fin 2) ∧ win9_0.index t (1 : Fin 2) = win9_2.index t (1 : Fin 2)
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of `biasRows agg b`. -/
theorem flushed9_eq (c : Dev nD) (agg : FVec Ideal S100000x32 .f32) (b : FVec Ideal S1x32 .f32)
    (hagg : V c (Pipeline.arrRef spec9 0) = agg) (hb : V c (Pipeline.arrRef spec9 1) = b) (t : Fin cfg9.N) :
    (dat9 V c).flushed 2 t = ((cfg9.win 2).blk t).view.read (Elt Ideal) (biasRows agg b) := by
  show (cfg9.win 2).cut (grid9.coords t) ((dat9 V c).after 2 t) = _
  rw [after9_2]
  unfold out9_2
  rw [View.canon_unit_zero zero_offsets]
  simp only [View.ld_unit_zero (S := S5000x32) zero_offsets, View.ld_unit_zero (S := S1x32) zero_offsets]
  obtain ⟨e0, e1, e2, e3, e4, e5⟩ := index_facts9 t
  funext j
  obtain ⟨p, q, rfl⟩ : ∃ (p : Fin 5000) (q : Fin 32), j = ix2 p q := ⟨j 0, j 1, @eq_ix2 5000 32 j⟩
  show k9_pay1 (iblk9 V c 0 t) (iblk9 V c 1 t) (ix2 p q)
    = biasRows agg b (((cfg9.win 2).blk t).view.emb (ix2 p q))
  refine (pay9_apply (iblk9 V c 0 t) (iblk9 V c 1 t) p q).trans ?_
  have h0 : ((cfg9.win 0).blk t).view.emb (ix2 p q) = ((cfg9.win 2).blk t).view.emb (ix2 p q) := by
    funext a; apply Fin.ext
    match a with
    | ⟨0, _⟩ => show win9_0.index t (0 : Fin 2) * 5000 + 1 * p.val = win9_2.index t (0 : Fin 2) * 5000 + 1 * p.val; omega
    | ⟨1, _⟩ => show win9_0.index t (1 : Fin 2) * 32 + 1 * q.val = win9_2.index t (1 : Fin 2) * 32 + 1 * q.val; omega
  have h1 : ((cfg9.win 1).blk t).view.emb (ix2 (0 : Fin 1) q)
      = ix2 (0 : Fin 1) ((((cfg9.win 2).blk t).view.emb (ix2 p q)) 1) := by
    funext a; apply Fin.ext
    match a with
    | ⟨0, _⟩ => show win9_1.index t (0 : Fin 2) * 1 + 1 * 0 = 0; omega
    | ⟨1, _⟩ => show win9_1.index t (1 : Fin 2) * 32 + 1 * q.val = win9_2.index t (1 : Fin 2) * 32 + 1 * q.val; omega
  have r0 : iblk9 V c 0 t (ix2 p q) = agg (((cfg9.win 2).blk t).view.emb (ix2 p q)) := by
    show (V c (Pipeline.arrRef spec9 0) : FVec Ideal S100000x32 .f32) (((cfg9.win 0).blk t).view.emb (ix2 p q)) = _
    rw [hagg]
    exact congrArg agg h0
  have r1 : iblk9 V c 1 t (ix2 (0 : Fin 1) q)
      = b (ix2 (0 : Fin 1) ((((cfg9.win 2).blk t).view.emb (ix2 p q)) 1)) := by
    show (V c (Pipeline.arrRef spec9 1) : FVec Ideal S1x32 .f32) (((cfg9.win 1).blk t).view.emb (ix2 (0 : Fin 1) q)) = _
    rw [hb]
    exact congrArg b h1
  rw [r0, r1]
  rfl

/-- An index of the output array is in point t's block iff each coordinate is in the block's range on its axis. -/
theorem mem_block9 (t : Fin cfg9.N) (i : S100000x32.Idx) :
    i ∈ ((cfg9.win 2).blk t).view.set ↔ ∀ a : Fin 2, win9_2.index t a * S5000x32.size a ≤ (i a).val
      ∧ (i a).val < win9_2.index t a * S5000x32.size a + S5000x32.size a := by
  show i ∈ ((View.whole main_v105).slice (win9_2.rect t)).set ↔ _
  rw [View.set_slice_whole, Rect.mem_set_unit]
  exact Iff.rfl

/-- Every index of the output array is in the block of the point its row falls to. -/
theorem cover9 (i : S100000x32.Idx) :
    ∃ t : Fin cfg9.N, (cfg9.win 2).flush t = true ∧ i ∈ ((cfg9.win 2).blk t).view.set := by
  have hi0 : (i 0).val < 100000 := (i 0).isLt
  have hi1 : (i 1).val < 32 := (i 1).isLt
  have hN : cfg9.N = 20 := N_9
  obtain ⟨t, ht⟩ : ∃ t : Fin cfg9.N, t.val = (i 0).val / 5000 := ⟨⟨(i 0).val / 5000, by rw [hN]; omega⟩, rfl⟩
  obtain ⟨e0, e1, e2, e3, e4, e5⟩ := index_facts9 t
  refine ⟨t, flush9_2 t, ?_⟩
  rw [mem_block9]
  intro a
  match a with
  | ⟨0, _⟩ =>
    show win9_2.index t (0 : Fin 2) * 5000 ≤ (i 0).val ∧ (i 0).val < win9_2.index t (0 : Fin 2) * 5000 + 5000
    omega
  | ⟨1, _⟩ =>
    show win9_2.index t (1 : Fin 2) * 32 ≤ (i 1).val ∧ (i 1).val < win9_2.index t (1 : Fin 2) * 32 + 32
    omega

/-- The output array after the region's last point is `biasRows` of the two operand arrays as the region found them. -/
theorem final9 (c : Dev nD) (agg : FVec Ideal S100000x32 .f32) (b : FVec Ideal S1x32 .f32)
    (hagg : V c (Pipeline.arrRef spec9 0) = agg) (hb : V c (Pipeline.arrRef spec9 1) = b) :
    (dat9 V c).arrAt 2 cfg9.N = biasRows agg b :=
  (dat9 V c).arrAt_eq_of_cover 2 (biasRows agg b) (fun t _ => flushed9_eq V c agg b hagg hb t) cover9

/-- Entry (r, q) of the output array after the region: the aggregate's entry plus the bias row's entry in column q. -/
theorem bias9 (c : Dev nD) (agg : FVec Ideal S100000x32 .f32) (b : FVec Ideal S1x32 .f32)
    (hagg : V c (Pipeline.arrRef spec9 0) = agg) (hb : V c (Pipeline.arrRef spec9 1) = b)
    (r : Fin 100000) (q : Fin 32) :
    (dat9 (F := Ideal) V c).arrAt 2 cfg9.N (ix2 r q) = agg (ix2 r q) + b (ix2 (0 : Fin 1) q) :=
  (congrFun (final9 V c agg b hagg hb) (ix2 r q)).trans (biasRows_apply agg b r q)

end Cert.KernelIdeal.RegionPointwise

end
-- ==== Proof.RegionPointwiseBias11.lean ====
/- Region 11 (the bias add over the log-variance head's aggregate), read off its frame data at arbitrary region-entry contents.

   The region's grid has 20 points; point t stages rows 5000 t … 5000 t + 4999 of the [100000, 32]
   aggregate and the whole [1, 32] bias row, adds the row to every staged row, and writes the block back
   to rows 5000 t … 5000 t + 4999 of the output.  So the output array ends as `biasRows agg b`:
   entry (r, q) is agg (r, q) + b (0, q).  Row r is written by point r / 5000. -/
import proofs.«173470_j52209622450441_2_alg».proof.Proof.Gen.KernelIdeal.Frame
import proofs.«173470_j52209622450441_2_alg».proof.Proof.RegionPointwiseMath
import Idealize.ShloMosaic.Lib.Pipeline.Value

noncomputable section

namespace Cert.KernelIdeal.RegionPointwise

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at (p, q) of the block: the staged entry plus the bias row's entry in column q. -/
theorem pay11_apply (x0 : Vec Ideal S5000x32 .f32) (x1 : Vec Ideal S1x32 .f32) (p : Fin 5000) (q : Fin 32) :
    k11_pay1 (F := Ideal) x0 x1 (ix2 p q) = x0 (ix2 p q) + x1 (ix2 (0 : Fin 1) q) := by
  unfold k11_pay1
  exact bias_payload x0 x1 _ _ _ p q

/-- The index maps over the grid: the aggregate's block moves with the output's, the bias row stays at block
    (0, 0), and the output's block at point t is (t, 0). -/
theorem index_facts11 : ∀ t : Fin cfg11.N,
    win11_0.index t (0 : Fin 2) = win11_2.index t (0 : Fin 2) ∧ win11_0.index t (1 : Fin 2) = win11_2.index t (1 : Fin 2)
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What point t writes back is block t of `biasRows agg b`. -/
theorem flushed11_eq (c : Dev nD) (agg : FVec Ideal S100000x32 .f32) (b : FVec Ideal S1x32 .f32)
    (hagg : V c (Pipeline.arrRef spec11 0) = agg) (hb : V c (Pipeline.arrRef spec11 1) = b) (t : Fin cfg11.N) :
    (dat11 V c).flushed 2 t = ((cfg11.win 2).blk t).view.read (Elt Ideal) (biasRows agg b) := by
  show (cfg11.win 2).cut (grid11.coords t) ((dat11 V c).after 2 t) = _
  rw [after11_2]
  unfold out11_2
  rw [View.canon_unit_zero zero_offsets]
  simp only [View.ld_unit_zero (S := S5000x32) zero_offsets, View.ld_unit_zero (S := S1x32) zero_offsets]
  obtain ⟨e0, e1, e2, e3, e4, e5⟩ := index_facts11 t
  funext j
  obtain ⟨p, q, rfl⟩ : ∃ (p : Fin 5000) (q : Fin 32), j = ix2 p q := ⟨j 0, j 1, @eq_ix2 5000 32 j⟩
  show k11_pay1 (iblk11 V c 0 t) (iblk11 V c 1 t) (ix2 p q)
    = biasRows agg b (((cfg11.win 2).blk t).view.emb (ix2 p q))
  refine (pay11_apply (iblk11 V c 0 t) (iblk11 V c 1 t) p q).trans ?_
  have h0 : ((cfg11.win 0).blk t).view.emb (ix2 p q) = ((cfg11.win 2).blk t).view.emb (ix2 p q) := by
    funext a; apply Fin.ext
    match a with
    | ⟨0, _⟩ => show win11_0.index t (0 : Fin 2) * 5000 + 1 * p.val = win11_2.index t (0 : Fin 2) * 5000 + 1 * p.val; omega
    | ⟨1, _⟩ => show win11_0.index t (1 : Fin 2) * 32 + 1 * q.val = win11_2.index t (1 : Fin 2) * 32 + 1 * q.val; omega
  have h1 : ((cfg11.win 1).blk t).view.emb (ix2 (0 : Fin 1) q)
      = ix2 (0 : Fin 1) ((((cfg11.win 2).blk t).view.emb (ix2 p q)) 1) := by
    funext a; apply Fin.ext
    match a with
    | ⟨0, _⟩ => show win11_1.index t (0 : Fin 2) * 1 + 1 * 0 = 0; omega
    | ⟨1, _⟩ => show win11_1.index t (1 : Fin 2) * 32 + 1 * q.val = win11_2.index t (1 : Fin 2) * 32 + 1 * q.val; omega
  have r0 : iblk11 V c 0 t (ix2 p q) = agg (((cfg11.win 2).blk t).view.emb (ix2 p q)) := by
    show (V c (Pipeline.arrRef spec11 0) : FVec Ideal S100000x32 .f32) (((cfg11.win 0).blk t).view.emb (ix2 p q)) = _
    rw [hagg]
    exact congrArg agg h0
  have r1 : iblk11 V c 1 t (ix2 (0 : Fin 1) q)
      = b (ix2 (0 : Fin 1) ((((cfg11.win 2).blk t).view.emb (ix2 p q)) 1)) := by
    show (V c (Pipeline.arrRef spec11 1) : FVec Ideal S1x32 .f32) (((cfg11.win 1).blk t).view.emb (ix2 (0 : Fin 1) q)) = _
    rw [hb]
    exact congrArg b h1
  rw [r0, r1]
  rfl

/-- An index of the output array is in point t's block iff each coordinate is in the block's range on its axis. -/
theorem mem_block11 (t : Fin cfg11.N) (i : S100000x32.Idx) :
    i ∈ ((cfg11.win 2).blk t).view.set ↔ ∀ a : Fin 2, win11_2.index t a * S5000x32.size a ≤ (i a).val
      ∧ (i a).val < win11_2.index t a * S5000x32.size a + S5000x32.size a := by
  show i ∈ ((View.whole main_v121).slice (win11_2.rect t)).set ↔ _
  rw [View.set_slice_whole, Rect.mem_set_unit]
  exact Iff.rfl

/-- Every index of the output array is in the block of the point its row falls to. -/
theorem cover11 (i : S100000x32.Idx) :
    ∃ t : Fin cfg11.N, (cfg11.win 2).flush t = true ∧ i ∈ ((cfg11.win 2).blk t).view.set := by
  have hi0 : (i 0).val < 100000 := (i 0).isLt
  have hi1 : (i 1).val < 32 := (i 1).isLt
  have hN : cfg11.N = 20 := N_11
  obtain ⟨t, ht⟩ : ∃ t : Fin cfg11.N, t.val = (i 0).val / 5000 := ⟨⟨(i 0).val / 5000, by rw [hN]; omega⟩, rfl⟩
  obtain ⟨e0, e1, e2, e3, e4, e5⟩ := index_facts11 t
  refine ⟨t, flush11_2 t, ?_⟩
  rw [mem_block11]
  intro a
  match a with
  | ⟨0, _⟩ =>
    show win11_2.index t (0 : Fin 2) * 5000 ≤ (i 0).val ∧ (i 0).val < win11_2.index t (0 : Fin 2) * 5000 + 5000
    omega
  | ⟨1, _⟩ =>
    show win11_2.index t (1 : Fin 2) * 32 ≤ (i 1).val ∧ (i 1).val < win11_2.index t (1 : Fin 2) * 32 + 32
    omega

/-- The output array after the region's last point is `biasRows` of the two operand arrays as the region found them. -/
theorem final11 (c : Dev nD) (agg : FVec Ideal S100000x32 .f32) (b : FVec Ideal S1x32 .f32)
    (hagg : V c (Pipeline.arrRef spec11 0) = agg) (hb : V c (Pipeline.arrRef spec11 1) = b) :
    (dat11 V c).arrAt 2 cfg11.N = biasRows agg b :=
  (dat11 V c).arrAt_eq_of_cover 2 (biasRows agg b) (fun t _ => flushed11_eq V c agg b hagg hb t) cover11

/-- Entry (r, q) of the output array after the region: the aggregate's entry plus the bias row's entry in column q. -/
theorem bias11 (c : Dev nD) (agg : FVec Ideal S100000x32 .f32) (b : FVec Ideal S1x32 .f32)
    (hagg : V c (Pipeline.arrRef spec11 0) = agg) (hb : V c (Pipeline.arrRef spec11 1) = b)
    (r : Fin 100000) (q : Fin 32) :
    (dat11 (F := Ideal) V c).arrAt 2 cfg11.N (ix2 r q) = agg (ix2 r q) + b (ix2 (0 : Fin 1) q) :=
  (congrFun (final11 V c agg b hagg hb) (ix2 r q)).trans (biasRows_apply agg b r q)

end Cert.KernelIdeal.RegionPointwise

end
-- ==== Proof.ChainHeads.lean ====
/-
  The two output heads of the idealized kernel program, read against the reference's.

  Each head multiplies the second hidden layer by its weight matrix (a matmul region), aggregates over the edges
  (the reference's own host operations) and adds its bias (a pointwise region): the reference's `mu` and `logvar` of
  the launched arrays. The first head's result buffer is not touched by the second head's segments, so both results
  stand at the last boundary.
-/
import proofs.«173470_j52209622450441_2_alg».proof.Proof.ChainL2
import proofs.«173470_j52209622450441_2_alg».proof.Proof.RegionMatmul8
import proofs.«173470_j52209622450441_2_alg».proof.Proof.RegionMatmul10
import proofs.«173470_j52209622450441_2_alg».proof.Proof.RegionPointwiseBias9
import proofs.«173470_j52209622450441_2_alg».proof.Proof.RegionPointwiseBias11
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.KernelIdeal.Keeps Cert.KernelIdeal.Carried

variable (m : (ℓ : Loc nD τ sig) → Buf (Elt Ideal) ℓ) (ρ : Dev nD → PrngReg) (c : Dev nD)

/-! ## The head `mu` -/

theorem W18_main_v90 : W18 m ρ c (Proc.devRef .tc main_v90)
    = Host.dotGeneral (F := Ideal) (φ₁ := .f32) (φ₂ := .f32) Cert.ReferenceIdeal.dot_S100000x64_S64x32_S100000x32_1_0_0_1_n_n none (Cert.RefSpec.hidden2 (F := Ideal) (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg1 : Cert.RefSpec.Arr Ideal Cert.ReferenceIdeal.S2x1600000 .i32)) ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32))) ((argOf m c main_arg10 : Cert.RefSpec.Arr Ideal Cert.ReferenceIdeal.S64x32 .f32)) :=
  (W18_arr m ρ c 2).trans (Cert.Bridge.matmul_64_32 _ _ _ fun r q =>
    Cert.KernelIdeal.RegionMatmul.mm8 (V17 m ρ) c _ _ (W17_hidden m ρ c)
      ((at17 m ρ c main_arg10 (by decide)).trans (W3_arg m ρ c main_arg10 (by decide))) r q)

theorem W19_agg_mu : W19 m ρ c (Proc.devRef .tc main_v103)
    = Cert.RefSpec.agg32 (F := Ideal) ((argOf m c main_arg1 : Cert.RefSpec.Arr Ideal Cert.ReferenceIdeal.S2x1600000 .i32))
        (Host.dotGeneral (F := Ideal) (φ₁ := .f32) (φ₂ := .f32) Cert.ReferenceIdeal.dot_S100000x64_S64x32_S100000x32_1_0_0_1_n_n none (Cert.RefSpec.hidden2 (F := Ideal) (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg1 : Cert.RefSpec.Arr Ideal Cert.ReferenceIdeal.S2x1600000 .i32)) ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32))) ((argOf m c main_arg10 : Cert.RefSpec.Arr Ideal Cert.ReferenceIdeal.S64x32 .f32))) :=
  Cert.KernelIdeal.Stretch.ops9_agg (W18 m ρ c) _ _
    ((at18 m ρ c main_v3 (by decide)).trans (W3_v3 m ρ c)) ((at18 m ρ c main_v6 (by decide)).trans (W3_v6 m ρ c))
    ((at18 m ρ c main_v31 (by decide)).trans (W3_v31 m ρ c)) (W18_main_v90 m ρ c)
theorem W19_brow_mu : W19 m ρ c (Proc.devRef .tc main_v104)
    = shapeCast S1x32 (argOf m c main_arg11 : Cert.RefSpec.Arr Ideal Cert.ReferenceIdeal.S32 .f32) Cert.KernelIdeal.Facts₀.shapeCasts_S32_S1x32 :=
  Cert.KernelIdeal.Stretch.ops9_brow (W18 m ρ c) _ ((at18 m ρ c main_arg11 (by decide)).trans (W3_arg m ρ c main_arg11 (by decide)))

theorem W20_mu : W20 m ρ c (Proc.devRef .tc main_v105)
    = Cert.RefSpec.mu (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))
        ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32)) ((argOf m c main_arg10 : Cert.RefSpec.Arr Ideal Cert.ReferenceIdeal.S64x32 .f32)) ((argOf m c main_arg11 : Cert.RefSpec.Arr Ideal Cert.ReferenceIdeal.S32 .f32)) ((argOf m c main_arg12 : Cert.RefSpec.Arr Ideal Cert.ReferenceIdeal.S64x32 .f32)) ((argOf m c main_arg13 : Cert.RefSpec.Arr Ideal Cert.ReferenceIdeal.S32 .f32)) :=
  (W20_arr m ρ c 2).trans (Cert.Bridge.bias_32 _ ((argOf m c main_arg11 : Cert.RefSpec.Arr Ideal Cert.ReferenceIdeal.S32 .f32))
    (shapeCast S1x32 (argOf m c main_arg11 : Cert.RefSpec.Arr Ideal Cert.ReferenceIdeal.S32 .f32) Cert.KernelIdeal.Facts₀.shapeCasts_S32_S1x32)
    (fun q => shapeCast_a_1a_apply _ _ 0 q) _ fun r q =>
      Cert.KernelIdeal.RegionPointwise.bias9 (V19 m ρ) c _ _ (W19_agg_mu m ρ c) (W19_brow_mu m ρ c) r q)

/-- The second hidden layer is still in its buffer when the second head starts: the first head's matmul only read it,
    and neither its host stretch nor its bias region writes it. -/
theorem W20_hidden : W20 m ρ c (Proc.devRef .tc main_v89) = Cert.RefSpec.hidden2 (F := Ideal) (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg1 : Cert.RefSpec.Arr Ideal Cert.ReferenceIdeal.S2x1600000 .i32)) ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32)) :=
  (keep_reg9 m ρ c main_v89 (by decide)).trans ((keep_ops9 _ main_v89 (by decide)).trans ((keep_reg8 m ρ c main_v89 (by decide)).trans (W17_hidden m ρ c)))

/-! ## The head `logvar` -/

theorem W21_main_v106 : W21 m ρ c (Proc.devRef .tc main_v106)
    = Host.dotGeneral (F := Ideal) (φ₁ := .f32) (φ₂ := .f32) Cert.ReferenceIdeal.dot_S100000x64_S64x32_S100000x32_1_0_0_1_n_n none (Cert.RefSpec.hidden2 (F := Ideal) (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg1 : Cert.RefSpec.Arr Ideal Cert.ReferenceIdeal.S2x1600000 .i32)) ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32))) ((argOf m c main_arg12 : Cert.RefSpec.Arr Ideal Cert.ReferenceIdeal.S64x32 .f32)) :=
  (W21_arr m ρ c 2).trans (Cert.Bridge.matmul_64_32 _ _ _ fun r q =>
    Cert.KernelIdeal.RegionMatmul.mm10 (V20 m ρ) c _ _ (W20_hidden m ρ c)
      ((at20 m ρ c main_arg12 (by decide)).trans (W3_arg m ρ c main_arg12 (by decide))) r q)

theorem W22_agg_logvar : W22 m ρ c (Proc.devRef .tc main_v119)
    = Cert.RefSpec.agg32 (F := Ideal) ((argOf m c main_arg1 : Cert.RefSpec.Arr Ideal Cert.ReferenceIdeal.S2x1600000 .i32))
        (Host.dotGeneral (F := Ideal) (φ₁ := .f32) (φ₂ := .f32) Cert.ReferenceIdeal.dot_S100000x64_S64x32_S100000x32_1_0_0_1_n_n none (Cert.RefSpec.hidden2 (F := Ideal) (Cert.RefSpec.hidden1 (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))) ((argOf m c main_arg1 : Cert.RefSpec.Arr Ideal Cert.ReferenceIdeal.S2x1600000 .i32)) ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32))) ((argOf m c main_arg12 : Cert.RefSpec.Arr Ideal Cert.ReferenceIdeal.S64x32 .f32))) :=
  Cert.KernelIdeal.Stretch.ops11_agg (W21 m ρ c) _ _
    ((at21 m ρ c main_v3 (by decide)).trans (W3_v3 m ρ c)) ((at21 m ρ c main_v6 (by decide)).trans (W3_v6 m ρ c))
    ((at21 m ρ c main_v31 (by decide)).trans (W3_v31 m ρ c)) (W21_main_v106 m ρ c)
theorem W22_brow_logvar : W22 m ρ c (Proc.devRef .tc main_v120)
    = shapeCast S1x32 (argOf m c main_arg13 : Cert.RefSpec.Arr Ideal Cert.ReferenceIdeal.S32 .f32) Cert.KernelIdeal.Facts₀.shapeCasts_S32_S1x32 :=
  Cert.KernelIdeal.Stretch.ops11_brow (W21 m ρ c) _ ((at21 m ρ c main_arg13 (by decide)).trans (W3_arg m ρ c main_arg13 (by decide)))

theorem W23_logvar : W23 m ρ c (Proc.devRef .tc main_v121)
    = Cert.RefSpec.logvar (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))
        ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32)) ((argOf m c main_arg10 : Cert.RefSpec.Arr Ideal Cert.ReferenceIdeal.S64x32 .f32)) ((argOf m c main_arg11 : Cert.RefSpec.Arr Ideal Cert.ReferenceIdeal.S32 .f32)) ((argOf m c main_arg12 : Cert.RefSpec.Arr Ideal Cert.ReferenceIdeal.S64x32 .f32)) ((argOf m c main_arg13 : Cert.RefSpec.Arr Ideal Cert.ReferenceIdeal.S32 .f32)) :=
  (W23_arr m ρ c 2).trans (Cert.Bridge.bias_32 _ ((argOf m c main_arg13 : Cert.RefSpec.Arr Ideal Cert.ReferenceIdeal.S32 .f32))
    (shapeCast S1x32 (argOf m c main_arg13 : Cert.RefSpec.Arr Ideal Cert.ReferenceIdeal.S32 .f32) Cert.KernelIdeal.Facts₀.shapeCasts_S32_S1x32)
    (fun q => shapeCast_a_1a_apply _ _ 0 q) _ fun r q =>
      Cert.KernelIdeal.RegionPointwise.bias11 (V22 m ρ) c _ _ (W22_agg_logvar m ρ c) (W22_brow_logvar m ρ c) r q)

/-! ## Both results at the last boundary -/

theorem W23_mu : W23 m ρ c (Proc.devRef .tc main_v105)
    = Cert.RefSpec.mu (F := Ideal) ((argOf m c main_arg0 : Cert.RefSpec.Arr Ideal Cert.ReferenceIdeal.S100000x128 .f32)) ((argOf m c main_arg1 : Cert.RefSpec.Arr Ideal Cert.ReferenceIdeal.S2x1600000 .i32)) ((argOf m c main_arg2 : Cert.RefSpec.Arr Ideal Cert.ReferenceIdeal.S128x64 .f32)) ((argOf m c main_arg3 : Cert.RefSpec.Arr Ideal Cert.ReferenceIdeal.S64 .f32)) ((argOf m c main_arg4 : Cert.RefSpec.Arr Ideal Cert.ReferenceIdeal.S64 .f32)) ((argOf m c main_arg5 : Cert.RefSpec.Arr Ideal Cert.ReferenceIdeal.S64 .f32))
        ((argOf m c main_arg6 : Cert.RefSpec.Arr Ideal Cert.ReferenceIdeal.S64x64 .f32)) ((argOf m c main_arg7 : Cert.RefSpec.Arr Ideal Cert.ReferenceIdeal.S64 .f32)) ((argOf m c main_arg8 : Cert.RefSpec.Arr Ideal Cert.ReferenceIdeal.S64 .f32)) ((argOf m c main_arg9 : Cert.RefSpec.Arr Ideal Cert.ReferenceIdeal.S64 .f32)) ((argOf m c main_arg10 : Cert.RefSpec.Arr Ideal Cert.ReferenceIdeal.S64x32 .f32)) ((argOf m c main_arg11 : Cert.RefSpec.Arr Ideal Cert.ReferenceIdeal.S32 .f32)) ((argOf m c main_arg12 : Cert.RefSpec.Arr Ideal Cert.ReferenceIdeal.S64x32 .f32)) ((argOf m c main_arg13 : Cert.RefSpec.Arr Ideal Cert.ReferenceIdeal.S32 .f32)) :=
  (keep_reg11 m ρ c main_v105 (by decide)).trans ((keep_ops11 _ main_v105 (by decide)).trans ((keep_reg10 m ρ c main_v105 (by decide)).trans (W20_mu m ρ c)))

end Cert.KernelIdeal.Chain

end
-- ==== Proof.RefRunBase.lean ====
/-
  Two facts about a line of host operations used by every stretch of the reference's run: an
  operation that writes exactly one buffer of a list writes inside the list, and a list of
  per-operation facts over two stretches is one over their concatenation.
-/
import proofs.«173470_j52209622450441_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- An operation whose written set is the single buffer `y`, a member of the list `W`, writes inside `W`. -/
theorem writes_sub_of_mem {op : HloOp τ sig (Elt F)} {y : Ref sig .tc} {W : List (Ref sig .tc)}
    (hw : op.writes = {(Proc.devRef .tc y : DevRef τ sig)}) (hy : y ∈ W) :
    op.writes ⊆ (W.map (Proc.devRef (τ := τ) .tc)).toFinset := by
  rw [hw, Finset.singleton_subset_iff, List.mem_toFinset]
  exact List.mem_map_of_mem hy

/-- A property of every operation of two lines holds of every operation of the two run one after the other. -/
theorem forall_append {P : HloOp τ sig (Elt F) → Prop} {l₁ l₂ : List (HloOp τ sig (Elt F))}
    (h₁ : l₁.Forall P) (h₂ : l₂.Forall P) : (l₁ ++ l₂).Forall P :=
  List.forall_iff_forall_mem.mpr fun op h => (List.mem_append.mp h).elim
    (List.forall_iff_forall_mem.mp h₁ op) (List.forall_iff_forall_mem.mp h₂ op)

/-- Two lines run one after the other leave what the second leaves from what the first left. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.HandRun

end
-- ==== Proof.RefRunOps0.lean ====
/-
  The reference's statements 1 to 60 as three consecutive lines of host operations: the edge lists and
  degrees, the edge weights, and the first layer's aggregation before its bias. The outlined `where`
  is listed at its call site over that call's buffers.
-/
import proofs.«173470_j52209622450441_2_alg».proof.Proof.RefRunBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The edge lists with a self loop appended at every node (sources `main_v3`, destinations `main_v6`), the number of edges arriving at each node, and its inverse square root, zero where no edge arrives (`main_v16`, the select of the outlined `where`). -/
abbrev s0a : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v15 : StableHlo.TRef sig ⟨S100000, .f32⟩) main_call0.v1 main_call0.v2 select ]

theorem s0a_sub : (s0a : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..⟩

theorem s0a_fresh : (s0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers these operations write, in order. -/
abbrev s0a_W : List (Ref sig .tc) :=
  [main_v0, main_v1, main_v2, main_v3, main_v4, main_v5, main_v6, main_cst,
    main_v7, main_cst_0, main_v8, main_v9, main_v10, main_cst_1, main_v11, main_v12,
    main_cst_2, main_v13, main_v14, main_v15, main_cst_3, main_call0_v0, main_call0_v1, main_v16]

theorem s0a_writes : (s0a : List (HloOp τ sig (Elt F))).Forall fun op => op.writes ⊆ (s0a_W.map (Proc.devRef (τ := τ) .tc)).toFinset :=
  ⟨writes_sub_of_mem (y := main_v0) rfl (by decide), writes_sub_of_mem (y := main_v1) rfl (by decide),
    writes_sub_of_mem (y := main_v2) rfl (by decide), writes_sub_of_mem (y := main_v3) rfl (by decide),
    writes_sub_of_mem (y := main_v4) rfl (by decide), writes_sub_of_mem (y := main_v5) rfl (by decide),
    writes_sub_of_mem (y := main_v6) rfl (by decide), writes_sub_of_mem (y := main_cst) rfl (by decide),
    writes_sub_of_mem (y := main_v7) rfl (by decide), writes_sub_of_mem (y := main_cst_0) rfl (by decide),
    writes_sub_of_mem (y := main_v8) rfl (by decide), writes_sub_of_mem (y := main_v9) rfl (by decide),
    writes_sub_of_mem (y := main_v10) rfl (by decide), writes_sub_of_mem (y := main_cst_1) rfl (by decide),
    writes_sub_of_mem (y := main_v11) rfl (by decide), writes_sub_of_mem (y := main_v12) rfl (by decide),
    writes_sub_of_mem (y := main_cst_2) rfl (by decide), writes_sub_of_mem (y := main_v13) rfl (by decide),
    writes_sub_of_mem (y := main_v14) rfl (by decide), writes_sub_of_mem (y := main_v15) rfl (by decide),
    writes_sub_of_mem (y := main_cst_3) rfl (by decide), writes_sub_of_mem (y := main_call0_v0) rfl (by decide),
    writes_sub_of_mem (y := main_call0_v1) rfl (by decide), writes_sub_of_mem (y := main_v16) rfl (by decide)⟩

/-- A buffer these operations do not write keeps its contents through them. -/
theorem s0a_keep (V : Valuation τ sig (Elt F)) (r : Ref sig .tc) (h : r ∉ s0a_W) :
    after s0a V (Proc.devRef .tc r) = V (Proc.devRef .tc r) :=
  after_of_writes_sub s0a V s0a_writes h

/-- The weight of each edge: the inverse-square-root degree gathered at the edge's source times the same gathered at its destination (`main_v31`); a negative index is read from the end before each gather. -/
abbrev s0b : List (HloOp τ sig (Elt F)) :=
  [ StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)) ]

theorem s0b_sub : (s0b : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩

theorem s0b_fresh : (s0b : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers these operations write, in order. -/
abbrev s0b_W : List (Ref sig .tc) :=
  [main_c, main_v17, main_v18, main_c_4, main_v19, main_v20, main_v21, main_v22,
    main_v23, main_c_5, main_v24, main_v25, main_c_6, main_v26, main_v27, main_v28,
    main_v29, main_v30, main_v31]

theorem s0b_writes : (s0b : List (HloOp τ sig (Elt F))).Forall fun op => op.writes ⊆ (s0b_W.map (Proc.devRef (τ := τ) .tc)).toFinset :=
  ⟨writes_sub_of_mem (y := main_c) rfl (by decide), writes_sub_of_mem (y := main_v17) rfl (by decide),
    writes_sub_of_mem (y := main_v18) rfl (by decide), writes_sub_of_mem (y := main_c_4) rfl (by decide),
    writes_sub_of_mem (y := main_v19) rfl (by decide), writes_sub_of_mem (y := main_v20) rfl (by decide),
    writes_sub_of_mem (y := main_v21) rfl (by decide), writes_sub_of_mem (y := main_v22) rfl (by decide),
    writes_sub_of_mem (y := main_v23) rfl (by decide), writes_sub_of_mem (y := main_c_5) rfl (by decide),
    writes_sub_of_mem (y := main_v24) rfl (by decide), writes_sub_of_mem (y := main_v25) rfl (by decide),
    writes_sub_of_mem (y := main_c_6) rfl (by decide), writes_sub_of_mem (y := main_v26) rfl (by decide),
    writes_sub_of_mem (y := main_v27) rfl (by decide), writes_sub_of_mem (y := main_v28) rfl (by decide),
    writes_sub_of_mem (y := main_v29) rfl (by decide), writes_sub_of_mem (y := main_v30) rfl (by decide),
    writes_sub_of_mem (y := main_v31) rfl (by decide)⟩

/-- A buffer these operations do not write keeps its contents through them. -/
theorem s0b_keep (V : Valuation τ sig (Elt F)) (r : Ref sig .tc) (h : r ∉ s0b_W) :
    after s0b V (Proc.devRef .tc r) = V (Proc.devRef .tc r) :=
  after_of_writes_sub s0b V s0b_writes h

/-- The first layer before its bias: the features times the first weight matrix, gathered at the edges' sources, weighted, and summed into the edges' destinations (`main_v45`); the bias repeated over the nodes (`main_v47`). -/
abbrev s0c : List (HloOp τ sig (Elt F)) :=
  [ StableHlo.binary main_arg0 main_arg2 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v43 (broadcastInDim S100000x64 ![] bcast_S_S100000x64 : (⟨S_, .f32⟩ : BufTy).Contents (Elt F) → (⟨S100000x64, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)) ]

theorem s0c_sub : (s0c : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub ..⟩

theorem s0c_fresh : (s0c : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers these operations write, in order. -/
abbrev s0c_W : List (Ref sig .tc) :=
  [main_v32, main_c_7, main_v33, main_v34, main_c_8, main_v35, main_v36, main_v37,
    main_v38, main_v39, main_v40, main_v41, main_v42, main_cst_9, main_v43, main_v44,
    main_v45, main_v46, main_v47]

theorem s0c_writes : (s0c : List (HloOp τ sig (Elt F))).Forall fun op => op.writes ⊆ (s0c_W.map (Proc.devRef (τ := τ) .tc)).toFinset :=
  ⟨writes_sub_of_mem (y := main_v32) rfl (by decide), writes_sub_of_mem (y := main_c_7) rfl (by decide),
    writes_sub_of_mem (y := main_v33) rfl (by decide), writes_sub_of_mem (y := main_v34) rfl (by decide),
    writes_sub_of_mem (y := main_c_8) rfl (by decide), writes_sub_of_mem (y := main_v35) rfl (by decide),
    writes_sub_of_mem (y := main_v36) rfl (by decide), writes_sub_of_mem (y := main_v37) rfl (by decide),
    writes_sub_of_mem (y := main_v38) rfl (by decide), writes_sub_of_mem (y := main_v39) rfl (by decide),
    writes_sub_of_mem (y := main_v40) rfl (by decide), writes_sub_of_mem (y := main_v41) rfl (by decide),
    writes_sub_of_mem (y := main_v42) rfl (by decide), writes_sub_of_mem (y := main_cst_9) rfl (by decide),
    writes_sub_of_mem (y := main_v43) rfl (by decide), writes_sub_of_mem (y := main_v44) rfl (by decide),
    writes_sub_of_mem (y := main_v45) rfl (by decide), writes_sub_of_mem (y := main_v46) rfl (by decide),
    writes_sub_of_mem (y := main_v47) rfl (by decide)⟩

/-- A buffer these operations do not write keeps its contents through them. -/
theorem s0c_keep (V : Valuation τ sig (Elt F)) (r : Ref sig .tc) (h : r ∉ s0c_W) :
    after s0c V (Proc.devRef .tc r) = V (Proc.devRef .tc r) :=
  after_of_writes_sub s0c V s0c_writes h

/-- These statements' operations, in order. -/
abbrev p0 : List (HloOp τ sig (Elt F)) := s0a ++ (s0b ++ (s0c))

set_option maxRecDepth 16384 in
set_option maxHeartbeats 4000000 in
/-- The printed window is that line: each statement one operation, each call the callee's operations over the call's buffers. -/
theorem part0_eq (c : Dev nD) : main_part0 (F := F) c = seq p0 := rfl

end Cert.ReferenceIdeal.HandRun

end
-- ==== Proof.RefRunOps1.lean ====
/-
  The reference's statements 61 to 120 as five consecutive lines of host operations: the first layer's
  statistics, the first hidden layer, the second layer's pre-activation, its statistics, and its
  centring. The outlined variance (with the `where` it calls) and `relu` are listed at their call
  sites over each call's buffers.
-/
import proofs.«173470_j52209622450441_2_alg».proof.Proof.RefRunBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first layer's pre-activation (`main_v48`), its mean over the nodes (`main_v51`) and, by the outlined variance function inlined at its buffers, its variance over the nodes (`main_v52`). -/
abbrev s1a : List (HloOp τ sig (Elt F)) :=
  [ StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.binary main_v48 main_cst_10 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v50 (broadcastInDim S64 ![] bcast_S_S64 : (⟨S_, .f32⟩ : BufTy).Contents (Elt F) → (⟨S64, .f32⟩ : BufTy).Contents (Elt F)),
    StableHlo.binary main_v49 main_v50 main_v51 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call1.cst (constant S_ .f32 0x00000000#32),
    StableHlo.TRef.binary (.of main_v48 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v48 : StableHlo.TRef sig ⟨S100000x64, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

theorem s1a_sub : (s1a : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩

theorem s1a_fresh : (s1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev s1a_W : List (Ref sig .tc) :=
  [main_v48, main_cst_10, main_v49, main_cst_11, main_v50, main_v51, main_c_12, main_call1_cst,
    main_call1_v0, main_call1_v1, main_call1_cst_0, main_call1_v2, main_call1_v3, main_call1_v4, main_call1_v5, main_call1_v6,
    main_call1_v7, main_call1_cst_1, main_call1_v8, main_call1_cst_2, main_call1_v9, main_call1_v10, main_call1_v11, main_call1_cst_3,
    main_call1_v12, main_call1_cst_4, main_call1_call0_v0, main_call1_call0_v1, main_v52]

theorem s1a_writes : (s1a : List (HloOp τ sig (Elt F))).Forall fun op => op.writes ⊆ (s1a_W.map (Proc.devRef (τ := τ) .tc)).toFinset :=
  ⟨writes_sub_of_mem (y := main_v48) rfl (by decide), writes_sub_of_mem (y := main_cst_10) rfl (by decide),
    writes_sub_of_mem (y := main_v49) rfl (by decide), writes_sub_of_mem (y := main_cst_11) rfl (by decide),
    writes_sub_of_mem (y := main_v50) rfl (by decide), writes_sub_of_mem (y := main_v51) rfl (by decide),
    writes_sub_of_mem (y := main_c_12) rfl (by decide), writes_sub_of_mem (y := main_call1_cst) rfl (by decide),
    writes_sub_of_mem (y := main_call1_v0) rfl (by decide), writes_sub_of_mem (y := main_call1_v1) rfl (by decide),
    writes_sub_of_mem (y := main_call1_cst_0) rfl (by decide), writes_sub_of_mem (y := main_call1_v2) rfl (by decide),
    writes_sub_of_mem (y := main_call1_v3) rfl (by decide), writes_sub_of_mem (y := main_call1_v4) rfl (by decide),
    writes_sub_of_mem (y := main_call1_v5) rfl (by decide), writes_sub_of_mem (y := main_call1_v6) rfl (by decide),
    writes_sub_of_mem (y := main_call1_v7) rfl (by decide), writes_sub_of_mem (y := main_call1_cst_1) rfl (by decide),
    writes_sub_of_mem (y := main_call1_v8) rfl (by decide), writes_sub_of_mem (y := main_call1_cst_2) rfl (by decide),
    writes_sub_of_mem (y := main_call1_v9) rfl (by decide), writes_sub_of_mem (y := main_call1_v10) rfl (by decide),
    writes_sub_of_mem (y := main_call1_v11) rfl (by decide), writes_sub_of_mem (y := main_call1_cst_3) rfl (by decide),
    writes_sub_of_mem (y := main_call1_v12) rfl (by decide), writes_sub_of_mem (y := main_call1_cst_4) rfl (by decide),
    writes_sub_of_mem (y := main_call1_call0_v0) rfl (by decide), writes_sub_of_mem (y := main_call1_call0_v1) rfl (by decide),
    writes_sub_of_mem (y := main_v52) rfl (by decide)⟩

/-- A buffer these operations do not write keeps its contents through them. -/
theorem s1a_keep (V : Valuation τ sig (Elt F)) (r : Ref sig .tc) (h : r ∉ s1a_W) :
    after s1a V (Proc.devRef .tc r) = V (Proc.devRef .tc r) :=
  after_of_writes_sub s1a V s1a_writes h

/-- The first hidden layer: the pre-activation centred, scaled by the inverse square root of the variance plus epsilon, scaled and shifted per feature, and its maximum with zero (`main_v68`, the outlined `relu`). -/
abbrev s1b : List (HloOp τ sig (Elt F)) :=
  [ StableHlo.unary main_v51 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v54 main_v55 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v56 (broadcastInDim S64 ![] bcast_S_S64 : (⟨S_, .f32⟩ : BufTy).Contents (Elt F) → (⟨S64, .f32⟩ : BufTy).Contents (Elt F)),
    StableHlo.binary main_v52 main_v56 main_v57 (addf : (⟨S64, .f32⟩ : BufTy).Contents (Elt F) → (⟨S64, .f32⟩ : BufTy).Contents (Elt F) → (⟨S64, .f32⟩ : BufTy).Contents (Elt F)),
    StableHlo.unary main_v57 main_v58 (Host.rsqrt : (⟨S64, .f32⟩ : BufTy).Contents (Elt F) → (⟨S64, .f32⟩ : BufTy).Contents (Elt F)),
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v60 main_v61 (mulf : (⟨S100000x64, .f32⟩ : BufTy).Contents (Elt F) → (⟨S100000x64, .f32⟩ : BufTy).Contents (Elt F) → (⟨S100000x64, .f32⟩ : BufTy).Contents (Elt F)),
    StableHlo.unary main_arg4 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v63 main_v64 (mulf : (⟨S100000x64, .f32⟩ : BufTy).Contents (Elt F) → (⟨S100000x64, .f32⟩ : BufTy).Contents (Elt F) → (⟨S100000x64, .f32⟩ : BufTy).Contents (Elt F)),
    StableHlo.unary main_arg5 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v67 : StableHlo.TRef sig ⟨S100000x64, .f32⟩) main_call2.v0 main_call2.v1 maximumf ]

theorem s1b_sub : (s1b : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

theorem s1b_fresh : (s1b : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers these operations write, in order. -/
abbrev s1b_W : List (Ref sig .tc) :=
  [main_v53, main_v54, main_v55, main_cst_13, main_v56, main_v57, main_v58, main_v59,
    main_v60, main_v61, main_v62, main_v63, main_v64, main_v65, main_v66, main_v67,
    main_call2_cst, main_call2_v0, main_v68]

theorem s1b_writes : (s1b : List (HloOp τ sig (Elt F))).Forall fun op => op.writes ⊆ (s1b_W.map (Proc.devRef (τ := τ) .tc)).toFinset :=
  ⟨writes_sub_of_mem (y := main_v53) rfl (by decide), writes_sub_of_mem (y := main_v54) rfl (by decide),
    writes_sub_of_mem (y := main_v55) rfl (by decide), writes_sub_of_mem (y := main_cst_13) rfl (by decide),
    writes_sub_of_mem (y := main_v56) rfl (by decide), writes_sub_of_mem (y := main_v57) rfl (by decide),
    writes_sub_of_mem (y := main_v58) rfl (by decide), writes_sub_of_mem (y := main_v59) rfl (by decide),
    writes_sub_of_mem (y := main_v60) rfl (by decide), writes_sub_of_mem (y := main_v61) rfl (by decide),
    writes_sub_of_mem (y := main_v62) rfl (by decide), writes_sub_of_mem (y := main_v63) rfl (by decide),
    writes_sub_of_mem (y := main_v64) rfl (by decide), writes_sub_of_mem (y := main_v65) rfl (by decide),
    writes_sub_of_mem (y := main_v66) rfl (by decide), writes_sub_of_mem (y := main_v67) rfl (by decide),
    writes_sub_of_mem (y := main_call2_cst) rfl (by decide), writes_sub_of_mem (y := main_call2_v0) rfl (by decide),
    writes_sub_of_mem (y := main_v68) rfl (by decide)⟩

/-- A buffer these operations do not write keeps its contents through them. -/
theorem s1b_keep (V : Valuation τ sig (Elt F)) (r : Ref sig .tc) (h : r ∉ s1b_W) :
    after s1b V (Proc.devRef .tc r) = V (Proc.devRef .tc r) :=
  after_of_writes_sub s1b V s1b_writes h

/-- The second layer's pre-activation: the hidden features times the second weight matrix, aggregated over the edges as before, plus the bias (`main_v85`). -/
abbrev s1c : List (HloOp τ sig (Elt F)) :=
  [ StableHlo.binary main_v68 main_arg6 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_14 (constantI S_ 32 0#32),
    StableHlo.unary main_c_14 main_v70 (broadcastInDim S1700000 ![] bcast_S_S1700000 : (⟨S_, .i32⟩ : BufTy).Contents (Elt F) → (⟨S1700000, .i32⟩ : BufTy).Contents (Elt F)),
    StableHlo.binary main_v3 main_v70 main_v71 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v72 (broadcastInDim S1700000 ![] bcast_S_S1700000 : (⟨S_, .i32⟩ : BufTy).Contents (Elt F) → (⟨S1700000, .i32⟩ : BufTy).Contents (Elt F)),
    StableHlo.binary main_v3 main_v72 main_v73 (addi : (⟨S1700000, .i32⟩ : BufTy).Contents (Elt F) → (⟨S1700000, .i32⟩ : BufTy).Contents (Elt F) → (⟨S1700000, .i32⟩ : BufTy).Contents (Elt F)),
    StableHlo.ternary main_v71 main_v73 main_v3 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v74 main_v75 (broadcastInDim S1700000x1 ![0] bcast_S1700000_S1700000x1_0 : (⟨S1700000, .i32⟩ : BufTy).Contents (Elt F) → (⟨S1700000x1, .i32⟩ : BufTy).Contents (Elt F)),
    StableHlo.binary main_v69 main_v75 main_v76 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v31 main_v77 (broadcastInDim S1700000x1 ![0] bcast_S1700000_S1700000x1_0 : (⟨S1700000, .f32⟩ : BufTy).Contents (Elt F) → (⟨S1700000x1, .f32⟩ : BufTy).Contents (Elt F)),
    StableHlo.unary main_v77 main_v78 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v76 main_v78 main_v79 (mulf : (⟨S1700000x64, .f32⟩ : BufTy).Contents (Elt F) → (⟨S1700000x64, .f32⟩ : BufTy).Contents (Elt F) → (⟨S1700000x64, .f32⟩ : BufTy).Contents (Elt F)),
    StableHlo.nullary main_cst_16 (constant S_ .f32 0x00000000#32),
    StableHlo.unary main_cst_16 main_v80 (broadcastInDim S100000x64 ![] bcast_S_S100000x64 : (⟨S_, .f32⟩ : BufTy).Contents (Elt F) → (⟨S100000x64, .f32⟩ : BufTy).Contents (Elt F)),
    StableHlo.unary main_v6 main_v81 (broadcastInDim S1700000x1 ![0] bcast_S1700000_S1700000x1_0 : (⟨S1700000, .i32⟩ : BufTy).Contents (Elt F) → (⟨S1700000x1, .i32⟩ : BufTy).Contents (Elt F)),
    StableHlo.ternary main_v80 main_v81 main_v79 main_v82 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg7 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)) ]

theorem s1c_sub : (s1c : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem s1c_fresh : (s1c : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers these operations write, in order. -/
abbrev s1c_W : List (Ref sig .tc) :=
  [main_v69, main_c_14, main_v70, main_v71, main_c_15, main_v72, main_v73, main_v74,
    main_v75, main_v76, main_v77, main_v78, main_v79, main_cst_16, main_v80, main_v81,
    main_v82, main_v83, main_v84, main_v85]

theorem s1c_writes : (s1c : List (HloOp τ sig (Elt F))).Forall fun op => op.writes ⊆ (s1c_W.map (Proc.devRef (τ := τ) .tc)).toFinset :=
  ⟨writes_sub_of_mem (y := main_v69) rfl (by decide), writes_sub_of_mem (y := main_c_14) rfl (by decide),
    writes_sub_of_mem (y := main_v70) rfl (by decide), writes_sub_of_mem (y := main_v71) rfl (by decide),
    writes_sub_of_mem (y := main_c_15) rfl (by decide), writes_sub_of_mem (y := main_v72) rfl (by decide),
    writes_sub_of_mem (y := main_v73) rfl (by decide), writes_sub_of_mem (y := main_v74) rfl (by decide),
    writes_sub_of_mem (y := main_v75) rfl (by decide), writes_sub_of_mem (y := main_v76) rfl (by decide),
    writes_sub_of_mem (y := main_v77) rfl (by decide), writes_sub_of_mem (y := main_v78) rfl (by decide),
    writes_sub_of_mem (y := main_v79) rfl (by decide), writes_sub_of_mem (y := main_cst_16) rfl (by decide),
    writes_sub_of_mem (y := main_v80) rfl (by decide), writes_sub_of_mem (y := main_v81) rfl (by decide),
    writes_sub_of_mem (y := main_v82) rfl (by decide), writes_sub_of_mem (y := main_v83) rfl (by decide),
    writes_sub_of_mem (y := main_v84) rfl (by decide), writes_sub_of_mem (y := main_v85) rfl (by decide)⟩

/-- A buffer these operations do not write keeps its contents through them. -/
theorem s1c_keep (V : Valuation τ sig (Elt F)) (r : Ref sig .tc) (h : r ∉ s1c_W) :
    after s1c V (Proc.devRef .tc r) = V (Proc.devRef .tc r) :=
  after_of_writes_sub s1c V s1c_writes h

/-- The second pre-activation's mean (`main_v88`) and variance (`main_v89`) over the nodes. -/
abbrev s1d : List (HloOp τ sig (Elt F)) :=
  [ StableHlo.nullary main_cst_17 (constant S_ .f32 0x00000000#32),
    StableHlo.binary main_v85 main_cst_17 main_v86 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_18 (constant S_ .f32 0x47C35000#32),
    StableHlo.unary main_cst_18 main_v87 (broadcastInDim S64 ![] bcast_S_S64 : (⟨S_, .f32⟩ : BufTy).Contents (Elt F) → (⟨S64, .f32⟩ : BufTy).Contents (Elt F)),
    StableHlo.binary main_v86 main_v87 main_v88 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32),
    StableHlo.TRef.nullary main_call3.cst (constant S_ .f32 0x00000000#32),
    StableHlo.TRef.binary (.of main_v85 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v85 : StableHlo.TRef sig ⟨S100000x64, .f32⟩) main_call3.v4 main_call3.v5 subf,
    StableHlo.TRef.binary main_call3.v5 main_call3.v5 main_call3.v6 mulf,
    StableHlo.TRef.unary (.of main_c_19 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b) ]

theorem s1d_sub : (s1d : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem s1d_fresh : (s1d : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write, in order. -/
abbrev s1d_W : List (Ref sig .tc) :=
  [main_cst_17, main_v86, main_cst_18, main_v87, main_v88, main_c_19, main_call3_cst, main_call3_v0,
    main_call3_v1, main_call3_cst_0, main_call3_v2, main_call3_v3, main_call3_v4, main_call3_v5, main_call3_v6, main_call3_v7,
    main_call3_cst_1, main_call3_v8, main_call3_cst_2, main_call3_v9, main_call3_v10, main_call3_v11, main_call3_cst_3, main_call3_v12,
    main_call3_cst_4, main_call3_call0_v0, main_call3_call0_v1, main_v89]

theorem s1d_writes : (s1d : List (HloOp τ sig (Elt F))).Forall fun op => op.writes ⊆ (s1d_W.map (Proc.devRef (τ := τ) .tc)).toFinset :=
  ⟨writes_sub_of_mem (y := main_cst_17) rfl (by decide), writes_sub_of_mem (y := main_v86) rfl (by decide),
    writes_sub_of_mem (y := main_cst_18) rfl (by decide), writes_sub_of_mem (y := main_v87) rfl (by decide),
    writes_sub_of_mem (y := main_v88) rfl (by decide), writes_sub_of_mem (y := main_c_19) rfl (by decide),
    writes_sub_of_mem (y := main_call3_cst) rfl (by decide), writes_sub_of_mem (y := main_call3_v0) rfl (by decide),
    writes_sub_of_mem (y := main_call3_v1) rfl (by decide), writes_sub_of_mem (y := main_call3_cst_0) rfl (by decide),
    writes_sub_of_mem (y := main_call3_v2) rfl (by decide), writes_sub_of_mem (y := main_call3_v3) rfl (by decide),
    writes_sub_of_mem (y := main_call3_v4) rfl (by decide), writes_sub_of_mem (y := main_call3_v5) rfl (by decide),
    writes_sub_of_mem (y := main_call3_v6) rfl (by decide), writes_sub_of_mem (y := main_call3_v7) rfl (by decide),
    writes_sub_of_mem (y := main_call3_cst_1) rfl (by decide), writes_sub_of_mem (y := main_call3_v8) rfl (by decide),
    writes_sub_of_mem (y := main_call3_cst_2) rfl (by decide), writes_sub_of_mem (y := main_call3_v9) rfl (by decide),
    writes_sub_of_mem (y := main_call3_v10) rfl (by decide), writes_sub_of_mem (y := main_call3_v11) rfl (by decide),
    writes_sub_of_mem (y := main_call3_cst_3) rfl (by decide), writes_sub_of_mem (y := main_call3_v12) rfl (by decide),
    writes_sub_of_mem (y := main_call3_cst_4) rfl (by decide), writes_sub_of_mem (y := main_call3_call0_v0) rfl (by decide),
    writes_sub_of_mem (y := main_call3_call0_v1) rfl (by decide), writes_sub_of_mem (y := main_v89) rfl (by decide)⟩

/-- A buffer these operations do not write keeps its contents through them. -/
theorem s1d_keep (V : Valuation τ sig (Elt F)) (r : Ref sig .tc) (h : r ∉ s1d_W) :
    after s1d V (Proc.devRef .tc r) = V (Proc.devRef .tc r) :=
  after_of_writes_sub s1d V s1d_writes h

/-- The second pre-activation centred (`main_v92`) and the row of inverse square roots of variance plus epsilon (`main_v96`). -/
abbrev s1e : List (HloOp τ sig (Elt F)) :=
  [ StableHlo.unary main_v88 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v91 main_v92 (subf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x3727C5AC#32),
    StableHlo.unary main_cst_20 main_v93 (broadcastInDim S64 ![] bcast_S_S64 : (⟨S_, .f32⟩ : BufTy).Contents (Elt F) → (⟨S64, .f32⟩ : BufTy).Contents (Elt F)),
    StableHlo.binary main_v89 main_v93 main_v94 (addf : (⟨S64, .f32⟩ : BufTy).Contents (Elt F) → (⟨S64, .f32⟩ : BufTy).Contents (Elt F) → (⟨S64, .f32⟩ : BufTy).Contents (Elt F)),
    StableHlo.unary main_v94 main_v95 (Host.rsqrt : (⟨S64, .f32⟩ : BufTy).Contents (Elt F) → (⟨S64, .f32⟩ : BufTy).Contents (Elt F)),
    StableHlo.unary main_v95 main_v96 (broadcastInDim S1x64 ![1] bcast_S64_S1x64_1 : (⟨S64, .f32⟩ : BufTy).Contents (Elt F) → (⟨S1x64, .f32⟩ : BufTy).Contents (Elt F)) ]

theorem s1e_sub : (s1e : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub ..⟩

theorem s1e_fresh : (s1e : List (HloOp τ sig (Elt F))).Forall fun op => op.fresh = ∅ :=
  ⟨rfl, rfl, rfl, rfl, rfl, rfl, rfl, rfl⟩

/-- The buffers these operations write, in order. -/
abbrev s1e_W : List (Ref sig .tc) :=
  [main_v90, main_v91, main_v92, main_cst_20, main_v93, main_v94, main_v95, main_v96]

theorem s1e_writes : (s1e : List (HloOp τ sig (Elt F))).Forall fun op => op.writes ⊆ (s1e_W.map (Proc.devRef (τ := τ) .tc)).toFinset :=
  ⟨writes_sub_of_mem (y := main_v90) rfl (by decide), writes_sub_of_mem (y := main_v91) rfl (by decide),
    writes_sub_of_mem (y := main_v92) rfl (by decide), writes_sub_of_mem (y := main_cst_20) rfl (by decide),
    writes_sub_of_mem (y := main_v93) rfl (by decide), writes_sub_of_mem (y := main_v94) rfl (by decide),
    writes_sub_of_mem (y := main_v95) rfl (by decide), writes_sub_of_mem (y := main_v96) rfl (by decide)⟩

/-- A buffer these operations do not write keeps its contents through them. -/
theorem s1e_keep (V : Valuation τ sig (Elt F)) (r : Ref sig .tc) (h : r ∉ s1e_W) :
    after s1e V (Proc.devRef .tc r) = V (Proc.devRef .tc r) :=
  after_of_writes_sub s1e V s1e_writes h

/-- These statements' operations, in order. -/
abbrev p1 : List (HloOp τ sig (Elt F)) := s1a ++ (s1b ++ (s1c ++ (s1d ++ (s1e))))

set_option maxRecDepth 16384 in
set_option maxHeartbeats 4000000 in
/-- The printed window is that line: each statement one operation, each call the callee's operations over the call's buffers. -/
theorem part1_eq (c : Dev nD) : main_part1 (F := F) c = seq p1 := rfl

end Cert.ReferenceIdeal.HandRun

end
-- ==== Proof.RefRunOps2.lean ====
/-
  The reference's statements 121 to 170 as three consecutive lines of host operations: the second
  hidden layer and the two output heads. The outlined `relu` is listed at its call site over that
  call's buffers.
-/
import proofs.«173470_j52209622450441_2_alg».proof.Proof.RefRunBase

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The second hidden layer (`main_v105`): scaled, shifted, and its maximum with zero. -/
abbrev s2a : List (HloOp τ sig (Elt F)) :=
  [ StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v97 main_v98 (mulf : (⟨S100000x64, .f32⟩ : BufTy).Contents (Elt F) → (⟨S100000x64, .f32⟩ : BufTy).Contents (Elt F) → (⟨S100000x64, .f32⟩ : BufTy).Contents (Elt F)),
    StableHlo.unary main_arg8 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v100 main_v101 (mulf : (⟨S100000x64, .f32⟩ : BufTy).Contents (Elt F) → (⟨S100000x64, .f32⟩ : BufTy).Contents (Elt F) → (⟨S100000x64, .f32⟩ : BufTy).Contents (Elt F)),
    StableHlo.unary main_arg9 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v101 main_v103 main_v104 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v104 : StableHlo.TRef sig ⟨S100000x64, .f32⟩) main_call4.v0 main_call4.v1 maximumf ]

theorem s2a_sub : (s2a : List (HloOp τ sig (Elt F))).Forall fun op => op.bufs ⊆ tcRefs τ sig :=
  ⟨unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem s2a_fresh : (s2a : List (HloOp τ sig (Elt F))).Forall fun op => op.fresh = ∅ :=
  ⟨rfl, rfl, rfl, rfl, rfl, rfl, rfl, rfl, rfl, rfl, rfl⟩

/-- The buffers these operations write, in order. -/
abbrev s2a_W : List (Ref sig .tc) :=
  [main_v97, main_v98, main_v99, main_v100, main_v101, main_v102, main_v103, main_v104,
    main_call4_cst, main_call4_v0, main_v105]

theorem s2a_writes : (s2a : List (HloOp τ sig (Elt F))).Forall fun op => op.writes ⊆ (s2a_W.map (Proc.devRef (τ := τ) .tc)).toFinset :=
  ⟨writes_sub_of_mem (y := main_v97) rfl (by decide), writes_sub_of_mem (y := main_v98) rfl (by decide),
    writes_sub_of_mem (y := main_v99) rfl (by decide), writes_sub_of_mem (y := main_v100) rfl (by decide),
    writes_sub_of_mem (y := main_v101) rfl (by decide), writes_sub_of_mem (y := main_v102) rfl (by decide),
    writes_sub_of_mem (y := main_v103) rfl (by decide), writes_sub_of_mem (y := main_v104) rfl (by decide),
    writes_sub_of_mem (y := main_call4_cst) rfl (by decide), writes_sub_of_mem (y := main_call4_v0) rfl (by decide),
    writes_sub_of_mem (y := main_v105) rfl (by decide)⟩

/-- A buffer these operations do not write keeps its contents through them. -/
theorem s2a_keep (V : Valuation τ sig (Elt F)) (r : Ref sig .tc) (h : r ∉ s2a_W) :
    after s2a V (Proc.devRef .tc r) = V (Proc.devRef .tc r) :=
  after_of_writes_sub s2a V s2a_writes h

/-- The first head: the hidden features times its weight matrix, aggregated over the edges, plus its bias (`main_v122`, the program's first result). -/
abbrev s2b : List (HloOp τ sig (Elt F)) :=
  [ StableHlo.binary main_v105 main_arg10 main_v106 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_c_21 (constantI S_ 32 0#32),
    StableHlo.unary main_c_21 main_v107 (broadcastInDim S1700000 ![] bcast_S_S1700000 : (⟨S_, .i32⟩ : BufTy).Contents (Elt F) → (⟨S1700000, .i32⟩ : BufTy).Contents (Elt F)),
    StableHlo.binary main_v3 main_v107 main_v108 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32),
    StableHlo.unary main_c_22 main_v109 (broadcastInDim S1700000 ![] bcast_S_S1700000 : (⟨S_, .i32⟩ : BufTy).Contents (Elt F) → (⟨S1700000, .i32⟩ : BufTy).Contents (Elt F)),
    StableHlo.binary main_v3 main_v109 main_v110 (addi : (⟨S1700000, .i32⟩ : BufTy).Contents (Elt F) → (⟨S1700000, .i32⟩ : BufTy).Contents (Elt F) → (⟨S1700000, .i32⟩ : BufTy).Contents (Elt F)),
    StableHlo.ternary main_v108 main_v110 main_v3 main_v111 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v111 main_v112 (broadcastInDim S1700000x1 ![0] bcast_S1700000_S1700000x1_0 : (⟨S1700000, .i32⟩ : BufTy).Contents (Elt F) → (⟨S1700000x1, .i32⟩ : BufTy).Contents (Elt F)),
    StableHlo.binary main_v106 main_v112 main_v113 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v31 main_v114 (broadcastInDim S1700000x1 ![0] bcast_S1700000_S1700000x1_0 : (⟨S1700000, .f32⟩ : BufTy).Contents (Elt F) → (⟨S1700000x1, .f32⟩ : BufTy).Contents (Elt F)),
    StableHlo.unary main_v114 main_v115 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v113 main_v115 main_v116 (mulf : (⟨S1700000x32, .f32⟩ : BufTy).Contents (Elt F) → (⟨S1700000x32, .f32⟩ : BufTy).Contents (Elt F) → (⟨S1700000x32, .f32⟩ : BufTy).Contents (Elt F)),
    StableHlo.nullary main_cst_23 (constant S_ .f32 0x00000000#32),
    StableHlo.unary main_cst_23 main_v117 (broadcastInDim S100000x32 ![] bcast_S_S100000x32 : (⟨S_, .f32⟩ : BufTy).Contents (Elt F) → (⟨S100000x32, .f32⟩ : BufTy).Contents (Elt F)),
    StableHlo.unary main_v6 main_v118 (broadcastInDim S1700000x1 ![0] bcast_S1700000_S1700000x1_0 : (⟨S1700000, .i32⟩ : BufTy).Contents (Elt F) → (⟨S1700000x1, .i32⟩ : BufTy).Contents (Elt F)),
    StableHlo.ternary main_v117 main_v118 main_v116 main_v119 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg11 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S100000x32 ![0, 1] bcast_S1x32_S100000x32_0_1 : (⟨S1x32, .f32⟩ : BufTy).Contents (Elt F) → (⟨S100000x32, .f32⟩ : BufTy).Contents (Elt F)),
    StableHlo.binary main_v119 main_v121 main_v122 (addf : (⟨S100000x32, .f32⟩ : BufTy).Contents (Elt F) → (⟨S100000x32, .f32⟩ : BufTy).Contents (Elt F) → (⟨S100000x32, .f32⟩ : BufTy).Contents (Elt F)) ]

theorem s2b_sub : (s2b : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem s2b_fresh : (s2b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers these operations write, in order. -/
abbrev s2b_W : List (Ref sig .tc) :=
  [main_v106, main_c_21, main_v107, main_v108, main_c_22, main_v109, main_v110, main_v111,
    main_v112, main_v113, main_v114, main_v115, main_v116, main_cst_23, main_v117, main_v118,
    main_v119, main_v120, main_v121, main_v122]

theorem s2b_writes : (s2b : List (HloOp τ sig (Elt F))).Forall fun op => op.writes ⊆ (s2b_W.map (Proc.devRef (τ := τ) .tc)).toFinset :=
  ⟨writes_sub_of_mem (y := main_v106) rfl (by decide), writes_sub_of_mem (y := main_c_21) rfl (by decide),
    writes_sub_of_mem (y := main_v107) rfl (by decide), writes_sub_of_mem (y := main_v108) rfl (by decide),
    writes_sub_of_mem (y := main_c_22) rfl (by decide), writes_sub_of_mem (y := main_v109) rfl (by decide),
    writes_sub_of_mem (y := main_v110) rfl (by decide), writes_sub_of_mem (y := main_v111) rfl (by decide),
    writes_sub_of_mem (y := main_v112) rfl (by decide), writes_sub_of_mem (y := main_v113) rfl (by decide),
    writes_sub_of_mem (y := main_v114) rfl (by decide), writes_sub_of_mem (y := main_v115) rfl (by decide),
    writes_sub_of_mem (y := main_v116) rfl (by decide), writes_sub_of_mem (y := main_cst_23) rfl (by decide),
    writes_sub_of_mem (y := main_v117) rfl (by decide), writes_sub_of_mem (y := main_v118) rfl (by decide),
    writes_sub_of_mem (y := main_v119) rfl (by decide), writes_sub_of_mem (y := main_v120) rfl (by decide),
    writes_sub_of_mem (y := main_v121) rfl (by decide), writes_sub_of_mem (y := main_v122) rfl (by decide)⟩

/-- A buffer these operations do not write keeps its contents through them. -/
theorem s2b_keep (V : Valuation τ sig (Elt F)) (r : Ref sig .tc) (h : r ∉ s2b_W) :
    after s2b V (Proc.devRef .tc r) = V (Proc.devRef .tc r) :=
  after_of_writes_sub s2b V s2b_writes h

/-- The second head, likewise (`main_v139`, the program's second result). -/
abbrev s2c : List (HloOp τ sig (Elt F)) :=
  [ StableHlo.binary main_v105 main_arg12 main_v123 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_c_24 (constantI S_ 32 0#32),
    StableHlo.unary main_c_24 main_v124 (broadcastInDim S1700000 ![] bcast_S_S1700000 : (⟨S_, .i32⟩ : BufTy).Contents (Elt F) → (⟨S1700000, .i32⟩ : BufTy).Contents (Elt F)),
    StableHlo.binary main_v3 main_v124 main_v125 (cmpi .slt : (⟨S1700000, .i32⟩ : BufTy).Contents (Elt F) → (⟨S1700000, .i32⟩ : BufTy).Contents (Elt F) → (⟨S1700000, .i1⟩ : BufTy).Contents (Elt F)),
    StableHlo.nullary main_c_25 (constantI S_ 32 100000#32),
    StableHlo.unary main_c_25 main_v126 (broadcastInDim S1700000 ![] bcast_S_S1700000 : (⟨S_, .i32⟩ : BufTy).Contents (Elt F) → (⟨S1700000, .i32⟩ : BufTy).Contents (Elt F)),
    StableHlo.binary main_v3 main_v126 main_v127 (addi : (⟨S1700000, .i32⟩ : BufTy).Contents (Elt F) → (⟨S1700000, .i32⟩ : BufTy).Contents (Elt F) → (⟨S1700000, .i32⟩ : BufTy).Contents (Elt F)),
    StableHlo.ternary main_v125 main_v127 main_v3 main_v128 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v128 main_v129 (broadcastInDim S1700000x1 ![0] bcast_S1700000_S1700000x1_0 : (⟨S1700000, .i32⟩ : BufTy).Contents (Elt F) → (⟨S1700000x1, .i32⟩ : BufTy).Contents (Elt F)),
    StableHlo.binary main_v123 main_v129 main_v130 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v31 main_v131 (broadcastInDim S1700000x1 ![0] bcast_S1700000_S1700000x1_0 : (⟨S1700000, .f32⟩ : BufTy).Contents (Elt F) → (⟨S1700000x1, .f32⟩ : BufTy).Contents (Elt F)),
    StableHlo.unary main_v131 main_v132 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v130 main_v132 main_v133 (mulf : (⟨S1700000x32, .f32⟩ : BufTy).Contents (Elt F) → (⟨S1700000x32, .f32⟩ : BufTy).Contents (Elt F) → (⟨S1700000x32, .f32⟩ : BufTy).Contents (Elt F)),
    StableHlo.nullary main_cst_26 (constant S_ .f32 0x00000000#32),
    StableHlo.unary main_cst_26 main_v134 (broadcastInDim S100000x32 ![] bcast_S_S100000x32 : (⟨S_, .f32⟩ : BufTy).Contents (Elt F) → (⟨S100000x32, .f32⟩ : BufTy).Contents (Elt F)),
    StableHlo.unary main_v6 main_v135 (broadcastInDim S1700000x1 ![0] bcast_S1700000_S1700000x1_0 : (⟨S1700000, .i32⟩ : BufTy).Contents (Elt F) → (⟨S1700000x1, .i32⟩ : BufTy).Contents (Elt F)),
    StableHlo.ternary main_v134 main_v135 main_v133 main_v136 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg13 main_v137 (broadcastInDim S1x32 ![1] bcast_S32_S1x32_1 : (⟨S32, .f32⟩ : BufTy).Contents (Elt F) → (⟨S1x32, .f32⟩ : BufTy).Contents (Elt F)),
    StableHlo.unary main_v137 main_v138 (broadcastInDim S100000x32 ![0, 1] bcast_S1x32_S100000x32_0_1 : (⟨S1x32, .f32⟩ : BufTy).Contents (Elt F) → (⟨S100000x32, .f32⟩ : BufTy).Contents (Elt F)),
    StableHlo.binary main_v136 main_v138 main_v139 (addf : (⟨S100000x32, .f32⟩ : BufTy).Contents (Elt F) → (⟨S100000x32, .f32⟩ : BufTy).Contents (Elt F) → (⟨S100000x32, .f32⟩ : BufTy).Contents (Elt F)) ]

theorem s2c_sub : (s2c : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem s2c_fresh : (s2c : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers these operations write, in order. -/
abbrev s2c_W : List (Ref sig .tc) :=
  [main_v123, main_c_24, main_v124, main_v125, main_c_25, main_v126, main_v127, main_v128,
    main_v129, main_v130, main_v131, main_v132, main_v133, main_cst_26, main_v134, main_v135,
    main_v136, main_v137, main_v138, main_v139]

theorem s2c_writes : (s2c : List (HloOp τ sig (Elt F))).Forall fun op => op.writes ⊆ (s2c_W.map (Proc.devRef (τ := τ) .tc)).toFinset :=
  ⟨writes_sub_of_mem (y := main_v123) rfl (by decide), writes_sub_of_mem (y := main_c_24) rfl (by decide),
    writes_sub_of_mem (y := main_v124) rfl (by decide), writes_sub_of_mem (y := main_v125) rfl (by decide),
    writes_sub_of_mem (y := main_c_25) rfl (by decide), writes_sub_of_mem (y := main_v126) rfl (by decide),
    writes_sub_of_mem (y := main_v127) rfl (by decide), writes_sub_of_mem (y := main_v128) rfl (by decide),
    writes_sub_of_mem (y := main_v129) rfl (by decide), writes_sub_of_mem (y := main_v130) rfl (by decide),
    writes_sub_of_mem (y := main_v131) rfl (by decide), writes_sub_of_mem (y := main_v132) rfl (by decide),
    writes_sub_of_mem (y := main_v133) rfl (by decide), writes_sub_of_mem (y := main_cst_26) rfl (by decide),
    writes_sub_of_mem (y := main_v134) rfl (by decide), writes_sub_of_mem (y := main_v135) rfl (by decide),
    writes_sub_of_mem (y := main_v136) rfl (by decide), writes_sub_of_mem (y := main_v137) rfl (by decide),
    writes_sub_of_mem (y := main_v138) rfl (by decide), writes_sub_of_mem (y := main_v139) rfl (by decide)⟩

/-- A buffer these operations do not write keeps its contents through them. -/
theorem s2c_keep (V : Valuation τ sig (Elt F)) (r : Ref sig .tc) (h : r ∉ s2c_W) :
    after s2c V (Proc.devRef .tc r) = V (Proc.devRef .tc r) :=
  after_of_writes_sub s2c V s2c_writes h

/-- These statements' operations, in order. -/
abbrev p2 : List (HloOp τ sig (Elt F)) := s2a ++ (s2b ++ (s2c))

set_option maxRecDepth 16384 in
set_option maxHeartbeats 4000000 in
/-- The printed window is that line: each statement one operation, each call the callee's operations over the call's buffers. -/
theorem part2_eq (c : Dev nD) : main_part2 (F := F) c = seq p2 := rfl

end Cert.ReferenceIdeal.HandRun

end
-- ==== Proof.RefRun.lean ====
/-
  The reference program's @main as ONE line of host operations, and its run: every weakly fair
  execution terminates, and every buffer ends at the fold of the operations over the launch contents.
  The line is the three printed windows' lines one after the other; each window's equation is in its
  own module, and the windows are joined by the sequencing law of a line.
-/
import proofs.«173470_j52209622450441_2_alg».proof.Proof.RefRunOps0
import proofs.«173470_j52209622450441_2_alg».proof.Proof.RefRunOps1
import proofs.«173470_j52209622450441_2_alg».proof.Proof.RefRunOps2

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) := p0 ++ (p1 ++ p2)

/-- @main runs its three windows in order, and each is its line. -/
theorem main_eq (c : Dev nD) : main (F := F) c = seq ops := by
  rw [show (ops : List (HloOp τ sig (Elt F))) = p0 ++ (p1 ++ p2) from rfl, seq_append p0 (p1 ++ p2), seq_append p1 p2, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem p0_sub : (p0 : List (HloOp τ sig (Elt F))).Forall fun op => op.bufs ⊆ tcRefs τ sig := forall_append s0a_sub (forall_append s0b_sub (s0c_sub))
theorem p1_sub : (p1 : List (HloOp τ sig (Elt F))).Forall fun op => op.bufs ⊆ tcRefs τ sig := forall_append s1a_sub (forall_append s1b_sub (forall_append s1c_sub (forall_append s1d_sub (s1e_sub))))
theorem p2_sub : (p2 : List (HloOp τ sig (Elt F))).Forall fun op => op.bufs ⊆ tcRefs τ sig := forall_append s2a_sub (forall_append s2b_sub (s2c_sub))
theorem ops_sub : (ops : List (HloOp τ sig (Elt F))).Forall fun op => op.bufs ⊆ tcRefs τ sig :=
  forall_append p0_sub (forall_append p1_sub p2_sub)

theorem p0_fresh : (p0 : List (HloOp τ sig (Elt F))).Forall fun op => op.fresh = ∅ := forall_append s0a_fresh (forall_append s0b_fresh (s0c_fresh))
theorem p1_fresh : (p1 : List (HloOp τ sig (Elt F))).Forall fun op => op.fresh = ∅ := forall_append s1a_fresh (forall_append s1b_fresh (forall_append s1c_fresh (forall_append s1d_fresh (s1e_fresh))))
theorem p2_fresh : (p2 : List (HloOp τ sig (Elt F))).Forall fun op => op.fresh = ∅ := forall_append s2a_fresh (forall_append s2b_fresh (s2c_fresh))
/-- Every operation determines what it writes. -/
theorem ops_fresh : ∀ op ∈ (ops : List (HloOp τ sig (Elt F))), op.fresh = ∅ :=
  List.forall_iff_forall_mem.mp (forall_append p0_fresh (forall_append p1_fresh p2_fresh))

/-- On every device, for any float values, from any memory with zero counters: every weakly fair execution of @main
    terminates, and every buffer ends at the fold of @main's operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole line is the stretches' folds, each from what the one before left. -/
theorem after_ops (V : Valuation τ sig (Elt F)) :
    after ops V = after s2c (after s2b (after s2a (after s1e (after s1d (after s1c (after s1b (after s1a
      (after s0c (after s0b (after s0a V)))))))))) := by
  simp only [ops, p0, p1, p2, after_app]

/-- A buffer no stretch writes keeps its launch contents to the end. -/
theorem ops_keep (V : Valuation τ sig (Elt F)) (r : Ref sig .tc)
    (h_s0a : r ∉ s0a_W) (h_s0b : r ∉ s0b_W) (h_s0c : r ∉ s0c_W) (h_s1a : r ∉ s1a_W) (h_s1b : r ∉ s1b_W) (h_s1c : r ∉ s1c_W) (h_s1d : r ∉ s1d_W) (h_s1e : r ∉ s1e_W) (h_s2a : r ∉ s2a_W) (h_s2b : r ∉ s2b_W) (h_s2c : r ∉ s2c_W) :
    after ops V (Proc.devRef .tc r) = V (Proc.devRef .tc r) := by
  rw [after_ops, s2c_keep _ r h_s2c, s2b_keep _ r h_s2b, s2a_keep _ r h_s2a, s1e_keep _ r h_s1e, s1d_keep _ r h_s1d, s1c_keep _ r h_s1c, s1b_keep _ r h_s1b, s1a_keep _ r h_s1a, s0c_keep _ r h_s0c, s0b_keep _ r h_s0b, s0a_keep _ r h_s0a]

end Cert.ReferenceIdeal.HandRun

end
-- ==== Proof.RefRunVal0.lean ====
/-
  What the first window's stretches leave in the buffers later stretches read, from ANY contents
  before them: each buffer at the specification's stage applied to the contents the stretch reads. The
  fold over a stretch is computed operation by operation (each operation's result at its own buffer is
  its function of its operands' contents, elsewhere what was there); what is left differs from the
  stated term by unfolding only.
-/
import proofs.«173470_j52209622450441_2_alg».proof.Proof.RefRunOps0
import proofs.«173470_j52209622450441_2_alg».proof.Proof.RefRunForms

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2400000 in
theorem s0a_v3 (V : Valuation τ sig (Elt F)) :
    after s0a V (Proc.devRef .tc main_v3) = RefSpec.src (V (Proc.devRef .tc main_arg1)) := by
  simp only [s0a]
  after_results_simp <;> rfl

set_option maxRecDepth 16384 in
set_option maxHeartbeats 2400000 in
theorem s0a_v6 (V : Valuation τ sig (Elt F)) :
    after s0a V (Proc.devRef .tc main_v6) = RefSpec.dst (V (Proc.devRef .tc main_arg1)) := by
  simp only [s0a]
  after_results_simp <;> rfl

set_option maxRecDepth 16384 in
set_option maxHeartbeats 2400000 in
theorem s0a_v16 (V : Valuation τ sig (Elt F)) :
    after s0a V (Proc.devRef .tc main_v16) = RefSpec.dinv (V (Proc.devRef .tc main_arg1)) := by
  simp only [s0a]
  after_results_simp <;> rfl

set_option maxRecDepth 16384 in
set_option maxHeartbeats 1900000 in
theorem s0b_v31 (V : Valuation τ sig (Elt F)) :
    after s0b V (Proc.devRef .tc main_v31) = normOf (V (Proc.devRef .tc main_v16)) (V (Proc.devRef .tc main_v3)) (V (Proc.devRef .tc main_v6)) := by
  simp only [s0b]
  after_results_simp <;> rfl

set_option maxRecDepth 16384 in
set_option maxHeartbeats 1900000 in
theorem s0c_v45 (V : Valuation τ sig (Elt F)) :
    after s0c V (Proc.devRef .tc main_v45) = aggOf64 (V (Proc.devRef .tc main_v3)) (V (Proc.devRef .tc main_v6)) (V (Proc.devRef .tc main_v31)) (Host.dotGeneral dot_S100000x128_S128x64_S100000x64_1_0_0_1_n_n none (V (Proc.devRef .tc main_arg0)) (V (Proc.devRef .tc main_arg2))) := by
  simp only [s0c]
  after_results_simp <;> rfl

set_option maxRecDepth 16384 in
set_option maxHeartbeats 1900000 in
theorem s0c_v47 (V : Valuation τ sig (Elt F)) :
    after s0c V (Proc.devRef .tc main_v47) = RefSpec.rows64 (V (Proc.devRef .tc main_arg3)) := by
  simp only [s0c]
  after_results_simp <;> rfl

end Cert.ReferenceIdeal.HandRun

end
-- ==== Proof.RefRunVal1.lean ====
/-
  What the second window's stretches leave in the buffers later stretches read, from ANY contents
  before them, in the specification's stages.
-/
import proofs.«173470_j52209622450441_2_alg».proof.Proof.RefRunOps1
import proofs.«173470_j52209622450441_2_alg».proof.Proof.RefRunForms

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2900000 in
theorem s1a_v48 (V : Valuation τ sig (Elt F)) :
    after s1a V (Proc.devRef .tc main_v48) = addf (V (Proc.devRef .tc main_v45)) (V (Proc.devRef .tc main_v47)) := by
  simp only [s1a]
  after_results_simp <;> rfl

set_option maxRecDepth 16384 in
set_option maxHeartbeats 2900000 in
theorem s1a_v51 (V : Valuation τ sig (Elt F)) :
    after s1a V (Proc.devRef .tc main_v51) = RefSpec.mean (addf (V (Proc.devRef .tc main_v45)) (V (Proc.devRef .tc main_v47))) := by
  simp only [s1a]
  after_results_simp <;> rfl

set_option maxRecDepth 16384 in
set_option maxHeartbeats 2900000 in
theorem s1a_v52 (V : Valuation τ sig (Elt F)) :
    after s1a V (Proc.devRef .tc main_v52) = RefSpec.var (addf (V (Proc.devRef .tc main_v45)) (V (Proc.devRef .tc main_v47))) (constantI S_ 32 0#32) := by
  simp only [s1a]
  after_results_simp <;> rfl

set_option maxRecDepth 16384 in
set_option maxHeartbeats 1900000 in
theorem s1b_v68 (V : Valuation τ sig (Elt F)) :
    after s1b V (Proc.devRef .tc main_v68) = bnreluOf (V (Proc.devRef .tc main_v48)) (V (Proc.devRef .tc main_v51)) (V (Proc.devRef .tc main_v52)) (V (Proc.devRef .tc main_arg4)) (V (Proc.devRef .tc main_arg5)) := by
  simp only [s1b]
  after_results_simp <;> rfl

set_option maxRecDepth 16384 in
set_option maxHeartbeats 2000000 in
theorem s1c_v85 (V : Valuation τ sig (Elt F)) :
    after s1c V (Proc.devRef .tc main_v85) = addf (aggOf64 (V (Proc.devRef .tc main_v3)) (V (Proc.devRef .tc main_v6)) (V (Proc.devRef .tc main_v31)) (Host.dotGeneral dot_S100000x64_S64x64_S100000x64_1_0_0_1_n_n none (V (Proc.devRef .tc main_v68)) (V (Proc.devRef .tc main_arg6)))) (RefSpec.rows64 (V (Proc.devRef .tc main_arg7))) := by
  simp only [s1c]
  after_results_simp <;> rfl

set_option maxRecDepth 16384 in
set_option maxHeartbeats 2800000 in
theorem s1d_v88 (V : Valuation τ sig (Elt F)) :
    after s1d V (Proc.devRef .tc main_v88) = RefSpec.mean (V (Proc.devRef .tc main_v85)) := by
  simp only [s1d]
  after_results_simp <;> rfl

set_option maxRecDepth 16384 in
set_option maxHeartbeats 2800000 in
theorem s1d_v89 (V : Valuation τ sig (Elt F)) :
    after s1d V (Proc.devRef .tc main_v89) = RefSpec.var (V (Proc.devRef .tc main_v85)) (constantI S_ 32 0#32) := by
  simp only [s1d]
  after_results_simp <;> rfl

set_option maxRecDepth 16384 in
set_option maxHeartbeats 800000 in
theorem s1e_v92 (V : Valuation τ sig (Elt F)) :
    after s1e V (Proc.devRef .tc main_v92) = subf (V (Proc.devRef .tc main_v85)) (RefSpec.rows64 (V (Proc.devRef .tc main_v88))) := by
  simp only [s1e]
  after_results_simp <;> rfl

set_option maxRecDepth 16384 in
set_option maxHeartbeats 800000 in
theorem s1e_v96 (V : Valuation τ sig (Elt F)) :
    after s1e V (Proc.devRef .tc main_v96) = broadcastInDim S1x64 ![1] bcast_S64_S1x64_1 (Host.rsqrt (addf (V (Proc.devRef .tc main_v89)) (broadcastInDim S64 ![] bcast_S_S64 (RefSpec.lit 0x3727C5AC#32)))) := by
  simp only [s1e]
  after_results_simp <;> rfl

end Cert.ReferenceIdeal.HandRun

end
-- ==== Proof.RefRunVal2.lean ====
/-
  What the third window's stretches leave in the buffers read after them (the two results among them),
  from ANY contents before them, in the specification's stages.
-/
import proofs.«173470_j52209622450441_2_alg».proof.Proof.RefRunOps2
import proofs.«173470_j52209622450441_2_alg».proof.Proof.RefRunForms

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 1100000 in
theorem s2a_v105 (V : Valuation τ sig (Elt F)) :
    after s2a V (Proc.devRef .tc main_v105) = bnreluOf' (V (Proc.devRef .tc main_v92)) (V (Proc.devRef .tc main_v96)) (V (Proc.devRef .tc main_arg8)) (V (Proc.devRef .tc main_arg9)) := by
  simp only [s2a]
  after_results_simp <;> rfl

set_option maxRecDepth 16384 in
set_option maxHeartbeats 2000000 in
theorem s2b_v122 (V : Valuation τ sig (Elt F)) :
    after s2b V (Proc.devRef .tc main_v122) = addf (aggOf32 (V (Proc.devRef .tc main_v3)) (V (Proc.devRef .tc main_v6)) (V (Proc.devRef .tc main_v31)) (Host.dotGeneral dot_S100000x64_S64x32_S100000x32_1_0_0_1_n_n none (V (Proc.devRef .tc main_v105)) (V (Proc.devRef .tc main_arg10)))) (RefSpec.rows32 (V (Proc.devRef .tc main_arg11))) := by
  simp only [s2b]
  after_results_simp <;> rfl

set_option maxRecDepth 16384 in
set_option maxHeartbeats 2000000 in
theorem s2c_v139 (V : Valuation τ sig (Elt F)) :
    after s2c V (Proc.devRef .tc main_v139) = addf (aggOf32 (V (Proc.devRef .tc main_v3)) (V (Proc.devRef .tc main_v6)) (V (Proc.devRef .tc main_v31)) (Host.dotGeneral dot_S100000x64_S64x32_S100000x32_1_0_0_1_n_n none (V (Proc.devRef .tc main_v105)) (V (Proc.devRef .tc main_arg12)))) (RefSpec.rows32 (V (Proc.devRef .tc main_arg13))) := by
  simp only [s2c]
  after_results_simp <;> rfl

end Cert.ReferenceIdeal.HandRun

end
-- ==== Proof.RefRunSpec.lean ====
/-
  The reference's run in the specification's terms. From any contents `V` of the buffers at launch, the
  buffers that later stretches read are followed stretch by stretch: after each stretch a buffer it
  wrote holds the specification's stage of the ARGUMENT arrays (the stretch's own value lemma, with what
  it read replaced by what the earlier stretches left), and a buffer it did not write holds what it
  held. The two results come out as the specification's `mu` and `logvar` of the fourteen argument
  arrays, which no stretch writes.
-/
import proofs.«173470_j52209622450441_2_alg».proof.Proof.RefRun
import proofs.«173470_j52209622450441_2_alg».proof.Proof.RefRunVal0
import proofs.«173470_j52209622450441_2_alg».proof.Proof.RefRunVal1
import proofs.«173470_j52209622450441_2_alg».proof.Proof.RefRunVal2

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

/-- A buffer none of the first 1 stretch writes still holds its launch contents after it. -/
theorem keep1 (r : Ref sig .tc) (h_s0a : r ∉ s0a_W) :
    (after s0a V) (Proc.devRef .tc r) = V (Proc.devRef .tc r) := by
  rw [s0a_keep _ r h_s0a]

/-- A buffer none of the first 2 stretches writes still holds its launch contents after them. -/
theorem keep2 (r : Ref sig .tc) (h_s0a : r ∉ s0a_W) (h_s0b : r ∉ s0b_W) :
    (after s0b (after s0a V)) (Proc.devRef .tc r) = V (Proc.devRef .tc r) := by
  rw [s0b_keep _ r h_s0b, s0a_keep _ r h_s0a]

/-- A buffer none of the first 3 stretches writes still holds its launch contents after them. -/
theorem keep3 (r : Ref sig .tc) (h_s0a : r ∉ s0a_W) (h_s0b : r ∉ s0b_W) (h_s0c : r ∉ s0c_W) :
    (after s0c (after s0b (after s0a V))) (Proc.devRef .tc r) = V (Proc.devRef .tc r) := by
  rw [s0c_keep _ r h_s0c, s0b_keep _ r h_s0b, s0a_keep _ r h_s0a]

/-- A buffer none of the first 4 stretches writes still holds its launch contents after them. -/
theorem keep4 (r : Ref sig .tc) (h_s0a : r ∉ s0a_W) (h_s0b : r ∉ s0b_W) (h_s0c : r ∉ s0c_W) (h_s1a : r ∉ s1a_W) :
    (after s1a (after s0c (after s0b (after s0a V)))) (Proc.devRef .tc r) = V (Proc.devRef .tc r) := by
  rw [s1a_keep _ r h_s1a, s0c_keep _ r h_s0c, s0b_keep _ r h_s0b, s0a_keep _ r h_s0a]

/-- A buffer none of the first 5 stretches writes still holds its launch contents after them. -/
theorem keep5 (r : Ref sig .tc) (h_s0a : r ∉ s0a_W) (h_s0b : r ∉ s0b_W) (h_s0c : r ∉ s0c_W) (h_s1a : r ∉ s1a_W) (h_s1b : r ∉ s1b_W) :
    (after s1b (after s1a (after s0c (after s0b (after s0a V))))) (Proc.devRef .tc r) = V (Proc.devRef .tc r) := by
  rw [s1b_keep _ r h_s1b, s1a_keep _ r h_s1a, s0c_keep _ r h_s0c, s0b_keep _ r h_s0b, s0a_keep _ r h_s0a]

/-- A buffer none of the first 6 stretches writes still holds its launch contents after them. -/
theorem keep6 (r : Ref sig .tc) (h_s0a : r ∉ s0a_W) (h_s0b : r ∉ s0b_W) (h_s0c : r ∉ s0c_W) (h_s1a : r ∉ s1a_W) (h_s1b : r ∉ s1b_W) (h_s1c : r ∉ s1c_W) :
    (after s1c (after s1b (after s1a (after s0c (after s0b (after s0a V)))))) (Proc.devRef .tc r) = V (Proc.devRef .tc r) := by
  rw [s1c_keep _ r h_s1c, s1b_keep _ r h_s1b, s1a_keep _ r h_s1a, s0c_keep _ r h_s0c, s0b_keep _ r h_s0b, s0a_keep _ r h_s0a]

/-- A buffer none of the first 7 stretches writes still holds its launch contents after them. -/
theorem keep7 (r : Ref sig .tc) (h_s0a : r ∉ s0a_W) (h_s0b : r ∉ s0b_W) (h_s0c : r ∉ s0c_W) (h_s1a : r ∉ s1a_W) (h_s1b : r ∉ s1b_W) (h_s1c : r ∉ s1c_W) (h_s1d : r ∉ s1d_W) :
    (after s1d (after s1c (after s1b (after s1a (after s0c (after s0b (after s0a V))))))) (Proc.devRef .tc r) = V (Proc.devRef .tc r) := by
  rw [s1d_keep _ r h_s1d, s1c_keep _ r h_s1c, s1b_keep _ r h_s1b, s1a_keep _ r h_s1a, s0c_keep _ r h_s0c, s0b_keep _ r h_s0b, s0a_keep _ r h_s0a]

/-- A buffer none of the first 8 stretches writes still holds its launch contents after them. -/
theorem keep8 (r : Ref sig .tc) (h_s0a : r ∉ s0a_W) (h_s0b : r ∉ s0b_W) (h_s0c : r ∉ s0c_W) (h_s1a : r ∉ s1a_W) (h_s1b : r ∉ s1b_W) (h_s1c : r ∉ s1c_W) (h_s1d : r ∉ s1d_W) (h_s1e : r ∉ s1e_W) :
    (after s1e (after s1d (after s1c (after s1b (after s1a (after s0c (after s0b (after s0a V)))))))) (Proc.devRef .tc r) = V (Proc.devRef .tc r) := by
  rw [s1e_keep _ r h_s1e, s1d_keep _ r h_s1d, s1c_keep _ r h_s1c, s1b_keep _ r h_s1b, s1a_keep _ r h_s1a, s0c_keep _ r h_s0c, s0b_keep _ r h_s0b, s0a_keep _ r h_s0a]

/-- A buffer none of the first 9 stretches writes still holds its launch contents after them. -/
theorem keep9 (r : Ref sig .tc) (h_s0a : r ∉ s0a_W) (h_s0b : r ∉ s0b_W) (h_s0c : r ∉ s0c_W) (h_s1a : r ∉ s1a_W) (h_s1b : r ∉ s1b_W) (h_s1c : r ∉ s1c_W) (h_s1d : r ∉ s1d_W) (h_s1e : r ∉ s1e_W) (h_s2a : r ∉ s2a_W) :
    (after s2a (after s1e (after s1d (after s1c (after s1b (after s1a (after s0c (after s0b (after s0a V))))))))) (Proc.devRef .tc r) = V (Proc.devRef .tc r) := by
  rw [s2a_keep _ r h_s2a, s1e_keep _ r h_s1e, s1d_keep _ r h_s1d, s1c_keep _ r h_s1c, s1b_keep _ r h_s1b, s1a_keep _ r h_s1a, s0c_keep _ r h_s0c, s0b_keep _ r h_s0b, s0a_keep _ r h_s0a]

/-- A buffer none of the first 10 stretches writes still holds its launch contents after them. -/
theorem keep10 (r : Ref sig .tc) (h_s0a : r ∉ s0a_W) (h_s0b : r ∉ s0b_W) (h_s0c : r ∉ s0c_W) (h_s1a : r ∉ s1a_W) (h_s1b : r ∉ s1b_W) (h_s1c : r ∉ s1c_W) (h_s1d : r ∉ s1d_W) (h_s1e : r ∉ s1e_W) (h_s2a : r ∉ s2a_W) (h_s2b : r ∉ s2b_W) :
    (after s2b (after s2a (after s1e (after s1d (after s1c (after s1b (after s1a (after s0c (after s0b (after s0a V)))))))))) (Proc.devRef .tc r) = V (Proc.devRef .tc r) := by
  rw [s2b_keep _ r h_s2b, s2a_keep _ r h_s2a, s1e_keep _ r h_s1e, s1d_keep _ r h_s1d, s1c_keep _ r h_s1c, s1b_keep _ r h_s1b, s1a_keep _ r h_s1a, s0c_keep _ r h_s0c, s0b_keep _ r h_s0b, s0a_keep _ r h_s0a]

/-! ### After `s0a` -/
theorem at_s0a_v3 : (after s0a V) (Proc.devRef .tc main_v3) = RefSpec.src (V (Proc.devRef .tc main_arg1)) := s0a_v3 V
theorem at_s0a_v6 : (after s0a V) (Proc.devRef .tc main_v6) = RefSpec.dst (V (Proc.devRef .tc main_arg1)) := s0a_v6 V
theorem at_s0a_v16 : (after s0a V) (Proc.devRef .tc main_v16) = RefSpec.dinv (V (Proc.devRef .tc main_arg1)) := s0a_v16 V

/-! ### After `s0b` -/
theorem at_s0b_v31 : (after s0b (after s0a V)) (Proc.devRef .tc main_v31) = RefSpec.norm (V (Proc.devRef .tc main_arg1)) :=
  (s0b_v31 (after s0a V)).trans (by rw [at_s0a_v16 V, at_s0a_v3 V, at_s0a_v6 V] <;> exact (norm_eq _).symm)
theorem at_s0b_v3 : (after s0b (after s0a V)) (Proc.devRef .tc main_v3) = RefSpec.src (V (Proc.devRef .tc main_arg1)) :=
  (s0b_keep _ main_v3 (by decide)).trans (at_s0a_v3 V)
theorem at_s0b_v6 : (after s0b (after s0a V)) (Proc.devRef .tc main_v6) = RefSpec.dst (V (Proc.devRef .tc main_arg1)) :=
  (s0b_keep _ main_v6 (by decide)).trans (at_s0a_v6 V)

/-! ### After `s0c` -/
theorem at_s0c_v45 : (after s0c (after s0b (after s0a V))) (Proc.devRef .tc main_v45) = RefSpec.agg64 (V (Proc.devRef .tc main_arg1)) (Host.dotGeneral dot_S100000x128_S128x64_S100000x64_1_0_0_1_n_n none (V (Proc.devRef .tc main_arg0)) (V (Proc.devRef .tc main_arg2))) :=
  (s0c_v45 (after s0b (after s0a V))).trans (by rw [at_s0b_v3 V, at_s0b_v6 V, at_s0b_v31 V, keep2 V main_arg0 (by decide) (by decide), keep2 V main_arg2 (by decide) (by decide)] <;> exact (agg64_eq _ _).symm)
theorem at_s0c_v47 : (after s0c (after s0b (after s0a V))) (Proc.devRef .tc main_v47) = RefSpec.rows64 (V (Proc.devRef .tc main_arg3)) :=
  (s0c_v47 (after s0b (after s0a V))).trans (by rw [keep2 V main_arg3 (by decide) (by decide)] <;> rfl)
theorem at_s0c_v3 : (after s0c (after s0b (after s0a V))) (Proc.devRef .tc main_v3) = RefSpec.src (V (Proc.devRef .tc main_arg1)) :=
  (s0c_keep _ main_v3 (by decide)).trans (at_s0b_v3 V)
theorem at_s0c_v6 : (after s0c (after s0b (after s0a V))) (Proc.devRef .tc main_v6) = RefSpec.dst (V (Proc.devRef .tc main_arg1)) :=
  (s0c_keep _ main_v6 (by decide)).trans (at_s0b_v6 V)
theorem at_s0c_v31 : (after s0c (after s0b (after s0a V))) (Proc.devRef .tc main_v31) = RefSpec.norm (V (Proc.devRef .tc main_arg1)) :=
  (s0c_keep _ main_v31 (by decide)).trans (at_s0b_v31 V)

/-! ### After `s1a` -/
theorem at_s1a_v48 : (after s1a (after s0c (after s0b (after s0a V)))) (Proc.devRef .tc main_v48) = addf (RefSpec.agg64 (V (Proc.devRef .tc main_arg1)) (Host.dotGeneral dot_S100000x128_S128x64_S100000x64_1_0_0_1_n_n none (V (Proc.devRef .tc main_arg0)) (V (Proc.devRef .tc main_arg2)))) (RefSpec.rows64 (V (Proc.devRef .tc main_arg3))) :=
  (s1a_v48 (after s0c (after s0b (after s0a V)))).trans (by rw [at_s0c_v45 V, at_s0c_v47 V] <;> rfl)
theorem at_s1a_v51 : (after s1a (after s0c (after s0b (after s0a V)))) (Proc.devRef .tc main_v51) = RefSpec.mean (addf (RefSpec.agg64 (V (Proc.devRef .tc main_arg1)) (Host.dotGeneral dot_S100000x128_S128x64_S100000x64_1_0_0_1_n_n none (V (Proc.devRef .tc main_arg0)) (V (Proc.devRef .tc main_arg2)))) (RefSpec.rows64 (V (Proc.devRef .tc main_arg3)))) :=
  (s1a_v51 (after s0c (after s0b (after s0a V)))).trans (by rw [at_s0c_v45 V, at_s0c_v47 V] <;> rfl)
theorem at_s1a_v52 : (after s1a (after s0c (after s0b (after s0a V)))) (Proc.devRef .tc main_v52) = RefSpec.var (addf (RefSpec.agg64 (V (Proc.devRef .tc main_arg1)) (Host.dotGeneral dot_S100000x128_S128x64_S100000x64_1_0_0_1_n_n none (V (Proc.devRef .tc main_arg0)) (V (Proc.devRef .tc main_arg2)))) (RefSpec.rows64 (V (Proc.devRef .tc main_arg3)))) (constantI S_ 32 0#32) :=
  (s1a_v52 (after s0c (after s0b (after s0a V)))).trans (by rw [at_s0c_v45 V, at_s0c_v47 V] <;> rfl)
theorem at_s1a_v3 : (after s1a (after s0c (after s0b (after s0a V)))) (Proc.devRef .tc main_v3) = RefSpec.src (V (Proc.devRef .tc main_arg1)) :=
  (s1a_keep _ main_v3 (by decide)).trans (at_s0c_v3 V)
theorem at_s1a_v6 : (after s1a (after s0c (after s0b (after s0a V)))) (Proc.devRef .tc main_v6) = RefSpec.dst (V (Proc.devRef .tc main_arg1)) :=
  (s1a_keep _ main_v6 (by decide)).trans (at_s0c_v6 V)
theorem at_s1a_v31 : (after s1a (after s0c (after s0b (after s0a V)))) (Proc.devRef .tc main_v31) = RefSpec.norm (V (Proc.devRef .tc main_arg1)) :=
  (s1a_keep _ main_v31 (by decide)).trans (at_s0c_v31 V)

/-! ### After `s1b` -/
theorem at_s1b_v68 : (after s1b (after s1a (after s0c (after s0b (after s0a V))))) (Proc.devRef .tc main_v68) = RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (s1b_v68 (after s1a (after s0c (after s0b (after s0a V))))).trans (by rw [at_s1a_v48 V, at_s1a_v51 V, at_s1a_v52 V, keep4 V main_arg4 (by decide) (by decide) (by decide) (by decide), keep4 V main_arg5 (by decide) (by decide) (by decide) (by decide)] <;> exact (bnrelu_eq _ _ _).symm)
theorem at_s1b_v3 : (after s1b (after s1a (after s0c (after s0b (after s0a V))))) (Proc.devRef .tc main_v3) = RefSpec.src (V (Proc.devRef .tc main_arg1)) :=
  (s1b_keep _ main_v3 (by decide)).trans (at_s1a_v3 V)
theorem at_s1b_v6 : (after s1b (after s1a (after s0c (after s0b (after s0a V))))) (Proc.devRef .tc main_v6) = RefSpec.dst (V (Proc.devRef .tc main_arg1)) :=
  (s1b_keep _ main_v6 (by decide)).trans (at_s1a_v6 V)
theorem at_s1b_v31 : (after s1b (after s1a (after s0c (after s0b (after s0a V))))) (Proc.devRef .tc main_v31) = RefSpec.norm (V (Proc.devRef .tc main_arg1)) :=
  (s1b_keep _ main_v31 (by decide)).trans (at_s1a_v31 V)

/-! ### After `s1c` -/
theorem at_s1c_v85 : (after s1c (after s1b (after s1a (after s0c (after s0b (after s0a V)))))) (Proc.devRef .tc main_v85) = addf (RefSpec.agg64 (V (Proc.devRef .tc main_arg1)) (Host.dotGeneral dot_S100000x64_S64x64_S100000x64_1_0_0_1_n_n none (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)))) (RefSpec.rows64 (V (Proc.devRef .tc main_arg7))) :=
  (s1c_v85 (after s1b (after s1a (after s0c (after s0b (after s0a V)))))).trans (by rw [at_s1b_v3 V, at_s1b_v6 V, at_s1b_v31 V, at_s1b_v68 V, keep5 V main_arg6 (by decide) (by decide) (by decide) (by decide) (by decide), keep5 V main_arg7 (by decide) (by decide) (by decide) (by decide) (by decide), ← agg64_eq] <;> rfl)
theorem at_s1c_v3 : (after s1c (after s1b (after s1a (after s0c (after s0b (after s0a V)))))) (Proc.devRef .tc main_v3) = RefSpec.src (V (Proc.devRef .tc main_arg1)) :=
  (s1c_keep _ main_v3 (by decide)).trans (at_s1b_v3 V)
theorem at_s1c_v6 : (after s1c (after s1b (after s1a (after s0c (after s0b (after s0a V)))))) (Proc.devRef .tc main_v6) = RefSpec.dst (V (Proc.devRef .tc main_arg1)) :=
  (s1c_keep _ main_v6 (by decide)).trans (at_s1b_v6 V)
theorem at_s1c_v31 : (after s1c (after s1b (after s1a (after s0c (after s0b (after s0a V)))))) (Proc.devRef .tc main_v31) = RefSpec.norm (V (Proc.devRef .tc main_arg1)) :=
  (s1c_keep _ main_v31 (by decide)).trans (at_s1b_v31 V)

/-! ### After `s1d` -/
theorem at_s1d_v88 : (after s1d (after s1c (after s1b (after s1a (after s0c (after s0b (after s0a V))))))) (Proc.devRef .tc main_v88) = RefSpec.mean (addf (RefSpec.agg64 (V (Proc.devRef .tc main_arg1)) (Host.dotGeneral dot_S100000x64_S64x64_S100000x64_1_0_0_1_n_n none (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)))) (RefSpec.rows64 (V (Proc.devRef .tc main_arg7)))) :=
  (s1d_v88 (after s1c (after s1b (after s1a (after s0c (after s0b (after s0a V))))))).trans (by rw [at_s1c_v85 V] <;> rfl)
theorem at_s1d_v89 : (after s1d (after s1c (after s1b (after s1a (after s0c (after s0b (after s0a V))))))) (Proc.devRef .tc main_v89) = RefSpec.var (addf (RefSpec.agg64 (V (Proc.devRef .tc main_arg1)) (Host.dotGeneral dot_S100000x64_S64x64_S100000x64_1_0_0_1_n_n none (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)))) (RefSpec.rows64 (V (Proc.devRef .tc main_arg7)))) (constantI S_ 32 0#32) :=
  (s1d_v89 (after s1c (after s1b (after s1a (after s0c (after s0b (after s0a V))))))).trans (by rw [at_s1c_v85 V] <;> rfl)
theorem at_s1d_v3 : (after s1d (after s1c (after s1b (after s1a (after s0c (after s0b (after s0a V))))))) (Proc.devRef .tc main_v3) = RefSpec.src (V (Proc.devRef .tc main_arg1)) :=
  (s1d_keep _ main_v3 (by decide)).trans (at_s1c_v3 V)
theorem at_s1d_v6 : (after s1d (after s1c (after s1b (after s1a (after s0c (after s0b (after s0a V))))))) (Proc.devRef .tc main_v6) = RefSpec.dst (V (Proc.devRef .tc main_arg1)) :=
  (s1d_keep _ main_v6 (by decide)).trans (at_s1c_v6 V)
theorem at_s1d_v31 : (after s1d (after s1c (after s1b (after s1a (after s0c (after s0b (after s0a V))))))) (Proc.devRef .tc main_v31) = RefSpec.norm (V (Proc.devRef .tc main_arg1)) :=
  (s1d_keep _ main_v31 (by decide)).trans (at_s1c_v31 V)
theorem at_s1d_v85 : (after s1d (after s1c (after s1b (after s1a (after s0c (after s0b (after s0a V))))))) (Proc.devRef .tc main_v85) = addf (RefSpec.agg64 (V (Proc.devRef .tc main_arg1)) (Host.dotGeneral dot_S100000x64_S64x64_S100000x64_1_0_0_1_n_n none (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)))) (RefSpec.rows64 (V (Proc.devRef .tc main_arg7))) :=
  (s1d_keep _ main_v85 (by decide)).trans (at_s1c_v85 V)

/-! ### After `s1e` -/
theorem at_s1e_v92 : (after s1e (after s1d (after s1c (after s1b (after s1a (after s0c (after s0b (after s0a V)))))))) (Proc.devRef .tc main_v92) = subf (addf (RefSpec.agg64 (V (Proc.devRef .tc main_arg1)) (Host.dotGeneral dot_S100000x64_S64x64_S100000x64_1_0_0_1_n_n none (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)))) (RefSpec.rows64 (V (Proc.devRef .tc main_arg7)))) (RefSpec.rows64 (RefSpec.mean (addf (RefSpec.agg64 (V (Proc.devRef .tc main_arg1)) (Host.dotGeneral dot_S100000x64_S64x64_S100000x64_1_0_0_1_n_n none (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)))) (RefSpec.rows64 (V (Proc.devRef .tc main_arg7)))))) :=
  (s1e_v92 (after s1d (after s1c (after s1b (after s1a (after s0c (after s0b (after s0a V)))))))).trans (by rw [at_s1d_v85 V, at_s1d_v88 V] <;> rfl)
theorem at_s1e_v96 : (after s1e (after s1d (after s1c (after s1b (after s1a (after s0c (after s0b (after s0a V)))))))) (Proc.devRef .tc main_v96) = broadcastInDim S1x64 ![1] bcast_S64_S1x64_1 (Host.rsqrt (addf (RefSpec.var (addf (RefSpec.agg64 (V (Proc.devRef .tc main_arg1)) (Host.dotGeneral dot_S100000x64_S64x64_S100000x64_1_0_0_1_n_n none (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)))) (RefSpec.rows64 (V (Proc.devRef .tc main_arg7)))) (constantI S_ 32 0#32)) (broadcastInDim S64 ![] bcast_S_S64 (RefSpec.lit 0x3727C5AC#32)))) :=
  (s1e_v96 (after s1d (after s1c (after s1b (after s1a (after s0c (after s0b (after s0a V)))))))).trans (by rw [at_s1d_v89 V] <;> rfl)
theorem at_s1e_v3 : (after s1e (after s1d (after s1c (after s1b (after s1a (after s0c (after s0b (after s0a V)))))))) (Proc.devRef .tc main_v3) = RefSpec.src (V (Proc.devRef .tc main_arg1)) :=
  (s1e_keep _ main_v3 (by decide)).trans (at_s1d_v3 V)
theorem at_s1e_v6 : (after s1e (after s1d (after s1c (after s1b (after s1a (after s0c (after s0b (after s0a V)))))))) (Proc.devRef .tc main_v6) = RefSpec.dst (V (Proc.devRef .tc main_arg1)) :=
  (s1e_keep _ main_v6 (by decide)).trans (at_s1d_v6 V)
theorem at_s1e_v31 : (after s1e (after s1d (after s1c (after s1b (after s1a (after s0c (after s0b (after s0a V)))))))) (Proc.devRef .tc main_v31) = RefSpec.norm (V (Proc.devRef .tc main_arg1)) :=
  (s1e_keep _ main_v31 (by decide)).trans (at_s1d_v31 V)

/-! ### After `s2a` -/
theorem at_s2a_v105 : (after s2a (after s1e (after s1d (after s1c (after s1b (after s1a (after s0c (after s0b (after s0a V))))))))) (Proc.devRef .tc main_v105) = RefSpec.hidden2 (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9)) :=
  (s2a_v105 (after s1e (after s1d (after s1c (after s1b (after s1a (after s0c (after s0b (after s0a V))))))))).trans (by rw [at_s1e_v92 V, at_s1e_v96 V, keep8 V main_arg8 (by decide) (by decide) (by decide) (by decide) (by decide) (by decide) (by decide) (by decide), keep8 V main_arg9 (by decide) (by decide) (by decide) (by decide) (by decide) (by decide) (by decide) (by decide)] <;> exact ((bnreluOf_eq _ _ _ _ _).symm.trans (bnrelu_eq _ _ _).symm))
theorem at_s2a_v3 : (after s2a (after s1e (after s1d (after s1c (after s1b (after s1a (after s0c (after s0b (after s0a V))))))))) (Proc.devRef .tc main_v3) = RefSpec.src (V (Proc.devRef .tc main_arg1)) :=
  (s2a_keep _ main_v3 (by decide)).trans (at_s1e_v3 V)
theorem at_s2a_v6 : (after s2a (after s1e (after s1d (after s1c (after s1b (after s1a (after s0c (after s0b (after s0a V))))))))) (Proc.devRef .tc main_v6) = RefSpec.dst (V (Proc.devRef .tc main_arg1)) :=
  (s2a_keep _ main_v6 (by decide)).trans (at_s1e_v6 V)
theorem at_s2a_v31 : (after s2a (after s1e (after s1d (after s1c (after s1b (after s1a (after s0c (after s0b (after s0a V))))))))) (Proc.devRef .tc main_v31) = RefSpec.norm (V (Proc.devRef .tc main_arg1)) :=
  (s2a_keep _ main_v31 (by decide)).trans (at_s1e_v31 V)

/-! ### After `s2b` -/
theorem at_s2b_v122 : (after s2b (after s2a (after s1e (after s1d (after s1c (after s1b (after s1a (after s0c (after s0b (after s0a V)))))))))) (Proc.devRef .tc main_v122) = RefSpec.head (RefSpec.hidden2 (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9))) (V (Proc.devRef .tc main_arg1)) (V (Proc.devRef .tc main_arg10)) (V (Proc.devRef .tc main_arg11)) :=
  (s2b_v122 (after s2a (after s1e (after s1d (after s1c (after s1b (after s1a (after s0c (after s0b (after s0a V)))))))))).trans (by rw [at_s2a_v3 V, at_s2a_v6 V, at_s2a_v31 V, at_s2a_v105 V, keep9 V main_arg10 (by decide) (by decide) (by decide) (by decide) (by decide) (by decide) (by decide) (by decide) (by decide), keep9 V main_arg11 (by decide) (by decide) (by decide) (by decide) (by decide) (by decide) (by decide) (by decide) (by decide), ← agg32_eq] <;> rfl)
theorem at_s2b_v3 : (after s2b (after s2a (after s1e (after s1d (after s1c (after s1b (after s1a (after s0c (after s0b (after s0a V)))))))))) (Proc.devRef .tc main_v3) = RefSpec.src (V (Proc.devRef .tc main_arg1)) :=
  (s2b_keep _ main_v3 (by decide)).trans (at_s2a_v3 V)
theorem at_s2b_v6 : (after s2b (after s2a (after s1e (after s1d (after s1c (after s1b (after s1a (after s0c (after s0b (after s0a V)))))))))) (Proc.devRef .tc main_v6) = RefSpec.dst (V (Proc.devRef .tc main_arg1)) :=
  (s2b_keep _ main_v6 (by decide)).trans (at_s2a_v6 V)
theorem at_s2b_v31 : (after s2b (after s2a (after s1e (after s1d (after s1c (after s1b (after s1a (after s0c (after s0b (after s0a V)))))))))) (Proc.devRef .tc main_v31) = RefSpec.norm (V (Proc.devRef .tc main_arg1)) :=
  (s2b_keep _ main_v31 (by decide)).trans (at_s2a_v31 V)
theorem at_s2b_v105 : (after s2b (after s2a (after s1e (after s1d (after s1c (after s1b (after s1a (after s0c (after s0b (after s0a V)))))))))) (Proc.devRef .tc main_v105) = RefSpec.hidden2 (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9)) :=
  (s2b_keep _ main_v105 (by decide)).trans (at_s2a_v105 V)

/-! ### After `s2c` -/
theorem at_s2c_v139 : (after s2c (after s2b (after s2a (after s1e (after s1d (after s1c (after s1b (after s1a (after s0c (after s0b (after s0a V))))))))))) (Proc.devRef .tc main_v139) = RefSpec.head (RefSpec.hidden2 (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9))) (V (Proc.devRef .tc main_arg1)) (V (Proc.devRef .tc main_arg12)) (V (Proc.devRef .tc main_arg13)) :=
  (s2c_v139 (after s2b (after s2a (after s1e (after s1d (after s1c (after s1b (after s1a (after s0c (after s0b (after s0a V))))))))))).trans (by rw [at_s2b_v3 V, at_s2b_v6 V, at_s2b_v31 V, at_s2b_v105 V, keep10 V main_arg12 (by decide) (by decide) (by decide) (by decide) (by decide) (by decide) (by decide) (by decide) (by decide) (by decide), keep10 V main_arg13 (by decide) (by decide) (by decide) (by decide) (by decide) (by decide) (by decide) (by decide) (by decide) (by decide), ← agg32_eq] <;> rfl)
theorem at_s2c_v122 : (after s2c (after s2b (after s2a (after s1e (after s1d (after s1c (after s1b (after s1a (after s0c (after s0b (after s0a V))))))))))) (Proc.devRef .tc main_v122) = RefSpec.head (RefSpec.hidden2 (RefSpec.hidden1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9))) (V (Proc.devRef .tc main_arg1)) (V (Proc.devRef .tc main_arg10)) (V (Proc.devRef .tc main_arg11)) :=
  (s2c_keep _ main_v122 (by decide)).trans (at_s2b_v122 V)

/-! ### The results and the arguments at the end of the whole line -/

theorem v122_eq : after ops V (Proc.devRef .tc main_v122) = RefSpec.mu (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]; exact at_s2c_v122 V

theorem v139_eq : after ops V (Proc.devRef .tc main_v139) = RefSpec.logvar (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]; exact at_s2c_v139 V

/-- On every device, for any float values, from any memory with zero counters: every weakly fair execution of the
    reference's @main terminates with its two results at the specification's `mu` and `logvar` of the fourteen
    argument arrays' launch contents, and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v122) = Cert.RefSpec.mu (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v139) = Cert.RefSpec.logvar (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v122).trans (v122_eq (launchContents m c)),
      (h c main_v139).trans (v139_eq (launchContents m c)),
      (h c main_arg0).trans (ops_keep (launchContents m c) main_arg0 (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide)),
      (h c main_arg9).trans (ops_keep (launchContents m c) main_arg9 (by decide) (by decide) (by decide) (by decide) (by decide) (by decide) (by decide) (by decide) (by decide) (by decide) (by decide)),
      (h c main_arg10).trans (ops_keep (launchContents m c) main_arg10 (by decide) (by decide) (by decide) (by decide) (by decide) (by decide) (by decide) (by decide) (by decide) (by decide) (by decide)),
      (h c main_arg11).trans (ops_keep (launchContents m c) main_arg11 (by decide) (by decide) (by decide) (by decide) (by decide) (by decide) (by decide) (by decide) (by decide) (by decide) (by decide)),
      (h c main_arg12).trans (ops_keep (launchContents m c) main_arg12 (by decide) (by decide) (by decide) (by decide) (by decide) (by decide) (by decide) (by decide) (by decide) (by decide) (by decide)),
      (h c main_arg13).trans (ops_keep (launchContents m c) main_arg13 (by decide) (by decide) (by decide) (by decide) (by decide) (by decide) (by decide) (by decide) (by decide) (by decide) (by decide))⟩)
    (run_after m ρ)

end Cert.ReferenceIdeal.HandRun

end
-- ==== Proof.lean ====
/-
  The certificate of the two-layer graph convolution encoder: the Pallas program against its jnp reference.

  Both programs compute, from node features x, an edge list and the layers' parameters,
      h1 = relu (bn (conv x W1 b1) g1 be1),  h2 = relu (bn (conv h1 W2 b2) g2 be2),
      mu = conv h2 Wmu bmu,  logvar = conv h2 Wlv blv,
  where conv h W b scatter-adds over the edges the rows of h W gathered at the edges' sources and weighted by
  deg^(-1/2) at both endpoints, and adds b, and bn normalises over the nodes. The edge arithmetic, the gathers and
  the scatter-adds are the same host operations in both programs. The Pallas program replaces, by regions over blocks
  of 5000 nodes: each product h W (a block's rows times the whole W: the same sums of products); the sums over the
  nodes for the mean and for the variance (accumulated block after block into one row: the same terms of one finite
  sum in the extended reals, grouped by blocks); the normalisation with scale, shift and clipping, and the final bias
  additions (pointwise: the same expression at every entry). So at the ideal instance the two results are equal
  entry by entry, and no law that needs finite values is used.

  The frames of the two Pallas programs are the generated frame certificates; the reference's run is read back
  operation by operation; `preserves` is trivial (the ideal pass rewrote nothing).
-/
import proofs.«173470_j52209622450441_2_alg».proof.Defs
import proofs.«173470_j52209622450441_2_alg».proof.Proof.Gen.Kernel
import proofs.«173470_j52209622450441_2_alg».proof.Proof.Gen.Kernel.Frame
import proofs.«173470_j52209622450441_2_alg».proof.Proof.Gen.KernelIdeal
import proofs.«173470_j52209622450441_2_alg».proof.Proof.Gen.KernelIdeal.Frame
import proofs.«173470_j52209622450441_2_alg».proof.Proof.Gen.ReferenceIdeal
import proofs.«173470_j52209622450441_2_alg».proof.Proof.Gen.Pre_finite_inputs
import proofs.«173470_j52209622450441_2_alg».proof.Proof.KernelRun
import proofs.«173470_j52209622450441_2_alg».proof.Proof.ChainHeads
import proofs.«173470_j52209622450441_2_alg».proof.Proof.RefRunSpec
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's run with its two results dropped. -/
theorem frame_referenceIdeal : Cert.frame_ReferenceIdeal := fun m ρ _ =>
  (θ_run Cert.ReferenceIdeal.defs _ _).mono (fun _ h c => (h c).2.2) (Cert.ReferenceIdeal.HandRun.run m ρ)

theorem preserves : Cert.preserves_Kernel_KernelIdeal := trivial

/-- Both programs end with their two result buffers at the reference's `mu` and `logvar` of the launched arrays:
    the kernel program by its run read through its segments, the reference by its run read operation by operation;
    the launched arrays agree by hypothesis. -/
theorem algebraic : Cert.algebraic_KernelIdeal_ReferenceIdeal := by
  intro m ρ m' ρ' _ hagree
  open Cert.KernelIdeal in
  refine ⟨fun c => Cert.RefSpec.mu (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)),
    fun c => Cert.RefSpec.logvar (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)), ?_, ?_⟩
  · exact (θ_run Cert.KernelIdeal.defs _ _).mono (fun r h c =>
      ⟨(h c Cert.KernelIdeal.main_v105 (by decide)).trans (Cert.KernelIdeal.Chain.W23_mu m ρ c),
       (h c Cert.KernelIdeal.main_v121 (by decide)).trans (Cert.KernelIdeal.Chain.W23_logvar m ρ c),
       (h c Cert.KernelIdeal.main_arg0 (by decide)).trans (Cert.KernelIdeal.Gen.W23_main_arg0 m ρ c),
       (h c Cert.KernelIdeal.main_arg1 (by decide)).trans (Cert.KernelIdeal.Gen.W23_main_arg1 m ρ c),
       (h c Cert.KernelIdeal.main_arg2 (by decide)).trans (Cert.KernelIdeal.Gen.W23_main_arg2 m ρ c),
       (h c Cert.KernelIdeal.main_arg3 (by decide)).trans (Cert.KernelIdeal.Gen.W23_main_arg3 m ρ c),
       (h c Cert.KernelIdeal.main_arg4 (by decide)).trans (Cert.KernelIdeal.Gen.W23_main_arg4 m ρ c),
       (h c Cert.KernelIdeal.main_arg5 (by decide)).trans (Cert.KernelIdeal.Gen.W23_main_arg5 m ρ c),
       (h c Cert.KernelIdeal.main_arg6 (by decide)).trans (Cert.KernelIdeal.Gen.W23_main_arg6 m ρ c),
       (h c Cert.KernelIdeal.main_arg7 (by decide)).trans (Cert.KernelIdeal.Gen.W23_main_arg7 m ρ c),
       (h c Cert.KernelIdeal.main_arg8 (by decide)).trans (Cert.KernelIdeal.Gen.W23_main_arg8 m ρ c),
       (h c Cert.KernelIdeal.main_arg9 (by decide)).trans (Cert.KernelIdeal.Gen.W23_main_arg9 m ρ c),
       (h c Cert.KernelIdeal.main_arg10 (by decide)).trans (Cert.KernelIdeal.Gen.W23_main_arg10 m ρ c),
       (h c Cert.KernelIdeal.main_arg11 (by decide)).trans (Cert.KernelIdeal.Gen.W23_main_arg11 m ρ c),
       (h c Cert.KernelIdeal.main_arg12 (by decide)).trans (Cert.KernelIdeal.Gen.W23_main_arg12 m ρ c),
       (h c Cert.KernelIdeal.main_arg13 (by decide)).trans (Cert.KernelIdeal.Gen.W23_main_arg13 m ρ c)⟩)
      (Cert.KernelIdeal.Run.run_all m ρ)
  · refine (θ_run Cert.ReferenceIdeal.defs _ _).mono (fun r h c => ⟨?_, ?_, (h c).2.2⟩) (Cert.ReferenceIdeal.HandRun.run m' ρ')
    · rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    · rw [(h c).2.1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
